-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S1024 : Shape := ⟨1, ![1024]⟩
abbrev S11x128 : Shape := ⟨2, ![11, 128]⟩
abbrev S128x256 : Shape := ⟨2, ![128, 256]⟩
abbrev S256 : Shape := ⟨1, ![256]⟩
abbrev S256x256 : Shape := ⟨2, ![256, 256]⟩
abbrev S100000x128 : Shape := ⟨2, ![100000, 128]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S11x128 : S_.BroadcastsInDim S11x128 (![] : Fin 0 → Fin S11x128.rank)
  reducesTo_S11x128_S_d0_1 : S11x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S100000x128 : S_.BroadcastsInDim S100000x128 (![] : Fin 0 → Fin S100000x128.rank)
  reducesTo_S100000x128_S_d0_1 : S100000x128.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg22 : FVec F S512x512 .f32) (main_arg23 : FVec F S512 .f32) (main_arg24 : FVec F S512x128 .f32) (main_arg25 : FVec F S128 .f32) (main_v63 : IVec S_ 1) (main_v67 : IVec S_ 1) : IVec S_ 1 :=
  let main_v68 : IVec S_ 1 := andi main_v63 main_v67
  let main_v69 : FVec F S512x512 .f32 := Host.absf main_arg22
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg23
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x128 .f32 := Host.absf main_arg24
  let main_cst_30 : FVec F S_ .f32 := constant S_ .f32 0x7F800000#32
  let main_v80 : FVec F S512x128 .f32 := broadcastInDim S512x128 ![] bcast_S_S512x128 main_cst_30
  let main_v81 : IVec S512x128 1 := cmpf .olt main_v79 main_v80
  let main_c_31 : IVec S_ 1 := constantI S_ 1 1#1
  let main_v82 : IVec S_ 1 := (fun x v => Host.reduce IntOp.andi x v reducesTo_S512x128_S_d0_1 h_S_) main_v81 main_c_31
  let main_v83 : IVec S_ 1 := andi main_v78 main_v82
  let main_v84 : FVec F S128 .f32 := Host.absf main_arg25
  let main_cst_32 : FVec F S_ .f32 := constant S_ .f32 0x7F800000#32
  fn_part5 (F := F) main_v83 main_v84 main_cst_32

def fn_part3 {F : FTy → Type} [FloatOps F] (main_arg19 : FVec F S256 .f32) (main_arg20 : FVec F S512x512 .f32) (main_arg21 : FVec F S512 .f32) (main_arg22 : FVec F S512x512 .f32) (main_arg23 : FVec F S512 .f32) (main_arg24 : FVec F S512x128 .f32) (main_arg25 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg19
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S512x512 .f32 := Host.absf main_arg20
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg21
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg22 main_arg23 main_arg24 main_arg25 main_v63 main_v67

def fn_part2 {F : FTy → Type} [FloatOps F] (main_arg15 : FVec F S100000x128 .f32) (main_arg16 : FVec F S128x256 .f32) (main_arg17 : FVec F S256 .f32) (main_arg18 : FVec F S256x256 .f32) (main_arg19 : FVec F S256 .f32) (main_arg20 : FVec F S512x512 .f32) (main_arg21 : FVec F S512 .f32) (main_arg22 : FVec F S512x512 .f32) (main_arg23 : FVec F S512 .f32) (main_arg24 : FVec F S512x128 .f32) (main_arg25 : FVec F S128 .f32) (main_v33 : IVec S_ 1) : IVec S_ 1 :=
  let main_v34 : FVec F S100000x128 .f32 := Host.absf main_arg15
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  let main_v39 : FVec F S128x256 .f32 := Host.absf main_arg16
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg17
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg18
  let main_cst_18 : FVec F S_ .f32 := constant S_ .f32 0x7F800000#32
  let main_v50 : FVec F S256x256 .f32 := broadcastInDim S256x256 ![] bcast_S_S256x256 main_cst_18
  fn_part3 (F := F) main_arg19 main_arg20 main_arg21 main_arg22 main_arg23 main_arg24 main_arg25 main_v48 main_v49 main_v50

def fn_part1 {F : FTy → Type} [FloatOps F] (main_arg12 : FVec F S256 .f32) (main_arg13 : FVec F S256x256 .f32) (main_arg14 : FVec F S256 .f32) (main_arg15 : FVec F S100000x128 .f32) (main_arg16 : FVec F S128x256 .f32) (main_arg17 : FVec F S256 .f32) (main_arg18 : FVec F S256x256 .f32) (main_arg19 : FVec F S256 .f32) (main_arg20 : FVec F S512x512 .f32) (main_arg21 : FVec F S512 .f32) (main_arg22 : FVec F S512x512 .f32) (main_arg23 : FVec F S512 .f32) (main_arg24 : FVec F S512x128 .f32) (main_arg25 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg12
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg13
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg14
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_v33

def fn {F : FTy → Type} [FloatOps F] (main_arg0 : IVec S50000 32) (main_arg1 : IVec S2x800000 32) (main_arg2 : IVec S1024 32) (main_arg3 : IVec S50000 32) (main_arg4 : IVec S50000 32) (main_arg5 : IVec S2x800000 32) (main_arg6 : IVec S1024 32) (main_arg7 : IVec S50000 32) (main_arg8 : FVec F S11x128 .f32) (main_arg9 : FVec F S128x256 .f32) (main_arg10 : FVec F S256 .f32) (main_arg11 : FVec F S256x256 .f32) (main_arg12 : FVec F S256 .f32) (main_arg13 : FVec F S256x256 .f32) (main_arg14 : FVec F S256 .f32) (main_arg15 : FVec F S100000x128 .f32) (main_arg16 : FVec F S128x256 .f32) (main_arg17 : FVec F S256 .f32) (main_arg18 : FVec F S256x256 .f32) (main_arg19 : FVec F S256 .f32) (main_arg20 : FVec F S512x512 .f32) (main_arg21 : FVec F S512 .f32) (main_arg22 : FVec F S512x512 .f32) (main_arg23 : FVec F S512 .f32) (main_arg24 : FVec F S512x128 .f32) (main_arg25 : FVec F S128 .f32) : IVec S_ 1 :=
  let main_v0 : FVec F S11x128 .f32 := Host.absf main_arg8
  let main_cst : FVec F S_ .f32 := constant S_ .f32 0x7F800000#32
  let main_v1 : FVec F S11x128 .f32 := broadcastInDim S11x128 ![] bcast_S_S11x128 main_cst
  let main_v2 : IVec S11x128 1 := cmpf .olt main_v0 main_v1
  let main_c : IVec S_ 1 := constantI S_ 1 1#1
  let main_v3 : IVec S_ 1 := (fun x v => Host.reduce IntOp.andi x v reducesTo_S11x128_S_d0_1 h_S_) main_v2 main_c
  let main_v4 : FVec F S128x256 .f32 := Host.absf main_arg9
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg10
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg11
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg12 main_arg13 main_arg14 main_arg15 main_arg16 main_arg17 main_arg18 main_arg19 main_arg20 main_arg21 main_arg22 main_arg23 main_arg24 main_arg25 main_v13 main_v16
-- ==== Kernel.lean ====
abbrev S50000 : Shape := ⟨1, ![50000]⟩
abbrev S2x800000 : Shape := ⟨2, ![2, 800000]⟩
abbrev S1024 : Shape := ⟨1, ![1024]⟩
abbrev S11x128 : Shape := ⟨2, ![11, 128]⟩
abbrev S128x256 : Shape := ⟨2, ![128, 256]⟩
abbrev S256 : Shape := ⟨1, ![256]⟩
abbrev S256x256 : Shape := ⟨2, ![256, 256]⟩
abbrev S100000x128 : Shape := ⟨2, ![100000, 128]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x128 : Shape := ⟨2, ![50000, 128]⟩
abbrev S850000x128 : Shape := ⟨2, ![850000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1024x256 : Shape := ⟨2, ![1024, 256]⟩
abbrev S1024x1 : Shape := ⟨2, ![1024, 1]⟩
abbrev S1024x128 : Shape := ⟨2, ![1024, 128]⟩
abbrev S256x512 : Shape := ⟨2, ![256, 512]⟩
abbrev S1x512 : Shape := ⟨2, ![1, 512]⟩
abbrev S1x128 : Shape := ⟨2, ![1, 128]⟩
abbrev S1024x512 : Shape := ⟨2, ![1024, 512]⟩

abbrev nBuf : Space → Nat
  | .hbm => 276
  | .vmem => 66
  | .smem => 0
  | _ => 0

abbrev hbmTy0_0 (i : Nat) : BufTy := match i % 128 with
  | 0 => ⟨S50000, .i32⟩
  | 1 => ⟨S2x800000, .i32⟩
  | 2 => ⟨S1024, .i32⟩
  | 3 => ⟨S50000, .i32⟩
  | 4 => ⟨S50000, .i32⟩
  | 5 => ⟨S2x800000, .i32⟩
  | 6 => ⟨S1024, .i32⟩
  | 7 => ⟨S50000, .i32⟩
  | 8 => ⟨S11x128, .f32⟩
  | 9 => ⟨S128x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S100000x128, .f32⟩
  | 16 => ⟨S128x256, .f32⟩
  | 17 => ⟨S256, .f32⟩
  | 18 => ⟨S256x256, .f32⟩
  | 19 => ⟨S256, .f32⟩
  | 20 => ⟨S512x512, .f32⟩
  | 21 => ⟨S512, .f32⟩
  | 22 => ⟨S512x512, .f32⟩
  | 23 => ⟨S512, .f32⟩
  | 24 => ⟨S512x128, .f32⟩
  | 25 => ⟨S128, .f32⟩
  | 26 => ⟨S1x800000, .i32⟩
  | 27 => ⟨S800000, .i32⟩
  | 28 => ⟨S1x800000, .i32⟩
  | 29 => ⟨S800000, .i32⟩
  | 30 => ⟨S50000, .i32⟩
  | 31 => ⟨S850000, .i32⟩
  | 32 => ⟨S850000, .i32⟩
  | 33 => ⟨S_, .f32⟩
  | 34 => ⟨S850000, .f32⟩
  | 35 => ⟨S_, .f32⟩
  | 36 => ⟨S50000, .f32⟩
  | 37 => ⟨S850000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .f32⟩
  | 45 => ⟨S50000, .f32⟩
  | 46 => ⟨S_, .f32⟩
  | 47 => ⟨S_, .f32⟩
  | 48 => ⟨S50000, .f32⟩
  | 49 => ⟨S50000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000, .f32⟩
  | 68 => ⟨S850000, .f32⟩
  | 69 => ⟨S_, .f32⟩
  | 70 => ⟨S256, .f32⟩
  | 71 => ⟨S_, .i32⟩
  | 72 => ⟨S50000, .i32⟩
  | 73 => ⟨S50000, .i1⟩
  | 74 => ⟨S_, .i32⟩
  | 75 => ⟨S50000, .i32⟩
  | 76 => ⟨S50000, .i32⟩
  | 77 => ⟨S50000, .i32⟩
  | 78 => ⟨S50000x1, .i32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x256, .f32⟩
  | 97 => ⟨S50000x256, .f32⟩
  | 98 => ⟨S1x256, .f32⟩
  | 99 => ⟨S50000x256, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x256, .f32⟩
  | 109 => ⟨S850000x1, .f32⟩
  | 110 => ⟨S850000x256, .f32⟩
  | 111 => ⟨S850000x256, .f32⟩
  | 112 => ⟨S_, .f32⟩
  | 113 => ⟨S50000x256, .f32⟩
  | 114 => ⟨S850000x1, .i32⟩
  | 115 => ⟨S50000x256, .f32⟩
  | 116 => ⟨S1x256, .f32⟩
  | 117 => ⟨S50000x256, .f32⟩
  | 118 => ⟨S_, .f32⟩
  | 119 => ⟨S50000, .f32⟩
  | 120 => ⟨S_, .f32⟩
  | 121 => ⟨S1024, .f32⟩
  | 122 => ⟨S50000x1, .i32⟩
  | 123 => ⟨S1024, .f32⟩
  | 124 => ⟨S_, .f32⟩
  | 125 => ⟨S1024x256, .f32⟩
  | 126 => ⟨S50000x1, .i32⟩
  | 127 => ⟨S1024x256, .f32⟩
  | _ => ⟨S50000, .i32⟩

abbrev hbmTy0_1 (i : Nat) : BufTy := match i % 128 with
  | 0 => ⟨S_, .f32⟩
  | 1 => ⟨S1024, .f32⟩
  | 2 => ⟨S1024, .f32⟩
  | 3 => ⟨S1024x1, .f32⟩
  | 4 => ⟨S1024x256, .f32⟩
  | 5 => ⟨S1024x256, .f32⟩
  | 6 => ⟨S1x256, .f32⟩
  | 7 => ⟨S1024x256, .f32⟩
  | 8 => ⟨S1x800000, .i32⟩
  | 9 => ⟨S800000, .i32⟩
  | 10 => ⟨S1x800000, .i32⟩
  | 11 => ⟨S800000, .i32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .f32⟩
  | 52 => ⟨S256, .f32⟩
  | 53 => ⟨S_, .i32⟩
  | 54 => ⟨S50000, .i32⟩
  | 55 => ⟨S50000, .i1⟩
  | 56 => ⟨S_, .i32⟩
  | 57 => ⟨S50000, .i32⟩
  | 58 => ⟨S50000, .i32⟩
  | 59 => ⟨S50000, .i32⟩
  | 60 => ⟨S50000x1, .i32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x1, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x256, .f32⟩
  | 79 => ⟨S50000x256, .f32⟩
  | 80 => ⟨S1x256, .f32⟩
  | 81 => ⟨S50000x256, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x256, .f32⟩
  | 91 => ⟨S850000x1, .f32⟩
  | 92 => ⟨S850000x256, .f32⟩
  | 93 => ⟨S850000x256, .f32⟩
  | 94 => ⟨S_, .f32⟩
  | 95 => ⟨S50000x256, .f32⟩
  | 96 => ⟨S850000x1, .i32⟩
  | 97 => ⟨S50000x256, .f32⟩
  | 98 => ⟨S1x256, .f32⟩
  | 99 => ⟨S50000x256, .f32⟩
  | 100 => ⟨S_, .f32⟩
  | 101 => ⟨S50000, .f32⟩
  | 102 => ⟨S_, .f32⟩
  | 103 => ⟨S1024, .f32⟩
  | 104 => ⟨S50000x1, .i32⟩
  | 105 => ⟨S1024, .f32⟩
  | 106 => ⟨S_, .f32⟩
  | 107 => ⟨S1024x256, .f32⟩
  | 108 => ⟨S50000x1, .i32⟩
  | 109 => ⟨S1024x256, .f32⟩
  | 110 => ⟨S_, .f32⟩
  | 111 => ⟨S1024, .f32⟩
  | 112 => ⟨S1024, .f32⟩
  | 113 => ⟨S1024x1, .f32⟩
  | 114 => ⟨S1024x256, .f32⟩
  | 115 => ⟨S1024x256, .f32⟩
  | 116 => ⟨S1x256, .f32⟩
  | 117 => ⟨S1024x256, .f32⟩
  | 118 => ⟨S_, .i32⟩
  | 119 => ⟨S1024, .i32⟩
  | 120 => ⟨S1024, .i1⟩
  | 121 => ⟨S_, .i32⟩
  | 122 => ⟨S1024, .i32⟩
  | 123 => ⟨S1024, .i32⟩
  | 124 => ⟨S1024, .i32⟩
  | 125 => ⟨S1024x1, .i32⟩
  | 126 => ⟨S1024x128, .f32⟩
  | 127 => ⟨S1x256, .f32⟩
  | _ => ⟨S50000, .i32⟩

abbrev hbmTy0_2 (i : Nat) : BufTy := match i % 128 with
  | 0 => ⟨S1x256, .f32⟩
  | 1 => ⟨S1024x256, .f32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S1024x1, .i32⟩
  | 10 => ⟨S1024x128, .f32⟩
  | 11 => ⟨S1x256, .f32⟩
  | 12 => ⟨S1x256, .f32⟩
  | 13 => ⟨S1024x256, .f32⟩
  | 14 => ⟨S256x512, .f32⟩
  | 15 => ⟨S256x512, .f32⟩
  | 16 => ⟨S1x512, .f32⟩
  | 17 => ⟨S1x512, .f32⟩
  | 18 => ⟨S1x128, .f32⟩
  | 19 => ⟨S1024x128, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S1x256, .f32⟩
  | .local _ .vmem, ⟨15, _⟩ => ⟨S5000x256, .f32⟩
  | .local _ .vmem, ⟨16, _⟩ => ⟨S5000x256, .f32⟩
  | .local _ .vmem, ⟨17, _⟩ => ⟨S1024x256, .f32⟩
  | .local _ .vmem, ⟨18, _⟩ => ⟨S256x256, .f32⟩
  | .local _ .vmem, ⟨19, _⟩ => ⟨S1x256, .f32⟩
  | .local _ .vmem, ⟨20, _⟩ => ⟨S1024x256, .f32⟩
  | .local _ .vmem, ⟨21, _⟩ => ⟨S5000x128, .f32⟩
  | .local _ .vmem, ⟨22, _⟩ => ⟨S5000x128, .f32⟩
  | .local _ .vmem, ⟨23, _⟩ => ⟨S128x256, .f32⟩
  | .local _ .vmem, ⟨24, _⟩ => ⟨S1x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S256x256, .f32⟩
  | .local _ .vmem, ⟨30, _⟩ => ⟨S1x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | .local _ .vmem, ⟨34, _⟩ => ⟨S5000x256, .f32⟩
  | .local _ .vmem, ⟨35, _⟩ => ⟨S1x256, .f32⟩
  | .local _ .vmem, ⟨36, _⟩ => ⟨S5000x256, .f32⟩
  | .local _ .vmem, ⟨37, _⟩ => ⟨S5000x256, .f32⟩
  | .local _ .vmem, ⟨38, _⟩ => ⟨S1024x256, .f32⟩
  | .local _ .vmem, ⟨39, _⟩ => ⟨S256x256, .f32⟩
  | .local _ .vmem, ⟨40, _⟩ => ⟨S1x256, .f32⟩
  | .local _ .vmem, ⟨41, _⟩ => ⟨S1024x256, .f32⟩
  | .local _ .vmem, ⟨42, _⟩ => ⟨S1024x128, .f32⟩
  | .local _ .vmem, ⟨43, _⟩ => ⟨S128x256, .f32⟩
  | .local _ .vmem, ⟨44, _⟩ => ⟨S1x256, .f32⟩
  | .local _ .vmem, ⟨45, _⟩ => ⟨S256x256, .f32⟩
  | .local _ .vmem, ⟨46, _⟩ => ⟨S1x256, .f32⟩
  | .local _ .vmem, ⟨47, _⟩ => ⟨S1024x256, .f32⟩
  | .local _ .vmem, ⟨48, _⟩ => ⟨S1024x128, .f32⟩
  | .local _ .vmem, ⟨49, _⟩ => ⟨S128x256, .f32⟩
  | .local _ .vmem, ⟨50, _⟩ => ⟨S1x256, .f32⟩
  | .local _ .vmem, ⟨51, _⟩ => ⟨S256x256, .f32⟩
  | .local _ .vmem, ⟨52, _⟩ => ⟨S1x256, .f32⟩
  | .local _ .vmem, ⟨53, _⟩ => ⟨S1024x256, .f32⟩
  | .local _ .vmem, ⟨54, _⟩ => ⟨S1024x256, .f32⟩
  | .local _ .vmem, ⟨55, _⟩ => ⟨S1024x256, .f32⟩
  | .local _ .vmem, ⟨56, _⟩ => ⟨S1024x256, .f32⟩
  | .local _ .vmem, ⟨57, _⟩ => ⟨S1024x256, .f32⟩
  | .local _ .vmem, ⟨58, _⟩ => ⟨S256x512, .f32⟩
  | .local _ .vmem, ⟨59, _⟩ => ⟨S256x512, .f32⟩
  | .local _ .vmem, ⟨60, _⟩ => ⟨S1x512, .f32⟩
  | .local _ .vmem, ⟨61, _⟩ => ⟨S512x512, .f32⟩
  | .local _ .vmem, ⟨62, _⟩ => ⟨S1x512, .f32⟩
  | .local _ .vmem, ⟨63, _⟩ => ⟨S512x128, .f32⟩
  | .local _ .vmem, ⟨64, _⟩ => ⟨S1x128, .f32⟩
  | .local _ .vmem, ⟨65, _⟩ => ⟨S1024x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v16 : Ref sig .tc := ⟨.hbm, 49, rfl⟩
abbrev main_c : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_5 : Ref sig .tc := ⟨.hbm, 59, rfl⟩
abbrev main_v24 : Ref sig .tc := ⟨.hbm, 60, rfl⟩
abbrev main_v25 : Ref sig .tc := ⟨.hbm, 61, rfl⟩
abbrev main_c_6 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_v32 : Ref sig .tc := ⟨.hbm, 70, rfl⟩
abbrev main_c_8 : Ref sig .tc := ⟨.hbm, 71, rfl⟩
abbrev main_v33 : Ref sig .tc := ⟨.hbm, 72, rfl⟩
abbrev main_v34 : Ref sig .tc := ⟨.hbm, 73, rfl⟩
abbrev main_c_9 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_10 : Ref sig .tc := ⟨.hbm, 80, rfl⟩
abbrev main_v40 : Ref sig .tc := ⟨.hbm, 81, rfl⟩
abbrev main_v41 : Ref sig .tc := ⟨.hbm, 82, rfl⟩
abbrev main_c_11 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_12 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_13 : Ref sig .tc := ⟨.hbm, 100, rfl⟩
abbrev main_v57 : Ref sig .tc := ⟨.hbm, 101, rfl⟩
abbrev main_v58 : Ref sig .tc := ⟨.hbm, 102, rfl⟩
abbrev main_c_14 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_15 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_16 : Ref sig .tc := ⟨.hbm, 118, rfl⟩
abbrev main_v72 : Ref sig .tc := ⟨.hbm, 119, rfl⟩
abbrev main_cst_17 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_18 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_19 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_20 : Ref sig .tc := ⟨.hbm, 143, rfl⟩
abbrev main_v93 : Ref sig .tc := ⟨.hbm, 144, rfl⟩
abbrev main_cst_21 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_22 : Ref sig .tc := ⟨.hbm, 149, rfl⟩
abbrev main_v97 : Ref sig .tc := ⟨.hbm, 150, rfl⟩
abbrev main_v98 : Ref sig .tc := ⟨.hbm, 151, rfl⟩
abbrev main_cst_23 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_24 : Ref sig .tc := ⟨.hbm, 156, rfl⟩
abbrev main_call1_v0 : Ref sig .tc := ⟨.hbm, 157, rfl⟩
abbrev main_call1_v1 : Ref sig .tc := ⟨.hbm, 158, rfl⟩
abbrev main_v102 : Ref sig .tc := ⟨.hbm, 159, rfl⟩
abbrev main_c_25 : Ref sig .tc := ⟨.hbm, 160, rfl⟩
abbrev main_v103 : Ref sig .tc := ⟨.hbm, 161, rfl⟩
abbrev main_v104 : Ref sig .tc := ⟨.hbm, 162, rfl⟩
abbrev main_c_26 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_27 : Ref sig .tc := ⟨.hbm, 169, rfl⟩
abbrev main_v110 : Ref sig .tc := ⟨.hbm, 170, rfl⟩
abbrev main_v111 : Ref sig .tc := ⟨.hbm, 171, rfl⟩
abbrev main_c_28 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_29 : Ref sig .tc := ⟨.hbm, 179, rfl⟩
abbrev main_v118 : Ref sig .tc := ⟨.hbm, 180, rfl⟩
abbrev main_c_30 : Ref sig .tc := ⟨.hbm, 181, rfl⟩
abbrev main_v119 : Ref sig .tc := ⟨.hbm, 182, rfl⟩
abbrev main_v120 : Ref sig .tc := ⟨.hbm, 183, rfl⟩
abbrev main_c_31 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_c_32 : Ref sig .tc := ⟨.hbm, 190, rfl⟩
abbrev main_v126 : Ref sig .tc := ⟨.hbm, 191, rfl⟩
abbrev main_v127 : Ref sig .tc := ⟨.hbm, 192, rfl⟩
abbrev main_c_33 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_cst_34 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_c_35 : Ref sig .tc := ⟨.hbm, 210, rfl⟩
abbrev main_v143 : Ref sig .tc := ⟨.hbm, 211, rfl⟩
abbrev main_v144 : Ref sig .tc := ⟨.hbm, 212, rfl⟩
abbrev main_c_36 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_cst_37 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_cst_38 : Ref sig .tc := ⟨.hbm, 228, rfl⟩
abbrev main_v158 : Ref sig .tc := ⟨.hbm, 229, rfl⟩
abbrev main_cst_39 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_cst_40 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_cst_41 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_c_42 : Ref sig .tc := ⟨.hbm, 246, rfl⟩
abbrev main_v172 : Ref sig .tc := ⟨.hbm, 247, rfl⟩
abbrev main_v173 : Ref sig .tc := ⟨.hbm, 248, rfl⟩
abbrev main_c_43 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_c_44 : Ref sig .tc := ⟨.hbm, 258, rfl⟩
abbrev main_v182 : Ref sig .tc := ⟨.hbm, 259, rfl⟩
abbrev main_v183 : Ref sig .tc := ⟨.hbm, 260, rfl⟩
abbrev main_c_45 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc8_stg0_0 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg3_0 : Ref sig .tc := ⟨.vmem, 45, rfl⟩
abbrev cc8_stg4_0 : Ref sig .tc := ⟨.vmem, 46, rfl⟩
abbrev cc8_stg5_0 : Ref sig .tc := ⟨.vmem, 47, rfl⟩
abbrev cc9_stg0_0 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg3_0 : Ref sig .tc := ⟨.vmem, 51, rfl⟩
abbrev cc9_stg4_0 : Ref sig .tc := ⟨.vmem, 52, rfl⟩
abbrev cc9_stg5_0 : Ref sig .tc := ⟨.vmem, 53, rfl⟩
abbrev cc10_stg0_0 : Ref sig .tc := ⟨.vmem, 54, rfl⟩
abbrev cc10_stg1_0 : Ref sig .tc := ⟨.vmem, 55, rfl⟩
abbrev cc10_stg2_0 : Ref sig .tc := ⟨.vmem, 56, rfl⟩
abbrev cc10_stg3_0 : Ref sig .tc := ⟨.vmem, 57, rfl⟩
abbrev cc10_stg4_0 : Ref sig .tc := ⟨.vmem, 58, rfl⟩
abbrev cc10_stg5_0 : Ref sig .tc := ⟨.vmem, 59, rfl⟩
abbrev cc10_stg6_0 : Ref sig .tc := ⟨.vmem, 60, rfl⟩
abbrev cc10_stg7_0 : Ref sig .tc := ⟨.vmem, 61, rfl⟩
abbrev cc10_stg8_0 : Ref sig .tc := ⟨.vmem, 62, rfl⟩
abbrev cc10_stg9_0 : Ref sig .tc := ⟨.vmem, 63, rfl⟩
abbrev cc10_stg10_0 : Ref sig .tc := ⟨.vmem, 64, rfl⟩
abbrev cc10_stg11_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem1_0 : DmaSem sig := 39
abbrev cc7_sem2_0 : DmaSem sig := 40
abbrev cc7_sem3_0 : DmaSem sig := 41
abbrev cc8_sem0_0 : DmaSem sig := 42
abbrev cc8_sem1_0 : DmaSem sig := 43
abbrev cc8_sem2_0 : DmaSem sig := 44
abbrev cc8_sem3_0 : DmaSem sig := 45
abbrev cc8_sem4_0 : DmaSem sig := 46
abbrev cc8_sem5_0 : DmaSem sig := 47
abbrev cc9_sem0_0 : DmaSem sig := 48
abbrev cc9_sem1_0 : DmaSem sig := 49
abbrev cc9_sem2_0 : DmaSem sig := 50
abbrev cc9_sem3_0 : DmaSem sig := 51
abbrev cc9_sem4_0 : DmaSem sig := 52
abbrev cc9_sem5_0 : DmaSem sig := 53
abbrev cc10_sem0_0 : DmaSem sig := 54
abbrev cc10_sem1_0 : DmaSem sig := 55
abbrev cc10_sem2_0 : DmaSem sig := 56
abbrev cc10_sem3_0 : DmaSem sig := 57
abbrev cc10_sem4_0 : DmaSem sig := 58
abbrev cc10_sem5_0 : DmaSem sig := 59
abbrev cc10_sem6_0 : DmaSem sig := 60
abbrev cc10_sem7_0 : DmaSem sig := 61
abbrev cc10_sem8_0 : DmaSem sig := 62
abbrev cc10_sem9_0 : DmaSem sig := 63
abbrev cc10_sem10_0 : DmaSem sig := 64
abbrev cc10_sem11_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1024x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1024x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1024x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1024x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1024x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S1024x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1024x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S1024x256 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S1024x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1024x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1024x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S256x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x512 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x512 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S512x512 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x512 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S512x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S1x128 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 1 → Memref sig .tc .vmem S1024x128 .f32 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))
abbrev reads10_11 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S256 : S_.BroadcastsInDim S256 (![] : Fin 0 → Fin S256.rank)
  bcast_S50000_S50000x1_0 : S50000.BroadcastsInDim S50000x1 (![0] : Fin 1 → Fin S50000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S_S1024 : S_.BroadcastsInDim S1024 (![] : Fin 0 → Fin S1024.rank)
  bcast_S_S1024x256 : S_.BroadcastsInDim S1024x256 (![] : Fin 0 → Fin S1024x256.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x256_S1024x256 : S1x256.Broadcasts S1024x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S512x512_S256x512_0_0 : S512x512.Slices ![0, 0] S256x512
  slices_S512x512_S256x512_256_0 : S512x512.Slices ![256, 0] S256x512
  shapeCasts_S512_S1x512 : S512.ShapeCasts S1x512
  shapeCasts_S128_S1x128 : S128.ShapeCasts S1x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S11x128_S50000x1_S50000x128_1_0_n_n_0_1_1128_wf : GatherDims.WF S11x128 S50000x1 S50000x128 [1] [0] [] [0] [] 1 ![1, 128]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S1024_S50000x1_S50000_n_0_0_1_wf : ScatterDims.WF S1024 S50000x1 S50000 [] [0] [0] 1
  scatter_S1024x256_S50000x1_S50000x256_1_0_0_1_wf : ScatterDims.WF S1024x256 S50000x1 S50000x256 [1] [0] [0] 1
  dot_S1024x256_S256x256_S1024x256_1_0_0_1_n_n_wf : DotDims.WF S1024x256 S256x256 S1024x256 [1] [0] [0] [1] [] []
  gather_S100000x128_S1024x1_S1024x128_1_0_n_n_0_1_1128_wf : GatherDims.WF S100000x128 S1024x1 S1024x128 [1] [0] [] [0] [] 1 ![1, 128]
  dot_S1024x128_S128x256_S1024x256_1_0_0_1_n_n_wf : DotDims.WF S1024x128 S128x256 S1024x256 [1] [0] [0] [1] [] []
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S1024x256.size a
  hwx3_0 : ∀ i : grid3.Coords, EltTy.bits .f32 = 32 ∨ (Rect.block (s := S1024x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S1024x256.size a
  hwx3_3 : ∀ i : grid3.Coords, EltTy.bits .f32 = 32 ∨ (Rect.block (s := S1024x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S50000x256.size a
  hwx4_3 : ∀ i : grid4.Coords, EltTy.bits .f32 = 32 ∨ (Rect.block (s := S50000x256) S5000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x256.size a ≤ S50000x256.size a
  hwx5_3 : ∀ i : grid5.Coords, EltTy.bits .f32 = 32 ∨ (Rect.block (s := S50000x256) S5000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .f32 = 32 ∨ (Rect.block (s := S50000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x256.size a ≤ S50000x256.size a
  hwx6_2 : ∀ i : grid6.Coords, EltTy.bits .f32 = 32 ∨ (Rect.block (s := S50000x256) S5000x256.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S1024x256.size a ≤ S1024x256.size a
  hwx7_0 : ∀ i : grid7.Coords, EltTy.bits .f32 = 32 ∨ (Rect.block (s := S1024x256) S1024x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S1024x256.size a ≤ S1024x256.size a
  hwx7_3 : ∀ i : grid7.Coords, EltTy.bits .f32 = 32 ∨ (Rect.block (s := S1024x256) S1024x256.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1024x128.size a ≤ S1024x128.size a
  hwx8_0 : ∀ i : grid8.Coords, EltTy.bits .f32 = 32 ∨ (Rect.block (s := S1024x128) S1024x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x256.size a ≤ S128x256.size a
  hwx8_1 : ∀ i : grid8.Coords, EltTy.bits .f32 = 32 ∨ (Rect.block (s := S128x256) S128x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .f32 = 32 ∨ (Rect.block (s := S256x256) S256x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1024x256.size a ≤ S1024x256.size a
  hwx8_5 : ∀ i : grid8.Coords, EltTy.bits .f32 = 32 ∨ (Rect.block (s := S1024x256) S1024x256.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1024x128.size a ≤ S1024x128.size a
  hwx9_0 : ∀ i : grid9.Coords, EltTy.bits .f32 = 32 ∨ (Rect.block (s := S1024x128) S1024x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x256.size a ≤ S128x256.size a
  hwx9_1 : ∀ i : grid9.Coords, EltTy.bits .f32 = 32 ∨ (Rect.block (s := S128x256) S128x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1024x256.size a ≤ S1024x256.size a
  hwx9_5 : ∀ i : grid9.Coords, EltTy.bits .f32 = 32 ∨ (Rect.block (s := S1024x256) S1024x256.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S1024x256.size a ≤ S1024x256.size a
  hwx10_0 : ∀ i : grid10.Coords, EltTy.bits .f32 = 32 ∨ (Rect.block (s := S1024x256) S1024x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1024x256.size a ≤ S1024x256.size a
  hwx10_1 : ∀ i : grid10.Coords, EltTy.bits .f32 = 32 ∨ (Rect.block (s := S1024x256) S1024x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1024x256.size a ≤ S1024x256.size a
  hwx10_2 : ∀ i : grid10.Coords, EltTy.bits .f32 = 32 ∨ (Rect.block (s := S1024x256) S1024x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1024x256.size a ≤ S1024x256.size a
  hwx10_3 : ∀ i : grid10.Coords, EltTy.bits .f32 = 32 ∨ (Rect.block (s := S1024x256) S1024x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S256x512.size a ≤ S256x512.size a
  hwx10_4 : ∀ i : grid10.Coords, EltTy.bits .f32 = 32 ∨ (Rect.block (s := S256x512) S256x512.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x512.size a ≤ S256x512.size a
  hwx10_5 : ∀ i : grid10.Coords, EltTy.bits .f32 = 32 ∨ (Rect.block (s := S256x512) S256x512.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x512.size a ≤ S1x512.size a
  hwx10_6 : ∀ i : grid10.Coords, EltTy.bits .f32 = 32 ∨ (Rect.block (s := S1x512) S1x512.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S512x512.size a ≤ S512x512.size a
  hwx10_7 : ∀ i : grid10.Coords, EltTy.bits .f32 = 32 ∨ (Rect.block (s := S512x512) S512x512.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x512.size a ≤ S1x512.size a
  hwx10_8 : ∀ i : grid10.Coords, EltTy.bits .f32 = 32 ∨ (Rect.block (s := S1x512) S1x512.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S512x128.size a ≤ S512x128.size a
  hwx10_9 : ∀ i : grid10.Coords, EltTy.bits .f32 = 32 ∨ (Rect.block (s := S512x128) S512x128.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S1x128.size a ≤ S1x128.size a
  hwx10_10 : ∀ i : grid10.Coords, EltTy.bits .f32 = 32 ∨ (Rect.block (s := S1x128) S1x128.size (cc10_transform_10 i) (hinb10_10 i)).WholeWords (EltTy.packing .f32)
  hstage10_11 : ∀ j, (stage10_11 j).IsWhole
  nbuf10_11 : grid10.bufCount reads10_11 true = 1
  hreads10_11 : ∀ i i' : grid10.Coords, (∀ a, reads10_11 a = true → i a = i' a) → cc10_transform_11 i = cc10_transform_11 i'
  hinb10_11 : ∀ (i : grid10.Coords) a, (cc10_transform_11 i a + 1) * S1024x128.size a ≤ S1024x128.size a
  hwx10_11 : ∀ i : grid10.Coords, EltTy.bits .f32 = 32 ∨ (Rect.block (s := S1024x128) S1024x128.size (cc10_transform_11 i) (hinb10_11 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S11x128_S50000x1_S50000x128_1_0_n_n_0_1_1128 : GatherDims S11x128 S50000x1 S50000x128 where
  offsetDims := [1]
  collapsedSliceDims := [0]
  operandBatchingDims := []
  startIndicesBatchingDims := []
  startIndexMap := [0]
  indexVectorDim := 1
  sliceSizes := ![1, 128]
  wf := gather_S11x128_S50000x1_S50000x128_1_0_n_n_0_1_1128_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v52) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v54) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S1024x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1024x256.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v138) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v139) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v140) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v140) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v141) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v142) S5000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v155) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v156) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v157) S5000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v169) S1024x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v170) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v171) S1024x256.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v178) S1024x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S128x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v179) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg18) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v180) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v181) S1024x256.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v188) S1024x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S128x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v189) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg18) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v190) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v191) S1024x256.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v85) S1024x256.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_v171) S1024x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v181) S1024x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v191) S1024x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v192) S256x512.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v193) S256x512.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v194) S1x512.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg22) S512x512.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v195) S1x512.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_arg24) S512x128.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_v196) S1x128.size cc10_transform_10 reads10_10 false true 1 stage10_10 sem10_10
    hrank10 hreads10_10 hinb10_10 nbuf10_10 (Memref.isWhole_whole _) hwx10_10 hstage10_10

abbrev win10_11 : Pipeline.Window sig grid10 :=
  Pipeline.Window.ofSpec (Memref.whole main_v197) S1024x128.size cc10_transform_11 reads10_11 true true 1 stage10_11 sem10_11
    hrank10 hreads10_11 hinb10_11 nbuf10_11 (Memref.isWhole_whole _) hwx10_11 hstage10_11

abbrev win10 : Fin 12 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | ⟨_ + 12, h⟩ => absurd h (Nat.not_lt.2 (Nat.le_add_left _ _))
abbrev spec10 : Fin 12 → Pipeline.WinSpec sig grid10.rank := fun w => (win10 w).toWinSpec

class Facts : Prop extends Facts₀ where

variable [Facts]
-- ==== ReferenceIdeal.lean ====
abbrev S50000 : Shape := ⟨1, ![50000]⟩
abbrev S2x800000 : Shape := ⟨2, ![2, 800000]⟩
abbrev S1024 : Shape := ⟨1, ![1024]⟩
abbrev S11x128 : Shape := ⟨2, ![11, 128]⟩
abbrev S128x256 : Shape := ⟨2, ![128, 256]⟩
abbrev S256 : Shape := ⟨1, ![256]⟩
abbrev S256x256 : Shape := ⟨2, ![256, 256]⟩
abbrev S100000x128 : Shape := ⟨2, ![100000, 128]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x128 : Shape := ⟨2, ![50000, 128]⟩
abbrev S50000x256 : Shape := ⟨2, ![50000, 256]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩
abbrev S1024x256 : Shape := ⟨2, ![1024, 256]⟩
abbrev S1024x1 : Shape := ⟨2, ![1024, 1]⟩
abbrev S1024x128 : Shape := ⟨2, ![1024, 128]⟩
abbrev S1024x512 : Shape := ⟨2, ![1024, 512]⟩
abbrev S1x512 : Shape := ⟨2, ![1, 512]⟩
abbrev S1x128 : Shape := ⟨2, ![1, 128]⟩

abbrev nBuf : Space → Nat
  | .hbm => 416
  | .vmem => 0
  | .smem => 0
  | _ => 0

abbrev hbmTy0_0 (i : Nat) : BufTy := match i % 128 with
  | 0 => ⟨S50000, .i32⟩
  | 1 => ⟨S2x800000, .i32⟩
  | 2 => ⟨S1024, .i32⟩
  | 3 => ⟨S50000, .i32⟩
  | 4 => ⟨S50000, .i32⟩
  | 5 => ⟨S2x800000, .i32⟩
  | 6 => ⟨S1024, .i32⟩
  | 7 => ⟨S50000, .i32⟩
  | 8 => ⟨S11x128, .f32⟩
  | 9 => ⟨S128x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S100000x128, .f32⟩
  | 16 => ⟨S128x256, .f32⟩
  | 17 => ⟨S256, .f32⟩
  | 18 => ⟨S256x256, .f32⟩
  | 19 => ⟨S256, .f32⟩
  | 20 => ⟨S512x512, .f32⟩
  | 21 => ⟨S512, .f32⟩
  | 22 => ⟨S512x512, .f32⟩
  | 23 => ⟨S512, .f32⟩
  | 24 => ⟨S512x128, .f32⟩
  | 25 => ⟨S128, .f32⟩
  | 26 => ⟨S1x800000, .i32⟩
  | 27 => ⟨S800000, .i32⟩
  | 28 => ⟨S1x800000, .i32⟩
  | 29 => ⟨S800000, .i32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x128, .f32⟩
  | 39 => ⟨S50000x256, .f32⟩
  | 40 => ⟨S50000, .i32⟩
  | 41 => ⟨S850000, .i32⟩
  | 42 => ⟨S850000, .i32⟩
  | 43 => ⟨S_, .f32⟩
  | 44 => ⟨S850000, .f32⟩
  | 45 => ⟨S_, .f32⟩
  | 46 => ⟨S50000, .f32⟩
  | 47 => ⟨S850000x1, .i32⟩
  | 48 => ⟨S50000, .f32⟩
  | 49 => ⟨S_, .f32⟩
  | 50 => ⟨S50000, .f32⟩
  | 51 => ⟨S50000, .i1⟩
  | 52 => ⟨S_, .f32⟩
  | 53 => ⟨S50000, .f32⟩
  | 54 => ⟨S50000, .f32⟩
  | 55 => ⟨S50000, .f32⟩
  | 56 => ⟨S_, .f32⟩
  | 57 => ⟨S_, .f32⟩
  | 58 => ⟨S50000, .f32⟩
  | 59 => ⟨S50000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000, .f32⟩
  | 78 => ⟨S850000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x256, .f32⟩
  | 88 => ⟨S850000x1, .f32⟩
  | 89 => ⟨S850000x256, .f32⟩
  | 90 => ⟨S850000x256, .f32⟩
  | 91 => ⟨S_, .f32⟩
  | 92 => ⟨S50000x256, .f32⟩
  | 93 => ⟨S850000x1, .i32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x256, .f32⟩
  | 102 => ⟨S50000, .i32⟩
  | 103 => ⟨S850000, .i32⟩
  | 104 => ⟨S850000, .i32⟩
  | 105 => ⟨S_, .f32⟩
  | 106 => ⟨S850000, .f32⟩
  | 107 => ⟨S_, .f32⟩
  | 108 => ⟨S50000, .f32⟩
  | 109 => ⟨S850000x1, .i32⟩
  | 110 => ⟨S50000, .f32⟩
  | 111 => ⟨S_, .f32⟩
  | 112 => ⟨S50000, .f32⟩
  | 113 => ⟨S50000, .i1⟩
  | 114 => ⟨S_, .f32⟩
  | 115 => ⟨S50000, .f32⟩
  | 116 => ⟨S50000, .f32⟩
  | 117 => ⟨S50000, .f32⟩
  | 118 => ⟨S_, .f32⟩
  | 119 => ⟨S_, .f32⟩
  | 120 => ⟨S50000, .f32⟩
  | 121 => ⟨S50000, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000, .i32⟩

abbrev hbmTy0_1 (i : Nat) : BufTy := match i % 128 with
  | 0 => ⟨S850000, .i32⟩
  | 1 => ⟨S850000x1, .i32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000, .f32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x256, .f32⟩
  | 22 => ⟨S850000x1, .f32⟩
  | 23 => ⟨S850000x256, .f32⟩
  | 24 => ⟨S850000x256, .f32⟩
  | 25 => ⟨S_, .f32⟩
  | 26 => ⟨S50000x256, .f32⟩
  | 27 => ⟨S850000x1, .i32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S_, .f32⟩
  | 36 => ⟨S50000, .f32⟩
  | 37 => ⟨S_, .f32⟩
  | 38 => ⟨S1024, .f32⟩
  | 39 => ⟨S50000x1, .i32⟩
  | 40 => ⟨S1024, .f32⟩
  | 41 => ⟨S_, .f32⟩
  | 42 => ⟨S1024x256, .f32⟩
  | 43 => ⟨S50000x1, .i32⟩
  | 44 => ⟨S1024x256, .f32⟩
  | 45 => ⟨S_, .f32⟩
  | 46 => ⟨S1024, .f32⟩
  | 47 => ⟨S1024, .f32⟩
  | 48 => ⟨S1024x1, .f32⟩
  | 49 => ⟨S1024x256, .f32⟩
  | 50 => ⟨S1024x256, .f32⟩
  | 51 => ⟨S1024x256, .f32⟩
  | 52 => ⟨S1x256, .f32⟩
  | 53 => ⟨S1024x256, .f32⟩
  | 54 => ⟨S1024x256, .f32⟩
  | 55 => ⟨S1x800000, .i32⟩
  | 56 => ⟨S800000, .i32⟩
  | 57 => ⟨S1x800000, .i32⟩
  | 58 => ⟨S800000, .i32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x128, .f32⟩
  | 68 => ⟨S50000x256, .f32⟩
  | 69 => ⟨S50000, .i32⟩
  | 70 => ⟨S850000, .i32⟩
  | 71 => ⟨S850000, .i32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S_, .f32⟩
  | 82 => ⟨S50000, .f32⟩
  | 83 => ⟨S50000, .f32⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x256, .f32⟩
  | 117 => ⟨S850000x1, .f32⟩
  | 118 => ⟨S850000x256, .f32⟩
  | 119 => ⟨S850000x256, .f32⟩
  | 120 => ⟨S_, .f32⟩
  | 121 => ⟨S50000x256, .f32⟩
  | 122 => ⟨S850000x1, .i32⟩
  | 123 => ⟨S50000x256, .f32⟩
  | 124 => ⟨S1x256, .f32⟩
  | 125 => ⟨S50000x256, .f32⟩
  | 126 => ⟨S50000x256, .f32⟩
  | 127 => ⟨S_, .f32⟩
  | _ => ⟨S50000, .i32⟩

abbrev hbmTy0_2 (i : Nat) : BufTy := match i % 128 with
  | 0 => ⟨S50000x256, .f32⟩
  | 1 => ⟨S50000x256, .f32⟩
  | 2 => ⟨S50000x256, .f32⟩
  | 3 => ⟨S50000, .i32⟩
  | 4 => ⟨S850000, .i32⟩
  | 5 => ⟨S850000, .i32⟩
  | 6 => ⟨S_, .f32⟩
  | 7 => ⟨S850000, .f32⟩
  | 8 => ⟨S_, .f32⟩
  | 9 => ⟨S50000, .f32⟩
  | 10 => ⟨S850000x1, .i32⟩
  | 11 => ⟨S50000, .f32⟩
  | 12 => ⟨S_, .f32⟩
  | 13 => ⟨S50000, .f32⟩
  | 14 => ⟨S50000, .i1⟩
  | 15 => ⟨S_, .f32⟩
  | 16 => ⟨S50000, .f32⟩
  | 17 => ⟨S50000, .f32⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x256, .f32⟩
  | 51 => ⟨S850000x1, .f32⟩
  | 52 => ⟨S850000x256, .f32⟩
  | 53 => ⟨S850000x256, .f32⟩
  | 54 => ⟨S_, .f32⟩
  | 55 => ⟨S50000x256, .f32⟩
  | 56 => ⟨S850000x1, .i32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S50000, .f32⟩
  | 66 => ⟨S_, .f32⟩
  | 67 => ⟨S1024, .f32⟩
  | 68 => ⟨S50000x1, .i32⟩
  | 69 => ⟨S1024, .f32⟩
  | 70 => ⟨S_, .f32⟩
  | 71 => ⟨S1024x256, .f32⟩
  | 72 => ⟨S50000x1, .i32⟩
  | 73 => ⟨S1024x256, .f32⟩
  | 74 => ⟨S_, .f32⟩
  | 75 => ⟨S1024, .f32⟩
  | 76 => ⟨S1024, .f32⟩
  | 77 => ⟨S1024x1, .f32⟩
  | 78 => ⟨S1024x256, .f32⟩
  | 79 => ⟨S1024x256, .f32⟩
  | 80 => ⟨S1024x256, .f32⟩
  | 81 => ⟨S1x256, .f32⟩
  | 82 => ⟨S1024x256, .f32⟩
  | 83 => ⟨S1024x256, .f32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S1024x128, .f32⟩
  | 93 => ⟨S_, .f32⟩
  | 94 => ⟨S1024x128, .f32⟩
  | 95 => ⟨S1024x128, .f32⟩
  | 96 => ⟨S1024x256, .f32⟩
  | 97 => ⟨S1x256, .f32⟩
  | 98 => ⟨S1024x256, .f32⟩
  | 99 => ⟨S1024x256, .f32⟩
  | 100 => ⟨S_, .f32⟩
  | 101 => ⟨S1024x256, .f32⟩
  | 102 => ⟨S1024x256, .f32⟩
  | 103 => ⟨S1024x256, .f32⟩
  | 104 => ⟨S1x256, .f32⟩
  | 105 => ⟨S1024x256, .f32⟩
  | 106 => ⟨S1024x256, .f32⟩
  | 107 => ⟨S_, .f32⟩
  | 108 => ⟨S1024x256, .f32⟩
  | 109 => ⟨S1024x256, .f32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1024x128, .f32⟩
  | 119 => ⟨S_, .f32⟩
  | 120 => ⟨S1024x128, .f32⟩
  | 121 => ⟨S1024x128, .f32⟩
  | 122 => ⟨S1024x256, .f32⟩
  | 123 => ⟨S1x256, .f32⟩
  | 124 => ⟨S1024x256, .f32⟩
  | 125 => ⟨S1024x256, .f32⟩
  | 126 => ⟨S_, .f32⟩
  | 127 => ⟨S1024x256, .f32⟩
  | _ => ⟨S50000, .i32⟩

abbrev hbmTy0_3 (i : Nat) : BufTy := match i % 128 with
  | 0 => ⟨S1024x256, .f32⟩
  | 1 => ⟨S1024x256, .f32⟩
  | 2 => ⟨S1x256, .f32⟩
  | 3 => ⟨S1024x256, .f32⟩
  | 4 => ⟨S1024x256, .f32⟩
  | 5 => ⟨S_, .f32⟩
  | 6 => ⟨S1024x256, .f32⟩
  | 7 => ⟨S1024x256, .f32⟩
  | 8 => ⟨S1024x512, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S1024x512, .f32⟩
  | 15 => ⟨S1x512, .f32⟩
  | 16 => ⟨S1024x512, .f32⟩
  | 17 => ⟨S1024x512, .f32⟩
  | 18 => ⟨S_, .f32⟩
  | 19 => ⟨S1024x512, .f32⟩
  | 20 => ⟨S1024x512, .f32⟩
  | 21 => ⟨S1024x512, .f32⟩
  | 22 => ⟨S1x512, .f32⟩
  | 23 => ⟨S1024x512, .f32⟩
  | 24 => ⟨S1024x512, .f32⟩
  | 25 => ⟨S_, .f32⟩
  | 26 => ⟨S1024x512, .f32⟩
  | 27 => ⟨S1024x512, .f32⟩
  | 28 => ⟨S1024x128, .f32⟩
  | 29 => ⟨S1x128, .f32⟩
  | 30 => ⟨S1024x128, .f32⟩
  | 31 => ⟨S1024x128, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_call0_v0 : Ref sig .tc := ⟨.hbm, 57, rfl⟩
abbrev main_call0_v1 : Ref sig .tc := ⟨.hbm, 58, rfl⟩
abbrev main_v24 : Ref sig .tc := ⟨.hbm, 59, rfl⟩
abbrev main_c_5 : Ref sig .tc := ⟨.hbm, 60, rfl⟩
abbrev main_v25 : Ref sig .tc := ⟨.hbm, 61, rfl⟩
abbrev main_v26 : Ref sig .tc := ⟨.hbm, 62, rfl⟩
abbrev main_c_6 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_7 : Ref sig .tc := ⟨.hbm, 69, rfl⟩
abbrev main_v32 : Ref sig .tc := ⟨.hbm, 70, rfl⟩
abbrev main_v33 : Ref sig .tc := ⟨.hbm, 71, rfl⟩
abbrev main_c_8 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_c_9 : Ref sig .tc := ⟨.hbm, 79, rfl⟩
abbrev main_v40 : Ref sig .tc := ⟨.hbm, 80, rfl⟩
abbrev main_v41 : Ref sig .tc := ⟨.hbm, 81, rfl⟩
abbrev main_c_10 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_11 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call1_cst : Ref sig .tc := ⟨.hbm, 98, rfl⟩
abbrev main_call1_v0 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_12 : Ref sig .tc := ⟨.hbm, 105, rfl⟩
abbrev main_v61 : Ref sig .tc := ⟨.hbm, 106, rfl⟩
abbrev main_cst_13 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_14 : Ref sig .tc := ⟨.hbm, 111, rfl⟩
abbrev main_v65 : Ref sig .tc := ⟨.hbm, 112, rfl⟩
abbrev main_v66 : Ref sig .tc := ⟨.hbm, 113, rfl⟩
abbrev main_cst_15 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_16 : Ref sig .tc := ⟨.hbm, 118, rfl⟩
abbrev main_call2_v0 : Ref sig .tc := ⟨.hbm, 119, rfl⟩
abbrev main_call2_v1 : Ref sig .tc := ⟨.hbm, 120, rfl⟩
abbrev main_v70 : Ref sig .tc := ⟨.hbm, 121, rfl⟩
abbrev main_c_17 : Ref sig .tc := ⟨.hbm, 122, rfl⟩
abbrev main_v71 : Ref sig .tc := ⟨.hbm, 123, rfl⟩
abbrev main_v72 : Ref sig .tc := ⟨.hbm, 124, rfl⟩
abbrev main_c_18 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_c_19 : Ref sig .tc := ⟨.hbm, 131, rfl⟩
abbrev main_v78 : Ref sig .tc := ⟨.hbm, 132, rfl⟩
abbrev main_v79 : Ref sig .tc := ⟨.hbm, 133, rfl⟩
abbrev main_c_20 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_c_21 : Ref sig .tc := ⟨.hbm, 141, rfl⟩
abbrev main_v86 : Ref sig .tc := ⟨.hbm, 142, rfl⟩
abbrev main_v87 : Ref sig .tc := ⟨.hbm, 143, rfl⟩
abbrev main_c_22 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_23 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_call3_cst : Ref sig .tc := ⟨.hbm, 160, rfl⟩
abbrev main_call3_v0 : Ref sig .tc := ⟨.hbm, 161, rfl⟩
abbrev main_v102 : Ref sig .tc := ⟨.hbm, 162, rfl⟩
abbrev main_cst_24 : Ref sig .tc := ⟨.hbm, 163, rfl⟩
abbrev main_v103 : Ref sig .tc := ⟨.hbm, 164, rfl⟩
abbrev main_cst_25 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_26 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_27 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_28 : Ref sig .tc := ⟨.hbm, 187, rfl⟩
abbrev main_v123 : Ref sig .tc := ⟨.hbm, 188, rfl⟩
abbrev main_v124 : Ref sig .tc := ⟨.hbm, 189, rfl⟩
abbrev main_c_29 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_cst_30 : Ref sig .tc := ⟨.hbm, 200, rfl⟩
abbrev main_v134 : Ref sig .tc := ⟨.hbm, 201, rfl⟩
abbrev main_cst_31 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_32 : Ref sig .tc := ⟨.hbm, 206, rfl⟩
abbrev main_v138 : Ref sig .tc := ⟨.hbm, 207, rfl⟩
abbrev main_v139 : Ref sig .tc := ⟨.hbm, 208, rfl⟩
abbrev main_cst_33 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_cst_34 : Ref sig .tc := ⟨.hbm, 213, rfl⟩
abbrev main_call4_v0 : Ref sig .tc := ⟨.hbm, 214, rfl⟩
abbrev main_call4_v1 : Ref sig .tc := ⟨.hbm, 215, rfl⟩
abbrev main_v143 : Ref sig .tc := ⟨.hbm, 216, rfl⟩
abbrev main_c_35 : Ref sig .tc := ⟨.hbm, 217, rfl⟩
abbrev main_v144 : Ref sig .tc := ⟨.hbm, 218, rfl⟩
abbrev main_v145 : Ref sig .tc := ⟨.hbm, 219, rfl⟩
abbrev main_c_36 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_c_37 : Ref sig .tc := ⟨.hbm, 226, rfl⟩
abbrev main_v151 : Ref sig .tc := ⟨.hbm, 227, rfl⟩
abbrev main_v152 : Ref sig .tc := ⟨.hbm, 228, rfl⟩
abbrev main_c_38 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_c_39 : Ref sig .tc := ⟨.hbm, 236, rfl⟩
abbrev main_v159 : Ref sig .tc := ⟨.hbm, 237, rfl⟩
abbrev main_v160 : Ref sig .tc := ⟨.hbm, 238, rfl⟩
abbrev main_c_40 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_cst_41 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_call5_cst : Ref sig .tc := ⟨.hbm, 255, rfl⟩
abbrev main_call5_v0 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_cst_42 : Ref sig .tc := ⟨.hbm, 262, rfl⟩
abbrev main_v180 : Ref sig .tc := ⟨.hbm, 263, rfl⟩
abbrev main_cst_43 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_cst_44 : Ref sig .tc := ⟨.hbm, 268, rfl⟩
abbrev main_v184 : Ref sig .tc := ⟨.hbm, 269, rfl⟩
abbrev main_v185 : Ref sig .tc := ⟨.hbm, 270, rfl⟩
abbrev main_cst_45 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_cst_46 : Ref sig .tc := ⟨.hbm, 275, rfl⟩
abbrev main_call6_v0 : Ref sig .tc := ⟨.hbm, 276, rfl⟩
abbrev main_call6_v1 : Ref sig .tc := ⟨.hbm, 277, rfl⟩
abbrev main_v189 : Ref sig .tc := ⟨.hbm, 278, rfl⟩
abbrev main_c_47 : Ref sig .tc := ⟨.hbm, 279, rfl⟩
abbrev main_v190 : Ref sig .tc := ⟨.hbm, 280, rfl⟩
abbrev main_v191 : Ref sig .tc := ⟨.hbm, 281, rfl⟩
abbrev main_c_48 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_c_49 : Ref sig .tc := ⟨.hbm, 288, rfl⟩
abbrev main_v197 : Ref sig .tc := ⟨.hbm, 289, rfl⟩
abbrev main_v198 : Ref sig .tc := ⟨.hbm, 290, rfl⟩
abbrev main_c_50 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_c_51 : Ref sig .tc := ⟨.hbm, 298, rfl⟩
abbrev main_v205 : Ref sig .tc := ⟨.hbm, 299, rfl⟩
abbrev main_v206 : Ref sig .tc := ⟨.hbm, 300, rfl⟩
abbrev main_c_52 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_cst_53 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_call7_cst : Ref sig .tc := ⟨.hbm, 317, rfl⟩
abbrev main_call7_v0 : Ref sig .tc := ⟨.hbm, 318, rfl⟩
abbrev main_v221 : Ref sig .tc := ⟨.hbm, 319, rfl⟩
abbrev main_cst_54 : Ref sig .tc := ⟨.hbm, 320, rfl⟩
abbrev main_v222 : Ref sig .tc := ⟨.hbm, 321, rfl⟩
abbrev main_cst_55 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_cst_56 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_cst_57 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_c_58 : Ref sig .tc := ⟨.hbm, 340, rfl⟩
abbrev main_v238 : Ref sig .tc := ⟨.hbm, 341, rfl⟩
abbrev main_v239 : Ref sig .tc := ⟨.hbm, 342, rfl⟩
abbrev main_c_59 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_call8_cst : Ref sig .tc := ⟨.hbm, 349, rfl⟩
abbrev main_call8_v0 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_call9_cst : Ref sig .tc := ⟨.hbm, 356, rfl⟩
abbrev main_call9_v0 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_call10_cst : Ref sig .tc := ⟨.hbm, 363, rfl⟩
abbrev main_call10_v0 : Ref sig .tc := ⟨.hbm, 364, rfl⟩
abbrev main_v255 : Ref sig .tc := ⟨.hbm, 365, rfl⟩
abbrev main_c_60 : Ref sig .tc := ⟨.hbm, 366, rfl⟩
abbrev main_v256 : Ref sig .tc := ⟨.hbm, 367, rfl⟩
abbrev main_v257 : Ref sig .tc := ⟨.hbm, 368, rfl⟩
abbrev main_c_61 : Ref sig .tc := ⟨.hbm, 369, rfl⟩
abbrev main_v258 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_call11_cst : Ref sig .tc := ⟨.hbm, 375, rfl⟩
abbrev main_call11_v0 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_call12_cst : Ref sig .tc := ⟨.hbm, 382, rfl⟩
abbrev main_call12_v0 : Ref sig .tc := ⟨.hbm, 383, rfl⟩
abbrev main_v268 : Ref sig .tc := ⟨.hbm, 384, rfl⟩
abbrev main_v269 : Ref sig .tc := ⟨.hbm, 385, rfl⟩
abbrev main_v270 : Ref sig .tc := ⟨.hbm, 386, rfl⟩
abbrev main_v271 : Ref sig .tc := ⟨.hbm, 387, rfl⟩
abbrev main_v272 : Ref sig .tc := ⟨.hbm, 388, rfl⟩
abbrev main_call13_cst : Ref sig .tc := ⟨.hbm, 389, rfl⟩
abbrev main_call13_v0 : Ref sig .tc := ⟨.hbm, 390, rfl⟩
abbrev main_v273 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_call14_cst : Ref sig .tc := ⟨.hbm, 395, rfl⟩
abbrev main_call14_v0 : Ref sig .tc := ⟨.hbm, 396, rfl⟩
abbrev main_v277 : Ref sig .tc := ⟨.hbm, 397, rfl⟩
abbrev main_v278 : Ref sig .tc := ⟨.hbm, 398, rfl⟩
abbrev main_v279 : Ref sig .tc := ⟨.hbm, 399, rfl⟩
abbrev main_v280 : Ref sig .tc := ⟨.hbm, 400, rfl⟩
abbrev main_v281 : Ref sig .tc := ⟨.hbm, 401, rfl⟩
abbrev main_call15_cst : Ref sig .tc := ⟨.hbm, 402, rfl⟩
abbrev main_call15_v0 : Ref sig .tc := ⟨.hbm, 403, rfl⟩
abbrev main_v282 : Ref sig .tc := ⟨.hbm, 404, rfl⟩
abbrev main_v283 : Ref sig .tc := ⟨.hbm, 405, rfl⟩
abbrev main_v284 : Ref sig .tc := ⟨.hbm, 406, rfl⟩
abbrev main_v285 : Ref sig .tc := ⟨.hbm, 407, rfl⟩
abbrev main_v286 : Ref sig .tc := ⟨.hbm, 408, rfl⟩
abbrev main_call16_cst : Ref sig .tc := ⟨.hbm, 409, rfl⟩
abbrev main_call16_v0 : Ref sig .tc := ⟨.hbm, 410, rfl⟩
abbrev main_v287 : Ref sig .tc := ⟨.hbm, 411, rfl⟩
abbrev main_v288 : Ref sig .tc := ⟨.hbm, 412, rfl⟩
abbrev main_v289 : Ref sig .tc := ⟨.hbm, 413, rfl⟩
abbrev main_v290 : Ref sig .tc := ⟨.hbm, 414, rfl⟩
abbrev main_v291 : Ref sig .tc := ⟨.hbm, 415, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S1024 : S_.BroadcastsInDim S1024 (![] : Fin 0 → Fin S1024.rank)
  bcast_S_S1024x256 : S_.BroadcastsInDim S1024x256 (![] : Fin 0 → Fin S1024x256.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S1x256_S1024x256_0_1 : S1x256.BroadcastsInDim S1024x256 (![0, 1] : Fin 2 → Fin S1024x256.rank)
  bcast_S_S1024x128 : S_.BroadcastsInDim S1024x128 (![] : Fin 0 → Fin S1024x128.rank)
  concatenates_S1024x256_S1024x256_S1024x512_d1 : Shape.Concatenates [S1024x256, S1024x256] S1024x512 1
  bcast_S_S1024x512 : S_.BroadcastsInDim S1024x512 (![] : Fin 0 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  gather_S11x128_S50000x1_S50000x128_1_0_n_n_0_1_1128_wf : GatherDims.WF S11x128 S50000x1 S50000x128 [1] [0] [] [0] [] 1 ![1, 128]
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S1024_S50000x1_S50000_n_0_0_1_wf : ScatterDims.WF S1024 S50000x1 S50000 [] [0] [0] 1
  scatter_S1024x256_S50000x1_S50000x256_1_0_0_1_wf : ScatterDims.WF S1024x256 S50000x1 S50000x256 [1] [0] [0] 1
  dot_S1024x256_S256x256_S1024x256_1_0_0_1_n_n_wf : DotDims.WF S1024x256 S256x256 S1024x256 [1] [0] [0] [1] [] []
  gather_S100000x128_S1024x1_S1024x128_1_0_n_n_0_1_1128_wf : GatherDims.WF S100000x128 S1024x1 S1024x128 [1] [0] [] [0] [] 1 ![1, 128]
  dot_S1024x128_S128x256_S1024x256_1_0_0_1_n_n_wf : DotDims.WF S1024x128 S128x256 S1024x256 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []

variable [Facts₀]

def gather_S11x128_S50000x1_S50000x128_1_0_n_n_0_1_1128 : GatherDims S11x128 S50000x1 S50000x128 where
  offsetDims := [1]
  collapsedSliceDims := [0]
  operandBatchingDims := []
  startIndicesBatchingDims := []
  startIndexMap := [0]
  indexVectorDim := 1
  sliceSizes := ![1, 128]
  wf := gather_S11x128_S50000x1_S50000x128_1_0_n_n_0_1_1128_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

class Facts : Prop extends Facts₀ where

variable [Facts]
-- ==== Proof.KRun.lean ====
/-
  The kernel program's run with its RESULT named. The program is eleven launched regions among stretches of host
  operations; its run passes through a chain of buffer contents, one per segment boundary, and ends with every
  unscoped buffer at the last link of that chain. Read at the result buffer this gives the result array as the
  last link's contents there; read at the argument buffers it gives the arguments back unchanged.
-/
import proofs.«135828_j71159018160437_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and every argument array as launched. -/
theorem run_value : θ_run defs (onTc (τ := τ) (main (F := F))) ⟨m, fun _ => 0, ρ⟩ (fun r => ∀ c : Dev nD,
      r.2.mem ((c.tc : Thread nD τ).loc main_v197) = W26 m ρ c (Proc.devRef .tc main_v197)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v197 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c),
       (h c _ (mem_uc main_arg16 (by decide))).trans (W26_main_arg16 m ρ c),
       (h c _ (mem_uc main_arg17 (by decide))).trans (W26_main_arg17 m ρ c),
       (h c _ (mem_uc main_arg18 (by decide))).trans (W26_main_arg18 m ρ c),
       (h c _ (mem_uc main_arg19 (by decide))).trans (W26_main_arg19 m ρ c),
       (h c _ (mem_uc main_arg20 (by decide))).trans (W26_main_arg20 m ρ c),
       (h c _ (mem_uc main_arg21 (by decide))).trans (W26_main_arg21 m ρ c),
       (h c _ (mem_uc main_arg22 (by decide))).trans (W26_main_arg22 m ρ c),
       (h c _ (mem_uc main_arg23 (by decide))).trans (W26_main_arg23 m ρ c),
       (h c _ (mem_uc main_arg24 (by decide))).trans (W26_main_arg24 m ρ c),
       (h c _ (mem_uc main_arg25 (by decide))).trans (W26_main_arg25 m ρ c)⟩)

end Cert.KernelIdeal.Bridge

end
-- ==== Proof.KWalk.lean ====
/-
  Which buffers keep their contents along the kernel program's chain of segment boundaries: a host stretch changes
  only the buffers its operations write, a launched region only its output arrays. Each lemma walks one buffer
  back from the boundary where it is read to the boundary where it was written (or to the launch memory).
-/
import proofs.«135828_j71159018160437_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer that no operation of a host stretch writes holds after the stretch what it held before. -/
macro "host_keep " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem keep_arg9_3_0 (c : Dev nD) : W3 m ρ c (Proc.devRef .tc main_arg9) = m ((c : Thread nD τ).loc main_arg9) :=
  calc W3 m ρ c (Proc.devRef .tc main_arg9)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = m ((c : Thread nD τ).loc main_arg9) := rfl

theorem keep_v32_4_3 (c : Dev nD) : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

theorem keep_v54_5_4 (c : Dev nD) : W5 m ρ c (Proc.devRef .tc main_v54) = W4 m ρ c (Proc.devRef .tc main_v54) :=
  calc W5 m ρ c (Proc.devRef .tc main_v54)
    _ = W4 m ρ c (Proc.devRef .tc main_v54) := by host_keep hostOps1

theorem keep_arg11_5_0 (c : Dev nD) : W5 m ρ c (Proc.devRef .tc main_arg11) = m ((c : Thread nD τ).loc main_arg11) :=
  calc W5 m ρ c (Proc.devRef .tc main_arg11)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = m ((c : Thread nD τ).loc main_arg11) := rfl

theorem keep_v5_6_3 (c : Dev nD) : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by host_keep hostOps1
    _ = W3 m ρ c (Proc.devRef .tc main_v5) := W4_of_ne m ρ c main_v5 (by decide)

theorem keep_v6_6_3 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

theorem keep_v31_6_3 (c : Dev nD) : W6 m ρ c (Proc.devRef .tc main_v31) = W3 m ρ c (Proc.devRef .tc main_v31) :=
  calc W6 m ρ c (Proc.devRef .tc main_v31)
    _ = W5 m ρ c (Proc.devRef .tc main_v31) := W6_of_ne m ρ c main_v31 (by decide)
    _ = W4 m ρ c (Proc.devRef .tc main_v31) := by host_keep hostOps1
    _ = W3 m ρ c (Proc.devRef .tc main_v31) := W4_of_ne m ρ c main_v31 (by decide)

theorem keep_arg12_6_0 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0
    _ = m ((c : Thread nD τ).loc main_arg12) := rfl

theorem keep_arg3_8_0 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by host_keep hostOps2
    _ = W5 m ρ c (Proc.devRef .tc main_arg3) := W6_of_ne m ρ c main_arg3 (by decide)
    _ = W4 m ρ c (Proc.devRef .tc main_arg3) := by host_keep hostOps1
    _ = W3 m ρ c (Proc.devRef .tc main_arg3) := W4_of_ne m ρ c main_arg3 (by decide)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl

theorem keep_arg14_8_0 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := by host_keep hostOps2
    _ = W5 m ρ c (Proc.devRef .tc main_arg14) := W6_of_ne m ρ c main_arg14 (by decide)
    _ = W4 m ρ c (Proc.devRef .tc main_arg14) := by host_keep hostOps1
    _ = W3 m ρ c (Proc.devRef .tc main_arg14) := W4_of_ne m ρ c main_arg14 (by decide)
    _ = W2 m ρ c (Proc.devRef .tc main_arg14) := by host_keep hostOps0_2
    _ = W1 m ρ c (Proc.devRef .tc main_arg14) := by host_keep hostOps0_1
    _ = W0 m ρ c (Proc.devRef .tc main_arg14) := by host_keep hostOps0
    _ = m ((c : Thread nD τ).loc main_arg14) := rfl

theorem keep_arg13_9_0 (c : Dev nD) : W9 m ρ c (Proc.devRef .tc main_arg13) = m ((c : Thread nD τ).loc main_arg13) :=
  calc W9 m ρ c (Proc.devRef .tc main_arg13)
    _ = W8 m ρ c (Proc.devRef .tc main_arg13) := by host_keep hostOps3
    _ = W7 m ρ c (Proc.devRef .tc main_arg13) := W8_of_ne m ρ c main_arg13 (by decide)
    _ = W6 m ρ c (Proc.devRef .tc main_arg13) := by host_keep hostOps2
    _ = W5 m ρ c (Proc.devRef .tc main_arg13) := W6_of_ne m ρ c main_arg13 (by decide)
    _ = W4 m ρ c (Proc.devRef .tc main_arg13) := by host_keep hostOps1
    _ = W3 m ρ c (Proc.devRef .tc main_arg13) := W4_of_ne m ρ c main_arg13 (by decide)
    _ = W2 m ρ c (Proc.devRef .tc main_arg13) := by host_keep hostOps0_2
    _ = W1 m ρ c (Proc.devRef .tc main_arg13) := by host_keep hostOps0_1
    _ = W0 m ρ c (Proc.devRef .tc main_arg13) := by host_keep hostOps0
    _ = m ((c : Thread nD τ).loc main_arg13) := rfl

theorem keep_arg5_10_0 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := by host_keep hostOps3
    _ = W7 m ρ c (Proc.devRef .tc main_arg5) := W8_of_ne m ρ c main_arg5 (by decide)
    _ = W6 m ρ c (Proc.devRef .tc main_arg5) := by host_keep hostOps2
    _ = W5 m ρ c (Proc.devRef .tc main_arg5) := W6_of_ne m ρ c main_arg5 (by decide)
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl

theorem keep_arg4_10_0 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := by host_keep hostOps3
    _ = W7 m ρ c (Proc.devRef .tc main_arg4) := W8_of_ne m ρ c main_arg4 (by decide)
    _ = W6 m ρ c (Proc.devRef .tc main_arg4) := by host_keep hostOps2
    _ = W5 m ρ c (Proc.devRef .tc main_arg4) := W6_of_ne m ρ c main_arg4 (by decide)
    _ = W4 m ρ c (Proc.devRef .tc main_arg4) := by host_keep hostOps1
    _ = W3 m ρ c (Proc.devRef .tc main_arg4) := W4_of_ne m ρ c main_arg4 (by decide)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl

theorem keep_arg8_10_0 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := by host_keep hostOps3
    _ = W7 m ρ c (Proc.devRef .tc main_arg8) := W8_of_ne m ρ c main_arg8 (by decide)
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = m ((c : Thread nD τ).loc main_arg8) := rfl

theorem keep_arg10_10_0 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by host_keep hostOps3
    _ = W7 m ρ c (Proc.devRef .tc main_arg10) := W8_of_ne m ρ c main_arg10 (by decide)
    _ = W6 m ρ c (Proc.devRef .tc main_arg10) := by host_keep hostOps2
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0
    _ = m ((c : Thread nD τ).loc main_arg10) := rfl

theorem keep_arg9_13_0 (c : Dev nD) : W13 m ρ c (Proc.devRef .tc main_arg9) = m ((c : Thread nD τ).loc main_arg9) :=
  calc W13 m ρ c (Proc.devRef .tc main_arg9)
    _ = W12 m ρ c (Proc.devRef .tc main_arg9) := by host_keep hostOps4_2
    _ = W11 m ρ c (Proc.devRef .tc main_arg9) := by host_keep hostOps4_1
    _ = W10 m ρ c (Proc.devRef .tc main_arg9) := by host_keep hostOps4
    _ = W9 m ρ c (Proc.devRef .tc main_arg9) := W10_of_ne m ρ c main_arg9 (by decide)
    _ = W8 m ρ c (Proc.devRef .tc main_arg9) := by host_keep hostOps3
    _ = W7 m ρ c (Proc.devRef .tc main_arg9) := W8_of_ne m ρ c main_arg9 (by decide)
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := (W4_arr m ρ c 1).trans (((dat0 (V3 m ρ) c).arrAt_in 1 rfl _).trans (A_eq0 (V3 m ρ) c 1))
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = m ((c : Thread nD τ).loc main_arg9) := rfl

theorem keep_v118_14_13 (c : Dev nD) : W14 m ρ c (Proc.devRef .tc main_v118) = W13 m ρ c (Proc.devRef .tc main_v118) :=
  calc W14 m ρ c (Proc.devRef .tc main_v118)
    _ = W13 m ρ c (Proc.devRef .tc main_v118) := W14_of_ne m ρ c main_v118 (by decide)

theorem keep_v140_15_14 (c : Dev nD) : W15 m ρ c (Proc.devRef .tc main_v140) = W14 m ρ c (Proc.devRef .tc main_v140) :=
  calc W15 m ρ c (Proc.devRef .tc main_v140)
    _ = W14 m ρ c (Proc.devRef .tc main_v140) := by host_keep hostOps5

theorem keep_arg11_15_0 (c : Dev nD) : W15 m ρ c (Proc.devRef .tc main_arg11) = m ((c : Thread nD τ).loc main_arg11) :=
  calc W15 m ρ c (Proc.devRef .tc main_arg11)
    _ = W14 m ρ c (Proc.devRef .tc main_arg11) := by host_keep hostOps5
    _ = W13 m ρ c (Proc.devRef .tc main_arg11) := W14_of_ne m ρ c main_arg11 (by decide)
    _ = W12 m ρ c (Proc.devRef .tc main_arg11) := by host_keep hostOps4_2
    _ = W11 m ρ c (Proc.devRef .tc main_arg11) := by host_keep hostOps4_1
    _ = W10 m ρ c (Proc.devRef .tc main_arg11) := by host_keep hostOps4
    _ = W9 m ρ c (Proc.devRef .tc main_arg11) := W10_of_ne m ρ c main_arg11 (by decide)
    _ = W8 m ρ c (Proc.devRef .tc main_arg11) := by host_keep hostOps3
    _ = W7 m ρ c (Proc.devRef .tc main_arg11) := W8_of_ne m ρ c main_arg11 (by decide)
    _ = W6 m ρ c (Proc.devRef .tc main_arg11) := by host_keep hostOps2
    _ = W5 m ρ c (Proc.devRef .tc main_arg11) := (W6_arr m ρ c 1).trans (((dat1 (V5 m ρ) c).arrAt_in 1 rfl _).trans (A_eq1 (V5 m ρ) c 1))
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = m ((c : Thread nD τ).loc main_arg11) := rfl

theorem keep_v91_16_13 (c : Dev nD) : W16 m ρ c (Proc.devRef .tc main_v91) = W13 m ρ c (Proc.devRef .tc main_v91) :=
  calc W16 m ρ c (Proc.devRef .tc main_v91)
    _ = W15 m ρ c (Proc.devRef .tc main_v91) := W16_of_ne m ρ c main_v91 (by decide)
    _ = W14 m ρ c (Proc.devRef .tc main_v91) := by host_keep hostOps5
    _ = W13 m ρ c (Proc.devRef .tc main_v91) := W14_of_ne m ρ c main_v91 (by decide)

theorem keep_v92_16_13 (c : Dev nD) : W16 m ρ c (Proc.devRef .tc main_v92) = W13 m ρ c (Proc.devRef .tc main_v92) :=
  calc W16 m ρ c (Proc.devRef .tc main_v92)
    _ = W15 m ρ c (Proc.devRef .tc main_v92) := W16_of_ne m ρ c main_v92 (by decide)
    _ = W14 m ρ c (Proc.devRef .tc main_v92) := by host_keep hostOps5
    _ = W13 m ρ c (Proc.devRef .tc main_v92) := W14_of_ne m ρ c main_v92 (by decide)

theorem keep_v117_16_13 (c : Dev nD) : W16 m ρ c (Proc.devRef .tc main_v117) = W13 m ρ c (Proc.devRef .tc main_v117) :=
  calc W16 m ρ c (Proc.devRef .tc main_v117)
    _ = W15 m ρ c (Proc.devRef .tc main_v117) := W16_of_ne m ρ c main_v117 (by decide)
    _ = W14 m ρ c (Proc.devRef .tc main_v117) := by host_keep hostOps5
    _ = W13 m ρ c (Proc.devRef .tc main_v117) := W14_of_ne m ρ c main_v117 (by decide)

theorem keep_arg12_16_0 (c : Dev nD) : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := by host_keep hostOps5
    _ = W13 m ρ c (Proc.devRef .tc main_arg12) := W14_of_ne m ρ c main_arg12 (by decide)
    _ = W12 m ρ c (Proc.devRef .tc main_arg12) := by host_keep hostOps4_2
    _ = W11 m ρ c (Proc.devRef .tc main_arg12) := by host_keep hostOps4_1
    _ = W10 m ρ c (Proc.devRef .tc main_arg12) := by host_keep hostOps4
    _ = W9 m ρ c (Proc.devRef .tc main_arg12) := W10_of_ne m ρ c main_arg12 (by decide)
    _ = W8 m ρ c (Proc.devRef .tc main_arg12) := by host_keep hostOps3
    _ = W7 m ρ c (Proc.devRef .tc main_arg12) := W8_of_ne m ρ c main_arg12 (by decide)
    _ = W6 m ρ c (Proc.devRef .tc main_arg12) := by host_keep hostOps2
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0
    _ = m ((c : Thread nD τ).loc main_arg12) := rfl

theorem keep_arg7_18_0 (c : Dev nD) : W18 m ρ c (Proc.devRef .tc main_arg7) = m ((c : Thread nD τ).loc main_arg7) :=
  calc W18 m ρ c (Proc.devRef .tc main_arg7)
    _ = W17 m ρ c (Proc.devRef .tc main_arg7) := W18_of_ne m ρ c main_arg7 (by decide)
    _ = W16 m ρ c (Proc.devRef .tc main_arg7) := by host_keep hostOps6
    _ = W15 m ρ c (Proc.devRef .tc main_arg7) := W16_of_ne m ρ c main_arg7 (by decide)
    _ = W14 m ρ c (Proc.devRef .tc main_arg7) := by host_keep hostOps5
    _ = W13 m ρ c (Proc.devRef .tc main_arg7) := W14_of_ne m ρ c main_arg7 (by decide)
    _ = W12 m ρ c (Proc.devRef .tc main_arg7) := by host_keep hostOps4_2
    _ = W11 m ρ c (Proc.devRef .tc main_arg7) := by host_keep hostOps4_1
    _ = W10 m ρ c (Proc.devRef .tc main_arg7) := by host_keep hostOps4
    _ = W9 m ρ c (Proc.devRef .tc main_arg7) := W10_of_ne m ρ c main_arg7 (by decide)
    _ = W8 m ρ c (Proc.devRef .tc main_arg7) := by host_keep hostOps3
    _ = W7 m ρ c (Proc.devRef .tc main_arg7) := W8_of_ne m ρ c main_arg7 (by decide)
    _ = W6 m ρ c (Proc.devRef .tc main_arg7) := by host_keep hostOps2
    _ = W5 m ρ c (Proc.devRef .tc main_arg7) := W6_of_ne m ρ c main_arg7 (by decide)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

theorem keep_arg14_18_0 (c : Dev nD) : W18 m ρ c (Proc.devRef .tc main_arg14) = m ((c : Thread nD τ).loc main_arg14) :=
  calc W18 m ρ c (Proc.devRef .tc main_arg14)
    _ = W17 m ρ c (Proc.devRef .tc main_arg14) := W18_of_ne m ρ c main_arg14 (by decide)
    _ = W16 m ρ c (Proc.devRef .tc main_arg14) := by host_keep hostOps6
    _ = W15 m ρ c (Proc.devRef .tc main_arg14) := W16_of_ne m ρ c main_arg14 (by decide)
    _ = W14 m ρ c (Proc.devRef .tc main_arg14) := by host_keep hostOps5
    _ = W13 m ρ c (Proc.devRef .tc main_arg14) := W14_of_ne m ρ c main_arg14 (by decide)
    _ = W12 m ρ c (Proc.devRef .tc main_arg14) := by host_keep hostOps4_2
    _ = W11 m ρ c (Proc.devRef .tc main_arg14) := by host_keep hostOps4_1
    _ = W10 m ρ c (Proc.devRef .tc main_arg14) := by host_keep hostOps4
    _ = W9 m ρ c (Proc.devRef .tc main_arg14) := W10_of_ne m ρ c main_arg14 (by decide)
    _ = W8 m ρ c (Proc.devRef .tc main_arg14) := by host_keep hostOps3
    _ = W7 m ρ c (Proc.devRef .tc main_arg14) := W8_of_ne m ρ c main_arg14 (by decide)
    _ = W6 m ρ c (Proc.devRef .tc main_arg14) := by host_keep hostOps2
    _ = W5 m ρ c (Proc.devRef .tc main_arg14) := W6_of_ne m ρ c main_arg14 (by decide)
    _ = W4 m ρ c (Proc.devRef .tc main_arg14) := by host_keep hostOps1
    _ = W3 m ρ c (Proc.devRef .tc main_arg14) := W4_of_ne m ρ c main_arg14 (by decide)
    _ = W2 m ρ c (Proc.devRef .tc main_arg14) := by host_keep hostOps0_2
    _ = W1 m ρ c (Proc.devRef .tc main_arg14) := by host_keep hostOps0_1
    _ = W0 m ρ c (Proc.devRef .tc main_arg14) := by host_keep hostOps0
    _ = m ((c : Thread nD τ).loc main_arg14) := rfl

theorem keep_arg13_19_0 (c : Dev nD) : W19 m ρ c (Proc.devRef .tc main_arg13) = m ((c : Thread nD τ).loc main_arg13) :=
  calc W19 m ρ c (Proc.devRef .tc main_arg13)
    _ = W18 m ρ c (Proc.devRef .tc main_arg13) := by host_keep hostOps7
    _ = W17 m ρ c (Proc.devRef .tc main_arg13) := W18_of_ne m ρ c main_arg13 (by decide)
    _ = W16 m ρ c (Proc.devRef .tc main_arg13) := by host_keep hostOps6
    _ = W15 m ρ c (Proc.devRef .tc main_arg13) := W16_of_ne m ρ c main_arg13 (by decide)
    _ = W14 m ρ c (Proc.devRef .tc main_arg13) := by host_keep hostOps5
    _ = W13 m ρ c (Proc.devRef .tc main_arg13) := W14_of_ne m ρ c main_arg13 (by decide)
    _ = W12 m ρ c (Proc.devRef .tc main_arg13) := by host_keep hostOps4_2
    _ = W11 m ρ c (Proc.devRef .tc main_arg13) := by host_keep hostOps4_1
    _ = W10 m ρ c (Proc.devRef .tc main_arg13) := by host_keep hostOps4
    _ = W9 m ρ c (Proc.devRef .tc main_arg13) := (W10_arr m ρ c 1).trans (((dat3 (V9 m ρ) c).arrAt_in 1 rfl _).trans (A_eq3 (V9 m ρ) c 1))
    _ = W8 m ρ c (Proc.devRef .tc main_arg13) := by host_keep hostOps3
    _ = W7 m ρ c (Proc.devRef .tc main_arg13) := W8_of_ne m ρ c main_arg13 (by decide)
    _ = W6 m ρ c (Proc.devRef .tc main_arg13) := by host_keep hostOps2
    _ = W5 m ρ c (Proc.devRef .tc main_arg13) := W6_of_ne m ρ c main_arg13 (by decide)
    _ = W4 m ρ c (Proc.devRef .tc main_arg13) := by host_keep hostOps1
    _ = W3 m ρ c (Proc.devRef .tc main_arg13) := W4_of_ne m ρ c main_arg13 (by decide)
    _ = W2 m ρ c (Proc.devRef .tc main_arg13) := by host_keep hostOps0_2
    _ = W1 m ρ c (Proc.devRef .tc main_arg13) := by host_keep hostOps0_1
    _ = W0 m ρ c (Proc.devRef .tc main_arg13) := by host_keep hostOps0
    _ = m ((c : Thread nD τ).loc main_arg13) := rfl

theorem keep_arg2_20_0 (c : Dev nD) : W20 m ρ c (Proc.devRef .tc main_arg2) = m ((c : Thread nD τ).loc main_arg2) :=
  calc W20 m ρ c (Proc.devRef .tc main_arg2)
    _ = W19 m ρ c (Proc.devRef .tc main_arg2) := W20_of_ne m ρ c main_arg2 (by decide)
    _ = W18 m ρ c (Proc.devRef .tc main_arg2) := by host_keep hostOps7
    _ = W17 m ρ c (Proc.devRef .tc main_arg2) := W18_of_ne m ρ c main_arg2 (by decide)
    _ = W16 m ρ c (Proc.devRef .tc main_arg2) := by host_keep hostOps6
    _ = W15 m ρ c (Proc.devRef .tc main_arg2) := W16_of_ne m ρ c main_arg2 (by decide)
    _ = W14 m ρ c (Proc.devRef .tc main_arg2) := by host_keep hostOps5
    _ = W13 m ρ c (Proc.devRef .tc main_arg2) := W14_of_ne m ρ c main_arg2 (by decide)
    _ = W12 m ρ c (Proc.devRef .tc main_arg2) := by host_keep hostOps4_2
    _ = W11 m ρ c (Proc.devRef .tc main_arg2) := by host_keep hostOps4_1
    _ = W10 m ρ c (Proc.devRef .tc main_arg2) := by host_keep hostOps4
    _ = W9 m ρ c (Proc.devRef .tc main_arg2) := W10_of_ne m ρ c main_arg2 (by decide)
    _ = W8 m ρ c (Proc.devRef .tc main_arg2) := by host_keep hostOps3
    _ = W7 m ρ c (Proc.devRef .tc main_arg2) := W8_of_ne m ρ c main_arg2 (by decide)
    _ = W6 m ρ c (Proc.devRef .tc main_arg2) := by host_keep hostOps2
    _ = W5 m ρ c (Proc.devRef .tc main_arg2) := W6_of_ne m ρ c main_arg2 (by decide)
    _ = W4 m ρ c (Proc.devRef .tc main_arg2) := by host_keep hostOps1
    _ = W3 m ρ c (Proc.devRef .tc main_arg2) := W4_of_ne m ρ c main_arg2 (by decide)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl

theorem keep_arg15_20_0 (c : Dev nD) : W20 m ρ c (Proc.devRef .tc main_arg15) = m ((c : Thread nD τ).loc main_arg15) :=
  calc W20 m ρ c (Proc.devRef .tc main_arg15)
    _ = W19 m ρ c (Proc.devRef .tc main_arg15) := W20_of_ne m ρ c main_arg15 (by decide)
    _ = W18 m ρ c (Proc.devRef .tc main_arg15) := by host_keep hostOps7
    _ = W17 m ρ c (Proc.devRef .tc main_arg15) := W18_of_ne m ρ c main_arg15 (by decide)
    _ = W16 m ρ c (Proc.devRef .tc main_arg15) := by host_keep hostOps6
    _ = W15 m ρ c (Proc.devRef .tc main_arg15) := W16_of_ne m ρ c main_arg15 (by decide)
    _ = W14 m ρ c (Proc.devRef .tc main_arg15) := by host_keep hostOps5
    _ = W13 m ρ c (Proc.devRef .tc main_arg15) := W14_of_ne m ρ c main_arg15 (by decide)
    _ = W12 m ρ c (Proc.devRef .tc main_arg15) := by host_keep hostOps4_2
    _ = W11 m ρ c (Proc.devRef .tc main_arg15) := by host_keep hostOps4_1
    _ = W10 m ρ c (Proc.devRef .tc main_arg15) := by host_keep hostOps4
    _ = W9 m ρ c (Proc.devRef .tc main_arg15) := W10_of_ne m ρ c main_arg15 (by decide)
    _ = W8 m ρ c (Proc.devRef .tc main_arg15) := by host_keep hostOps3
    _ = W7 m ρ c (Proc.devRef .tc main_arg15) := W8_of_ne m ρ c main_arg15 (by decide)
    _ = W6 m ρ c (Proc.devRef .tc main_arg15) := by host_keep hostOps2
    _ = W5 m ρ c (Proc.devRef .tc main_arg15) := W6_of_ne m ρ c main_arg15 (by decide)
    _ = W4 m ρ c (Proc.devRef .tc main_arg15) := by host_keep hostOps1
    _ = W3 m ρ c (Proc.devRef .tc main_arg15) := W4_of_ne m ρ c main_arg15 (by decide)
    _ = W2 m ρ c (Proc.devRef .tc main_arg15) := by host_keep hostOps0_2
    _ = W1 m ρ c (Proc.devRef .tc main_arg15) := by host_keep hostOps0_1
    _ = W0 m ρ c (Proc.devRef .tc main_arg15) := by host_keep hostOps0
    _ = m ((c : Thread nD τ).loc main_arg15) := rfl

theorem keep_arg17_20_0 (c : Dev nD) : W20 m ρ c (Proc.devRef .tc main_arg17) = m ((c : Thread nD τ).loc main_arg17) :=
  calc W20 m ρ c (Proc.devRef .tc main_arg17)
    _ = W19 m ρ c (Proc.devRef .tc main_arg17) := W20_of_ne m ρ c main_arg17 (by decide)
    _ = W18 m ρ c (Proc.devRef .tc main_arg17) := by host_keep hostOps7
    _ = W17 m ρ c (Proc.devRef .tc main_arg17) := W18_of_ne m ρ c main_arg17 (by decide)
    _ = W16 m ρ c (Proc.devRef .tc main_arg17) := by host_keep hostOps6
    _ = W15 m ρ c (Proc.devRef .tc main_arg17) := W16_of_ne m ρ c main_arg17 (by decide)
    _ = W14 m ρ c (Proc.devRef .tc main_arg17) := by host_keep hostOps5
    _ = W13 m ρ c (Proc.devRef .tc main_arg17) := W14_of_ne m ρ c main_arg17 (by decide)
    _ = W12 m ρ c (Proc.devRef .tc main_arg17) := by host_keep hostOps4_2
    _ = W11 m ρ c (Proc.devRef .tc main_arg17) := by host_keep hostOps4_1
    _ = W10 m ρ c (Proc.devRef .tc main_arg17) := by host_keep hostOps4
    _ = W9 m ρ c (Proc.devRef .tc main_arg17) := W10_of_ne m ρ c main_arg17 (by decide)
    _ = W8 m ρ c (Proc.devRef .tc main_arg17) := by host_keep hostOps3
    _ = W7 m ρ c (Proc.devRef .tc main_arg17) := W8_of_ne m ρ c main_arg17 (by decide)
    _ = W6 m ρ c (Proc.devRef .tc main_arg17) := by host_keep hostOps2
    _ = W5 m ρ c (Proc.devRef .tc main_arg17) := W6_of_ne m ρ c main_arg17 (by decide)
    _ = W4 m ρ c (Proc.devRef .tc main_arg17) := by host_keep hostOps1
    _ = W3 m ρ c (Proc.devRef .tc main_arg17) := W4_of_ne m ρ c main_arg17 (by decide)
    _ = W2 m ρ c (Proc.devRef .tc main_arg17) := by host_keep hostOps0_2
    _ = W1 m ρ c (Proc.devRef .tc main_arg17) := by host_keep hostOps0_1
    _ = W0 m ρ c (Proc.devRef .tc main_arg17) := by host_keep hostOps0
    _ = m ((c : Thread nD τ).loc main_arg17) := rfl

theorem keep_arg19_20_0 (c : Dev nD) : W20 m ρ c (Proc.devRef .tc main_arg19) = m ((c : Thread nD τ).loc main_arg19) :=
  calc W20 m ρ c (Proc.devRef .tc main_arg19)
    _ = W19 m ρ c (Proc.devRef .tc main_arg19) := W20_of_ne m ρ c main_arg19 (by decide)
    _ = W18 m ρ c (Proc.devRef .tc main_arg19) := by host_keep hostOps7
    _ = W17 m ρ c (Proc.devRef .tc main_arg19) := W18_of_ne m ρ c main_arg19 (by decide)
    _ = W16 m ρ c (Proc.devRef .tc main_arg19) := by host_keep hostOps6
    _ = W15 m ρ c (Proc.devRef .tc main_arg19) := W16_of_ne m ρ c main_arg19 (by decide)
    _ = W14 m ρ c (Proc.devRef .tc main_arg19) := by host_keep hostOps5
    _ = W13 m ρ c (Proc.devRef .tc main_arg19) := W14_of_ne m ρ c main_arg19 (by decide)
    _ = W12 m ρ c (Proc.devRef .tc main_arg19) := by host_keep hostOps4_2
    _ = W11 m ρ c (Proc.devRef .tc main_arg19) := by host_keep hostOps4_1
    _ = W10 m ρ c (Proc.devRef .tc main_arg19) := by host_keep hostOps4
    _ = W9 m ρ c (Proc.devRef .tc main_arg19) := W10_of_ne m ρ c main_arg19 (by decide)
    _ = W8 m ρ c (Proc.devRef .tc main_arg19) := by host_keep hostOps3
    _ = W7 m ρ c (Proc.devRef .tc main_arg19) := W8_of_ne m ρ c main_arg19 (by decide)
    _ = W6 m ρ c (Proc.devRef .tc main_arg19) := by host_keep hostOps2
    _ = W5 m ρ c (Proc.devRef .tc main_arg19) := W6_of_ne m ρ c main_arg19 (by decide)
    _ = W4 m ρ c (Proc.devRef .tc main_arg19) := by host_keep hostOps1
    _ = W3 m ρ c (Proc.devRef .tc main_arg19) := W4_of_ne m ρ c main_arg19 (by decide)
    _ = W2 m ρ c (Proc.devRef .tc main_arg19) := by host_keep hostOps0_2
    _ = W1 m ρ c (Proc.devRef .tc main_arg19) := by host_keep hostOps0_1
    _ = W0 m ρ c (Proc.devRef .tc main_arg19) := by host_keep hostOps0
    _ = m ((c : Thread nD τ).loc main_arg19) := rfl

theorem keep_arg16_21_0 (c : Dev nD) : W21 m ρ c (Proc.devRef .tc main_arg16) = m ((c : Thread nD τ).loc main_arg16) :=
  calc W21 m ρ c (Proc.devRef .tc main_arg16)
    _ = W20 m ρ c (Proc.devRef .tc main_arg16) := by host_keep hostOps8
    _ = W19 m ρ c (Proc.devRef .tc main_arg16) := W20_of_ne m ρ c main_arg16 (by decide)
    _ = W18 m ρ c (Proc.devRef .tc main_arg16) := by host_keep hostOps7
    _ = W17 m ρ c (Proc.devRef .tc main_arg16) := W18_of_ne m ρ c main_arg16 (by decide)
    _ = W16 m ρ c (Proc.devRef .tc main_arg16) := by host_keep hostOps6
    _ = W15 m ρ c (Proc.devRef .tc main_arg16) := W16_of_ne m ρ c main_arg16 (by decide)
    _ = W14 m ρ c (Proc.devRef .tc main_arg16) := by host_keep hostOps5
    _ = W13 m ρ c (Proc.devRef .tc main_arg16) := W14_of_ne m ρ c main_arg16 (by decide)
    _ = W12 m ρ c (Proc.devRef .tc main_arg16) := by host_keep hostOps4_2
    _ = W11 m ρ c (Proc.devRef .tc main_arg16) := by host_keep hostOps4_1
    _ = W10 m ρ c (Proc.devRef .tc main_arg16) := by host_keep hostOps4
    _ = W9 m ρ c (Proc.devRef .tc main_arg16) := W10_of_ne m ρ c main_arg16 (by decide)
    _ = W8 m ρ c (Proc.devRef .tc main_arg16) := by host_keep hostOps3
    _ = W7 m ρ c (Proc.devRef .tc main_arg16) := W8_of_ne m ρ c main_arg16 (by decide)
    _ = W6 m ρ c (Proc.devRef .tc main_arg16) := by host_keep hostOps2
    _ = W5 m ρ c (Proc.devRef .tc main_arg16) := W6_of_ne m ρ c main_arg16 (by decide)
    _ = W4 m ρ c (Proc.devRef .tc main_arg16) := by host_keep hostOps1
    _ = W3 m ρ c (Proc.devRef .tc main_arg16) := W4_of_ne m ρ c main_arg16 (by decide)
    _ = W2 m ρ c (Proc.devRef .tc main_arg16) := by host_keep hostOps0_2
    _ = W1 m ρ c (Proc.devRef .tc main_arg16) := by host_keep hostOps0_1
    _ = W0 m ρ c (Proc.devRef .tc main_arg16) := by host_keep hostOps0
    _ = m ((c : Thread nD τ).loc main_arg16) := rfl

theorem keep_arg18_21_0 (c : Dev nD) : W21 m ρ c (Proc.devRef .tc main_arg18) = m ((c : Thread nD τ).loc main_arg18) :=
  calc W21 m ρ c (Proc.devRef .tc main_arg18)
    _ = W20 m ρ c (Proc.devRef .tc main_arg18) := by host_keep hostOps8
    _ = W19 m ρ c (Proc.devRef .tc main_arg18) := W20_of_ne m ρ c main_arg18 (by decide)
    _ = W18 m ρ c (Proc.devRef .tc main_arg18) := by host_keep hostOps7
    _ = W17 m ρ c (Proc.devRef .tc main_arg18) := W18_of_ne m ρ c main_arg18 (by decide)
    _ = W16 m ρ c (Proc.devRef .tc main_arg18) := by host_keep hostOps6
    _ = W15 m ρ c (Proc.devRef .tc main_arg18) := W16_of_ne m ρ c main_arg18 (by decide)
    _ = W14 m ρ c (Proc.devRef .tc main_arg18) := by host_keep hostOps5
    _ = W13 m ρ c (Proc.devRef .tc main_arg18) := W14_of_ne m ρ c main_arg18 (by decide)
    _ = W12 m ρ c (Proc.devRef .tc main_arg18) := by host_keep hostOps4_2
    _ = W11 m ρ c (Proc.devRef .tc main_arg18) := by host_keep hostOps4_1
    _ = W10 m ρ c (Proc.devRef .tc main_arg18) := by host_keep hostOps4
    _ = W9 m ρ c (Proc.devRef .tc main_arg18) := W10_of_ne m ρ c main_arg18 (by decide)
    _ = W8 m ρ c (Proc.devRef .tc main_arg18) := by host_keep hostOps3
    _ = W7 m ρ c (Proc.devRef .tc main_arg18) := W8_of_ne m ρ c main_arg18 (by decide)
    _ = W6 m ρ c (Proc.devRef .tc main_arg18) := by host_keep hostOps2
    _ = W5 m ρ c (Proc.devRef .tc main_arg18) := W6_of_ne m ρ c main_arg18 (by decide)
    _ = W4 m ρ c (Proc.devRef .tc main_arg18) := by host_keep hostOps1
    _ = W3 m ρ c (Proc.devRef .tc main_arg18) := W4_of_ne m ρ c main_arg18 (by decide)
    _ = W2 m ρ c (Proc.devRef .tc main_arg18) := by host_keep hostOps0_2
    _ = W1 m ρ c (Proc.devRef .tc main_arg18) := by host_keep hostOps0_1
    _ = W0 m ρ c (Proc.devRef .tc main_arg18) := by host_keep hostOps0
    _ = m ((c : Thread nD τ).loc main_arg18) := rfl

theorem keep_arg6_22_0 (c : Dev nD) : W22 m ρ c (Proc.devRef .tc main_arg6) = m ((c : Thread nD τ).loc main_arg6) :=
  calc W22 m ρ c (Proc.devRef .tc main_arg6)
    _ = W21 m ρ c (Proc.devRef .tc main_arg6) := W22_of_ne m ρ c main_arg6 (by decide)
    _ = W20 m ρ c (Proc.devRef .tc main_arg6) := by host_keep hostOps8
    _ = W19 m ρ c (Proc.devRef .tc main_arg6) := W20_of_ne m ρ c main_arg6 (by decide)
    _ = W18 m ρ c (Proc.devRef .tc main_arg6) := by host_keep hostOps7
    _ = W17 m ρ c (Proc.devRef .tc main_arg6) := W18_of_ne m ρ c main_arg6 (by decide)
    _ = W16 m ρ c (Proc.devRef .tc main_arg6) := by host_keep hostOps6
    _ = W15 m ρ c (Proc.devRef .tc main_arg6) := W16_of_ne m ρ c main_arg6 (by decide)
    _ = W14 m ρ c (Proc.devRef .tc main_arg6) := by host_keep hostOps5
    _ = W13 m ρ c (Proc.devRef .tc main_arg6) := W14_of_ne m ρ c main_arg6 (by decide)
    _ = W12 m ρ c (Proc.devRef .tc main_arg6) := by host_keep hostOps4_2
    _ = W11 m ρ c (Proc.devRef .tc main_arg6) := by host_keep hostOps4_1
    _ = W10 m ρ c (Proc.devRef .tc main_arg6) := by host_keep hostOps4
    _ = W9 m ρ c (Proc.devRef .tc main_arg6) := W10_of_ne m ρ c main_arg6 (by decide)
    _ = W8 m ρ c (Proc.devRef .tc main_arg6) := by host_keep hostOps3
    _ = W7 m ρ c (Proc.devRef .tc main_arg6) := W8_of_ne m ρ c main_arg6 (by decide)
    _ = W6 m ρ c (Proc.devRef .tc main_arg6) := by host_keep hostOps2
    _ = W5 m ρ c (Proc.devRef .tc main_arg6) := W6_of_ne m ρ c main_arg6 (by decide)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c : Thread nD τ).loc main_arg6) := rfl

theorem keep_arg15_22_0 (c : Dev nD) : W22 m ρ c (Proc.devRef .tc main_arg15) = m ((c : Thread nD τ).loc main_arg15) :=
  calc W22 m ρ c (Proc.devRef .tc main_arg15)
    _ = W21 m ρ c (Proc.devRef .tc main_arg15) := W22_of_ne m ρ c main_arg15 (by decide)
    _ = W20 m ρ c (Proc.devRef .tc main_arg15) := by host_keep hostOps8
    _ = W19 m ρ c (Proc.devRef .tc main_arg15) := W20_of_ne m ρ c main_arg15 (by decide)
    _ = W18 m ρ c (Proc.devRef .tc main_arg15) := by host_keep hostOps7
    _ = W17 m ρ c (Proc.devRef .tc main_arg15) := W18_of_ne m ρ c main_arg15 (by decide)
    _ = W16 m ρ c (Proc.devRef .tc main_arg15) := by host_keep hostOps6
    _ = W15 m ρ c (Proc.devRef .tc main_arg15) := W16_of_ne m ρ c main_arg15 (by decide)
    _ = W14 m ρ c (Proc.devRef .tc main_arg15) := by host_keep hostOps5
    _ = W13 m ρ c (Proc.devRef .tc main_arg15) := W14_of_ne m ρ c main_arg15 (by decide)
    _ = W12 m ρ c (Proc.devRef .tc main_arg15) := by host_keep hostOps4_2
    _ = W11 m ρ c (Proc.devRef .tc main_arg15) := by host_keep hostOps4_1
    _ = W10 m ρ c (Proc.devRef .tc main_arg15) := by host_keep hostOps4
    _ = W9 m ρ c (Proc.devRef .tc main_arg15) := W10_of_ne m ρ c main_arg15 (by decide)
    _ = W8 m ρ c (Proc.devRef .tc main_arg15) := by host_keep hostOps3
    _ = W7 m ρ c (Proc.devRef .tc main_arg15) := W8_of_ne m ρ c main_arg15 (by decide)
    _ = W6 m ρ c (Proc.devRef .tc main_arg15) := by host_keep hostOps2
    _ = W5 m ρ c (Proc.devRef .tc main_arg15) := W6_of_ne m ρ c main_arg15 (by decide)
    _ = W4 m ρ c (Proc.devRef .tc main_arg15) := by host_keep hostOps1
    _ = W3 m ρ c (Proc.devRef .tc main_arg15) := W4_of_ne m ρ c main_arg15 (by decide)
    _ = W2 m ρ c (Proc.devRef .tc main_arg15) := by host_keep hostOps0_2
    _ = W1 m ρ c (Proc.devRef .tc main_arg15) := by host_keep hostOps0_1
    _ = W0 m ρ c (Proc.devRef .tc main_arg15) := by host_keep hostOps0
    _ = m ((c : Thread nD τ).loc main_arg15) := rfl

theorem keep_arg17_22_0 (c : Dev nD) : W22 m ρ c (Proc.devRef .tc main_arg17) = m ((c : Thread nD τ).loc main_arg17) :=
  calc W22 m ρ c (Proc.devRef .tc main_arg17)
    _ = W21 m ρ c (Proc.devRef .tc main_arg17) := W22_of_ne m ρ c main_arg17 (by decide)
    _ = W20 m ρ c (Proc.devRef .tc main_arg17) := by host_keep hostOps8
    _ = W19 m ρ c (Proc.devRef .tc main_arg17) := W20_of_ne m ρ c main_arg17 (by decide)
    _ = W18 m ρ c (Proc.devRef .tc main_arg17) := by host_keep hostOps7
    _ = W17 m ρ c (Proc.devRef .tc main_arg17) := W18_of_ne m ρ c main_arg17 (by decide)
    _ = W16 m ρ c (Proc.devRef .tc main_arg17) := by host_keep hostOps6
    _ = W15 m ρ c (Proc.devRef .tc main_arg17) := W16_of_ne m ρ c main_arg17 (by decide)
    _ = W14 m ρ c (Proc.devRef .tc main_arg17) := by host_keep hostOps5
    _ = W13 m ρ c (Proc.devRef .tc main_arg17) := W14_of_ne m ρ c main_arg17 (by decide)
    _ = W12 m ρ c (Proc.devRef .tc main_arg17) := by host_keep hostOps4_2
    _ = W11 m ρ c (Proc.devRef .tc main_arg17) := by host_keep hostOps4_1
    _ = W10 m ρ c (Proc.devRef .tc main_arg17) := by host_keep hostOps4
    _ = W9 m ρ c (Proc.devRef .tc main_arg17) := W10_of_ne m ρ c main_arg17 (by decide)
    _ = W8 m ρ c (Proc.devRef .tc main_arg17) := by host_keep hostOps3
    _ = W7 m ρ c (Proc.devRef .tc main_arg17) := W8_of_ne m ρ c main_arg17 (by decide)
    _ = W6 m ρ c (Proc.devRef .tc main_arg17) := by host_keep hostOps2
    _ = W5 m ρ c (Proc.devRef .tc main_arg17) := W6_of_ne m ρ c main_arg17 (by decide)
    _ = W4 m ρ c (Proc.devRef .tc main_arg17) := by host_keep hostOps1
    _ = W3 m ρ c (Proc.devRef .tc main_arg17) := W4_of_ne m ρ c main_arg17 (by decide)
    _ = W2 m ρ c (Proc.devRef .tc main_arg17) := by host_keep hostOps0_2
    _ = W1 m ρ c (Proc.devRef .tc main_arg17) := by host_keep hostOps0_1
    _ = W0 m ρ c (Proc.devRef .tc main_arg17) := by host_keep hostOps0
    _ = m ((c : Thread nD τ).loc main_arg17) := rfl

theorem keep_arg19_22_0 (c : Dev nD) : W22 m ρ c (Proc.devRef .tc main_arg19) = m ((c : Thread nD τ).loc main_arg19) :=
  calc W22 m ρ c (Proc.devRef .tc main_arg19)
    _ = W21 m ρ c (Proc.devRef .tc main_arg19) := W22_of_ne m ρ c main_arg19 (by decide)
    _ = W20 m ρ c (Proc.devRef .tc main_arg19) := by host_keep hostOps8
    _ = W19 m ρ c (Proc.devRef .tc main_arg19) := W20_of_ne m ρ c main_arg19 (by decide)
    _ = W18 m ρ c (Proc.devRef .tc main_arg19) := by host_keep hostOps7
    _ = W17 m ρ c (Proc.devRef .tc main_arg19) := W18_of_ne m ρ c main_arg19 (by decide)
    _ = W16 m ρ c (Proc.devRef .tc main_arg19) := by host_keep hostOps6
    _ = W15 m ρ c (Proc.devRef .tc main_arg19) := W16_of_ne m ρ c main_arg19 (by decide)
    _ = W14 m ρ c (Proc.devRef .tc main_arg19) := by host_keep hostOps5
    _ = W13 m ρ c (Proc.devRef .tc main_arg19) := W14_of_ne m ρ c main_arg19 (by decide)
    _ = W12 m ρ c (Proc.devRef .tc main_arg19) := by host_keep hostOps4_2
    _ = W11 m ρ c (Proc.devRef .tc main_arg19) := by host_keep hostOps4_1
    _ = W10 m ρ c (Proc.devRef .tc main_arg19) := by host_keep hostOps4
    _ = W9 m ρ c (Proc.devRef .tc main_arg19) := W10_of_ne m ρ c main_arg19 (by decide)
    _ = W8 m ρ c (Proc.devRef .tc main_arg19) := by host_keep hostOps3
    _ = W7 m ρ c (Proc.devRef .tc main_arg19) := W8_of_ne m ρ c main_arg19 (by decide)
    _ = W6 m ρ c (Proc.devRef .tc main_arg19) := by host_keep hostOps2
    _ = W5 m ρ c (Proc.devRef .tc main_arg19) := W6_of_ne m ρ c main_arg19 (by decide)
    _ = W4 m ρ c (Proc.devRef .tc main_arg19) := by host_keep hostOps1
    _ = W3 m ρ c (Proc.devRef .tc main_arg19) := W4_of_ne m ρ c main_arg19 (by decide)
    _ = W2 m ρ c (Proc.devRef .tc main_arg19) := by host_keep hostOps0_2
    _ = W1 m ρ c (Proc.devRef .tc main_arg19) := by host_keep hostOps0_1
    _ = W0 m ρ c (Proc.devRef .tc main_arg19) := by host_keep hostOps0
    _ = m ((c : Thread nD τ).loc main_arg19) := rfl

theorem keep_arg16_23_0 (c : Dev nD) : W23 m ρ c (Proc.devRef .tc main_arg16) = m ((c : Thread nD τ).loc main_arg16) :=
  calc W23 m ρ c (Proc.devRef .tc main_arg16)
    _ = W22 m ρ c (Proc.devRef .tc main_arg16) := by host_keep hostOps9
    _ = W21 m ρ c (Proc.devRef .tc main_arg16) := (W22_arr m ρ c 1).trans (((dat8 (V21 m ρ) c).arrAt_in 1 rfl _).trans (A_eq8 (V21 m ρ) c 1))
    _ = W20 m ρ c (Proc.devRef .tc main_arg16) := by host_keep hostOps8
    _ = W19 m ρ c (Proc.devRef .tc main_arg16) := W20_of_ne m ρ c main_arg16 (by decide)
    _ = W18 m ρ c (Proc.devRef .tc main_arg16) := by host_keep hostOps7
    _ = W17 m ρ c (Proc.devRef .tc main_arg16) := W18_of_ne m ρ c main_arg16 (by decide)
    _ = W16 m ρ c (Proc.devRef .tc main_arg16) := by host_keep hostOps6
    _ = W15 m ρ c (Proc.devRef .tc main_arg16) := W16_of_ne m ρ c main_arg16 (by decide)
    _ = W14 m ρ c (Proc.devRef .tc main_arg16) := by host_keep hostOps5
    _ = W13 m ρ c (Proc.devRef .tc main_arg16) := W14_of_ne m ρ c main_arg16 (by decide)
    _ = W12 m ρ c (Proc.devRef .tc main_arg16) := by host_keep hostOps4_2
    _ = W11 m ρ c (Proc.devRef .tc main_arg16) := by host_keep hostOps4_1
    _ = W10 m ρ c (Proc.devRef .tc main_arg16) := by host_keep hostOps4
    _ = W9 m ρ c (Proc.devRef .tc main_arg16) := W10_of_ne m ρ c main_arg16 (by decide)
    _ = W8 m ρ c (Proc.devRef .tc main_arg16) := by host_keep hostOps3
    _ = W7 m ρ c (Proc.devRef .tc main_arg16) := W8_of_ne m ρ c main_arg16 (by decide)
    _ = W6 m ρ c (Proc.devRef .tc main_arg16) := by host_keep hostOps2
    _ = W5 m ρ c (Proc.devRef .tc main_arg16) := W6_of_ne m ρ c main_arg16 (by decide)
    _ = W4 m ρ c (Proc.devRef .tc main_arg16) := by host_keep hostOps1
    _ = W3 m ρ c (Proc.devRef .tc main_arg16) := W4_of_ne m ρ c main_arg16 (by decide)
    _ = W2 m ρ c (Proc.devRef .tc main_arg16) := by host_keep hostOps0_2
    _ = W1 m ρ c (Proc.devRef .tc main_arg16) := by host_keep hostOps0_1
    _ = W0 m ρ c (Proc.devRef .tc main_arg16) := by host_keep hostOps0
    _ = m ((c : Thread nD τ).loc main_arg16) := rfl

theorem keep_arg18_23_0 (c : Dev nD) : W23 m ρ c (Proc.devRef .tc main_arg18) = m ((c : Thread nD τ).loc main_arg18) :=
  calc W23 m ρ c (Proc.devRef .tc main_arg18)
    _ = W22 m ρ c (Proc.devRef .tc main_arg18) := by host_keep hostOps9
    _ = W21 m ρ c (Proc.devRef .tc main_arg18) := (W22_arr m ρ c 3).trans (((dat8 (V21 m ρ) c).arrAt_in 3 rfl _).trans (A_eq8 (V21 m ρ) c 3))
    _ = W20 m ρ c (Proc.devRef .tc main_arg18) := by host_keep hostOps8
    _ = W19 m ρ c (Proc.devRef .tc main_arg18) := W20_of_ne m ρ c main_arg18 (by decide)
    _ = W18 m ρ c (Proc.devRef .tc main_arg18) := by host_keep hostOps7
    _ = W17 m ρ c (Proc.devRef .tc main_arg18) := W18_of_ne m ρ c main_arg18 (by decide)
    _ = W16 m ρ c (Proc.devRef .tc main_arg18) := by host_keep hostOps6
    _ = W15 m ρ c (Proc.devRef .tc main_arg18) := W16_of_ne m ρ c main_arg18 (by decide)
    _ = W14 m ρ c (Proc.devRef .tc main_arg18) := by host_keep hostOps5
    _ = W13 m ρ c (Proc.devRef .tc main_arg18) := W14_of_ne m ρ c main_arg18 (by decide)
    _ = W12 m ρ c (Proc.devRef .tc main_arg18) := by host_keep hostOps4_2
    _ = W11 m ρ c (Proc.devRef .tc main_arg18) := by host_keep hostOps4_1
    _ = W10 m ρ c (Proc.devRef .tc main_arg18) := by host_keep hostOps4
    _ = W9 m ρ c (Proc.devRef .tc main_arg18) := W10_of_ne m ρ c main_arg18 (by decide)
    _ = W8 m ρ c (Proc.devRef .tc main_arg18) := by host_keep hostOps3
    _ = W7 m ρ c (Proc.devRef .tc main_arg18) := W8_of_ne m ρ c main_arg18 (by decide)
    _ = W6 m ρ c (Proc.devRef .tc main_arg18) := by host_keep hostOps2
    _ = W5 m ρ c (Proc.devRef .tc main_arg18) := W6_of_ne m ρ c main_arg18 (by decide)
    _ = W4 m ρ c (Proc.devRef .tc main_arg18) := by host_keep hostOps1
    _ = W3 m ρ c (Proc.devRef .tc main_arg18) := W4_of_ne m ρ c main_arg18 (by decide)
    _ = W2 m ρ c (Proc.devRef .tc main_arg18) := by host_keep hostOps0_2
    _ = W1 m ρ c (Proc.devRef .tc main_arg18) := by host_keep hostOps0_1
    _ = W0 m ρ c (Proc.devRef .tc main_arg18) := by host_keep hostOps0
    _ = m ((c : Thread nD τ).loc main_arg18) := rfl

theorem keep_arg20_24_0 (c : Dev nD) : W24 m ρ c (Proc.devRef .tc main_arg20) = m ((c : Thread nD τ).loc main_arg20) :=
  calc W24 m ρ c (Proc.devRef .tc main_arg20)
    _ = W23 m ρ c (Proc.devRef .tc main_arg20) := W24_of_ne m ρ c main_arg20 (by decide)
    _ = W22 m ρ c (Proc.devRef .tc main_arg20) := by host_keep hostOps9
    _ = W21 m ρ c (Proc.devRef .tc main_arg20) := W22_of_ne m ρ c main_arg20 (by decide)
    _ = W20 m ρ c (Proc.devRef .tc main_arg20) := by host_keep hostOps8
    _ = W19 m ρ c (Proc.devRef .tc main_arg20) := W20_of_ne m ρ c main_arg20 (by decide)
    _ = W18 m ρ c (Proc.devRef .tc main_arg20) := by host_keep hostOps7
    _ = W17 m ρ c (Proc.devRef .tc main_arg20) := W18_of_ne m ρ c main_arg20 (by decide)
    _ = W16 m ρ c (Proc.devRef .tc main_arg20) := by host_keep hostOps6
    _ = W15 m ρ c (Proc.devRef .tc main_arg20) := W16_of_ne m ρ c main_arg20 (by decide)
    _ = W14 m ρ c (Proc.devRef .tc main_arg20) := by host_keep hostOps5
    _ = W13 m ρ c (Proc.devRef .tc main_arg20) := W14_of_ne m ρ c main_arg20 (by decide)
    _ = W12 m ρ c (Proc.devRef .tc main_arg20) := by host_keep hostOps4_2
    _ = W11 m ρ c (Proc.devRef .tc main_arg20) := by host_keep hostOps4_1
    _ = W10 m ρ c (Proc.devRef .tc main_arg20) := by host_keep hostOps4
    _ = W9 m ρ c (Proc.devRef .tc main_arg20) := W10_of_ne m ρ c main_arg20 (by decide)
    _ = W8 m ρ c (Proc.devRef .tc main_arg20) := by host_keep hostOps3
    _ = W7 m ρ c (Proc.devRef .tc main_arg20) := W8_of_ne m ρ c main_arg20 (by decide)
    _ = W6 m ρ c (Proc.devRef .tc main_arg20) := by host_keep hostOps2
    _ = W5 m ρ c (Proc.devRef .tc main_arg20) := W6_of_ne m ρ c main_arg20 (by decide)
    _ = W4 m ρ c (Proc.devRef .tc main_arg20) := by host_keep hostOps1
    _ = W3 m ρ c (Proc.devRef .tc main_arg20) := W4_of_ne m ρ c main_arg20 (by decide)
    _ = W2 m ρ c (Proc.devRef .tc main_arg20) := by host_keep hostOps0_2
    _ = W1 m ρ c (Proc.devRef .tc main_arg20) := by host_keep hostOps0_1
    _ = W0 m ρ c (Proc.devRef .tc main_arg20) := by host_keep hostOps0
    _ = m ((c : Thread nD τ).loc main_arg20) := rfl

theorem keep_arg21_24_0 (c : Dev nD) : W24 m ρ c (Proc.devRef .tc main_arg21) = m ((c : Thread nD τ).loc main_arg21) :=
  calc W24 m ρ c (Proc.devRef .tc main_arg21)
    _ = W23 m ρ c (Proc.devRef .tc main_arg21) := W24_of_ne m ρ c main_arg21 (by decide)
    _ = W22 m ρ c (Proc.devRef .tc main_arg21) := by host_keep hostOps9
    _ = W21 m ρ c (Proc.devRef .tc main_arg21) := W22_of_ne m ρ c main_arg21 (by decide)
    _ = W20 m ρ c (Proc.devRef .tc main_arg21) := by host_keep hostOps8
    _ = W19 m ρ c (Proc.devRef .tc main_arg21) := W20_of_ne m ρ c main_arg21 (by decide)
    _ = W18 m ρ c (Proc.devRef .tc main_arg21) := by host_keep hostOps7
    _ = W17 m ρ c (Proc.devRef .tc main_arg21) := W18_of_ne m ρ c main_arg21 (by decide)
    _ = W16 m ρ c (Proc.devRef .tc main_arg21) := by host_keep hostOps6
    _ = W15 m ρ c (Proc.devRef .tc main_arg21) := W16_of_ne m ρ c main_arg21 (by decide)
    _ = W14 m ρ c (Proc.devRef .tc main_arg21) := by host_keep hostOps5
    _ = W13 m ρ c (Proc.devRef .tc main_arg21) := W14_of_ne m ρ c main_arg21 (by decide)
    _ = W12 m ρ c (Proc.devRef .tc main_arg21) := by host_keep hostOps4_2
    _ = W11 m ρ c (Proc.devRef .tc main_arg21) := by host_keep hostOps4_1
    _ = W10 m ρ c (Proc.devRef .tc main_arg21) := by host_keep hostOps4
    _ = W9 m ρ c (Proc.devRef .tc main_arg21) := W10_of_ne m ρ c main_arg21 (by decide)
    _ = W8 m ρ c (Proc.devRef .tc main_arg21) := by host_keep hostOps3
    _ = W7 m ρ c (Proc.devRef .tc main_arg21) := W8_of_ne m ρ c main_arg21 (by decide)
    _ = W6 m ρ c (Proc.devRef .tc main_arg21) := by host_keep hostOps2
    _ = W5 m ρ c (Proc.devRef .tc main_arg21) := W6_of_ne m ρ c main_arg21 (by decide)
    _ = W4 m ρ c (Proc.devRef .tc main_arg21) := by host_keep hostOps1
    _ = W3 m ρ c (Proc.devRef .tc main_arg21) := W4_of_ne m ρ c main_arg21 (by decide)
    _ = W2 m ρ c (Proc.devRef .tc main_arg21) := by host_keep hostOps0_2
    _ = W1 m ρ c (Proc.devRef .tc main_arg21) := by host_keep hostOps0_1
    _ = W0 m ρ c (Proc.devRef .tc main_arg21) := by host_keep hostOps0
    _ = m ((c : Thread nD τ).loc main_arg21) := rfl

theorem keep_arg23_24_0 (c : Dev nD) : W24 m ρ c (Proc.devRef .tc main_arg23) = m ((c : Thread nD τ).loc main_arg23) :=
  calc W24 m ρ c (Proc.devRef .tc main_arg23)
    _ = W23 m ρ c (Proc.devRef .tc main_arg23) := W24_of_ne m ρ c main_arg23 (by decide)
    _ = W22 m ρ c (Proc.devRef .tc main_arg23) := by host_keep hostOps9
    _ = W21 m ρ c (Proc.devRef .tc main_arg23) := W22_of_ne m ρ c main_arg23 (by decide)
    _ = W20 m ρ c (Proc.devRef .tc main_arg23) := by host_keep hostOps8
    _ = W19 m ρ c (Proc.devRef .tc main_arg23) := W20_of_ne m ρ c main_arg23 (by decide)
    _ = W18 m ρ c (Proc.devRef .tc main_arg23) := by host_keep hostOps7
    _ = W17 m ρ c (Proc.devRef .tc main_arg23) := W18_of_ne m ρ c main_arg23 (by decide)
    _ = W16 m ρ c (Proc.devRef .tc main_arg23) := by host_keep hostOps6
    _ = W15 m ρ c (Proc.devRef .tc main_arg23) := W16_of_ne m ρ c main_arg23 (by decide)
    _ = W14 m ρ c (Proc.devRef .tc main_arg23) := by host_keep hostOps5
    _ = W13 m ρ c (Proc.devRef .tc main_arg23) := W14_of_ne m ρ c main_arg23 (by decide)
    _ = W12 m ρ c (Proc.devRef .tc main_arg23) := by host_keep hostOps4_2
    _ = W11 m ρ c (Proc.devRef .tc main_arg23) := by host_keep hostOps4_1
    _ = W10 m ρ c (Proc.devRef .tc main_arg23) := by host_keep hostOps4
    _ = W9 m ρ c (Proc.devRef .tc main_arg23) := W10_of_ne m ρ c main_arg23 (by decide)
    _ = W8 m ρ c (Proc.devRef .tc main_arg23) := by host_keep hostOps3
    _ = W7 m ρ c (Proc.devRef .tc main_arg23) := W8_of_ne m ρ c main_arg23 (by decide)
    _ = W6 m ρ c (Proc.devRef .tc main_arg23) := by host_keep hostOps2
    _ = W5 m ρ c (Proc.devRef .tc main_arg23) := W6_of_ne m ρ c main_arg23 (by decide)
    _ = W4 m ρ c (Proc.devRef .tc main_arg23) := by host_keep hostOps1
    _ = W3 m ρ c (Proc.devRef .tc main_arg23) := W4_of_ne m ρ c main_arg23 (by decide)
    _ = W2 m ρ c (Proc.devRef .tc main_arg23) := by host_keep hostOps0_2
    _ = W1 m ρ c (Proc.devRef .tc main_arg23) := by host_keep hostOps0_1
    _ = W0 m ρ c (Proc.devRef .tc main_arg23) := by host_keep hostOps0
    _ = m ((c : Thread nD τ).loc main_arg23) := rfl

theorem keep_arg25_24_0 (c : Dev nD) : W24 m ρ c (Proc.devRef .tc main_arg25) = m ((c : Thread nD τ).loc main_arg25) :=
  calc W24 m ρ c (Proc.devRef .tc main_arg25)
    _ = W23 m ρ c (Proc.devRef .tc main_arg25) := W24_of_ne m ρ c main_arg25 (by decide)
    _ = W22 m ρ c (Proc.devRef .tc main_arg25) := by host_keep hostOps9
    _ = W21 m ρ c (Proc.devRef .tc main_arg25) := W22_of_ne m ρ c main_arg25 (by decide)
    _ = W20 m ρ c (Proc.devRef .tc main_arg25) := by host_keep hostOps8
    _ = W19 m ρ c (Proc.devRef .tc main_arg25) := W20_of_ne m ρ c main_arg25 (by decide)
    _ = W18 m ρ c (Proc.devRef .tc main_arg25) := by host_keep hostOps7
    _ = W17 m ρ c (Proc.devRef .tc main_arg25) := W18_of_ne m ρ c main_arg25 (by decide)
    _ = W16 m ρ c (Proc.devRef .tc main_arg25) := by host_keep hostOps6
    _ = W15 m ρ c (Proc.devRef .tc main_arg25) := W16_of_ne m ρ c main_arg25 (by decide)
    _ = W14 m ρ c (Proc.devRef .tc main_arg25) := by host_keep hostOps5
    _ = W13 m ρ c (Proc.devRef .tc main_arg25) := W14_of_ne m ρ c main_arg25 (by decide)
    _ = W12 m ρ c (Proc.devRef .tc main_arg25) := by host_keep hostOps4_2
    _ = W11 m ρ c (Proc.devRef .tc main_arg25) := by host_keep hostOps4_1
    _ = W10 m ρ c (Proc.devRef .tc main_arg25) := by host_keep hostOps4
    _ = W9 m ρ c (Proc.devRef .tc main_arg25) := W10_of_ne m ρ c main_arg25 (by decide)
    _ = W8 m ρ c (Proc.devRef .tc main_arg25) := by host_keep hostOps3
    _ = W7 m ρ c (Proc.devRef .tc main_arg25) := W8_of_ne m ρ c main_arg25 (by decide)
    _ = W6 m ρ c (Proc.devRef .tc main_arg25) := by host_keep hostOps2
    _ = W5 m ρ c (Proc.devRef .tc main_arg25) := W6_of_ne m ρ c main_arg25 (by decide)
    _ = W4 m ρ c (Proc.devRef .tc main_arg25) := by host_keep hostOps1
    _ = W3 m ρ c (Proc.devRef .tc main_arg25) := W4_of_ne m ρ c main_arg25 (by decide)
    _ = W2 m ρ c (Proc.devRef .tc main_arg25) := by host_keep hostOps0_2
    _ = W1 m ρ c (Proc.devRef .tc main_arg25) := by host_keep hostOps0_1
    _ = W0 m ρ c (Proc.devRef .tc main_arg25) := by host_keep hostOps0
    _ = m ((c : Thread nD τ).loc main_arg25) := rfl

theorem keep_v85_25_10 (c : Dev nD) : W25 m ρ c (Proc.devRef .tc main_v85) = W10 m ρ c (Proc.devRef .tc main_v85) :=
  calc W25 m ρ c (Proc.devRef .tc main_v85)
    _ = W24 m ρ c (Proc.devRef .tc main_v85) := by host_keep hostOps10
    _ = W23 m ρ c (Proc.devRef .tc main_v85) := W24_of_ne m ρ c main_v85 (by decide)
    _ = W22 m ρ c (Proc.devRef .tc main_v85) := by host_keep hostOps9
    _ = W21 m ρ c (Proc.devRef .tc main_v85) := W22_of_ne m ρ c main_v85 (by decide)
    _ = W20 m ρ c (Proc.devRef .tc main_v85) := by host_keep hostOps8
    _ = W19 m ρ c (Proc.devRef .tc main_v85) := W20_of_ne m ρ c main_v85 (by decide)
    _ = W18 m ρ c (Proc.devRef .tc main_v85) := by host_keep hostOps7
    _ = W17 m ρ c (Proc.devRef .tc main_v85) := W18_of_ne m ρ c main_v85 (by decide)
    _ = W16 m ρ c (Proc.devRef .tc main_v85) := by host_keep hostOps6
    _ = W15 m ρ c (Proc.devRef .tc main_v85) := W16_of_ne m ρ c main_v85 (by decide)
    _ = W14 m ρ c (Proc.devRef .tc main_v85) := by host_keep hostOps5
    _ = W13 m ρ c (Proc.devRef .tc main_v85) := W14_of_ne m ρ c main_v85 (by decide)
    _ = W12 m ρ c (Proc.devRef .tc main_v85) := by host_keep hostOps4_2
    _ = W11 m ρ c (Proc.devRef .tc main_v85) := by host_keep hostOps4_1
    _ = W10 m ρ c (Proc.devRef .tc main_v85) := by host_keep hostOps4

theorem keep_v171_25_20 (c : Dev nD) : W25 m ρ c (Proc.devRef .tc main_v171) = W20 m ρ c (Proc.devRef .tc main_v171) :=
  calc W25 m ρ c (Proc.devRef .tc main_v171)
    _ = W24 m ρ c (Proc.devRef .tc main_v171) := by host_keep hostOps10
    _ = W23 m ρ c (Proc.devRef .tc main_v171) := W24_of_ne m ρ c main_v171 (by decide)
    _ = W22 m ρ c (Proc.devRef .tc main_v171) := by host_keep hostOps9
    _ = W21 m ρ c (Proc.devRef .tc main_v171) := W22_of_ne m ρ c main_v171 (by decide)
    _ = W20 m ρ c (Proc.devRef .tc main_v171) := by host_keep hostOps8

theorem keep_v181_25_22 (c : Dev nD) : W25 m ρ c (Proc.devRef .tc main_v181) = W22 m ρ c (Proc.devRef .tc main_v181) :=
  calc W25 m ρ c (Proc.devRef .tc main_v181)
    _ = W24 m ρ c (Proc.devRef .tc main_v181) := by host_keep hostOps10
    _ = W23 m ρ c (Proc.devRef .tc main_v181) := W24_of_ne m ρ c main_v181 (by decide)
    _ = W22 m ρ c (Proc.devRef .tc main_v181) := by host_keep hostOps9

theorem keep_v191_25_24 (c : Dev nD) : W25 m ρ c (Proc.devRef .tc main_v191) = W24 m ρ c (Proc.devRef .tc main_v191) :=
  calc W25 m ρ c (Proc.devRef .tc main_v191)
    _ = W24 m ρ c (Proc.devRef .tc main_v191) := by host_keep hostOps10

theorem keep_arg22_25_0 (c : Dev nD) : W25 m ρ c (Proc.devRef .tc main_arg22) = m ((c : Thread nD τ).loc main_arg22) :=
  calc W25 m ρ c (Proc.devRef .tc main_arg22)
    _ = W24 m ρ c (Proc.devRef .tc main_arg22) := by host_keep hostOps10
    _ = W23 m ρ c (Proc.devRef .tc main_arg22) := W24_of_ne m ρ c main_arg22 (by decide)
    _ = W22 m ρ c (Proc.devRef .tc main_arg22) := by host_keep hostOps9
    _ = W21 m ρ c (Proc.devRef .tc main_arg22) := W22_of_ne m ρ c main_arg22 (by decide)
    _ = W20 m ρ c (Proc.devRef .tc main_arg22) := by host_keep hostOps8
    _ = W19 m ρ c (Proc.devRef .tc main_arg22) := W20_of_ne m ρ c main_arg22 (by decide)
    _ = W18 m ρ c (Proc.devRef .tc main_arg22) := by host_keep hostOps7
    _ = W17 m ρ c (Proc.devRef .tc main_arg22) := W18_of_ne m ρ c main_arg22 (by decide)
    _ = W16 m ρ c (Proc.devRef .tc main_arg22) := by host_keep hostOps6
    _ = W15 m ρ c (Proc.devRef .tc main_arg22) := W16_of_ne m ρ c main_arg22 (by decide)
    _ = W14 m ρ c (Proc.devRef .tc main_arg22) := by host_keep hostOps5
    _ = W13 m ρ c (Proc.devRef .tc main_arg22) := W14_of_ne m ρ c main_arg22 (by decide)
    _ = W12 m ρ c (Proc.devRef .tc main_arg22) := by host_keep hostOps4_2
    _ = W11 m ρ c (Proc.devRef .tc main_arg22) := by host_keep hostOps4_1
    _ = W10 m ρ c (Proc.devRef .tc main_arg22) := by host_keep hostOps4
    _ = W9 m ρ c (Proc.devRef .tc main_arg22) := W10_of_ne m ρ c main_arg22 (by decide)
    _ = W8 m ρ c (Proc.devRef .tc main_arg22) := by host_keep hostOps3
    _ = W7 m ρ c (Proc.devRef .tc main_arg22) := W8_of_ne m ρ c main_arg22 (by decide)
    _ = W6 m ρ c (Proc.devRef .tc main_arg22) := by host_keep hostOps2
    _ = W5 m ρ c (Proc.devRef .tc main_arg22) := W6_of_ne m ρ c main_arg22 (by decide)
    _ = W4 m ρ c (Proc.devRef .tc main_arg22) := by host_keep hostOps1
    _ = W3 m ρ c (Proc.devRef .tc main_arg22) := W4_of_ne m ρ c main_arg22 (by decide)
    _ = W2 m ρ c (Proc.devRef .tc main_arg22) := by host_keep hostOps0_2
    _ = W1 m ρ c (Proc.devRef .tc main_arg22) := by host_keep hostOps0_1
    _ = W0 m ρ c (Proc.devRef .tc main_arg22) := by host_keep hostOps0
    _ = m ((c : Thread nD τ).loc main_arg22) := rfl

theorem keep_arg24_25_0 (c : Dev nD) : W25 m ρ c (Proc.devRef .tc main_arg24) = m ((c : Thread nD τ).loc main_arg24) :=
  calc W25 m ρ c (Proc.devRef .tc main_arg24)
    _ = W24 m ρ c (Proc.devRef .tc main_arg24) := by host_keep hostOps10
    _ = W23 m ρ c (Proc.devRef .tc main_arg24) := W24_of_ne m ρ c main_arg24 (by decide)
    _ = W22 m ρ c (Proc.devRef .tc main_arg24) := by host_keep hostOps9
    _ = W21 m ρ c (Proc.devRef .tc main_arg24) := W22_of_ne m ρ c main_arg24 (by decide)
    _ = W20 m ρ c (Proc.devRef .tc main_arg24) := by host_keep hostOps8
    _ = W19 m ρ c (Proc.devRef .tc main_arg24) := W20_of_ne m ρ c main_arg24 (by decide)
    _ = W18 m ρ c (Proc.devRef .tc main_arg24) := by host_keep hostOps7
    _ = W17 m ρ c (Proc.devRef .tc main_arg24) := W18_of_ne m ρ c main_arg24 (by decide)
    _ = W16 m ρ c (Proc.devRef .tc main_arg24) := by host_keep hostOps6
    _ = W15 m ρ c (Proc.devRef .tc main_arg24) := W16_of_ne m ρ c main_arg24 (by decide)
    _ = W14 m ρ c (Proc.devRef .tc main_arg24) := by host_keep hostOps5
    _ = W13 m ρ c (Proc.devRef .tc main_arg24) := W14_of_ne m ρ c main_arg24 (by decide)
    _ = W12 m ρ c (Proc.devRef .tc main_arg24) := by host_keep hostOps4_2
    _ = W11 m ρ c (Proc.devRef .tc main_arg24) := by host_keep hostOps4_1
    _ = W10 m ρ c (Proc.devRef .tc main_arg24) := by host_keep hostOps4
    _ = W9 m ρ c (Proc.devRef .tc main_arg24) := W10_of_ne m ρ c main_arg24 (by decide)
    _ = W8 m ρ c (Proc.devRef .tc main_arg24) := by host_keep hostOps3
    _ = W7 m ρ c (Proc.devRef .tc main_arg24) := W8_of_ne m ρ c main_arg24 (by decide)
    _ = W6 m ρ c (Proc.devRef .tc main_arg24) := by host_keep hostOps2
    _ = W5 m ρ c (Proc.devRef .tc main_arg24) := W6_of_ne m ρ c main_arg24 (by decide)
    _ = W4 m ρ c (Proc.devRef .tc main_arg24) := by host_keep hostOps1
    _ = W3 m ρ c (Proc.devRef .tc main_arg24) := W4_of_ne m ρ c main_arg24 (by decide)
    _ = W2 m ρ c (Proc.devRef .tc main_arg24) := by host_keep hostOps0_2
    _ = W1 m ρ c (Proc.devRef .tc main_arg24) := by host_keep hostOps0_1
    _ = W0 m ρ c (Proc.devRef .tc main_arg24) := by host_keep hostOps0
    _ = m ((c : Thread nD τ).loc main_arg24) := rfl

end Cert.KernelIdeal.Bridge

end
-- ==== Proof.AggLinear.lean ====
/-
  Aggregation over graph edges commutes with a right multiplication by a weight matrix.

  The aggregation of a node table `X` (one row per node) is: gather the rows at the edges' source
  nodes, scale row `e` by the edge weight `nrm e`, and add every scaled row into the row of the
  edge's destination node, starting from zeros. Read at row `r` and column `k` it is the finite sum
  `∑ e with destination r, X (source e, k) * nrm e`. It is linear in `X`, so aggregating and then
  multiplying by `W` equals multiplying by `W` and then aggregating, provided every entry is a real
  number: over the extended reals multiplication does not distribute over addition at the
  infinities, which is why the statements carry finiteness hypotheses.
-/
import proofs.«135828_j71159018160437_2_alg».proof.KernelIdeal
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.Bridge.Agg

open Cert.KernelIdeal Cert.KernelIdeal.Facts₀ Idealize.ShloMosaic Idealize.ShloMosaic.ValueIdx

variable [Facts₀]

/-! ## The source row of an edge, and the destination row when it is inside the table -/

/-- The source node of edge `e`: the start index read as a signed integer and clamped into the table. -/
def src (sidx : IVec S850000x1 32) (e : Fin 850000) : Fin 50000 :=
  ⟨min (sidx (ix2 e (0 : Fin 1))).toInt.toNat 49999, by omega⟩

/-- The destination node of edge `e`: the scatter index read as a signed integer, when it names a row of
    the table (an update whose index falls outside is dropped). -/
def dst (didx : IVec S850000x1 32) (e : Fin 850000) : Option (Fin 50000) :=
  if h : 0 ≤ (didx (ix2 e (0 : Fin 1))).toInt ∧ (didx (ix2 e (0 : Fin 1))).toInt < 50000 then
    some ⟨(didx (ix2 e (0 : Fin 1))).toInt.toNat, by omega⟩
  else none

/-- An axis is kept exactly when it is not among the removed ones. -/
theorem mem_kept_iff {s : Shape} (axes : List (Fin s.rank)) (a : Fin s.rank) : a ∈ s.kept axes ↔ a ∉ axes := by
  simp [Shape.kept, List.mem_filter, List.mem_finRange]

private theorem one_ne_zero2 : (1 : Fin 2) ≠ 0 := by decide

/-! ## The gathers read at a row and a column -/

section Gather
variable {α : Type}

/-- The 128-wide row gather at edge `e`, column `k`: the table at the edge's source row, same column. -/
theorem gather128_apply (X : S50000x128.Idx → α) (sidx : IVec S850000x1 32) (e : Fin 850000) (k : Fin 128) :
    Host.gather gather_S50000x128_S850000x1_S850000x128_1_0_n_n_0_1_1128 X sidx (ix2 e k) = X (ix2 (src sidx e) k) := by
  unfold Host.gather
  congr 1
  funext a
  refine Fin.ext ?_
  match a with
  | ⟨0, _⟩ =>
    show GatherDims.start gather_S50000x128_S850000x1_S850000x128_1_0_n_n_0_1_1128 (ix2 e k) sidx 0
        + GatherDims.batchCoord gather_S50000x128_S850000x1_S850000x128_1_0_n_n_0_1_1128 (ix2 e k) 0
        + GatherDims.offCoord gather_S50000x128_S850000x1_S850000x128_1_0_n_n_0_1_1128 (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S50000x128_S850000x1_S850000x128_1_0_n_n_0_1_1128).startIndexMap from List.mem_singleton.mpr rfl)]
    have hsi : (gather_S50000x128_S850000x1_S850000x128_1_0_n_n_0_1_1128).siIdx (ix2 e k)
        ⟨List.idxOf (0 : Fin 2) (gather_S50000x128_S850000x1_S850000x128_1_0_n_n_0_1_1128).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start gather_S50000x128_S850000x1_S850000x128_1_0_n_n_0_1_1128 (ix2 e k) sidx 1
        + GatherDims.batchCoord gather_S50000x128_S850000x1_S850000x128_1_0_n_n_0_1_1128 (ix2 e k) 1
        + GatherDims.offCoord gather_S50000x128_S850000x1_S850000x128_1_0_n_n_0_1_1128 (ix2 e k) 1 = k.val
    rw [GatherDims.batchCoord_eq_zero _ _ _ List.not_mem_nil]
    unfold GatherDims.start
    rw [dif_neg (show ¬ (1 : Fin 2) ∈ (gather_S50000x128_S850000x1_S850000x128_1_0_n_n_0_1_1128).startIndexMap from fun h => one_ne_zero2 (List.mem_singleton.mp h))]
    unfold GatherDims.offCoord
    rw [dif_pos (show (1 : Fin 2) ∈ (gather_S50000x128_S850000x1_S850000x128_1_0_n_n_0_1_1128).sKept from (mem_kept_iff _ _).2 fun h => one_ne_zero2 (List.mem_singleton.mp h))]
    simp only [Nat.zero_add]
    rfl

/-- The 256-wide row gather at edge `e`, column `k`: the table at the edge's source row, same column. -/
theorem gather256_apply (X : S50000x256.Idx → α) (sidx : IVec S850000x1 32) (e : Fin 850000) (k : Fin 256) :
    Host.gather gather_S50000x256_S850000x1_S850000x256_1_0_n_n_0_1_1256 X sidx (ix2 e k) = X (ix2 (src sidx e) k) := by
  unfold Host.gather
  congr 1
  funext a
  refine Fin.ext ?_
  match a with
  | ⟨0, _⟩ =>
    show GatherDims.start gather_S50000x256_S850000x1_S850000x256_1_0_n_n_0_1_1256 (ix2 e k) sidx 0
        + GatherDims.batchCoord gather_S50000x256_S850000x1_S850000x256_1_0_n_n_0_1_1256 (ix2 e k) 0
        + GatherDims.offCoord gather_S50000x256_S850000x1_S850000x256_1_0_n_n_0_1_1256 (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S50000x256_S850000x1_S850000x256_1_0_n_n_0_1_1256).startIndexMap from List.mem_singleton.mpr rfl)]
    have hsi : (gather_S50000x256_S850000x1_S850000x256_1_0_n_n_0_1_1256).siIdx (ix2 e k)
        ⟨List.idxOf (0 : Fin 2) (gather_S50000x256_S850000x1_S850000x256_1_0_n_n_0_1_1256).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start gather_S50000x256_S850000x1_S850000x256_1_0_n_n_0_1_1256 (ix2 e k) sidx 1
        + GatherDims.batchCoord gather_S50000x256_S850000x1_S850000x256_1_0_n_n_0_1_1256 (ix2 e k) 1
        + GatherDims.offCoord gather_S50000x256_S850000x1_S850000x256_1_0_n_n_0_1_1256 (ix2 e k) 1 = k.val
    rw [GatherDims.batchCoord_eq_zero _ _ _ List.not_mem_nil]
    unfold GatherDims.start
    rw [dif_neg (show ¬ (1 : Fin 2) ∈ (gather_S50000x256_S850000x1_S850000x256_1_0_n_n_0_1_1256).startIndexMap from fun h => one_ne_zero2 (List.mem_singleton.mp h))]
    unfold GatherDims.offCoord
    rw [dif_pos (show (1 : Fin 2) ∈ (gather_S50000x256_S850000x1_S850000x256_1_0_n_n_0_1_1256).sKept from (mem_kept_iff _ _).2 fun h => one_ne_zero2 (List.mem_singleton.mp h))]
    simp only [Nat.zero_add]
    rfl

end Gather

/-! ## The scatters' coordinates -/

theorem scatter128_start0 (didx : IVec S850000x1 32) (e : Fin 850000) (k : Fin 128) :
    ScatterDims.start scatter_S50000x128_S850000x1_S850000x128_1_0_0_1 (ix2 e k) didx 0 = (didx (ix2 e (0 : Fin 1))).toInt := by
  unfold ScatterDims.start
  rw [dif_pos (show (0 : Fin 2) ∈ (scatter_S50000x128_S850000x1_S850000x128_1_0_0_1).scatterDimsToOperandDims from List.mem_singleton.mpr rfl)]
  have hsi : (scatter_S50000x128_S850000x1_S850000x128_1_0_0_1).siIdx (ix2 e k)
      ⟨List.idxOf (0 : Fin 2) (scatter_S50000x128_S850000x1_S850000x128_1_0_0_1).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
theorem scatter128_start1 (didx : IVec S850000x1 32) (e : Fin 850000) (k : Fin 128) :
    ScatterDims.start scatter_S50000x128_S850000x1_S850000x128_1_0_0_1 (ix2 e k) didx 1 = 0 := by
  unfold ScatterDims.start
  rw [dif_neg (show ¬ (1 : Fin 2) ∈ (scatter_S50000x128_S850000x1_S850000x128_1_0_0_1).scatterDimsToOperandDims from fun h => one_ne_zero2 (List.mem_singleton.mp h))]
theorem scatter128_window0 (e : Fin 850000) (k : Fin 128) :
    ScatterDims.window scatter_S50000x128_S850000x1_S850000x128_1_0_0_1 (ix2 e k) 0 = 0 := by
  unfold ScatterDims.window
  rw [dif_neg (show ¬ (0 : Fin 2) ∈ (scatter_S50000x128_S850000x1_S850000x128_1_0_0_1).sKept from fun h => (mem_kept_iff _ _).1 h (List.mem_singleton.mpr rfl))]
theorem scatter128_window1 (e : Fin 850000) (k : Fin 128) :
    ScatterDims.window scatter_S50000x128_S850000x1_S850000x128_1_0_0_1 (ix2 e k) 1 = k.val := by
  unfold ScatterDims.window
  rw [dif_pos (show (1 : Fin 2) ∈ (scatter_S50000x128_S850000x1_S850000x128_1_0_0_1).sKept from (mem_kept_iff _ _).2 fun h => one_ne_zero2 (List.mem_singleton.mp h))]
  rfl

theorem scatter256_start0 (didx : IVec S850000x1 32) (e : Fin 850000) (k : Fin 256) :
    ScatterDims.start scatter_S50000x256_S850000x1_S850000x256_1_0_0_1 (ix2 e k) didx 0 = (didx (ix2 e (0 : Fin 1))).toInt := by
  unfold ScatterDims.start
  rw [dif_pos (show (0 : Fin 2) ∈ (scatter_S50000x256_S850000x1_S850000x256_1_0_0_1).scatterDimsToOperandDims from List.mem_singleton.mpr rfl)]
  have hsi : (scatter_S50000x256_S850000x1_S850000x256_1_0_0_1).siIdx (ix2 e k)
      ⟨List.idxOf (0 : Fin 2) (scatter_S50000x256_S850000x1_S850000x256_1_0_0_1).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
theorem scatter256_start1 (didx : IVec S850000x1 32) (e : Fin 850000) (k : Fin 256) :
    ScatterDims.start scatter_S50000x256_S850000x1_S850000x256_1_0_0_1 (ix2 e k) didx 1 = 0 := by
  unfold ScatterDims.start
  rw [dif_neg (show ¬ (1 : Fin 2) ∈ (scatter_S50000x256_S850000x1_S850000x256_1_0_0_1).scatterDimsToOperandDims from fun h => one_ne_zero2 (List.mem_singleton.mp h))]
theorem scatter256_window0 (e : Fin 850000) (k : Fin 256) :
    ScatterDims.window scatter_S50000x256_S850000x1_S850000x256_1_0_0_1 (ix2 e k) 0 = 0 := by
  unfold ScatterDims.window
  rw [dif_neg (show ¬ (0 : Fin 2) ∈ (scatter_S50000x256_S850000x1_S850000x256_1_0_0_1).sKept from fun h => (mem_kept_iff _ _).1 h (List.mem_singleton.mpr rfl))]
theorem scatter256_window1 (e : Fin 850000) (k : Fin 256) :
    ScatterDims.window scatter_S50000x256_S850000x1_S850000x256_1_0_0_1 (ix2 e k) 1 = k.val := by
  unfold ScatterDims.window
  rw [dif_pos (show (1 : Fin 2) ∈ (scatter_S50000x256_S850000x1_S850000x256_1_0_0_1).sKept from (mem_kept_iff _ _).2 fun h => one_ne_zero2 (List.mem_singleton.mp h))]
  rfl

/-! ## The scatter-adds read at a row and a column -/

/-- A row index paired with a column is a given index exactly when the row and the column agree. -/
theorem map_ix2_eq_some {n0 n1 : Nat} (o : Option (Fin n0)) (k' k : Fin n1) (r : Fin n0) :
    o.map (fun r' => ix2 r' k') = some (ix2 r k) ↔ o = some r ∧ k' = k := by
  cases o with
  | none => simp
  | some r' =>
    simp only [Option.map_some, Option.some.injEq]
    constructor
    · intro h
      exact ⟨(show r' = r from congrFun h 0), (show k' = k from congrFun h 1)⟩
    · rintro ⟨rfl, rfl⟩
      rfl

/-- The 128-wide update at edge `e`, column `k` lands at the edge's destination row, same column, when that
    row is inside the table, and is dropped otherwise. -/
theorem resultIdx128 (didx : IVec S850000x1 32) (e : Fin 850000) (k : Fin 128) :
    ScatterDims.resultIdx? scatter_S50000x128_S850000x1_S850000x128_1_0_0_1 (ix2 e k) didx = (dst didx e).map (fun r => ix2 r k) := by
  unfold ScatterDims.resultIdx? dst
  by_cases h : 0 ≤ (didx (ix2 e (0 : Fin 1))).toInt ∧ (didx (ix2 e (0 : Fin 1))).toInt < 50000
  · have hall : ∀ a : Fin S50000x128.rank,
        0 ≤ ScatterDims.start scatter_S50000x128_S850000x1_S850000x128_1_0_0_1 (ix2 e k) didx a + (ScatterDims.window scatter_S50000x128_S850000x1_S850000x128_1_0_0_1 (ix2 e k) a : ℕ) ∧
          ScatterDims.start scatter_S50000x128_S850000x1_S850000x128_1_0_0_1 (ix2 e k) didx a + (ScatterDims.window scatter_S50000x128_S850000x1_S850000x128_1_0_0_1 (ix2 e k) a : ℕ) < (S50000x128.size a : ℕ) := by
      intro a
      match a with
      | ⟨0, _⟩ =>
        show 0 ≤ ScatterDims.start scatter_S50000x128_S850000x1_S850000x128_1_0_0_1 (ix2 e k) didx 0 + (ScatterDims.window scatter_S50000x128_S850000x1_S850000x128_1_0_0_1 (ix2 e k) 0 : ℕ) ∧
          ScatterDims.start scatter_S50000x128_S850000x1_S850000x128_1_0_0_1 (ix2 e k) didx 0 + (ScatterDims.window scatter_S50000x128_S850000x1_S850000x128_1_0_0_1 (ix2 e k) 0 : ℕ) < ((50000 : ℕ) : ℤ)
        rw [scatter128_start0, scatter128_window0]
        obtain ⟨h1, h2⟩ := h
        constructor <;> omega
      | ⟨1, _⟩ =>
        show 0 ≤ ScatterDims.start scatter_S50000x128_S850000x1_S850000x128_1_0_0_1 (ix2 e k) didx 1 + (ScatterDims.window scatter_S50000x128_S850000x1_S850000x128_1_0_0_1 (ix2 e k) 1 : ℕ) ∧
          ScatterDims.start scatter_S50000x128_S850000x1_S850000x128_1_0_0_1 (ix2 e k) didx 1 + (ScatterDims.window scatter_S50000x128_S850000x1_S850000x128_1_0_0_1 (ix2 e k) 1 : ℕ) < ((128 : ℕ) : ℤ)
        rw [scatter128_start1, scatter128_window1]
        have := k.isLt
        constructor <;> omega
    rw [dif_pos hall, dif_pos h]
    simp only [Option.map_some]
    congr 1
    funext a
    refine Fin.ext ?_
    match a with
    | ⟨0, _⟩ =>
      show (ScatterDims.start scatter_S50000x128_S850000x1_S850000x128_1_0_0_1 (ix2 e k) didx 0 + (ScatterDims.window scatter_S50000x128_S850000x1_S850000x128_1_0_0_1 (ix2 e k) 0 : ℕ)).toNat
        = (didx (ix2 e (0 : Fin 1))).toInt.toNat
      rw [scatter128_start0, scatter128_window0]
      simp
    | ⟨1, _⟩ =>
      show (ScatterDims.start scatter_S50000x128_S850000x1_S850000x128_1_0_0_1 (ix2 e k) didx 1 + (ScatterDims.window scatter_S50000x128_S850000x1_S850000x128_1_0_0_1 (ix2 e k) 1 : ℕ)).toNat = k.val
      rw [scatter128_start1, scatter128_window1]
      simp
  · have hall : ¬ ∀ a : Fin S50000x128.rank,
        0 ≤ ScatterDims.start scatter_S50000x128_S850000x1_S850000x128_1_0_0_1 (ix2 e k) didx a + (ScatterDims.window scatter_S50000x128_S850000x1_S850000x128_1_0_0_1 (ix2 e k) a : ℕ) ∧
          ScatterDims.start scatter_S50000x128_S850000x1_S850000x128_1_0_0_1 (ix2 e k) didx a + (ScatterDims.window scatter_S50000x128_S850000x1_S850000x128_1_0_0_1 (ix2 e k) a : ℕ) < (S50000x128.size a : ℕ) := by
      intro hall
      apply h
      have h0 : 0 ≤ ScatterDims.start scatter_S50000x128_S850000x1_S850000x128_1_0_0_1 (ix2 e k) didx 0 + (ScatterDims.window scatter_S50000x128_S850000x1_S850000x128_1_0_0_1 (ix2 e k) 0 : ℕ) ∧
          ScatterDims.start scatter_S50000x128_S850000x1_S850000x128_1_0_0_1 (ix2 e k) didx 0 + (ScatterDims.window scatter_S50000x128_S850000x1_S850000x128_1_0_0_1 (ix2 e k) 0 : ℕ) < ((50000 : ℕ) : ℤ) := hall 0
      rw [scatter128_start0, scatter128_window0] at h0
      obtain ⟨h1, h2⟩ := h0
      constructor <;> omega
    rw [dif_neg hall, dif_neg h]
    rfl

/-- The 128-wide scatter-add read at row `r`, column `k`: the operand there plus the updates of the edges whose
    destination is `r`, at column `k`. -/
theorem scatterAdd128_apply (x0 : FVec Ideal S50000x128 .f32) (didx : IVec S850000x1 32) (upd : FVec Ideal S850000x128 .f32)
    (r : Fin 50000) (k : Fin 128) :
    Host.scatterAdd scatter_S50000x128_S850000x1_S850000x128_1_0_0_1 x0 didx upd (ix2 r k)
      = x0 (ix2 r k) + ∑ e ∈ Finset.univ.filter (fun e : Fin 850000 => dst didx e = some r), upd (ix2 e k) := by
  show Ideal.hostScatterAdd scatter_S50000x128_S850000x1_S850000x128_1_0_0_1 x0 didx upd (ix2 r k) = _
  unfold Ideal.hostScatterAdd
  refine congrArg (fun z : EReal => x0 (ix2 r k) + z) ?_
  rw [Finset.sum_filter, sum_idx2, Finset.sum_filter]
  refine Finset.sum_congr rfl fun e _ => ?_
  simp only [resultIdx128, map_ix2_eq_some]
  by_cases hd : dst didx e = some r
  · simp only [hd, true_and]
    rw [Finset.sum_ite_eq' Finset.univ k (fun k' => upd (ix2 e k'))]
    simp
  · simp only [hd, false_and, if_false, Finset.sum_const_zero]

/-- The 256-wide update at edge `e`, column `k` lands at the edge's destination row, same column, when that
    row is inside the table, and is dropped otherwise. -/
theorem resultIdx256 (didx : IVec S850000x1 32) (e : Fin 850000) (k : Fin 256) :
    ScatterDims.resultIdx? scatter_S50000x256_S850000x1_S850000x256_1_0_0_1 (ix2 e k) didx = (dst didx e).map (fun r => ix2 r k) := by
  unfold ScatterDims.resultIdx? dst
  by_cases h : 0 ≤ (didx (ix2 e (0 : Fin 1))).toInt ∧ (didx (ix2 e (0 : Fin 1))).toInt < 50000
  · have hall : ∀ a : Fin S50000x256.rank,
        0 ≤ ScatterDims.start scatter_S50000x256_S850000x1_S850000x256_1_0_0_1 (ix2 e k) didx a + (ScatterDims.window scatter_S50000x256_S850000x1_S850000x256_1_0_0_1 (ix2 e k) a : ℕ) ∧
          ScatterDims.start scatter_S50000x256_S850000x1_S850000x256_1_0_0_1 (ix2 e k) didx a + (ScatterDims.window scatter_S50000x256_S850000x1_S850000x256_1_0_0_1 (ix2 e k) a : ℕ) < (S50000x256.size a : ℕ) := by
      intro a
      match a with
      | ⟨0, _⟩ =>
        show 0 ≤ ScatterDims.start scatter_S50000x256_S850000x1_S850000x256_1_0_0_1 (ix2 e k) didx 0 + (ScatterDims.window scatter_S50000x256_S850000x1_S850000x256_1_0_0_1 (ix2 e k) 0 : ℕ) ∧
          ScatterDims.start scatter_S50000x256_S850000x1_S850000x256_1_0_0_1 (ix2 e k) didx 0 + (ScatterDims.window scatter_S50000x256_S850000x1_S850000x256_1_0_0_1 (ix2 e k) 0 : ℕ) < ((50000 : ℕ) : ℤ)
        rw [scatter256_start0, scatter256_window0]
        obtain ⟨h1, h2⟩ := h
        constructor <;> omega
      | ⟨1, _⟩ =>
        show 0 ≤ ScatterDims.start scatter_S50000x256_S850000x1_S850000x256_1_0_0_1 (ix2 e k) didx 1 + (ScatterDims.window scatter_S50000x256_S850000x1_S850000x256_1_0_0_1 (ix2 e k) 1 : ℕ) ∧
          ScatterDims.start scatter_S50000x256_S850000x1_S850000x256_1_0_0_1 (ix2 e k) didx 1 + (ScatterDims.window scatter_S50000x256_S850000x1_S850000x256_1_0_0_1 (ix2 e k) 1 : ℕ) < ((256 : ℕ) : ℤ)
        rw [scatter256_start1, scatter256_window1]
        have := k.isLt
        constructor <;> omega
    rw [dif_pos hall, dif_pos h]
    simp only [Option.map_some]
    congr 1
    funext a
    refine Fin.ext ?_
    match a with
    | ⟨0, _⟩ =>
      show (ScatterDims.start scatter_S50000x256_S850000x1_S850000x256_1_0_0_1 (ix2 e k) didx 0 + (ScatterDims.window scatter_S50000x256_S850000x1_S850000x256_1_0_0_1 (ix2 e k) 0 : ℕ)).toNat
        = (didx (ix2 e (0 : Fin 1))).toInt.toNat
      rw [scatter256_start0, scatter256_window0]
      simp
    | ⟨1, _⟩ =>
      show (ScatterDims.start scatter_S50000x256_S850000x1_S850000x256_1_0_0_1 (ix2 e k) didx 1 + (ScatterDims.window scatter_S50000x256_S850000x1_S850000x256_1_0_0_1 (ix2 e k) 1 : ℕ)).toNat = k.val
      rw [scatter256_start1, scatter256_window1]
      simp
  · have hall : ¬ ∀ a : Fin S50000x256.rank,
        0 ≤ ScatterDims.start scatter_S50000x256_S850000x1_S850000x256_1_0_0_1 (ix2 e k) didx a + (ScatterDims.window scatter_S50000x256_S850000x1_S850000x256_1_0_0_1 (ix2 e k) a : ℕ) ∧
          ScatterDims.start scatter_S50000x256_S850000x1_S850000x256_1_0_0_1 (ix2 e k) didx a + (ScatterDims.window scatter_S50000x256_S850000x1_S850000x256_1_0_0_1 (ix2 e k) a : ℕ) < (S50000x256.size a : ℕ) := by
      intro hall
      apply h
      have h0 : 0 ≤ ScatterDims.start scatter_S50000x256_S850000x1_S850000x256_1_0_0_1 (ix2 e k) didx 0 + (ScatterDims.window scatter_S50000x256_S850000x1_S850000x256_1_0_0_1 (ix2 e k) 0 : ℕ) ∧
          ScatterDims.start scatter_S50000x256_S850000x1_S850000x256_1_0_0_1 (ix2 e k) didx 0 + (ScatterDims.window scatter_S50000x256_S850000x1_S850000x256_1_0_0_1 (ix2 e k) 0 : ℕ) < ((50000 : ℕ) : ℤ) := hall 0
      rw [scatter256_start0, scatter256_window0] at h0
      obtain ⟨h1, h2⟩ := h0
      constructor <;> omega
    rw [dif_neg hall, dif_neg h]
    rfl

/-- The 256-wide scatter-add read at row `r`, column `k`: the operand there plus the updates of the edges whose
    destination is `r`, at column `k`. -/
theorem scatterAdd256_apply (x0 : FVec Ideal S50000x256 .f32) (didx : IVec S850000x1 32) (upd : FVec Ideal S850000x256 .f32)
    (r : Fin 50000) (k : Fin 256) :
    Host.scatterAdd scatter_S50000x256_S850000x1_S850000x256_1_0_0_1 x0 didx upd (ix2 r k)
      = x0 (ix2 r k) + ∑ e ∈ Finset.univ.filter (fun e : Fin 850000 => dst didx e = some r), upd (ix2 e k) := by
  show Ideal.hostScatterAdd scatter_S50000x256_S850000x1_S850000x256_1_0_0_1 x0 didx upd (ix2 r k) = _
  unfold Ideal.hostScatterAdd
  refine congrArg (fun z : EReal => x0 (ix2 r k) + z) ?_
  rw [Finset.sum_filter, sum_idx2, Finset.sum_filter]
  refine Finset.sum_congr rfl fun e _ => ?_
  simp only [resultIdx256, map_ix2_eq_some]
  by_cases hd : dst didx e = some r
  · simp only [hd, true_and]
    rw [Finset.sum_ite_eq' Finset.univ k (fun k' => upd (ix2 e k'))]
    simp
  · simp only [hd, false_and, if_false, Finset.sum_const_zero]
/-! ## The aggregation, spelt as both printed programs spell it -/

/-- The aggregation of a 128-wide node table over the edges: gather the source rows, scale row `e` by `nrm e`,
    add each into its destination row, from zeros. -/
def agg128 (H : FVec Ideal S50000x128 .f32) (sidx didx : IVec S850000x1 32) (nrm : FVec Ideal S850000 .f32) :
    FVec Ideal S50000x128 .f32 :=
  Host.scatterAdd scatter_S50000x128_S850000x1_S850000x128_1_0_0_1
    (broadcastInDim S50000x128 ![] bcast_S_S50000x128 (constant (F := Ideal) S_ .f32 0x00000000#32)) didx
    (mulf (Host.gather gather_S50000x128_S850000x1_S850000x128_1_0_n_n_0_1_1128 H sidx)
      (broadcastInDim S850000x128 ![0, 1] bcast_S850000x1_S850000x128_0_1
        (broadcastInDim S850000x1 ![0] bcast_S850000_S850000x1_0 nrm)))

/-- The same aggregation of a 256-wide node table. -/
def agg256 (H : FVec Ideal S50000x256 .f32) (sidx didx : IVec S850000x1 32) (nrm : FVec Ideal S850000 .f32) :
    FVec Ideal S50000x256 .f32 :=
  Host.scatterAdd scatter_S50000x256_S850000x1_S850000x256_1_0_0_1
    (broadcastInDim S50000x256 ![] bcast_S_S50000x256 (constant (F := Ideal) S_ .f32 0x00000000#32)) didx
    (mulf (Host.gather gather_S50000x256_S850000x1_S850000x256_1_0_n_n_0_1_1256 H sidx)
      (broadcastInDim S850000x256 ![0, 1] bcast_S850000x1_S850000x256_0_1
        (broadcastInDim S850000x1 ![0] bcast_S850000_S850000x1_0 nrm)))

/-! ## The aggregation read at a row and a column -/

/-- The edge weights laid along the 128 columns read, at edge `e` and any column, the weight of `e`. -/
theorem nrmBcast128_apply {α : Type} (nrm : S850000.Idx → α) (e : Fin 850000) (k : Fin 128) :
    broadcastInDim S850000x128 ![0, 1] bcast_S850000x1_S850000x128_0_1
        (broadcastInDim S850000x1 ![0] bcast_S850000_S850000x1_0 nrm) (ix2 e k) = nrm (ix1 e) := by
  refine (broadcastInDim_apply ![0, 1] bcast_S850000x1_S850000x128_0_1 _ (ix2 e k) (ix2 e (0 : Fin 1)) ?_).trans
    (broadcastInDim_apply ![0] bcast_S850000_S850000x1_0 nrm (ix2 e (0 : Fin 1)) (ix1 e) ?_)
  · intro a
    match a with
    | ⟨0, _⟩ =>
      show e.val = if (850000 : ℕ) = 1 then 0 else e.val
      rw [if_neg (by omega)]
    | ⟨1, _⟩ =>
      show (0 : ℕ) = if (1 : ℕ) = 1 then 0 else k.val
      rw [if_pos rfl]
  · intro a
    match a with
    | ⟨0, _⟩ =>
      show e.val = if (850000 : ℕ) = 1 then 0 else e.val
      rw [if_neg (by omega)]

/-- The edge weights laid along the 256 columns read, at edge `e` and any column, the weight of `e`. -/
theorem nrmBcast256_apply {α : Type} (nrm : S850000.Idx → α) (e : Fin 850000) (k : Fin 256) :
    broadcastInDim S850000x256 ![0, 1] bcast_S850000x1_S850000x256_0_1
        (broadcastInDim S850000x1 ![0] bcast_S850000_S850000x1_0 nrm) (ix2 e k) = nrm (ix1 e) := by
  refine (broadcastInDim_apply ![0, 1] bcast_S850000x1_S850000x256_0_1 _ (ix2 e k) (ix2 e (0 : Fin 1)) ?_).trans
    (broadcastInDim_apply ![0] bcast_S850000_S850000x1_0 nrm (ix2 e (0 : Fin 1)) (ix1 e) ?_)
  · intro a
    match a with
    | ⟨0, _⟩ =>
      show e.val = if (850000 : ℕ) = 1 then 0 else e.val
      rw [if_neg (by omega)]
    | ⟨1, _⟩ =>
      show (0 : ℕ) = if (1 : ℕ) = 1 then 0 else k.val
      rw [if_pos rfl]
  · intro a
    match a with
    | ⟨0, _⟩ =>
      show e.val = if (850000 : ℕ) = 1 then 0 else e.val
      rw [if_neg (by omega)]

/-- The 128-wide aggregation read at row `r`, column `k`: the sum, over the edges whose destination is `r`, of the
    table at the edge's source row and column `k` times the edge's weight. -/
theorem agg128_apply (X : FVec Ideal S50000x128 .f32) (sidx didx : IVec S850000x1 32) (nrm : FVec Ideal S850000 .f32)
    (r : Fin 50000) (k : Fin 128) :
    agg128 X sidx didx nrm (ix2 r k)
      = ∑ e ∈ Finset.univ.filter (fun e : Fin 850000 => dst didx e = some r), X (ix2 (src sidx e) k) * nrm (ix1 e) := by
  unfold agg128
  rw [scatterAdd128_apply, broadcastInDim_scalar_apply, constant_apply, Ideal.ofBits_zero_f32, zero_add]
  refine Finset.sum_congr rfl fun e _ => ?_
  rw [mulf_apply, gather128_apply, nrmBcast128_apply]

/-- The 256-wide aggregation read at row `r`, column `k`: the sum, over the edges whose destination is `r`, of the
    table at the edge's source row and column `k` times the edge's weight. -/
theorem agg256_apply (X : FVec Ideal S50000x256 .f32) (sidx didx : IVec S850000x1 32) (nrm : FVec Ideal S850000 .f32)
    (r : Fin 50000) (k : Fin 256) :
    agg256 X sidx didx nrm (ix2 r k)
      = ∑ e ∈ Finset.univ.filter (fun e : Fin 850000 => dst didx e = some r), X (ix2 (src sidx e) k) * nrm (ix1 e) := by
  unfold agg256
  rw [scatterAdd256_apply, broadcastInDim_scalar_apply, constant_apply, Ideal.ofBits_zero_f32, zero_add]
  refine Finset.sum_congr rfl fun e _ => ?_
  rw [mulf_apply, gather256_apply, nrmBcast256_apply]

/-! ## Sums of reals inside the extended reals -/

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Aggregating and then multiplying by a weight matrix is multiplying and then aggregating -/

theorem agg_linear (H : FVec Ideal S50000x128 .f32) (W : FVec Ideal S128x256 .f32) (sidx didx : IVec S850000x1 32)
    (nrm : FVec Ideal S850000 .f32)
    (hH : ∀ i, ∃ r : ℝ, H i = (r : EReal)) (hW : ∀ i, ∃ r : ℝ, W i = (r : EReal)) (hn : ∀ e, ∃ r : ℝ, nrm e = (r : EReal)) :
    (fun j : S50000x256.Idx => ∑ k : Fin 128, agg128 H sidx didx nrm (ix2 (j 0) k) * W (ix2 k (j 1)))
      = agg256 (fun j : S50000x256.Idx => ∑ k : Fin 128, H (ix2 (j 0) k) * W (ix2 k (j 1))) sidx didx nrm := by
  funext j
  obtain ⟨r, c, rfl⟩ : ∃ (r : Fin 50000) (c : Fin 256), j = ix2 r c := ⟨j 0, j 1, eq_ix2 j⟩
  show (∑ k : Fin 128, agg128 H sidx didx nrm (ix2 r k) * W (ix2 k c))
      = agg256 (fun j : S50000x256.Idx => ∑ k : Fin 128, H (ix2 (j 0) k) * W (ix2 k (j 1))) sidx didx nrm (ix2 r c)
  rw [agg256_apply]
  simp only [agg128_apply]
  show (∑ k : Fin 128, (∑ e ∈ Finset.univ.filter (fun e : Fin 850000 => dst didx e = some r),
          H (ix2 (src sidx e) k) * nrm (ix1 e)) * W (ix2 k c))
      = ∑ e ∈ Finset.univ.filter (fun e : Fin 850000 => dst didx e = some r),
          (∑ k : Fin 128, H (ix2 (src sidx e) k) * W (ix2 k c)) * nrm (ix1 e)
  choose h hh using hH
  choose w hw using hW
  choose n hn' using hn
  simp only [hh, hw, hn', ← EReal.coe_mul, ← coe_sum]
  refine congrArg (fun x : ℝ => (x : EReal)) ?_
  simp only [Finset.sum_mul]
  rw [Finset.sum_comm]
  refine Finset.sum_congr rfl fun e _ => Finset.sum_congr rfl fun k _ => ?_
  ring

/-! ## The normalisation weights are real numbers

Every lemma here is stated for arbitrary shapes and dimension numbers, over the operations exactly as the printed
program spells them, so that the program's own instance is a plain instantiation. -/

/-- The f32 pattern `0x2B8CBCCC` is a positive real. -/
theorem eps_pos : ∃ p : ℝ, 0 < p ∧ Ideal.ofBits .f32 0x2B8CBCCC#32 = (p : EReal) := by
  refine ⟨((2 ^ 23 + 834764 : ℕ) : ℝ) * (2 : ℝ) ^ ((87 : ℤ) - 127 - 23), by positivity, ?_⟩
  simp [Ideal.ofBits, Ideal.ieee, -EReal.coe_mul]

theorem zero_bits_real : ∃ r : ℝ, Ideal.ofBits .f32 0x00000000#32 = (r : EReal) :=
  ⟨0, by rw [Ideal.ofBits_zero_f32, EReal.coe_zero]⟩

theorem one_bits_real : ∃ r : ℝ, Ideal.ofBits .f32 0x3F800000#32 = (r : EReal) :=
  ⟨1, by rw [Ideal.ofBits_one_f32, EReal.coe_one]⟩

/-- The larger of a real and a positive real is a positive real. -/
theorem max_coe_pos (x p : ℝ) (hp : 0 < p) : ∃ q : ℝ, 0 < q ∧ max (x : EReal) (p : EReal) = (q : EReal) := by
  rcases le_total x p with h | h
  · exact ⟨p, hp, max_eq_right (EReal.coe_le_coe_iff.2 h)⟩
  · exact ⟨x, lt_of_lt_of_le hp h, max_eq_left (EReal.coe_le_coe_iff.2 h)⟩

/-- The reciprocal square root of a positive real is a real. -/
theorem rsqrt_coe_pos (q : ℝ) (hq : 0 < q) : Ideal.rsqrt (q : EReal) = (((Real.sqrt q)⁻¹ : ℝ) : EReal) := by
  rw [Ideal.rsqrt_coe, if_neg (not_lt.2 hq.le), if_neg hq.ne']

/-- A scalar constant whose pattern denotes a real, broadcast to any shape, reads that real everywhere. -/
theorem bcast_const_real {T : Shape} (h : S_.BroadcastsInDim T ![]) (b : BitVec 32)
    (hb : ∃ r : ℝ, Ideal.ofBits .f32 b = (r : EReal)) (i : T.Idx) :
    ∃ r : ℝ, broadcastInDim T ![] h (constant (F := Ideal) S_ .f32 b) i = (r : EReal) := by
  rw [broadcastInDim_scalar_apply, constant_apply]
  exact hb

/-- A scalar constant whose pattern denotes a positive real, broadcast to any shape, reads it everywhere. -/
theorem bcast_const_pos {T : Shape} (h : S_.BroadcastsInDim T ![]) (b : BitVec 32)
    (hb : ∃ p : ℝ, 0 < p ∧ Ideal.ofBits .f32 b = (p : EReal)) (i : T.Idx) :
    ∃ p : ℝ, 0 < p ∧ broadcastInDim T ![] h (constant (F := Ideal) S_ .f32 b) i = (p : EReal) := by
  rw [broadcastInDim_scalar_apply, constant_apply]
  exact hb

/-- A scatter-add of reals into reals reads reals: each element is a real plus a finite sum of reals. -/
theorem scatterAdd_real {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) := by
  show ∃ r : ℝ, Ideal.hostScatterAdd d x idx upd i = (r : EReal)
  unfold Ideal.hostScatterAdd
  choose xr hxr using hx
  choose ur hur using hu
  simp only [hxr, hur, ← coe_sum, ← EReal.coe_add]
  exact ⟨_, rfl⟩

/-- Where a condition holds, the reciprocal square root of the larger of a real and a positive real; elsewhere a
    real: a real everywhere. -/
theorem select_rsqrt_max_real {s : Shape} (c : IVec s 1) (D E Zr : FVec Ideal s .f32)
    (hD : ∀ i, ∃ r : ℝ, D i = (r : EReal)) (hE : ∀ i, ∃ p : ℝ, 0 < p ∧ E i = (p : EReal))
    (hZ : ∀ i, ∃ r : ℝ, Zr i = (r : EReal)) (i : s.Idx) :
    ∃ r : ℝ, select c (Host.rsqrt (maximumf D E)) Zr i = (r : EReal) := by
  rw [select_apply]
  unfold Scalar.select
  split
  · show ∃ r : ℝ, Ideal.rsqrt (max (D i) (E i)) = (r : EReal)
    obtain ⟨x, hx⟩ := hD i
    obtain ⟨p, hp, hpe⟩ := hE i
    obtain ⟨q, hq, hqe⟩ := max_coe_pos x p hp
    rw [hx, hpe, hqe, rsqrt_coe_pos q hq]
    exact ⟨_, rfl⟩
  · exact hZ i

/-- An element of a gather is an element of its operand, so a gather of reals reads reals. -/
theorem gather_real {s si t : Shape} {w : Nat} (d : GatherDims s si t) (x : FVec Ideal s .f32) (idx : IVec si w)
    (hx : ∀ i, ∃ r : ℝ, x i = (r : EReal)) (j : t.Idx) : ∃ r : ℝ, Host.gather d x idx j = (r : EReal) :=
  hx _

/-- A product of reals is a real. -/
theorem mulf_real {s : Shape} (a b : FVec Ideal s .f32) (ha : ∀ i, ∃ r : ℝ, a i = (r : EReal))
    (hb : ∀ i, ∃ r : ℝ, b i = (r : EReal)) (i : s.Idx) : ∃ r : ℝ, mulf a b i = (r : EReal) := by
  obtain ⟨x, hx⟩ := ha i
  obtain ⟨y, hy⟩ := hb i
  exact ⟨x * y, by rw [mulf_apply, hx, hy, EReal.coe_mul]⟩

/-- The degree of every node — zero plus one for every edge that lands on it — is a real. -/
theorem deg_real (didx : IVec S850000x1 32) :
    ∀ i, ∃ r : ℝ, (Host.scatterAdd scatter_S50000_S850000x1_S850000_n_0_0_1 (broadcastInDim S50000 ![] bcast_S_S50000 (constant (F := Ideal) S_ .f32 0x00000000#32)) didx (broadcastInDim S850000 ![] bcast_S_S850000 (constant (F := Ideal) S_ .f32 0x3F800000#32))) i = (r : EReal) :=
  scatterAdd_real scatter_S50000_S850000x1_S850000_n_0_0_1 _ didx _
    (bcast_const_real bcast_S_S50000 _ zero_bits_real) (bcast_const_real bcast_S_S850000 _ one_bits_real)

/-- The inverse square root of the degree where the degree is positive, zero elsewhere: a real at every node. -/
theorem dinv_real (didx : IVec S850000x1 32) :
    ∀ i, ∃ r : ℝ, (select (cmpf .ogt (Host.scatterAdd scatter_S50000_S850000x1_S850000_n_0_0_1 (broadcastInDim S50000 ![] bcast_S_S50000 (constant (F := Ideal) S_ .f32 0x00000000#32)) didx (broadcastInDim S850000 ![] bcast_S_S850000 (constant (F := Ideal) S_ .f32 0x3F800000#32))) (broadcastInDim S50000 ![] bcast_S_S50000 (constant (F := Ideal) S_ .f32 0x00000000#32))) (Host.rsqrt (maximumf (Host.scatterAdd scatter_S50000_S850000x1_S850000_n_0_0_1 (broadcastInDim S50000 ![] bcast_S_S50000 (constant (F := Ideal) S_ .f32 0x00000000#32)) didx (broadcastInDim S850000 ![] bcast_S_S850000 (constant (F := Ideal) S_ .f32 0x3F800000#32))) (broadcastInDim S50000 ![] bcast_S_S50000 (constant (F := Ideal) S_ .f32 0x2B8CBCCC#32)))) (broadcastInDim S50000 ![] bcast_S_S50000 (constant (F := Ideal) S_ .f32 0x00000000#32))) i = (r : EReal) :=
  select_rsqrt_max_real _ _ _ _ (deg_real didx)
    (bcast_const_pos bcast_S_S50000 _ eps_pos) (bcast_const_real bcast_S_S50000 _ zero_bits_real)

/-- The edge weight — the product of the two endpoints' inverse square root degrees, each read through a
    gather — is a real, whatever the index vectors. -/
theorem nrm_real (didx i1 i2 : IVec S850000x1 32) :
    ∀ e, ∃ r : ℝ, mulf (Host.gather gather_S50000_S850000x1_S850000_n_0_n_n_0_1_1 (select (cmpf .ogt (Host.scatterAdd scatter_S50000_S850000x1_S850000_n_0_0_1 (broadcastInDim S50000 ![] bcast_S_S50000 (constant (F := Ideal) S_ .f32 0x00000000#32)) didx (broadcastInDim S850000 ![] bcast_S_S850000 (constant (F := Ideal) S_ .f32 0x3F800000#32))) (broadcastInDim S50000 ![] bcast_S_S50000 (constant (F := Ideal) S_ .f32 0x00000000#32))) (Host.rsqrt (maximumf (Host.scatterAdd scatter_S50000_S850000x1_S850000_n_0_0_1 (broadcastInDim S50000 ![] bcast_S_S50000 (constant (F := Ideal) S_ .f32 0x00000000#32)) didx (broadcastInDim S850000 ![] bcast_S_S850000 (constant (F := Ideal) S_ .f32 0x3F800000#32))) (broadcastInDim S50000 ![] bcast_S_S50000 (constant (F := Ideal) S_ .f32 0x2B8CBCCC#32)))) (broadcastInDim S50000 ![] bcast_S_S50000 (constant (F := Ideal) S_ .f32 0x00000000#32))) i1)
        (Host.gather gather_S50000_S850000x1_S850000_n_0_n_n_0_1_1 (select (cmpf .ogt (Host.scatterAdd scatter_S50000_S850000x1_S850000_n_0_0_1 (broadcastInDim S50000 ![] bcast_S_S50000 (constant (F := Ideal) S_ .f32 0x00000000#32)) didx (broadcastInDim S850000 ![] bcast_S_S850000 (constant (F := Ideal) S_ .f32 0x3F800000#32))) (broadcastInDim S50000 ![] bcast_S_S50000 (constant (F := Ideal) S_ .f32 0x00000000#32))) (Host.rsqrt (maximumf (Host.scatterAdd scatter_S50000_S850000x1_S850000_n_0_0_1 (broadcastInDim S50000 ![] bcast_S_S50000 (constant (F := Ideal) S_ .f32 0x00000000#32)) didx (broadcastInDim S850000 ![] bcast_S_S850000 (constant (F := Ideal) S_ .f32 0x3F800000#32))) (broadcastInDim S50000 ![] bcast_S_S50000 (constant (F := Ideal) S_ .f32 0x2B8CBCCC#32)))) (broadcastInDim S50000 ![] bcast_S_S50000 (constant (F := Ideal) S_ .f32 0x00000000#32))) i2) e = (r : EReal) :=
  mulf_real _ _ (gather_real gather_S50000_S850000x1_S850000_n_0_n_n_0_1_1 _ i1 (dinv_real didx)) (gather_real gather_S50000_S850000x1_S850000_n_0_n_n_0_1_1 _ i2 (dinv_real didx))

end Cert.Bridge.Agg

end
-- ==== Proof.RefDefs.lean ====
/-
  Two operators of the reference, named: the 256-wide aggregation of a node table over the graph's edges and the
  mean pool of a node table over the graphs, each spelt exactly as the reference's host operations spell it, so
  that the reference's stages are these operators applied to the previous stage by definition.
-/
import proofs.«135828_j71159018160437_2_alg».proof.Proof.RefRead
import proofs.«135828_j71159018160437_2_alg».proof.Proof.Gen.KernelIdeal
import proofs.«135828_j71159018160437_2_alg».proof.Proof.AggLinear

set_option maxRecDepth 16384

noncomputable section

namespace Cert.Bridge

open Cert.ReferenceIdeal Cert.ReferenceIdeal.Read Idealize.ShloMosaic Idealize.ShloMosaic.ValueIdx

/-! ## The aggregation over the edges, in the reference's vocabulary -/

/-- The 256-wide aggregation of a node table `L` over the edges `x1`, as the reference's second convolution spells it. -/
def agg256R (L : (⟨S50000x256, .f32⟩ : BufTy).Contents (Elt Ideal)) (x1 : (⟨S2x800000, .i32⟩ : BufTy).Contents (Elt Ideal)) : (⟨S50000x256, .f32⟩ : BufTy).Contents (Elt Ideal) :=
  Host.scatterAdd (F := Ideal) (φ := .f32) scatter_S50000x256_S850000x1_S850000x256_1_0_0_1 (val_main_v96 (F := Ideal)) (val_main_v97 (F := Ideal) x1)
    (mulf (F := Ideal) (φ := .f32) (Host.gather gather_S50000x256_S850000x1_S850000x256_1_0_n_n_0_1_1256 L (val_main_v91 (F := Ideal) x1)) (val_main_v94 (F := Ideal) x1))

theorem v98_eq (x0 : (⟨S50000, .i32⟩ : BufTy).Contents (Elt Ideal)) (x1 : (⟨S2x800000, .i32⟩ : BufTy).Contents (Elt Ideal)) (x8 : (⟨S11x128, .f32⟩ : BufTy).Contents (Elt Ideal)) (x9 : (⟨S128x256, .f32⟩ : BufTy).Contents (Elt Ideal)) (x10 : (⟨S256, .f32⟩ : BufTy).Contents (Elt Ideal)) (x11 : (⟨S256x256, .f32⟩ : BufTy).Contents (Elt Ideal)) :
    val_main_v98 (F := Ideal) x0 x1 x8 x9 x10 x11 = agg256R (val_main_v57 (F := Ideal) x0 x1 x8 x9 x10 x11) x1 := rfl

/-- The first convolution's aggregation is the same operator (its index and weight arrays are recomputed copies). -/
theorem v52_eq (x0 : (⟨S50000, .i32⟩ : BufTy).Contents (Elt Ideal)) (x1 : (⟨S2x800000, .i32⟩ : BufTy).Contents (Elt Ideal)) (x8 : (⟨S11x128, .f32⟩ : BufTy).Contents (Elt Ideal)) (x9 : (⟨S128x256, .f32⟩ : BufTy).Contents (Elt Ideal)) :
    val_main_v52 (F := Ideal) x0 x1 x8 x9 = agg256R (val_main_v11 (F := Ideal) x0 x8 x9) x1 := rfl

/-- The mean pool of a node table over the graphs `x3`, as the reference spells it. -/
def poolR (H : (⟨S50000x256, .f32⟩ : BufTy).Contents (Elt Ideal)) (x3 : (⟨S50000, .i32⟩ : BufTy).Contents (Elt Ideal)) : (⟨S1024x256, .f32⟩ : BufTy).Contents (Elt Ideal) :=
  Host.divf (F := Ideal) (φ := .f32) (Host.scatterAdd (F := Ideal) (φ := .f32) scatter_S1024x256_S50000x1_S50000x256_1_0_0_1 (val_main_v107 (F := Ideal)) (val_main_v108 (F := Ideal) x3) H) (val_main_v113 (F := Ideal) x3)

theorem v114_eq (x0 : (⟨S50000, .i32⟩ : BufTy).Contents (Elt Ideal)) (x1 : (⟨S2x800000, .i32⟩ : BufTy).Contents (Elt Ideal)) (x3 : (⟨S50000, .i32⟩ : BufTy).Contents (Elt Ideal)) (x8 : (⟨S11x128, .f32⟩ : BufTy).Contents (Elt Ideal)) (x9 : (⟨S128x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) :
    val_main_v114 (F := Ideal) x0 x1 x3 x8 x9 x10 x11 x12 = poolR (val_main_v102 (F := Ideal) x0 x1 x8 x9 x10 x11 x12) x3 := rfl

end Cert.Bridge

end
-- ==== Proof.KStageG.lean ====
/-
  What the host stretches before each graph branch's first region leave in the buffers the regions and the later
  stretches read, for any contents the stretches start from: the edge sources and destinations, the edge weights, the
  aggregated embedding table, the first bias row and the zero bias row, each as the reference's own stage of the
  branch's arguments. A stretch is read on its own: the contents it starts from are kept as one unknown, the buffers it
  reads are then replaced by the reference's stages already identified, and only then are the two sides compared.
-/
import proofs.«135828_j71159018160437_2_alg».proof.Proof.Gen.KernelIdeal.Frame
import proofs.«135828_j71159018160437_2_alg».proof.Proof.KWalk
import proofs.«135828_j71159018160437_2_alg».proof.Proof.RefDefs

set_option maxRecDepth 200000

noncomputable section

namespace Cert.KernelIdeal.Bridge

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

open Cert.KernelIdeal.Facts₀

/-! ## Branch 1 -/

/-! ### What the later stretches read, after the first stretch and after the first two -/

set_option maxHeartbeats 4000000 in
/-- The "degree is positive" mask after the first stretch. -/
theorem kg_v12 (V0 : Valuation τ sig (Elt Ideal)) : StableHlo.after hostOps0 V0 (Proc.devRef .tc main_v12)
    = Cert.ReferenceIdeal.Read.val_main_v20 (F := Ideal) (V0 (Proc.devRef .tc main_arg1)) := by
  after_results
  rfl

set_option maxHeartbeats 4000000 in
/-- The reciprocal square root of the clamped degree after the first stretch. -/
theorem kg_v15 (V0 : Valuation τ sig (Elt Ideal)) : StableHlo.after hostOps0 V0 (Proc.devRef .tc main_v15)
    = Cert.ReferenceIdeal.Read.val_main_v23 (F := Ideal) (V0 (Proc.devRef .tc main_arg1)) := by
  after_results
  rfl

set_option maxHeartbeats 4000000 in
/-- The zero the selection falls back to. -/
theorem kg_cst3 (V0 : Valuation τ sig (Elt Ideal)) : StableHlo.after hostOps0 V0 (Proc.devRef .tc main_cst_3)
    = constant (F := Ideal) S_ .f32 0x00000000#32 := by
  after_results

/-- The second stretch (the selection between the reciprocal square root and zero) from any contents. -/
theorem kg_where (W : Valuation τ sig (Elt Ideal)) : StableHlo.after hostOps0_1 W (Proc.devRef .tc main_v16)
    = select (W (Proc.devRef .tc main_v12)) (W (Proc.devRef .tc main_v15)) (broadcastInDim S50000 ![] Gen.bcast_S_S50000 (W (Proc.devRef .tc main_cst_3))) := by
  after_results
  rfl

set_option maxHeartbeats 4000000 in
/-- The edge sources after the first two stretches. -/
theorem kg_v5 (V0 : Valuation τ sig (Elt Ideal)) : StableHlo.after hostOps0_1 (StableHlo.after hostOps0 V0) (Proc.devRef .tc main_v5)
    = Cert.ReferenceIdeal.Read.val_main_v13 (F := Ideal) (V0 (Proc.devRef .tc main_arg1)) := by
  after_results
  rfl

set_option maxHeartbeats 4000000 in
/-- The edge destinations after the first two stretches. -/
theorem kg_v6 (V0 : Valuation τ sig (Elt Ideal)) : StableHlo.after hostOps0_1 (StableHlo.after hostOps0 V0) (Proc.devRef .tc main_v6)
    = Cert.ReferenceIdeal.Read.val_main_v14 (F := Ideal) (V0 (Proc.devRef .tc main_arg1)) := by
  after_results
  rfl

set_option maxHeartbeats 4000000 in
/-- The first two stretches leave the node-type argument as it was. -/
theorem kg_arg0 (V0 : Valuation τ sig (Elt Ideal)) : StableHlo.after hostOps0_1 (StableHlo.after hostOps0 V0) (Proc.devRef .tc main_arg0)
    = V0 (Proc.devRef .tc main_arg0) := by
  after_results

set_option maxHeartbeats 4000000 in
/-- The first two stretches leave the embedding table as it was. -/
theorem kg_arg8 (V0 : Valuation τ sig (Elt Ideal)) : StableHlo.after hostOps0_1 (StableHlo.after hostOps0 V0) (Proc.devRef .tc main_arg8)
    = V0 (Proc.devRef .tc main_arg8) := by
  after_results

/-- The per-node normalisation factor after the first two stretches. -/
theorem kg_v16 (V0 : Valuation τ sig (Elt Ideal)) : StableHlo.after hostOps0_1 (StableHlo.after hostOps0 V0) (Proc.devRef .tc main_v16)
    = Cert.ReferenceIdeal.Read.val_main_v24 (F := Ideal) (V0 (Proc.devRef .tc main_arg1)) := by
  rw [kg_where, kg_v12, kg_v15, kg_cst3]
  rfl

set_option maxHeartbeats 4000000 in
set_option maxRecDepth 200000 in
theorem g_b1 (V0 : Valuation τ sig (Elt Ideal)) : StableHlo.after hostOps0_2 (StableHlo.after hostOps0_1 (StableHlo.after hostOps0 (V0))) (Proc.devRef .tc main_v53)
    = shapeCast S1x256 (V0 (Proc.devRef .tc main_arg10)) Facts₀.shapeCasts_S256_S1x256 := by
  after_results
  try rfl

set_option maxHeartbeats 4000000 in
set_option maxRecDepth 200000 in
theorem g_z (V0 : Valuation τ sig (Elt Ideal)) : StableHlo.after hostOps0_2 (StableHlo.after hostOps0_1 (StableHlo.after hostOps0 (V0))) (Proc.devRef .tc main_v32)
    = broadcastInDim S256 ![] Facts₀.bcast_S_S256 (constant (F := Ideal) S_ .f32 0x00000000#32) := by
  after_results
  try rfl

set_option maxHeartbeats 4000000 in
set_option maxRecDepth 200000 in
theorem g_src (V0 : Valuation τ sig (Elt Ideal)) : StableHlo.after hostOps0_2 (StableHlo.after hostOps0_1 (StableHlo.after hostOps0 (V0))) (Proc.devRef .tc main_v5)
    = Cert.ReferenceIdeal.Read.val_main_v13 (F := Ideal) (V0 (Proc.devRef .tc main_arg1)) := by
  after_results_simp
  try rfl

set_option maxHeartbeats 4000000 in
set_option maxRecDepth 200000 in
theorem g_dst (V0 : Valuation τ sig (Elt Ideal)) : StableHlo.after hostOps0_2 (StableHlo.after hostOps0_1 (StableHlo.after hostOps0 (V0))) (Proc.devRef .tc main_v6)
    = Cert.ReferenceIdeal.Read.val_main_v14 (F := Ideal) (V0 (Proc.devRef .tc main_arg1)) := by
  after_results_simp
  try rfl

set_option maxHeartbeats 16000000 in
set_option maxRecDepth 200000 in
theorem g_nrm (V0 : Valuation τ sig (Elt Ideal)) : StableHlo.after hostOps0_2 (StableHlo.after hostOps0_1 (StableHlo.after hostOps0 (V0))) (Proc.devRef .tc main_v31)
    = Cert.ReferenceIdeal.Read.val_main_v39 (F := Ideal) (V0 (Proc.devRef .tc main_arg1)) := by
  generalize hA : StableHlo.after hostOps0_1 (StableHlo.after hostOps0 V0) = A
  after_results_simp
  subst hA
  rw [kg_v16, kg_v5, kg_v6]
  rfl

set_option maxHeartbeats 16000000 in
set_option maxRecDepth 200000 in
theorem g_agg (V0 : Valuation τ sig (Elt Ideal)) : StableHlo.after hostOps0_2 (StableHlo.after hostOps0_1 (StableHlo.after hostOps0 (V0))) (Proc.devRef .tc main_v52)
    = Cert.Bridge.Agg.agg128 (Cert.ReferenceIdeal.Read.val_main_v10 (F := Ideal) (V0 (Proc.devRef .tc main_arg0)) (V0 (Proc.devRef .tc main_arg8))) (Cert.ReferenceIdeal.Read.val_main_v45 (F := Ideal) (V0 (Proc.devRef .tc main_arg1)))
        (Cert.ReferenceIdeal.Read.val_main_v51 (F := Ideal) (V0 (Proc.devRef .tc main_arg1))) (Cert.ReferenceIdeal.Read.val_main_v39 (F := Ideal) (V0 (Proc.devRef .tc main_arg1))) := by
  generalize hA : StableHlo.after hostOps0_1 (StableHlo.after hostOps0 V0) = A
  after_results_simp
  subst hA
  rw [kg_v16, kg_v5, kg_v6, kg_arg0, kg_arg8]
  rfl

/-! ## Branch 2 -/

/-! ### What the later stretches read, after the first stretch and after the first two -/

set_option maxHeartbeats 4000000 in
/-- The "degree is positive" mask after the first stretch. -/
theorem kg_v12' (V0 : Valuation τ sig (Elt Ideal)) : StableHlo.after hostOps4 V0 (Proc.devRef .tc main_v98)
    = Cert.ReferenceIdeal.Read.val_main_v20 (F := Ideal) (V0 (Proc.devRef .tc main_arg5)) := by
  after_results
  rfl

set_option maxHeartbeats 4000000 in
/-- The reciprocal square root of the clamped degree after the first stretch. -/
theorem kg_v15' (V0 : Valuation τ sig (Elt Ideal)) : StableHlo.after hostOps4 V0 (Proc.devRef .tc main_v101)
    = Cert.ReferenceIdeal.Read.val_main_v23 (F := Ideal) (V0 (Proc.devRef .tc main_arg5)) := by
  after_results
  rfl

set_option maxHeartbeats 4000000 in
/-- The zero the selection falls back to. -/
theorem kg_cst3' (V0 : Valuation τ sig (Elt Ideal)) : StableHlo.after hostOps4 V0 (Proc.devRef .tc main_cst_24)
    = constant (F := Ideal) S_ .f32 0x00000000#32 := by
  after_results

/-- The second stretch (the selection between the reciprocal square root and zero) from any contents. -/
theorem kg_where' (W : Valuation τ sig (Elt Ideal)) : StableHlo.after hostOps4_1 W (Proc.devRef .tc main_v102)
    = select (W (Proc.devRef .tc main_v98)) (W (Proc.devRef .tc main_v101)) (broadcastInDim S50000 ![] Gen.bcast_S_S50000 (W (Proc.devRef .tc main_cst_24))) := by
  after_results
  rfl

set_option maxHeartbeats 4000000 in
/-- The edge sources after the first two stretches. -/
theorem kg_v5' (V0 : Valuation τ sig (Elt Ideal)) : StableHlo.after hostOps4_1 (StableHlo.after hostOps4 V0) (Proc.devRef .tc main_v91)
    = Cert.ReferenceIdeal.Read.val_main_v13 (F := Ideal) (V0 (Proc.devRef .tc main_arg5)) := by
  after_results
  rfl

set_option maxHeartbeats 4000000 in
/-- The edge destinations after the first two stretches. -/
theorem kg_v6' (V0 : Valuation τ sig (Elt Ideal)) : StableHlo.after hostOps4_1 (StableHlo.after hostOps4 V0) (Proc.devRef .tc main_v92)
    = Cert.ReferenceIdeal.Read.val_main_v14 (F := Ideal) (V0 (Proc.devRef .tc main_arg5)) := by
  after_results
  rfl

set_option maxHeartbeats 4000000 in
/-- The first two stretches leave the node-type argument as it was. -/
theorem kg_arg0' (V0 : Valuation τ sig (Elt Ideal)) : StableHlo.after hostOps4_1 (StableHlo.after hostOps4 V0) (Proc.devRef .tc main_arg4)
    = V0 (Proc.devRef .tc main_arg4) := by
  after_results

set_option maxHeartbeats 4000000 in
/-- The first two stretches leave the embedding table as it was. -/
theorem kg_arg8' (V0 : Valuation τ sig (Elt Ideal)) : StableHlo.after hostOps4_1 (StableHlo.after hostOps4 V0) (Proc.devRef .tc main_arg8)
    = V0 (Proc.devRef .tc main_arg8) := by
  after_results

/-- The per-node normalisation factor after the first two stretches. -/
theorem kg_v16' (V0 : Valuation τ sig (Elt Ideal)) : StableHlo.after hostOps4_1 (StableHlo.after hostOps4 V0) (Proc.devRef .tc main_v102)
    = Cert.ReferenceIdeal.Read.val_main_v24 (F := Ideal) (V0 (Proc.devRef .tc main_arg5)) := by
  rw [kg_where', kg_v12', kg_v15', kg_cst3']
  rfl

set_option maxHeartbeats 4000000 in
set_option maxRecDepth 200000 in
theorem g_b1' (V0 : Valuation τ sig (Elt Ideal)) : StableHlo.after hostOps4_2 (StableHlo.after hostOps4_1 (StableHlo.after hostOps4 (V0))) (Proc.devRef .tc main_v139)
    = shapeCast S1x256 (V0 (Proc.devRef .tc main_arg10)) Facts₀.shapeCasts_S256_S1x256 := by
  after_results
  try rfl

set_option maxHeartbeats 4000000 in
set_option maxRecDepth 200000 in
theorem g_z' (V0 : Valuation τ sig (Elt Ideal)) : StableHlo.after hostOps4_2 (StableHlo.after hostOps4_1 (StableHlo.after hostOps4 (V0))) (Proc.devRef .tc main_v118)
    = broadcastInDim S256 ![] Facts₀.bcast_S_S256 (constant (F := Ideal) S_ .f32 0x00000000#32) := by
  after_results
  try rfl

set_option maxHeartbeats 4000000 in
set_option maxRecDepth 200000 in
theorem g_src' (V0 : Valuation τ sig (Elt Ideal)) : StableHlo.after hostOps4_2 (StableHlo.after hostOps4_1 (StableHlo.after hostOps4 (V0))) (Proc.devRef .tc main_v91)
    = Cert.ReferenceIdeal.Read.val_main_v13 (F := Ideal) (V0 (Proc.devRef .tc main_arg5)) := by
  after_results_simp
  try rfl

set_option maxHeartbeats 4000000 in
set_option maxRecDepth 200000 in
theorem g_dst' (V0 : Valuation τ sig (Elt Ideal)) : StableHlo.after hostOps4_2 (StableHlo.after hostOps4_1 (StableHlo.after hostOps4 (V0))) (Proc.devRef .tc main_v92)
    = Cert.ReferenceIdeal.Read.val_main_v14 (F := Ideal) (V0 (Proc.devRef .tc main_arg5)) := by
  after_results_simp
  try rfl

set_option maxHeartbeats 16000000 in
set_option maxRecDepth 200000 in
theorem g_nrm' (V0 : Valuation τ sig (Elt Ideal)) : StableHlo.after hostOps4_2 (StableHlo.after hostOps4_1 (StableHlo.after hostOps4 (V0))) (Proc.devRef .tc main_v117)
    = Cert.ReferenceIdeal.Read.val_main_v39 (F := Ideal) (V0 (Proc.devRef .tc main_arg5)) := by
  generalize hA : StableHlo.after hostOps4_1 (StableHlo.after hostOps4 V0) = A
  after_results_simp
  subst hA
  rw [kg_v16', kg_v5', kg_v6']
  rfl

set_option maxHeartbeats 16000000 in
set_option maxRecDepth 200000 in
theorem g_agg' (V0 : Valuation τ sig (Elt Ideal)) : StableHlo.after hostOps4_2 (StableHlo.after hostOps4_1 (StableHlo.after hostOps4 (V0))) (Proc.devRef .tc main_v138)
    = Cert.Bridge.Agg.agg128 (Cert.ReferenceIdeal.Read.val_main_v10 (F := Ideal) (V0 (Proc.devRef .tc main_arg4)) (V0 (Proc.devRef .tc main_arg8))) (Cert.ReferenceIdeal.Read.val_main_v45 (F := Ideal) (V0 (Proc.devRef .tc main_arg5)))
        (Cert.ReferenceIdeal.Read.val_main_v51 (F := Ideal) (V0 (Proc.devRef .tc main_arg5))) (Cert.ReferenceIdeal.Read.val_main_v39 (F := Ideal) (V0 (Proc.devRef .tc main_arg5))) := by
  generalize hA : StableHlo.after hostOps4_1 (StableHlo.after hostOps4 V0) = A
  after_results_simp
  subst hA
  rw [kg_v16', kg_v5', kg_v6', kg_arg0', kg_arg8']
  rfl

end Cert.KernelIdeal.Bridge

end
-- ==== Proof.KStage.lean ====
/-
  What the host stretches of the kernel program compute, one stretch at a time: each lemma reads one buffer after a
  stretch as its operation's function of the buffers the operation reads, at the contents the stretch started from.
-/
import proofs.«135828_j71159018160437_2_alg».proof.Proof.Gen.KernelIdeal.Frame
import proofs.«135828_j71159018160437_2_alg».proof.Proof.KWalk
import proofs.«135828_j71159018160437_2_alg».proof.Proof.RefDefs
import proofs.«135828_j71159018160437_2_alg».proof.Proof.KStageG

set_option maxRecDepth 200000

noncomputable section

namespace Cert.KernelIdeal.Bridge

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

open Cert.KernelIdeal.Facts₀

/-! ## Branch 1 -/

/-- The aggregated embedding table that the first region of the branch reads. -/
theorem k_agg (c : Dev nD) : W3 m ρ c (Proc.devRef .tc main_v52)
    = Cert.Bridge.Agg.agg128 (Cert.ReferenceIdeal.Read.val_main_v10 (F := Ideal) (m ((c : Thread nD τ).loc main_arg0)) (m ((c : Thread nD τ).loc main_arg8))) (Cert.ReferenceIdeal.Read.val_main_v45 (F := Ideal) (m ((c : Thread nD τ).loc main_arg1)))
        (Cert.ReferenceIdeal.Read.val_main_v51 (F := Ideal) (m ((c : Thread nD τ).loc main_arg1))) (Cert.ReferenceIdeal.Read.val_main_v39 (F := Ideal) (m ((c : Thread nD τ).loc main_arg1))) := by
  have g := g_agg (W0 m ρ c)
  exact g
/-- The first bias row. -/
theorem k_b1 (c : Dev nD) : W3 m ρ c (Proc.devRef .tc main_v53) = shapeCast S1x256 (m ((c : Thread nD τ).loc main_arg10)) Facts₀.shapeCasts_S256_S1x256 := by
  have g := g_b1 (W0 m ρ c)
  exact g
/-- The zero bias row of the second projection. -/
theorem k_z (c : Dev nD) : W3 m ρ c (Proc.devRef .tc main_v32)
    = broadcastInDim S256 ![] Facts₀.bcast_S_S256 (constant (F := Ideal) S_ .f32 0x00000000#32) := g_z (W0 m ρ c)
/-- The edge sources, the edge destinations and the edge weights, kept for the second aggregation. -/
theorem k_src (c : Dev nD) : W3 m ρ c (Proc.devRef .tc main_v5) = Cert.ReferenceIdeal.Read.val_main_v13 (F := Ideal) (m ((c : Thread nD τ).loc main_arg1)) := by
  have g := g_src (W0 m ρ c)
  exact g
theorem k_dst (c : Dev nD) : W3 m ρ c (Proc.devRef .tc main_v6) = Cert.ReferenceIdeal.Read.val_main_v14 (F := Ideal) (m ((c : Thread nD τ).loc main_arg1)) := by
  have g := g_dst (W0 m ρ c)
  exact g
theorem k_nrm (c : Dev nD) : W3 m ρ c (Proc.devRef .tc main_v31) = Cert.ReferenceIdeal.Read.val_main_v39 (F := Ideal) (m ((c : Thread nD τ).loc main_arg1)) := by
  have g := g_nrm (W0 m ρ c)
  exact g

/-- The zero bias row as the second projection's region reads it. -/
theorem k_b0 (c : Dev nD) : W5 m ρ c (Proc.devRef .tc main_v55)
    = shapeCast S1x256 (broadcastInDim S256 ![] Facts₀.bcast_S_S256 (constant (F := Ideal) S_ .f32 0x00000000#32)) Facts₀.shapeCasts_S256_S1x256 := by
  show StableHlo.after hostOps1 (W4 m ρ c) (Proc.devRef .tc main_v55) = _
  after_results
  rw [keep_v32_4_3, k_z]
  try rfl

set_option maxHeartbeats 4000000 in
set_option maxRecDepth 200000 in
/-- The second aggregation, of the table the second projection's region leaves. -/
theorem k_agg2 (c : Dev nD) : W7 m ρ c (Proc.devRef .tc main_v69)
    = Cert.Bridge.agg256R (W6 m ρ c (Proc.devRef .tc main_v56)) (m ((c : Thread nD τ).loc main_arg1)) := by
  show StableHlo.after hostOps2 (W6 m ρ c) (Proc.devRef .tc main_v69) = _
  after_results_simp
  rw [keep_v5_6_3, keep_v6_6_3, keep_v31_6_3, k_src, k_dst, k_nrm]
  try rfl

/-- The second bias row. -/
theorem k_b2 (c : Dev nD) : W7 m ρ c (Proc.devRef .tc main_v70) = shapeCast S1x256 (m ((c : Thread nD τ).loc main_arg12)) Facts₀.shapeCasts_S256_S1x256 := by
  show StableHlo.after hostOps2 (W6 m ρ c) (Proc.devRef .tc main_v70) = _
  after_results
  rw [keep_arg12_6_0]
  try rfl

set_option maxHeartbeats 4000000 in
set_option maxRecDepth 200000 in
/-- The mean pool of the table the bias-and-rectifier region leaves. -/
theorem k_pool (c : Dev nD) : W9 m ρ c (Proc.devRef .tc main_v83)
    = Cert.Bridge.poolR (W8 m ρ c (Proc.devRef .tc main_v71)) (m ((c : Thread nD τ).loc main_arg3)) := by
  show StableHlo.after hostOps3 (W8 m ρ c) (Proc.devRef .tc main_v83) = _
  after_results_simp
  rw [keep_arg3_8_0]
  try rfl

/-- The last bias row. -/
theorem k_b3 (c : Dev nD) : W9 m ρ c (Proc.devRef .tc main_v84) = shapeCast S1x256 (m ((c : Thread nD τ).loc main_arg14)) Facts₀.shapeCasts_S256_S1x256 := by
  show StableHlo.after hostOps3 (W8 m ρ c) (Proc.devRef .tc main_v84) = _
  after_results
  rw [keep_arg14_8_0]
  try rfl

/-! ## Branch 2 -/

/-- The aggregated embedding table that the first region of the branch reads. -/
theorem k_agg' (c : Dev nD) : W13 m ρ c (Proc.devRef .tc main_v138)
    = Cert.Bridge.Agg.agg128 (Cert.ReferenceIdeal.Read.val_main_v10 (F := Ideal) (m ((c : Thread nD τ).loc main_arg4)) (m ((c : Thread nD τ).loc main_arg8))) (Cert.ReferenceIdeal.Read.val_main_v45 (F := Ideal) (m ((c : Thread nD τ).loc main_arg5)))
        (Cert.ReferenceIdeal.Read.val_main_v51 (F := Ideal) (m ((c : Thread nD τ).loc main_arg5))) (Cert.ReferenceIdeal.Read.val_main_v39 (F := Ideal) (m ((c : Thread nD τ).loc main_arg5))) := by
  have g := g_agg' (W10 m ρ c)
  refine g.trans ?_
  rw [keep_arg4_10_0, keep_arg8_10_0, keep_arg5_10_0]
/-- The first bias row. -/
theorem k_b1' (c : Dev nD) : W13 m ρ c (Proc.devRef .tc main_v139) = shapeCast S1x256 (m ((c : Thread nD τ).loc main_arg10)) Facts₀.shapeCasts_S256_S1x256 := by
  have g := g_b1' (W10 m ρ c)
  refine g.trans ?_
  rw [keep_arg10_10_0]
/-- The zero bias row of the second projection. -/
theorem k_z' (c : Dev nD) : W13 m ρ c (Proc.devRef .tc main_v118)
    = broadcastInDim S256 ![] Facts₀.bcast_S_S256 (constant (F := Ideal) S_ .f32 0x00000000#32) := g_z' (W10 m ρ c)
/-- The edge sources, the edge destinations and the edge weights, kept for the second aggregation. -/
theorem k_src' (c : Dev nD) : W13 m ρ c (Proc.devRef .tc main_v91) = Cert.ReferenceIdeal.Read.val_main_v13 (F := Ideal) (m ((c : Thread nD τ).loc main_arg5)) := by
  have g := g_src' (W10 m ρ c)
  refine g.trans ?_
  rw [keep_arg5_10_0]
theorem k_dst' (c : Dev nD) : W13 m ρ c (Proc.devRef .tc main_v92) = Cert.ReferenceIdeal.Read.val_main_v14 (F := Ideal) (m ((c : Thread nD τ).loc main_arg5)) := by
  have g := g_dst' (W10 m ρ c)
  refine g.trans ?_
  rw [keep_arg5_10_0]
theorem k_nrm' (c : Dev nD) : W13 m ρ c (Proc.devRef .tc main_v117) = Cert.ReferenceIdeal.Read.val_main_v39 (F := Ideal) (m ((c : Thread nD τ).loc main_arg5)) := by
  have g := g_nrm' (W10 m ρ c)
  refine g.trans ?_
  rw [keep_arg5_10_0]

/-- The zero bias row as the second projection's region reads it. -/
theorem k_b0' (c : Dev nD) : W15 m ρ c (Proc.devRef .tc main_v141)
    = shapeCast S1x256 (broadcastInDim S256 ![] Facts₀.bcast_S_S256 (constant (F := Ideal) S_ .f32 0x00000000#32)) Facts₀.shapeCasts_S256_S1x256 := by
  show StableHlo.after hostOps5 (W14 m ρ c) (Proc.devRef .tc main_v141) = _
  after_results
  rw [keep_v118_14_13, k_z']
  try rfl

set_option maxHeartbeats 4000000 in
set_option maxRecDepth 200000 in
/-- The second aggregation, of the table the second projection's region leaves. -/
theorem k_agg2' (c : Dev nD) : W17 m ρ c (Proc.devRef .tc main_v155)
    = Cert.Bridge.agg256R (W16 m ρ c (Proc.devRef .tc main_v142)) (m ((c : Thread nD τ).loc main_arg5)) := by
  show StableHlo.after hostOps6 (W16 m ρ c) (Proc.devRef .tc main_v155) = _
  after_results_simp
  rw [keep_v91_16_13, keep_v92_16_13, keep_v117_16_13, k_src', k_dst', k_nrm']
  try rfl

/-- The second bias row. -/
theorem k_b2' (c : Dev nD) : W17 m ρ c (Proc.devRef .tc main_v156) = shapeCast S1x256 (m ((c : Thread nD τ).loc main_arg12)) Facts₀.shapeCasts_S256_S1x256 := by
  show StableHlo.after hostOps6 (W16 m ρ c) (Proc.devRef .tc main_v156) = _
  after_results
  rw [keep_arg12_16_0]
  try rfl

set_option maxHeartbeats 4000000 in
set_option maxRecDepth 200000 in
/-- The mean pool of the table the bias-and-rectifier region leaves. -/
theorem k_pool' (c : Dev nD) : W19 m ρ c (Proc.devRef .tc main_v169)
    = Cert.Bridge.poolR (W18 m ρ c (Proc.devRef .tc main_v157)) (m ((c : Thread nD τ).loc main_arg7)) := by
  show StableHlo.after hostOps7 (W18 m ρ c) (Proc.devRef .tc main_v169) = _
  after_results_simp
  rw [keep_arg7_18_0]
  try rfl

/-- The last bias row. -/
theorem k_b3' (c : Dev nD) : W19 m ρ c (Proc.devRef .tc main_v170) = shapeCast S1x256 (m ((c : Thread nD τ).loc main_arg14)) Facts₀.shapeCasts_S256_S1x256 := by
  show StableHlo.after hostOps7 (W18 m ρ c) (Proc.devRef .tc main_v170) = _
  after_results
  rw [keep_arg14_18_0]
  try rfl

/-! ## Entity encoder 1 -/

/-- The gathered entity rows. -/
theorem k_e0 (c : Dev nD) : W21 m ρ c (Proc.devRef .tc main_v178) = Cert.ReferenceIdeal.Read.val_main_v244 (F := Ideal) (m ((c : Thread nD τ).loc main_arg2)) (m ((c : Thread nD τ).loc main_arg15)) := by
  show StableHlo.after hostOps8 (W20 m ρ c) (Proc.devRef .tc main_v178) = _
  after_results
  rw [keep_arg2_20_0, keep_arg15_20_0]
  try rfl
theorem k_eb1 (c : Dev nD) : W21 m ρ c (Proc.devRef .tc main_v179) = shapeCast S1x256 (m ((c : Thread nD τ).loc main_arg17)) Facts₀.shapeCasts_S256_S1x256 := by
  show StableHlo.after hostOps8 (W20 m ρ c) (Proc.devRef .tc main_v179) = _
  after_results
  rw [keep_arg17_20_0]
  try rfl
theorem k_eb2 (c : Dev nD) : W21 m ρ c (Proc.devRef .tc main_v180) = shapeCast S1x256 (m ((c : Thread nD τ).loc main_arg19)) Facts₀.shapeCasts_S256_S1x256 := by
  show StableHlo.after hostOps8 (W20 m ρ c) (Proc.devRef .tc main_v180) = _
  after_results
  rw [keep_arg19_20_0]
  try rfl

/-! ## Entity encoder 2 -/

/-- The gathered entity rows. -/
theorem k_e0' (c : Dev nD) : W23 m ρ c (Proc.devRef .tc main_v188) = Cert.ReferenceIdeal.Read.val_main_v244 (F := Ideal) (m ((c : Thread nD τ).loc main_arg6)) (m ((c : Thread nD τ).loc main_arg15)) := by
  show StableHlo.after hostOps9 (W22 m ρ c) (Proc.devRef .tc main_v188) = _
  after_results
  rw [keep_arg6_22_0, keep_arg15_22_0]
  try rfl
theorem k_eb1' (c : Dev nD) : W23 m ρ c (Proc.devRef .tc main_v189) = shapeCast S1x256 (m ((c : Thread nD τ).loc main_arg17)) Facts₀.shapeCasts_S256_S1x256 := by
  show StableHlo.after hostOps9 (W22 m ρ c) (Proc.devRef .tc main_v189) = _
  after_results
  rw [keep_arg17_22_0]
  try rfl
theorem k_eb2' (c : Dev nD) : W23 m ρ c (Proc.devRef .tc main_v190) = shapeCast S1x256 (m ((c : Thread nD τ).loc main_arg19)) Facts₀.shapeCasts_S256_S1x256 := by
  show StableHlo.after hostOps9 (W22 m ρ c) (Proc.devRef .tc main_v190) = _
  after_results
  rw [keep_arg19_22_0]
  try rfl

/-! ## The decoder's operands -/

theorem k_wt (c : Dev nD) : W25 m ρ c (Proc.devRef .tc main_v192) = extractStridedSlice S256x512 ![0, 0] (m ((c : Thread nD τ).loc main_arg20)) Facts₀.slices_S512x512_S256x512_0_0 := by
  show StableHlo.after hostOps10 (W24 m ρ c) (Proc.devRef .tc main_v192) = _
  after_results
  rw [keep_arg20_24_0]
theorem k_wb (c : Dev nD) : W25 m ρ c (Proc.devRef .tc main_v193) = extractStridedSlice S256x512 ![256, 0] (m ((c : Thread nD τ).loc main_arg20)) Facts₀.slices_S512x512_S256x512_256_0 := by
  show StableHlo.after hostOps10 (W24 m ρ c) (Proc.devRef .tc main_v193) = _
  after_results
  rw [keep_arg20_24_0]
theorem k_d1 (c : Dev nD) : W25 m ρ c (Proc.devRef .tc main_v194) = shapeCast S1x512 (m ((c : Thread nD τ).loc main_arg21)) Facts₀.shapeCasts_S512_S1x512 := by
  show StableHlo.after hostOps10 (W24 m ρ c) (Proc.devRef .tc main_v194) = _
  after_results
  rw [keep_arg21_24_0]
  try rfl
theorem k_d2 (c : Dev nD) : W25 m ρ c (Proc.devRef .tc main_v195) = shapeCast S1x512 (m ((c : Thread nD τ).loc main_arg23)) Facts₀.shapeCasts_S512_S1x512 := by
  show StableHlo.after hostOps10 (W24 m ρ c) (Proc.devRef .tc main_v195) = _
  after_results
  rw [keep_arg23_24_0]
  try rfl
theorem k_d3 (c : Dev nD) : W25 m ρ c (Proc.devRef .tc main_v196) = shapeCast S1x128 (m ((c : Thread nD τ).loc main_arg25)) Facts₀.shapeCasts_S128_S1x128 := by
  show StableHlo.after hostOps10 (W24 m ρ c) (Proc.devRef .tc main_v196) = _
  after_results
  rw [keep_arg25_24_0]
  try rfl

end Cert.KernelIdeal.Bridge

end
-- ==== Proof.RefBasics.lean ====
/-
  Small facts used by every comparison with the reference: a bias vector recast as a one-row matrix read at a
  column, the float zero pattern as the extended real zero, and two tactics that identify index functions over
  rank-one and rank-two shapes coordinate by coordinate.
-/
import proofs.«135828_j71159018160437_2_alg».proof.Proof.RefRead
import proofs.«135828_j71159018160437_2_alg».proof.Proof.Gen.KernelIdeal
import Idealize.ShloMosaic.Lib.ValueIdx
import Idealize.ShloMosaic.Lib.Pipeline.Value
import Idealize.ShloMosaic.PureOps.Ideal.Laws

set_option maxRecDepth 16384

noncomputable section

namespace Cert.Bridge

open Cert.ReferenceIdeal Cert.ReferenceIdeal.Read Idealize.ShloMosaic Idealize.ShloMosaic.ValueIdx

/-- Two index functions over a rank-two shape agree when they agree on both coordinates. -/
macro "idx2_ext" : tactic => `(tactic| (funext a; match a with | ⟨0, _⟩ => rfl | ⟨1, _⟩ => rfl))
macro "idx1_ext" : tactic => `(tactic| (funext a; match a with | ⟨0, _⟩ => rfl))

/-! ## Bias rows and zeros -/

/-- A length-256 vector recast as a [1,256] row, read at column `q`. -/
theorem row256_apply (b : (⟨S256, .f32⟩ : BufTy).Contents (Elt Ideal)) (q : Fin 256) :
    shapeCast Cert.KernelIdeal.S1x256 b Cert.KernelIdeal.Facts₀.shapeCasts_S256_S1x256 (ix2 (0 : Fin 1) q) = b (ix1 q) :=
  shapeCast_apply b _ (ix2 (0 : Fin 1) q) (ix1 q) (by
    rewrite [Shape.rowMajor_val_one, Shape.rowMajor_val_two]; show q.val = 0 * 256 + q.val; omega)

/-- The f32 zero pattern is the extended real zero. -/
theorem zero_f32 : (FloatOps.ofBits (F := Ideal) .f32 0x00000000#32 : EReal) = 0 := Ideal.ofBits_zero_f32

end Cert.Bridge

end
-- ==== Proof.RefCore.lean ====
/-
  The graph branch of the reference, layer by layer, against what the kernel's regions compute.
  A region's output array is given as an index-by-index formula of its input arrays (a row of a matrix product, a
  bias row added, a rectifier); the reference spells the same value with whole-array host operations. Each lemma
  here says the two are one array. The only step that is more than re-indexing is the first layer, where the
  kernel aggregates the 128-wide embedding over the edges and then projects to 256 columns, and the reference
  projects first: aggregation is linear, so the two agree when every entry is a real number.
-/
import proofs.«135828_j71159018160437_2_alg».proof.Proof.RefDefs
import proofs.«135828_j71159018160437_2_alg».proof.Proof.RefBasics
import Idealize.ShloMosaic.Lib.ValueIdx
import Idealize.ShloMosaic.Lib.Pipeline.Value
import Idealize.ShloMosaic.PureOps.Ideal.Laws

set_option maxRecDepth 16384

noncomputable section

namespace Cert.Bridge

open Cert.ReferenceIdeal Cert.ReferenceIdeal.Read Idealize.ShloMosaic Idealize.ShloMosaic.ValueIdx

/-! ## Layer 2, the pool and the final projection: re-indexing only -/

/-- The second layer's projection: the kernel's region adds a zero bias row. -/
theorem layer2_lin (x0 : (⟨S50000, .i32⟩ : BufTy).Contents (Elt Ideal)) (x1 : (⟨S2x800000, .i32⟩ : BufTy).Contents (Elt Ideal)) (x8 : (⟨S11x128, .f32⟩ : BufTy).Contents (Elt Ideal)) (x9 : (⟨S128x256, .f32⟩ : BufTy).Contents (Elt Ideal)) (x10 : (⟨S256, .f32⟩ : BufTy).Contents (Elt Ideal)) (x11 : (⟨S256x256, .f32⟩ : BufTy).Contents (Elt Ideal)) :
    (fun j : S50000x256.Idx => (∑ k : Fin 256, val_main_v56 (F := Ideal) x0 x1 x8 x9 x10 (ix2 (j 0) k) * x11 (ix2 k (j 1)))
        + shapeCast Cert.KernelIdeal.S1x256 (broadcastInDim Cert.KernelIdeal.S256 ![] Cert.KernelIdeal.Facts₀.bcast_S_S256 (constant (F := Ideal) Cert.KernelIdeal.S_ .f32 0x00000000#32))
            Cert.KernelIdeal.Facts₀.shapeCasts_S256_S1x256 (ix2 (0 : Fin 1) (j 1)))
      = val_main_v57 (F := Ideal) x0 x1 x8 x9 x10 x11 := by
  funext j
  obtain ⟨r, q, rfl⟩ : ∃ (r : Fin 50000) (q : Fin 256), j = ix2 r q := ⟨j 0, j 1, eq_ix2 j⟩
  show (∑ k : Fin 256, val_main_v56 (F := Ideal) x0 x1 x8 x9 x10 (ix2 r k) * x11 (ix2 k q))
        + shapeCast Cert.KernelIdeal.S1x256 (broadcastInDim Cert.KernelIdeal.S256 ![] Cert.KernelIdeal.Facts₀.bcast_S_S256 (constant (F := Ideal) Cert.KernelIdeal.S_ .f32 0x00000000#32))
            Cert.KernelIdeal.Facts₀.shapeCasts_S256_S1x256 (ix2 (0 : Fin 1) q)
      = val_main_v57 (F := Ideal) x0 x1 x8 x9 x10 x11 (ix2 r q)
  rw [val_main_v57_apply, row256_apply]
  have hz : broadcastInDim Cert.KernelIdeal.S256 ![] Cert.KernelIdeal.Facts₀.bcast_S_S256 (constant (F := Ideal) Cert.KernelIdeal.S_ .f32 0x00000000#32) (ix1 q) = (0 : EReal) := zero_f32
  rw [hz, add_zero]
  refine Finset.sum_congr rfl fun k _ => ?_
  rw [show lidx_main_v57 (ix2 r q) k = ix2 r k from by idx2_ext, show ridx_main_v57 (ix2 r q) k = ix2 k q from by idx2_ext]

/-- The second layer's bias and rectifier after the aggregation. -/
theorem layer2_act (x0 : (⟨S50000, .i32⟩ : BufTy).Contents (Elt Ideal)) (x1 : (⟨S2x800000, .i32⟩ : BufTy).Contents (Elt Ideal)) (x8 : (⟨S11x128, .f32⟩ : BufTy).Contents (Elt Ideal)) (x9 : (⟨S128x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) :
    (fun j : S50000x256.Idx => max (val_main_v98 (F := Ideal) x0 x1 x8 x9 x10 x11 j
        + shapeCast Cert.KernelIdeal.S1x256 x12 Cert.KernelIdeal.Facts₀.shapeCasts_S256_S1x256 (ix2 (0 : Fin 1) (j 1))) 0)
      = val_main_v102 (F := Ideal) x0 x1 x8 x9 x10 x11 x12 := by
  funext j
  obtain ⟨r, q, rfl⟩ : ∃ (r : Fin 50000) (q : Fin 256), j = ix2 r q := ⟨j 0, j 1, eq_ix2 j⟩
  show max (val_main_v98 (F := Ideal) x0 x1 x8 x9 x10 x11 (ix2 r q)
        + shapeCast Cert.KernelIdeal.S1x256 x12 Cert.KernelIdeal.Facts₀.shapeCasts_S256_S1x256 (ix2 (0 : Fin 1) q)) 0
      = val_main_v102 (F := Ideal) x0 x1 x8 x9 x10 x11 x12 (ix2 r q)
  rw [val_main_v102_apply, val_main_v101_apply, val_main_v100_apply, val_main_v99_apply, val_main_call3_v0_apply, val_main_call3_cst_apply, row256_apply]
  rw [show idx_main_v99 (idx_main_v100 (ix2 r q)) = ix1 q from by idx1_ext]
  show max _ _ = max _ (FloatOps.ofBits (F := Ideal) .f32 0x00000000#32)
  rw [zero_f32]; rfl

/-- The final projection of the pooled table. -/
theorem branch_out (x0 : (⟨S50000, .i32⟩ : BufTy).Contents (Elt Ideal)) (x1 : (⟨S2x800000, .i32⟩ : BufTy).Contents (Elt Ideal)) (x3 : (⟨S50000, .i32⟩ : BufTy).Contents (Elt Ideal)) (x8 : (⟨S11x128, .f32⟩ : BufTy).Contents (Elt Ideal)) (x9 : (⟨S128x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) :
    (fun j : S1024x256.Idx => (∑ k : Fin 256, val_main_v114 (F := Ideal) x0 x1 x3 x8 x9 x10 x11 x12 (ix2 (j 0) k) * x13 (ix2 k (j 1)))
        + shapeCast Cert.KernelIdeal.S1x256 x14 Cert.KernelIdeal.Facts₀.shapeCasts_S256_S1x256 (ix2 (0 : Fin 1) (j 1)))
      = val_main_v118 (F := Ideal) x0 x1 x3 x8 x9 x10 x11 x12 x13 x14 := by
  funext j
  obtain ⟨r, q, rfl⟩ : ∃ (r : Fin 1024) (q : Fin 256), j = ix2 r q := ⟨j 0, j 1, eq_ix2 j⟩
  show (∑ k : Fin 256, val_main_v114 (F := Ideal) x0 x1 x3 x8 x9 x10 x11 x12 (ix2 r k) * x13 (ix2 k q))
        + shapeCast Cert.KernelIdeal.S1x256 x14 Cert.KernelIdeal.Facts₀.shapeCasts_S256_S1x256 (ix2 (0 : Fin 1) q)
      = val_main_v118 (F := Ideal) x0 x1 x3 x8 x9 x10 x11 x12 x13 x14 (ix2 r q)
  rw [val_main_v118_apply, val_main_v117_apply, val_main_v116_apply, val_main_v115_apply, row256_apply]
  rw [show idx_main_v116 (idx_main_v117 (ix2 r q)) = ix1 q from by idx1_ext]
  show _ = _ + _
  refine congrArg (fun s : EReal => s + x14 (ix1 q)) (Finset.sum_congr rfl fun k _ => ?_)
  rw [show lidx_main_v115 (ix2 r q) k = ix2 r k from by idx2_ext, show ridx_main_v115 (ix2 r q) k = ix2 k q from by idx2_ext]

/-- The edge weights are real numbers whatever the edge list: a degree is a finite count, its reciprocal square root
    (or zero) is real, and a weight is a product of two of them. -/
theorem nrm_real_ref (x1 : (⟨S2x800000, .i32⟩ : BufTy).Contents (Elt Ideal)) : ∀ e, ∃ r : ℝ, val_main_v39 (F := Ideal) x1 e = (r : EReal) :=
  Agg.nrm_real (val_main_v17 (F := Ideal) x1) (val_main_v30 (F := Ideal) x1) (val_main_v37 (F := Ideal) x1)

/-! ## Layer 1: aggregate then project, against project then aggregate -/

/-- The first layer. The kernel's region multiplies the aggregated 128-wide table by the weight matrix, adds the bias
    row and rectifies; the reference aggregates the projected 256-wide table. Aggregation commutes with the
    projection where every entry of the embedding table, of the weights and of the edge weights is a real number. -/
theorem layer1 (x0 : (⟨S50000, .i32⟩ : BufTy).Contents (Elt Ideal)) (x1 : (⟨S2x800000, .i32⟩ : BufTy).Contents (Elt Ideal)) (x8 : (⟨S11x128, .f32⟩ : BufTy).Contents (Elt Ideal)) (x9 : (⟨S128x256, .f32⟩ : BufTy).Contents (Elt Ideal)) (x10 : (⟨S256, .f32⟩ : BufTy).Contents (Elt Ideal))
    (h8 : ∀ i, ∃ r : ℝ, x8 i = (r : EReal)) (h9 : ∀ i, ∃ r : ℝ, x9 i = (r : EReal))
    (hn : ∀ e, ∃ r : ℝ, val_main_v39 (F := Ideal) x1 e = (r : EReal)) :
    (fun j : S50000x256.Idx => max ((∑ k : Fin 128,
          Agg.agg128 (val_main_v10 (F := Ideal) x0 x8) (val_main_v45 (F := Ideal) x1) (val_main_v51 (F := Ideal) x1) (val_main_v39 (F := Ideal) x1) (ix2 (j 0) k) * x9 (ix2 k (j 1)))
        + shapeCast Cert.KernelIdeal.S1x256 x10 Cert.KernelIdeal.Facts₀.shapeCasts_S256_S1x256 (ix2 (0 : Fin 1) (j 1))) 0)
      = val_main_v56 (F := Ideal) x0 x1 x8 x9 x10 := by
  have hlin := Agg.agg_linear (val_main_v10 (F := Ideal) x0 x8) x9 (val_main_v45 (F := Ideal) x1) (val_main_v51 (F := Ideal) x1)
    (val_main_v39 (F := Ideal) x1) (fun i => h8 _) h9 hn
  have e11 : val_main_v11 (F := Ideal) x0 x8 x9
      = fun j : S50000x256.Idx => ∑ k : Fin 128, val_main_v10 (F := Ideal) x0 x8 (ix2 (j 0) k) * x9 (ix2 k (j 1)) := by
    funext j
    obtain ⟨r, q, rfl⟩ : ∃ (r : Fin 50000) (q : Fin 256), j = ix2 r q := ⟨j 0, j 1, eq_ix2 j⟩
    show val_main_v11 (F := Ideal) x0 x8 x9 (ix2 r q) = ∑ k : Fin 128, val_main_v10 (F := Ideal) x0 x8 (ix2 r k) * x9 (ix2 k q)
    rw [val_main_v11_apply]
    refine Finset.sum_congr rfl fun k _ => ?_
    rw [show lidx_main_v11 (ix2 r q) k = ix2 r k from by idx2_ext, show ridx_main_v11 (ix2 r q) k = ix2 k q from by idx2_ext]
  have e52 : val_main_v52 (F := Ideal) x0 x1 x8 x9
      = Agg.agg256 (val_main_v11 (F := Ideal) x0 x8 x9) (val_main_v45 (F := Ideal) x1) (val_main_v51 (F := Ideal) x1) (val_main_v39 (F := Ideal) x1) := rfl
  funext j
  obtain ⟨r, q, rfl⟩ : ∃ (r : Fin 50000) (q : Fin 256), j = ix2 r q := ⟨j 0, j 1, eq_ix2 j⟩
  show max ((∑ k : Fin 128,
          Agg.agg128 (val_main_v10 (F := Ideal) x0 x8) (val_main_v45 (F := Ideal) x1) (val_main_v51 (F := Ideal) x1) (val_main_v39 (F := Ideal) x1) (ix2 r k) * x9 (ix2 k q))
        + shapeCast Cert.KernelIdeal.S1x256 x10 Cert.KernelIdeal.Facts₀.shapeCasts_S256_S1x256 (ix2 (0 : Fin 1) q)) 0
      = val_main_v56 (F := Ideal) x0 x1 x8 x9 x10 (ix2 r q)
  rw [val_main_v56_apply, val_main_v55_apply, val_main_v54_apply, val_main_v53_apply, val_main_call1_v0_apply, val_main_call1_cst_apply,
    row256_apply, e52, e11, ← hlin]
  rw [show idx_main_v53 (idx_main_v54 (ix2 r q)) = ix1 q from by idx1_ext]
  show max _ _ = max _ (FloatOps.ofBits (F := Ideal) .f32 0x00000000#32)
  rw [zero_f32]; rfl

end Cert.Bridge

end
-- ==== Proof.Region0.lean ====
/- The array the linear-layer region leaves, as one function of the arrays it reads, entry by entry: row r, column q of
   the result is the sum over k of X r k * W k q, plus the bias row's entry of column q, and then the maximum with zero.
   First one entry of the value the body stores in a block, then each written block as a block of that function, then the
   blocks of the ten grid points cover the array. -/
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)
open scoped BigOperators

/-- The offsets of a rectangle that is a whole block are zero on both axes. -/
theorem region0_offsets : (![0, 0] : Fin 2 → Nat) = fun _ => 0 := funext fun a => by fin_cases a <;> rfl

/-- The linear layer, entry by entry: row r, column q of the result is the sum over k of X r k * W k q, plus b 0 q, then the maximum with zero. -/
def region0_fn (X : S50000x128.Idx → EReal) (W : S128x256.Idx → EReal) (b : S1x256.Idx → EReal) : S50000x256.Idx → EReal :=
  fun j => max ((∑ k : Fin 128, X (ix2 (j 0) k) * W (ix2 k (j 1))) + b (ix2 (0 : Fin 1) (j 1))) 0

/-! ## The product's operand indices: the left operand is read at (row, k), the right one at (k, column) -/

theorem region0_lhs0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem region0_lhs1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem region0_rhs0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem region0_rhs1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The matrix product into a zero accumulator, read at row p, column q: the sum over k of x p k * w k q. -/
theorem region0_matmul (x : FVec Ideal S5000x128 .f32) (w : FVec Ideal S128x256 .f32) (p : Fin 5000) (q : Fin 256) :
    matmul dot_S5000x128_S128x256_S5000x256_1_0_0_1_n_n none x w (constant S5000x256 .f32 0x00000000#32) (ix2 p q)
      = ∑ k : Fin 128, x (ix2 p k) * w (ix2 k q) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact region0_lhs0 _ _
    | ⟨1, _⟩ => exact (region0_lhs1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (region0_rhs0 _ _).trans hk
    | ⟨1, _⟩ => exact region0_rhs1 _ _)
  rw [el, er]

/-- One entry of the value the body stores: the product's entry plus the bias row's entry of the same column, then the
    maximum with zero (the two casts keep the shape, the bias row is repeated down the rows, the constant is zero). -/
theorem region0_pay (x0 : Vec Ideal S5000x128 .f32) (x1 : Vec Ideal S128x256 .f32) (x2 : Vec Ideal S1x256 .f32) (p : Fin 5000) (q : Fin 256) :
    k0_pay1 x0 x1 x2 (ix2 p q) = max ((∑ k : Fin 128, x0 (ix2 p k) * x1 (ix2 k q)) + x2 (ix2 (0 : Fin 1) q)) 0 := by
  unfold k0_pay1
  simp only [maximumf_apply, addf_apply, broadcast_apply, shapeCast_self]
  rw [region0_matmul, broadcastTo_1b_ab_apply]
  show max _ (Ideal.ofBits .f32 0x00000000#32) = _
  rw [Ideal.ofBits_zero_f32]

/-- The same entry when the entries of the three blocks are known to be entries of three arrays X, W and b at the row and
    the column of an index i: the entry of region0_fn X W b at i. -/
theorem region0_point (X : S50000x128.Idx → EReal) (W : S128x256.Idx → EReal) (b : S1x256.Idx → EReal)
    (x0 : Vec Ideal S5000x128 .f32) (x1 : Vec Ideal S128x256 .f32) (x2 : Vec Ideal S1x256 .f32)
    (p : Fin 5000) (q : Fin 256) (i : S50000x256.Idx)
    (h0 : ∀ k : Fin 128, x0 (ix2 p k) = X (ix2 (i 0) k)) (h1 : ∀ k : Fin 128, x1 (ix2 k q) = W (ix2 k (i 1)))
    (h2 : x2 (ix2 (0 : Fin 1) q) = b (ix2 (0 : Fin 1) (i 1))) :
    k0_pay1 x0 x1 x2 (ix2 p q) = region0_fn X W b i := by
  rw [region0_pay, h2, Finset.sum_congr rfl fun k _ => by rw [h0 k, h1 k]]; rfl

/-- The block indices of the four windows at every grid point: the input's and the output's block is the point's block
    of rows, the weight and bias windows stay at their one block. -/
theorem region0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- An entry of the input's block at point t, in the row of an entry y of the output's block, is the input array's
    entry in the row where y sits in the output array: a block's entry sits in its array at block index times block size
    plus its coordinate inside the block, on each axis. -/
theorem region0_read0 (c : Dev nD) (t : Fin cfg0.N) (y : ((cfg0.win 3).xblock (grid0.coords t)).Idx)
    (hy0 : (y 0).val < 5000) (k : Fin 128) :
    iblk0 V c 0 t (ix2 ⟨(y 0).val, hy0⟩ k)
      = V c (Pipeline.arrRef spec0 0) (ix2 ((((cfg0.win 3).blk t).view.emb y) 0) k) := by
  obtain ⟨e00, e01, -, -, -, -, e30, -⟩ := region0_index t
  show V c (Pipeline.arrRef spec0 0) (((cfg0.win 0).blk t).view.emb (ix2 ⟨(y 0).val, hy0⟩ k)) = _
  refine congrArg _ (funext fun a => Fin.ext ?_)
  match a with
  | ⟨0, _⟩ => show win0_0.index t (0 : Fin 2) * 5000 + 1 * (y 0).val = win0_3.index t (0 : Fin 2) * 5000 + 1 * (y 0).val; omega
  | ⟨1, _⟩ => show win0_0.index t (1 : Fin 2) * 128 + 1 * k.val = k.val; omega

/-- An entry of the weight's block at point t, in the column of y, is the weight array's entry in the column where y
    sits in the output array. -/
theorem region0_read1 (c : Dev nD) (t : Fin cfg0.N) (y : ((cfg0.win 3).xblock (grid0.coords t)).Idx)
    (hy1 : (y 1).val < 256) (k : Fin 128) :
    iblk0 V c 1 t (ix2 k ⟨(y 1).val, hy1⟩)
      = V c (Pipeline.arrRef spec0 1) (ix2 k ((((cfg0.win 3).blk t).view.emb y) 1)) := by
  obtain ⟨-, -, e10, e11, -, -, -, e31⟩ := region0_index t
  show V c (Pipeline.arrRef spec0 1) (((cfg0.win 1).blk t).view.emb (ix2 k ⟨(y 1).val, hy1⟩)) = _
  refine congrArg _ (funext fun a => Fin.ext ?_)
  match a with
  | ⟨0, _⟩ => show win0_1.index t (0 : Fin 2) * 128 + 1 * k.val = k.val; omega
  | ⟨1, _⟩ => show win0_1.index t (1 : Fin 2) * 256 + 1 * (y 1).val = win0_3.index t (1 : Fin 2) * 256 + 1 * (y 1).val; omega

/-- The entry of the bias row's block at point t in the column of y is the bias array's entry in the column where y sits
    in the output array. -/
theorem region0_read2 (c : Dev nD) (t : Fin cfg0.N) (y : ((cfg0.win 3).xblock (grid0.coords t)).Idx)
    (hy1 : (y 1).val < 256) :
    iblk0 V c 2 t (ix2 (0 : Fin 1) ⟨(y 1).val, hy1⟩)
      = V c (Pipeline.arrRef spec0 2) (ix2 (0 : Fin 1) ((((cfg0.win 3).blk t).view.emb y) 1)) := by
  obtain ⟨-, -, -, -, e20, e21, -, e31⟩ := region0_index t
  show V c (Pipeline.arrRef spec0 2) (((cfg0.win 2).blk t).view.emb (ix2 (0 : Fin 1) ⟨(y 1).val, hy1⟩)) = _
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * (y 1).val = win0_3.index t (1 : Fin 2) * 256 + 1 * (y 1).val; omega

/-- What grid point t writes back is block t of region0_fn of the three input arrays. -/
theorem region0_flushed (c : Dev nD) (t : Fin cfg0.N) :
    (dat0 (F := Ideal) V c).flushed 3 t
      = ((cfg0.win 3).blk t).view.read (Elt Ideal)
          (region0_fn (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero region0_offsets]
  simp only [View.ld_unit_zero (S := S5000x128) region0_offsets, View.ld_unit_zero (S := S128x256) region0_offsets,
    View.ld_unit_zero (S := S1x256) region0_offsets]
  funext y
  have hy0 : (y 0).val < 5000 := (y 0).isLt
  have hy1 : (y 1).val < 256 := (y 1).isLt
  have hy : (cfg0.win 3).xinj (grid0.coords t) y = ix2 ⟨(y 0).val, hy0⟩ ⟨(y 1).val, hy1⟩ :=
    funext fun a => by match a with | ⟨0, _⟩ => rfl | ⟨1, _⟩ => rfl
  refine (congrArg (k0_pay1 (iblk0 V c 0 t) (iblk0 V c 1 t) (iblk0 V c 2 t)) hy).trans ?_
  show k0_pay1 (iblk0 V c 0 t) (iblk0 V c 1 t) (iblk0 V c 2 t) (ix2 ⟨(y 0).val, hy0⟩ ⟨(y 1).val, hy1⟩)
    = region0_fn (V c (Pipeline.arrRef spec0 0)) (V c (Pipeline.arrRef spec0 1)) (V c (Pipeline.arrRef spec0 2))
        (((cfg0.win 3).blk t).view.emb y)
  exact region0_point (V c (Pipeline.arrRef spec0 0)) (V c (Pipeline.arrRef spec0 1)) (V c (Pipeline.arrRef spec0 2))
    (iblk0 V c 0 t) (iblk0 V c 1 t) (iblk0 V c 2 t)
    ⟨(y 0).val, hy0⟩ ⟨(y 1).val, hy1⟩ (((cfg0.win 3).blk t).view.emb y)
    (fun k => region0_read0 V c t y hy0 k) (fun k => region0_read1 V c t y hy1 k) (region0_read2 V c t y hy1)

/-- An index of the array is in point t's block iff each coordinate is in the block's range on its axis. -/
theorem region0_mem (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v54).slice (win0_3.rect t)).set ↔ _
  rw [View.set_slice_whole, Rect.mem_set_unit]
  exact Iff.rfl

/-- Every index of the array is in the block of the grid point numbered by its row divided by 5000. -/
theorem region0_cover (i : S50000x256.Idx) :
    ∃ t : Fin cfg0.N, (cfg0.win 3).flush t = true ∧ i ∈ ((cfg0.win 3).blk t).view.set := by
  have hN : cfg0.N = 10 := N_0
  have h0 : (i 0).val < 50000 := (i 0).isLt
  have h1 : (i 1).val < 256 := (i 1).isLt
  obtain ⟨t, ht⟩ : ∃ t : Fin cfg0.N, t.val = (i 0).val / 5000 := ⟨⟨(i 0).val / 5000, by rw [hN]; omega⟩, rfl⟩
  obtain ⟨-, -, -, -, -, -, e30, e31⟩ := region0_index t
  refine ⟨t, flush0_3 t, ?_⟩
  rw [region0_mem]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- The array after the region is region0_fn of the three input arrays as the region finds them. -/
theorem region0_out (c : Dev nD) :
    (dat0 (F := Ideal) V c).arrAt 3 cfg0.N
      = region0_fn (V c (Pipeline.arrRef spec0 0)) (V c (Pipeline.arrRef spec0 1)) (V c (Pipeline.arrRef spec0 2)) :=
  (dat0 (F := Ideal) V c).arrAt_eq_of_cover 3
    (region0_fn (V c (Pipeline.arrRef spec0 0)) (V c (Pipeline.arrRef spec0 1)) (V c (Pipeline.arrRef spec0 2)))
    (fun t _ => region0_flushed V c t) region0_cover

/-- The array after the region, with the three input arrays named: row r, column q is the sum over k of X r k * W k q,
    plus the bias row's entry of column q, then the maximum with zero. -/
theorem region0_out_of (c : Dev nD) (X : S50000x128.Idx → EReal) (W : S128x256.Idx → EReal) (b : S1x256.Idx → EReal)
    (hX : V c (Pipeline.arrRef spec0 0) = X) (hW : V c (Pipeline.arrRef spec0 1) = W)
    (hb : V c (Pipeline.arrRef spec0 2) = b) :
    (dat0 (F := Ideal) V c).arrAt 3 cfg0.N
      = fun j : S50000x256.Idx => max ((∑ k : Fin 128, X (ix2 (j 0) k) * W (ix2 k (j 1))) + b (ix2 0 (j 1))) 0 := by
  subst hX hW hb
  exact region0_out V c

end Cert.KernelIdeal.Bridge

end
-- ==== Proof.Region1.lean ====
/- The array the linear-layer region leaves, as one function of the arrays it reads, entry by entry: row r, column q of
   the result is the sum over k of X r k * W k q, plus the bias row's entry of column q.
   First one entry of the value the body stores in a block, then each written block as a block of that function, then the
   blocks of the ten grid points cover the array. -/
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)
open scoped BigOperators

/-- The offsets of a rectangle that is a whole block are zero on both axes. -/
theorem region1_offsets : (![0, 0] : Fin 2 → Nat) = fun _ => 0 := funext fun a => by fin_cases a <;> rfl

/-- The linear layer, entry by entry: row r, column q of the result is the sum over k of X r k * W k q, plus b 0 q. -/
def region1_fn (X : S50000x256.Idx → EReal) (W : S256x256.Idx → EReal) (b : S1x256.Idx → EReal) : S50000x256.Idx → EReal :=
  fun j => (∑ k : Fin 256, X (ix2 (j 0) k) * W (ix2 k (j 1))) + b (ix2 (0 : Fin 1) (j 1))

/-! ## The product's operand indices: the left operand is read at (row, k), the right one at (k, column) -/

theorem region1_lhs0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem region1_lhs1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem region1_rhs0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem region1_rhs1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The matrix product into a zero accumulator, read at row p, column q: the sum over k of x p k * w k q. -/
theorem region1_matmul (x : FVec Ideal S5000x256 .f32) (w : FVec Ideal S256x256 .f32) (p : Fin 5000) (q : Fin 256) :
    matmul dot_S5000x256_S256x256_S5000x256_1_0_0_1_n_n none x w (constant S5000x256 .f32 0x00000000#32) (ix2 p q)
      = ∑ k : Fin 256, x (ix2 p k) * w (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact region1_lhs0 _ _
    | ⟨1, _⟩ => exact (region1_lhs1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (region1_rhs0 _ _).trans hk
    | ⟨1, _⟩ => exact region1_rhs1 _ _)
  rw [el, er]

/-- One entry of the value the body stores: the product's entry plus the bias row's entry of the same column (the two casts keep the shape, the bias row is repeated down the rows). -/
theorem region1_pay (x0 : Vec Ideal S5000x256 .f32) (x1 : Vec Ideal S256x256 .f32) (x2 : Vec Ideal S1x256 .f32) (p : Fin 5000) (q : Fin 256) :
    k1_pay1 x0 x1 x2 (ix2 p q) = (∑ k : Fin 256, x0 (ix2 p k) * x1 (ix2 k q)) + x2 (ix2 (0 : Fin 1) q) := by
  unfold k1_pay1
  simp only [addf_apply, shapeCast_self]
  rw [region1_matmul, broadcastTo_1b_ab_apply]

/-- The same entry when the entries of the three blocks are known to be entries of three arrays X, W and b at the row and
    the column of an index i: the entry of region1_fn X W b at i. -/
theorem region1_point (X : S50000x256.Idx → EReal) (W : S256x256.Idx → EReal) (b : S1x256.Idx → EReal)
    (x0 : Vec Ideal S5000x256 .f32) (x1 : Vec Ideal S256x256 .f32) (x2 : Vec Ideal S1x256 .f32)
    (p : Fin 5000) (q : Fin 256) (i : S50000x256.Idx)
    (h0 : ∀ k : Fin 256, x0 (ix2 p k) = X (ix2 (i 0) k)) (h1 : ∀ k : Fin 256, x1 (ix2 k q) = W (ix2 k (i 1)))
    (h2 : x2 (ix2 (0 : Fin 1) q) = b (ix2 (0 : Fin 1) (i 1))) :
    k1_pay1 x0 x1 x2 (ix2 p q) = region1_fn X W b i := by
  rw [region1_pay, h2, Finset.sum_congr rfl fun k _ => by rw [h0 k, h1 k]]; rfl

/-- The block indices of the four windows at every grid point: the input's and the output's block is the point's block
    of rows, the weight and bias windows stay at their one block. -/
theorem region1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- An entry of the input's block at point t, in the row of an entry y of the output's block, is the input array's
    entry in the row where y sits in the output array: a block's entry sits in its array at block index times block size
    plus its coordinate inside the block, on each axis. -/
theorem region1_read0 (c : Dev nD) (t : Fin cfg1.N) (y : ((cfg1.win 3).xblock (grid1.coords t)).Idx)
    (hy0 : (y 0).val < 5000) (k : Fin 256) :
    iblk1 V c 0 t (ix2 ⟨(y 0).val, hy0⟩ k)
      = V c (Pipeline.arrRef spec1 0) (ix2 ((((cfg1.win 3).blk t).view.emb y) 0) k) := by
  obtain ⟨e00, e01, -, -, -, -, e30, -⟩ := region1_index t
  show V c (Pipeline.arrRef spec1 0) (((cfg1.win 0).blk t).view.emb (ix2 ⟨(y 0).val, hy0⟩ k)) = _
  refine congrArg _ (funext fun a => Fin.ext ?_)
  match a with
  | ⟨0, _⟩ => show win1_0.index t (0 : Fin 2) * 5000 + 1 * (y 0).val = win1_3.index t (0 : Fin 2) * 5000 + 1 * (y 0).val; omega
  | ⟨1, _⟩ => show win1_0.index t (1 : Fin 2) * 256 + 1 * k.val = k.val; omega

/-- An entry of the weight's block at point t, in the column of y, is the weight array's entry in the column where y
    sits in the output array. -/
theorem region1_read1 (c : Dev nD) (t : Fin cfg1.N) (y : ((cfg1.win 3).xblock (grid1.coords t)).Idx)
    (hy1 : (y 1).val < 256) (k : Fin 256) :
    iblk1 V c 1 t (ix2 k ⟨(y 1).val, hy1⟩)
      = V c (Pipeline.arrRef spec1 1) (ix2 k ((((cfg1.win 3).blk t).view.emb y) 1)) := by
  obtain ⟨-, -, e10, e11, -, -, -, e31⟩ := region1_index t
  show V c (Pipeline.arrRef spec1 1) (((cfg1.win 1).blk t).view.emb (ix2 k ⟨(y 1).val, hy1⟩)) = _
  refine congrArg _ (funext fun a => Fin.ext ?_)
  match a with
  | ⟨0, _⟩ => show win1_1.index t (0 : Fin 2) * 256 + 1 * k.val = k.val; omega
  | ⟨1, _⟩ => show win1_1.index t (1 : Fin 2) * 256 + 1 * (y 1).val = win1_3.index t (1 : Fin 2) * 256 + 1 * (y 1).val; omega

/-- The entry of the bias row's block at point t in the column of y is the bias array's entry in the column where y sits
    in the output array. -/
theorem region1_read2 (c : Dev nD) (t : Fin cfg1.N) (y : ((cfg1.win 3).xblock (grid1.coords t)).Idx)
    (hy1 : (y 1).val < 256) :
    iblk1 V c 2 t (ix2 (0 : Fin 1) ⟨(y 1).val, hy1⟩)
      = V c (Pipeline.arrRef spec1 2) (ix2 (0 : Fin 1) ((((cfg1.win 3).blk t).view.emb y) 1)) := by
  obtain ⟨-, -, -, -, e20, e21, -, e31⟩ := region1_index t
  show V c (Pipeline.arrRef spec1 2) (((cfg1.win 2).blk t).view.emb (ix2 (0 : Fin 1) ⟨(y 1).val, hy1⟩)) = _
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * (y 1).val = win1_3.index t (1 : Fin 2) * 256 + 1 * (y 1).val; omega

/-- What grid point t writes back is block t of region1_fn of the three input arrays. -/
theorem region1_flushed (c : Dev nD) (t : Fin cfg1.N) :
    (dat1 (F := Ideal) V c).flushed 3 t
      = ((cfg1.win 3).blk t).view.read (Elt Ideal)
          (region1_fn (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero region1_offsets]
  simp only [View.ld_unit_zero (S := S5000x256) region1_offsets, View.ld_unit_zero (S := S256x256) region1_offsets,
    View.ld_unit_zero (S := S1x256) region1_offsets]
  funext y
  have hy0 : (y 0).val < 5000 := (y 0).isLt
  have hy1 : (y 1).val < 256 := (y 1).isLt
  have hy : (cfg1.win 3).xinj (grid1.coords t) y = ix2 ⟨(y 0).val, hy0⟩ ⟨(y 1).val, hy1⟩ :=
    funext fun a => by match a with | ⟨0, _⟩ => rfl | ⟨1, _⟩ => rfl
  refine (congrArg (k1_pay1 (iblk1 V c 0 t) (iblk1 V c 1 t) (iblk1 V c 2 t)) hy).trans ?_
  show k1_pay1 (iblk1 V c 0 t) (iblk1 V c 1 t) (iblk1 V c 2 t) (ix2 ⟨(y 0).val, hy0⟩ ⟨(y 1).val, hy1⟩)
    = region1_fn (V c (Pipeline.arrRef spec1 0)) (V c (Pipeline.arrRef spec1 1)) (V c (Pipeline.arrRef spec1 2))
        (((cfg1.win 3).blk t).view.emb y)
  exact region1_point (V c (Pipeline.arrRef spec1 0)) (V c (Pipeline.arrRef spec1 1)) (V c (Pipeline.arrRef spec1 2))
    (iblk1 V c 0 t) (iblk1 V c 1 t) (iblk1 V c 2 t)
    ⟨(y 0).val, hy0⟩ ⟨(y 1).val, hy1⟩ (((cfg1.win 3).blk t).view.emb y)
    (fun k => region1_read0 V c t y hy0 k) (fun k => region1_read1 V c t y hy1 k) (region1_read2 V c t y hy1)

/-- An index of the array is in point t's block iff each coordinate is in the block's range on its axis. -/
theorem region1_mem (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v56).slice (win1_3.rect t)).set ↔ _
  rw [View.set_slice_whole, Rect.mem_set_unit]
  exact Iff.rfl

/-- Every index of the array is in the block of the grid point numbered by its row divided by 5000. -/
theorem region1_cover (i : S50000x256.Idx) :
    ∃ t : Fin cfg1.N, (cfg1.win 3).flush t = true ∧ i ∈ ((cfg1.win 3).blk t).view.set := by
  have hN : cfg1.N = 10 := N_1
  have h0 : (i 0).val < 50000 := (i 0).isLt
  have h1 : (i 1).val < 256 := (i 1).isLt
  obtain ⟨t, ht⟩ : ∃ t : Fin cfg1.N, t.val = (i 0).val / 5000 := ⟨⟨(i 0).val / 5000, by rw [hN]; omega⟩, rfl⟩
  obtain ⟨-, -, -, -, -, -, e30, e31⟩ := region1_index t
  refine ⟨t, flush1_3 t, ?_⟩
  rw [region1_mem]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 256 ≤ (i 1).val ∧ (i 1).val < win1_3.index t (1 : Fin 2) * 256 + 256
    omega

/-- The array after the region is region1_fn of the three input arrays as the region finds them. -/
theorem region1_out (c : Dev nD) :
    (dat1 (F := Ideal) V c).arrAt 3 cfg1.N
      = region1_fn (V c (Pipeline.arrRef spec1 0)) (V c (Pipeline.arrRef spec1 1)) (V c (Pipeline.arrRef spec1 2)) :=
  (dat1 (F := Ideal) V c).arrAt_eq_of_cover 3
    (region1_fn (V c (Pipeline.arrRef spec1 0)) (V c (Pipeline.arrRef spec1 1)) (V c (Pipeline.arrRef spec1 2)))
    (fun t _ => region1_flushed V c t) region1_cover

/-- The array after the region, with the three input arrays named: row r, column q is the sum over k of X r k * W k q,
    plus the bias row's entry of column q. -/
theorem region1_out_of (c : Dev nD) (X : S50000x256.Idx → EReal) (W : S256x256.Idx → EReal) (b : S1x256.Idx → EReal)
    (hX : V c (Pipeline.arrRef spec1 0) = X) (hW : V c (Pipeline.arrRef spec1 1) = W)
    (hb : V c (Pipeline.arrRef spec1 2) = b) :
    (dat1 (F := Ideal) V c).arrAt 3 cfg1.N
      = fun j : S50000x256.Idx => (∑ k : Fin 256, X (ix2 (j 0) k) * W (ix2 k (j 1))) + b (ix2 0 (j 1)) := by
  subst hX hW hb
  exact region1_out V c

end Cert.KernelIdeal.Bridge

end
-- ==== Proof.Region2.lean ====
/- The array the bias-and-rectifier region leaves, as one function of the arrays it reads, entry by entry:
   every entry is the input's entry plus the bias row's entry of the same column, and then the maximum with zero.
   First one entry of the value the body stores in a block, then each written block as a block of that function, then the
   blocks of the ten grid points cover the array. -/
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)

/-- The offsets of a rectangle that is a whole block are zero on both axes. -/
theorem region2_offsets : (![0, 0] : Fin 2 → Nat) = fun _ => 0 := funext fun a => by fin_cases a <;> rfl

/-- Bias, then the rectifier, entry by entry: row r, column q of the result is max (X r q + b 0 q) 0. -/
def region2_fn (X : S50000x256.Idx → EReal) (b : S1x256.Idx → EReal) : S50000x256.Idx → EReal :=
  fun j => max (X j + b (ix2 (0 : Fin 1) (j 1))) 0

/-- One entry of the value the body stores: the block's entry plus the bias row's entry of the same column, then the
    maximum with zero (the two casts keep the shape, the bias row is repeated down the rows, the constant is zero). -/
theorem region2_pay (x0 : Vec Ideal S5000x256 .f32) (x1 : Vec Ideal S1x256 .f32) (p : Fin 5000) (q : Fin 256) :
    k2_pay1 x0 x1 (ix2 p q) = max (x0 (ix2 p q) + x1 (ix2 (0 : Fin 1) q)) 0 := by
  unfold k2_pay1
  simp only [maximumf_apply, addf_apply, broadcast_apply, shapeCast_self]
  rw [broadcastTo_1b_ab_apply]
  show max _ (Ideal.ofBits .f32 0x00000000#32) = _
  rw [Ideal.ofBits_zero_f32]

/-- The same entry when the block's entry and the bias row's entry are known to be entries of two arrays X and b at an
    index i with the same column: the entry of region2_fn X b at i. -/
theorem region2_point (X : S50000x256.Idx → EReal) (b : S1x256.Idx → EReal)
    (x0 : Vec Ideal S5000x256 .f32) (x1 : Vec Ideal S1x256 .f32) (p : Fin 5000) (q : Fin 256) (i : S50000x256.Idx)
    (h0 : x0 (ix2 p q) = X i) (h1 : x1 (ix2 (0 : Fin 1) q) = b (ix2 (0 : Fin 1) (i 1))) :
    k2_pay1 x0 x1 (ix2 p q) = region2_fn X b i := by
  rw [region2_pay, h0, h1]; rfl

/-- The block indices of the three windows at every grid point: the input's and the output's block is the point's block
    of rows, the bias window stays at its one block. -/
theorem region2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- An entry of the input's block at point t, at the place of an entry y of the output's block, is the input array's
    entry where y sits in the output array: a block's entry sits in its array at block index times block size plus its
    coordinate inside the block, on each axis. -/
theorem region2_read0 (c : Dev nD) (t : Fin cfg2.N) (y : ((cfg2.win 2).xblock (grid2.coords t)).Idx)
    (hy0 : (y 0).val < 5000) (hy1 : (y 1).val < 256) :
    iblk2 V c 0 t (ix2 ⟨(y 0).val, hy0⟩ ⟨(y 1).val, hy1⟩)
      = V c (Pipeline.arrRef spec2 0) (((cfg2.win 2).blk t).view.emb y) := by
  obtain ⟨e00, e01, -, -, e20, e21⟩ := region2_index t
  show V c (Pipeline.arrRef spec2 0) (((cfg2.win 0).blk t).view.emb (ix2 ⟨(y 0).val, hy0⟩ ⟨(y 1).val, hy1⟩)) = _
  refine congrArg _ (funext fun a => Fin.ext ?_)
  match a with
  | ⟨0, _⟩ => show win2_0.index t (0 : Fin 2) * 5000 + 1 * (y 0).val = win2_2.index t (0 : Fin 2) * 5000 + 1 * (y 0).val; omega
  | ⟨1, _⟩ => show win2_0.index t (1 : Fin 2) * 256 + 1 * (y 1).val = win2_2.index t (1 : Fin 2) * 256 + 1 * (y 1).val; omega

/-- The entry of the bias row's block at point t in the column of y is the bias array's entry in the column where y sits
    in the output array. -/
theorem region2_read1 (c : Dev nD) (t : Fin cfg2.N) (y : ((cfg2.win 2).xblock (grid2.coords t)).Idx)
    (hy1 : (y 1).val < 256) :
    iblk2 V c 1 t (ix2 (0 : Fin 1) ⟨(y 1).val, hy1⟩)
      = V c (Pipeline.arrRef spec2 1) (ix2 (0 : Fin 1) ((((cfg2.win 2).blk t).view.emb y) 1)) := by
  obtain ⟨-, -, e10, e11, -, e21⟩ := region2_index t
  show V c (Pipeline.arrRef spec2 1) (((cfg2.win 1).blk t).view.emb (ix2 (0 : Fin 1) ⟨(y 1).val, hy1⟩)) = _
  refine congrArg _ (funext fun a => Fin.ext ?_)
  match a with
  | ⟨0, _⟩ => show win2_1.index t (0 : Fin 2) * 1 + 1 * 0 = 0; omega
  | ⟨1, _⟩ => show win2_1.index t (1 : Fin 2) * 256 + 1 * (y 1).val = win2_2.index t (1 : Fin 2) * 256 + 1 * (y 1).val; omega

/-- What grid point t writes back is block t of region2_fn of the two input arrays. -/
theorem region2_flushed (c : Dev nD) (t : Fin cfg2.N) :
    (dat2 (F := Ideal) V c).flushed 2 t
      = ((cfg2.win 2).blk t).view.read (Elt Ideal)
          (region2_fn (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero region2_offsets]
  simp only [View.ld_unit_zero (S := S5000x256) region2_offsets, View.ld_unit_zero (S := S1x256) region2_offsets]
  funext y
  have hy0 : (y 0).val < 5000 := (y 0).isLt
  have hy1 : (y 1).val < 256 := (y 1).isLt
  have hy : (cfg2.win 2).xinj (grid2.coords t) y = ix2 ⟨(y 0).val, hy0⟩ ⟨(y 1).val, hy1⟩ :=
    funext fun a => by match a with | ⟨0, _⟩ => rfl | ⟨1, _⟩ => rfl
  refine (congrArg (k2_pay1 (iblk2 V c 0 t) (iblk2 V c 1 t)) hy).trans ?_
  show k2_pay1 (iblk2 V c 0 t) (iblk2 V c 1 t) (ix2 ⟨(y 0).val, hy0⟩ ⟨(y 1).val, hy1⟩)
    = region2_fn (V c (Pipeline.arrRef spec2 0)) (V c (Pipeline.arrRef spec2 1)) (((cfg2.win 2).blk t).view.emb y)
  exact region2_point (V c (Pipeline.arrRef spec2 0)) (V c (Pipeline.arrRef spec2 1)) (iblk2 V c 0 t) (iblk2 V c 1 t)
    ⟨(y 0).val, hy0⟩ ⟨(y 1).val, hy1⟩ (((cfg2.win 2).blk t).view.emb y)
    (region2_read0 V c t y hy0 hy1) (region2_read1 V c t y hy1)

/-- An index of the array is in point t's block iff each coordinate is in the block's range on its axis. -/
theorem region2_mem (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v71).slice (win2_2.rect t)).set ↔ _
  rw [View.set_slice_whole, Rect.mem_set_unit]
  exact Iff.rfl

/-- Every index of the array is in the block of the grid point numbered by its row divided by 5000. -/
theorem region2_cover (i : S50000x256.Idx) :
    ∃ t : Fin cfg2.N, (cfg2.win 2).flush t = true ∧ i ∈ ((cfg2.win 2).blk t).view.set := by
  have hN : cfg2.N = 10 := N_2
  have h0 : (i 0).val < 50000 := (i 0).isLt
  have h1 : (i 1).val < 256 := (i 1).isLt
  obtain ⟨t, ht⟩ : ∃ t : Fin cfg2.N, t.val = (i 0).val / 5000 := ⟨⟨(i 0).val / 5000, by rw [hN]; omega⟩, rfl⟩
  obtain ⟨-, -, -, -, e20, e21⟩ := region2_index t
  refine ⟨t, flush2_2 t, ?_⟩
  rw [region2_mem]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 256 ≤ (i 1).val ∧ (i 1).val < win2_2.index t (1 : Fin 2) * 256 + 256
    omega

/-- The array after the region is region2_fn of the two input arrays as the region finds them. -/
theorem region2_out (c : Dev nD) :
    (dat2 (F := Ideal) V c).arrAt 2 cfg2.N
      = region2_fn (V c (Pipeline.arrRef spec2 0)) (V c (Pipeline.arrRef spec2 1)) :=
  (dat2 (F := Ideal) V c).arrAt_eq_of_cover 2
    (region2_fn (V c (Pipeline.arrRef spec2 0)) (V c (Pipeline.arrRef spec2 1)))
    (fun t _ => region2_flushed V c t) region2_cover

/-- The array after the region, with the two input arrays named: every entry is the maximum with zero of the input's
    entry plus the bias row's entry of the same column. -/
theorem region2_out_of (c : Dev nD) (X : S50000x256.Idx → EReal) (b : S1x256.Idx → EReal)
    (hX : V c (Pipeline.arrRef spec2 0) = X) (hb : V c (Pipeline.arrRef spec2 1) = b) :
    (dat2 (F := Ideal) V c).arrAt 2 cfg2.N = fun j : S50000x256.Idx => max (X j + b (ix2 0 (j 1))) 0 := by
  subst hX hb
  exact region2_out V c

end Cert.KernelIdeal.Bridge

end
-- ==== Proof.Region3.lean ====
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)

/-- On its row axis the left operand's index is the output's row, whatever the contraction position. -/
theorem mm3_apply_lhs0 (i : S1024x256.Idx) (u : dot_S1024x256_S256x256_S1024x256_1_0_0_1_n_n.contr.Idx) :
    (dot_S1024x256_S256x256_S1024x256_1_0_0_1_n_n.lhsIdx i u 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- On its column axis the right operand's index is the output's column, whatever the contraction position. -/
theorem mm3_apply_rhs1 (i : S1024x256.Idx) (u : dot_S1024x256_S256x256_S1024x256_1_0_0_1_n_n.contr.Idx) :
    (dot_S1024x256_S256x256_S1024x256_1_0_0_1_n_n.rhsIdx i u 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- A 1024×256 by 256×256 product into a zero accumulator, read at `(p, q)`: the plain sum over the shared axis. -/
theorem mm3_apply (a : FVec Ideal S1024x256 .f32) (b : FVec Ideal S256x256 .f32) (p : Fin 1024) (q : Fin 256) :
    matmul dot_S1024x256_S256x256_S1024x256_1_0_0_1_n_n none a b (constant S1024x256 .f32 0x00000000#32) (ix2 p q)
      = ∑ k : Fin 256, a (ix2 p k) * b (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun ax => Fin.ext (by
    match ax with
    | ⟨0, _⟩ => exact mm3_apply_lhs0 _ _
    | ⟨1, _⟩ => exact (dot_S1024x256_S256x256_S1024x256_1_0_0_1_n_n.lhsIdx_val_of_single rfl (ix2 p q) _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun ax => Fin.ext (by
    match ax with
    | ⟨0, _⟩ => exact (dot_S1024x256_S256x256_S1024x256_1_0_0_1_n_n.rhsIdx_val_of_single rfl (ix2 p q) _).trans hk
    | ⟨1, _⟩ => exact mm3_apply_rhs1 _ _)
  rw [el, er]

/-- The body's one stored value at `(p, q)`: row `p` of the first operand against column `q` of the second, plus the bias row at `q`. -/
theorem pay3_apply (x0 : Vec Ideal S1024x256 .f32) (x1 : Vec Ideal S256x256 .f32) (x2 : Vec Ideal S1x256 .f32) (p : Fin 1024) (q : Fin 256) :
    k3_pay1 x0 x1 x2 (ix2 p q) = (∑ k : Fin 256, x0 (ix2 p k) * x1 (ix2 k q)) + x2 (ix2 (0 : Fin 1) q) := by
  unfold Gen.k3_pay1
  rw [addf_apply, shapeCast_self, shapeCast_self, mm3_apply, broadcastTo_1b_ab_apply]

theorem hz3 : (![0, 0] : Fin 2 → Nat) = fun _ => 0 := funext fun a => by fin_cases a <;> rfl

/-- The affine map of the region: each output entry is a row of `X` against a column of `W`, plus the bias. -/
def lin3 (X : S1024x256.Idx → EReal) (W : S256x256.Idx → EReal) (b : S1x256.Idx → EReal) : S1024x256.Idx → EReal :=
  fun j => (∑ k : Fin 256, X (ix2 (j 0) k) * W (ix2 k (j 1))) + b (ix2 (0 : Fin 1) (j 1))

theorem lin3_apply (X : S1024x256.Idx → EReal) (W : S256x256.Idx → EReal) (b : S1x256.Idx → EReal) (j : S1024x256.Idx) :
    lin3 X W b j = (∑ k : Fin 256, X (ix2 (j 0) k) * W (ix2 k (j 1))) + b (ix2 (0 : Fin 1) (j 1)) := rfl

/-- Window 0's printed index map sends the grid's one point to block (0, 0) (decided over the grid). -/
theorem idx3_0 : ∀ t : Fin cfg3.N, win3_0.index t (0 : Fin 2) = 0 ∧ win3_0.index t (1 : Fin 2) = 0 :=
  (by decide +kernel : ∀ t : Fin grid3.N, _)

/-- Window 1's printed index map sends the grid's one point to block (0, 0) (decided over the grid). -/
theorem idx3_1 : ∀ t : Fin cfg3.N, win3_1.index t (0 : Fin 2) = 0 ∧ win3_1.index t (1 : Fin 2) = 0 :=
  (by decide +kernel : ∀ t : Fin grid3.N, _)

/-- Window 2's printed index map sends the grid's one point to block (0, 0) (decided over the grid). -/
theorem idx3_2 : ∀ t : Fin cfg3.N, win3_2.index t (0 : Fin 2) = 0 ∧ win3_2.index t (1 : Fin 2) = 0 :=
  (by decide +kernel : ∀ t : Fin grid3.N, _)

/-- Window 3's printed index map sends the grid's one point to block (0, 0) (decided over the grid). -/
theorem idx3_3 : ∀ t : Fin cfg3.N, win3_3.index t (0 : Fin 2) = 0 ∧ win3_3.index t (1 : Fin 2) = 0 :=
  (by decide +kernel : ∀ t : Fin grid3.N, _)

/-- Input window 0's block at the grid's one point is its whole array. -/
theorem iblk3_0_apply (V : (c : Dev nD) → (b : Ref sig .tc) → Buf (Elt Ideal) ((c : Thread nD τ).loc b)) (c : Dev nD) (t : Fin cfg3.N) (r : Fin 1024) (s : Fin 256) :
    (iblk3 V c 0 t : S1024x256.Idx → EReal) (ix2 r s) = (V c (Pipeline.arrRef spec3 0) : S1024x256.Idx → EReal) (ix2 r s) := by
  obtain ⟨e0, e1⟩ := idx3_0 t
  show (V c (Pipeline.arrRef spec3 0) : S1024x256.Idx → EReal) (((cfg3.win 0).blk t).view.emb (ix2 r s)) = _
  refine congrArg _ (funext fun a => Fin.ext ?_)
  match a with
  | ⟨0, _⟩ => show win3_0.index t (0 : Fin 2) * 1024 + 1 * r.val = r.val; omega
  | ⟨1, _⟩ => show win3_0.index t (1 : Fin 2) * 256 + 1 * s.val = s.val; omega

/-- Input window 1's block at the grid's one point is its whole array. -/
theorem iblk3_1_apply (V : (c : Dev nD) → (b : Ref sig .tc) → Buf (Elt Ideal) ((c : Thread nD τ).loc b)) (c : Dev nD) (t : Fin cfg3.N) (r : Fin 256) (s : Fin 256) :
    (iblk3 V c 1 t : S256x256.Idx → EReal) (ix2 r s) = (V c (Pipeline.arrRef spec3 1) : S256x256.Idx → EReal) (ix2 r s) := by
  obtain ⟨e0, e1⟩ := idx3_1 t
  show (V c (Pipeline.arrRef spec3 1) : S256x256.Idx → EReal) (((cfg3.win 1).blk t).view.emb (ix2 r s)) = _
  refine congrArg _ (funext fun a => Fin.ext ?_)
  match a with
  | ⟨0, _⟩ => show win3_1.index t (0 : Fin 2) * 256 + 1 * r.val = r.val; omega
  | ⟨1, _⟩ => show win3_1.index t (1 : Fin 2) * 256 + 1 * s.val = s.val; omega

/-- Input window 2's block at the grid's one point is its whole array. -/
theorem iblk3_2_apply (V : (c : Dev nD) → (b : Ref sig .tc) → Buf (Elt Ideal) ((c : Thread nD τ).loc b)) (c : Dev nD) (t : Fin cfg3.N) (r : Fin 1) (s : Fin 256) :
    (iblk3 V c 2 t : S1x256.Idx → EReal) (ix2 r s) = (V c (Pipeline.arrRef spec3 2) : S1x256.Idx → EReal) (ix2 r s) := by
  obtain ⟨e0, e1⟩ := idx3_2 t
  show (V c (Pipeline.arrRef spec3 2) : S1x256.Idx → EReal) (((cfg3.win 2).blk t).view.emb (ix2 r s)) = _
  refine congrArg _ (funext fun a => Fin.ext ?_)
  match a with
  | ⟨0, _⟩ => show win3_2.index t (0 : Fin 2) * 1 + 1 * r.val = r.val; omega
  | ⟨1, _⟩ => show win3_2.index t (1 : Fin 2) * 256 + 1 * s.val = s.val; omega

/-- What the grid's one point writes back is the block of the affine map of the three arrays as the region finds them. -/
theorem flushed3_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal)
      (lin3 (V c (Pipeline.arrRef spec3 0)) (V c (Pipeline.arrRef spec3 1)) (V c (Pipeline.arrRef spec3 2))) := by
  show (cfg3.win 3).cut (grid3.coords t) ((dat3 V c).after 3 t) = _
  rw [after3_3]
  unfold Gen.out3_3
  rw [View.canon_unit_zero hz3]
  simp only [View.ld_unit_zero (S := S1024x256) hz3, View.ld_unit_zero (S := S256x256) hz3, View.ld_unit_zero (S := S1x256) hz3]
  obtain ⟨e0, e1⟩ := idx3_3 t
  funext j
  obtain ⟨p, q, rfl⟩ : ∃ (p : Fin 1024) (q : Fin 256), j = ix2 p q := ⟨j 0, j 1, eq_ix2 j⟩
  refine (pay3_apply (iblk3 V c 0 t) (iblk3 V c 1 t) (iblk3 V c 2 t) p q).trans ?_
  have he : ((cfg3.win 3).blk t).view.emb (ix2 p q) = (ix2 p q : S1024x256.Idx) := by
    funext a; apply Fin.ext
    match a with
    | ⟨0, _⟩ => show win3_3.index t (0 : Fin 2) * 1024 + 1 * p.val = p.val; omega
    | ⟨1, _⟩ => show win3_3.index t (1 : Fin 2) * 256 + 1 * q.val = q.val; omega
  show _ = lin3 _ _ _ (((cfg3.win 3).blk t).view.emb (ix2 p q))
  rw [he]
  exact congrArg₂ (· + ·)
    (Finset.sum_congr rfl fun k _ => congrArg₂ (· * ·) (iblk3_0_apply V c t p k) (iblk3_1_apply V c t k q))
    (iblk3_2_apply V c t 0 q)

/-- An index of the output array is in point `t`'s block iff each coordinate is in the block's range on its axis. -/
theorem mem_blk3 (t : Fin cfg3.N) (i : S1024x256.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v85).slice (win3_3.rect t)).set ↔ _
  rw [View.set_slice_whole, Rect.mem_set_unit]
  exact Iff.rfl

/-- The grid's one point covers the whole output array. -/
theorem cover3 (i : S1024x256.Idx) : ∃ t : Fin cfg3.N, (cfg3.win 3).flush t = true ∧ i ∈ ((cfg3.win 3).blk t).view.set := by
  refine ⟨t3_0, flush3_3 t3_0, ?_⟩
  rw [mem_blk3]
  obtain ⟨e0, e1⟩ := idx3_3 t3_0
  have h0 : (i 0).val < 1024 := (i 0).isLt
  have h1 : (i 1).val < 256 := (i 1).isLt
  intro a
  match a with
  | ⟨0, _⟩ => show win3_3.index t3_0 (0 : Fin 2) * 1024 ≤ (i 0).val ∧ (i 0).val < win3_3.index t3_0 (0 : Fin 2) * 1024 + 1024; omega
  | ⟨1, _⟩ => show win3_3.index t3_0 (1 : Fin 2) * 256 ≤ (i 1).val ∧ (i 1).val < win3_3.index t3_0 (1 : Fin 2) * 256 + 256; omega

/-- The region's output array after the region is the affine map of its three input arrays as the region finds them
    (`lin3_apply` reads it at an index). -/
theorem region3_out (V : (c : Dev nD) → (b : Ref sig .tc) → Buf (Elt Ideal) ((c : Thread nD τ).loc b)) (c : Dev nD) :
    (dat3 (F := Ideal) V c).arrAt 3 cfg3.N
      = lin3 (V c (Pipeline.arrRef spec3 0)) (V c (Pipeline.arrRef spec3 1)) (V c (Pipeline.arrRef spec3 2)) :=
  (dat3 (F := Ideal) V c).arrAt_eq_of_cover 3
    (lin3 (V c (Pipeline.arrRef spec3 0)) (V c (Pipeline.arrRef spec3 1)) (V c (Pipeline.arrRef spec3 2)))
    (fun t _ => flushed3_eq V c t) cover3

end Cert.KernelIdeal.Bridge

end
-- ==== Proof.Region4.lean ====
/- The array the linear-layer region leaves, as one function of the arrays it reads, entry by entry: row r, column q of
   the result is the sum over k of X r k * W k q, plus the bias row's entry of column q, and then the maximum with zero.
   First one entry of the value the body stores in a block, then each written block as a block of that function, then the
   blocks of the ten grid points cover the array. -/
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)
open scoped BigOperators

/-- The offsets of a rectangle that is a whole block are zero on both axes. -/
theorem region4_offsets : (![0, 0] : Fin 2 → Nat) = fun _ => 0 := funext fun a => by fin_cases a <;> rfl

/-- The linear layer, entry by entry: row r, column q of the result is the sum over k of X r k * W k q, plus b 0 q, then the maximum with zero. -/
def region4_fn (X : S50000x128.Idx → EReal) (W : S128x256.Idx → EReal) (b : S1x256.Idx → EReal) : S50000x256.Idx → EReal :=
  fun j => max ((∑ k : Fin 128, X (ix2 (j 0) k) * W (ix2 k (j 1))) + b (ix2 (0 : Fin 1) (j 1))) 0

/-! ## The product's operand indices: the left operand is read at (row, k), the right one at (k, column) -/

theorem region4_lhs0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem region4_lhs1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem region4_rhs0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem region4_rhs1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The matrix product into a zero accumulator, read at row p, column q: the sum over k of x p k * w k q. -/
theorem region4_matmul (x : FVec Ideal S5000x128 .f32) (w : FVec Ideal S128x256 .f32) (p : Fin 5000) (q : Fin 256) :
    matmul dot_S5000x128_S128x256_S5000x256_1_0_0_1_n_n none x w (constant S5000x256 .f32 0x00000000#32) (ix2 p q)
      = ∑ k : Fin 128, x (ix2 p k) * w (ix2 k q) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact region4_lhs0 _ _
    | ⟨1, _⟩ => exact (region4_lhs1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (region4_rhs0 _ _).trans hk
    | ⟨1, _⟩ => exact region4_rhs1 _ _)
  rw [el, er]

/-- One entry of the value the body stores: the product's entry plus the bias row's entry of the same column, then the
    maximum with zero (the two casts keep the shape, the bias row is repeated down the rows, the constant is zero). -/
theorem region4_pay (x0 : Vec Ideal S5000x128 .f32) (x1 : Vec Ideal S128x256 .f32) (x2 : Vec Ideal S1x256 .f32) (p : Fin 5000) (q : Fin 256) :
    k4_pay1 x0 x1 x2 (ix2 p q) = max ((∑ k : Fin 128, x0 (ix2 p k) * x1 (ix2 k q)) + x2 (ix2 (0 : Fin 1) q)) 0 := by
  unfold k4_pay1
  simp only [maximumf_apply, addf_apply, broadcast_apply, shapeCast_self]
  rw [region4_matmul, broadcastTo_1b_ab_apply]
  show max _ (Ideal.ofBits .f32 0x00000000#32) = _
  rw [Ideal.ofBits_zero_f32]

/-- The same entry when the entries of the three blocks are known to be entries of three arrays X, W and b at the row and
    the column of an index i: the entry of region4_fn X W b at i. -/
theorem region4_point (X : S50000x128.Idx → EReal) (W : S128x256.Idx → EReal) (b : S1x256.Idx → EReal)
    (x0 : Vec Ideal S5000x128 .f32) (x1 : Vec Ideal S128x256 .f32) (x2 : Vec Ideal S1x256 .f32)
    (p : Fin 5000) (q : Fin 256) (i : S50000x256.Idx)
    (h0 : ∀ k : Fin 128, x0 (ix2 p k) = X (ix2 (i 0) k)) (h1 : ∀ k : Fin 128, x1 (ix2 k q) = W (ix2 k (i 1)))
    (h2 : x2 (ix2 (0 : Fin 1) q) = b (ix2 (0 : Fin 1) (i 1))) :
    k4_pay1 x0 x1 x2 (ix2 p q) = region4_fn X W b i := by
  rw [region4_pay, h2, Finset.sum_congr rfl fun k _ => by rw [h0 k, h1 k]]; rfl

/-- The block indices of the four windows at every grid point: the input's and the output's block is the point's block
    of rows, the weight and bias windows stay at their one block. -/
theorem region4_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- An entry of the input's block at point t, in the row of an entry y of the output's block, is the input array's
    entry in the row where y sits in the output array: a block's entry sits in its array at block index times block size
    plus its coordinate inside the block, on each axis. -/
theorem region4_read0 (c : Dev nD) (t : Fin cfg4.N) (y : ((cfg4.win 3).xblock (grid4.coords t)).Idx)
    (hy0 : (y 0).val < 5000) (k : Fin 128) :
    iblk4 V c 0 t (ix2 ⟨(y 0).val, hy0⟩ k)
      = V c (Pipeline.arrRef spec4 0) (ix2 ((((cfg4.win 3).blk t).view.emb y) 0) k) := by
  obtain ⟨e00, e01, -, -, -, -, e30, -⟩ := region4_index t
  show V c (Pipeline.arrRef spec4 0) (((cfg4.win 0).blk t).view.emb (ix2 ⟨(y 0).val, hy0⟩ k)) = _
  refine congrArg _ (funext fun a => Fin.ext ?_)
  match a with
  | ⟨0, _⟩ => show win4_0.index t (0 : Fin 2) * 5000 + 1 * (y 0).val = win4_3.index t (0 : Fin 2) * 5000 + 1 * (y 0).val; omega
  | ⟨1, _⟩ => show win4_0.index t (1 : Fin 2) * 128 + 1 * k.val = k.val; omega

/-- An entry of the weight's block at point t, in the column of y, is the weight array's entry in the column where y
    sits in the output array. -/
theorem region4_read1 (c : Dev nD) (t : Fin cfg4.N) (y : ((cfg4.win 3).xblock (grid4.coords t)).Idx)
    (hy1 : (y 1).val < 256) (k : Fin 128) :
    iblk4 V c 1 t (ix2 k ⟨(y 1).val, hy1⟩)
      = V c (Pipeline.arrRef spec4 1) (ix2 k ((((cfg4.win 3).blk t).view.emb y) 1)) := by
  obtain ⟨-, -, e10, e11, -, -, -, e31⟩ := region4_index t
  show V c (Pipeline.arrRef spec4 1) (((cfg4.win 1).blk t).view.emb (ix2 k ⟨(y 1).val, hy1⟩)) = _
  refine congrArg _ (funext fun a => Fin.ext ?_)
  match a with
  | ⟨0, _⟩ => show win4_1.index t (0 : Fin 2) * 128 + 1 * k.val = k.val; omega
  | ⟨1, _⟩ => show win4_1.index t (1 : Fin 2) * 256 + 1 * (y 1).val = win4_3.index t (1 : Fin 2) * 256 + 1 * (y 1).val; omega

/-- The entry of the bias row's block at point t in the column of y is the bias array's entry in the column where y sits
    in the output array. -/
theorem region4_read2 (c : Dev nD) (t : Fin cfg4.N) (y : ((cfg4.win 3).xblock (grid4.coords t)).Idx)
    (hy1 : (y 1).val < 256) :
    iblk4 V c 2 t (ix2 (0 : Fin 1) ⟨(y 1).val, hy1⟩)
      = V c (Pipeline.arrRef spec4 2) (ix2 (0 : Fin 1) ((((cfg4.win 3).blk t).view.emb y) 1)) := by
  obtain ⟨-, -, -, -, e20, e21, -, e31⟩ := region4_index t
  show V c (Pipeline.arrRef spec4 2) (((cfg4.win 2).blk t).view.emb (ix2 (0 : Fin 1) ⟨(y 1).val, hy1⟩)) = _
  refine congrArg _ (funext fun a => Fin.ext ?_)
  match a with
  | ⟨0, _⟩ => show win4_2.index t (0 : Fin 2) * 1 + 1 * 0 = 0; omega
  | ⟨1, _⟩ => show win4_2.index t (1 : Fin 2) * 256 + 1 * (y 1).val = win4_3.index t (1 : Fin 2) * 256 + 1 * (y 1).val; omega

/-- What grid point t writes back is block t of region4_fn of the three input arrays. -/
theorem region4_flushed (c : Dev nD) (t : Fin cfg4.N) :
    (dat4 (F := Ideal) V c).flushed 3 t
      = ((cfg4.win 3).blk t).view.read (Elt Ideal)
          (region4_fn (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero region4_offsets]
  simp only [View.ld_unit_zero (S := S5000x128) region4_offsets, View.ld_unit_zero (S := S128x256) region4_offsets,
    View.ld_unit_zero (S := S1x256) region4_offsets]
  funext y
  have hy0 : (y 0).val < 5000 := (y 0).isLt
  have hy1 : (y 1).val < 256 := (y 1).isLt
  have hy : (cfg4.win 3).xinj (grid4.coords t) y = ix2 ⟨(y 0).val, hy0⟩ ⟨(y 1).val, hy1⟩ :=
    funext fun a => by match a with | ⟨0, _⟩ => rfl | ⟨1, _⟩ => rfl
  refine (congrArg (k4_pay1 (iblk4 V c 0 t) (iblk4 V c 1 t) (iblk4 V c 2 t)) hy).trans ?_
  show k4_pay1 (iblk4 V c 0 t) (iblk4 V c 1 t) (iblk4 V c 2 t) (ix2 ⟨(y 0).val, hy0⟩ ⟨(y 1).val, hy1⟩)
    = region4_fn (V c (Pipeline.arrRef spec4 0)) (V c (Pipeline.arrRef spec4 1)) (V c (Pipeline.arrRef spec4 2))
        (((cfg4.win 3).blk t).view.emb y)
  exact region4_point (V c (Pipeline.arrRef spec4 0)) (V c (Pipeline.arrRef spec4 1)) (V c (Pipeline.arrRef spec4 2))
    (iblk4 V c 0 t) (iblk4 V c 1 t) (iblk4 V c 2 t)
    ⟨(y 0).val, hy0⟩ ⟨(y 1).val, hy1⟩ (((cfg4.win 3).blk t).view.emb y)
    (fun k => region4_read0 V c t y hy0 k) (fun k => region4_read1 V c t y hy1 k) (region4_read2 V c t y hy1)

/-- An index of the array is in point t's block iff each coordinate is in the block's range on its axis. -/
theorem region4_mem (t : Fin cfg4.N) (i : S50000x256.Idx) :
    i ∈ ((cfg4.win 3).blk t).view.set ↔ ∀ a : Fin 2, win4_3.index t a * S5000x256.size a ≤ (i a).val
      ∧ (i a).val < win4_3.index t a * S5000x256.size a + S5000x256.size a := by
  show i ∈ ((View.whole main_v140).slice (win4_3.rect t)).set ↔ _
  rw [View.set_slice_whole, Rect.mem_set_unit]
  exact Iff.rfl

/-- Every index of the array is in the block of the grid point numbered by its row divided by 5000. -/
theorem region4_cover (i : S50000x256.Idx) :
    ∃ t : Fin cfg4.N, (cfg4.win 3).flush t = true ∧ i ∈ ((cfg4.win 3).blk t).view.set := by
  have hN : cfg4.N = 10 := N_4
  have h0 : (i 0).val < 50000 := (i 0).isLt
  have h1 : (i 1).val < 256 := (i 1).isLt
  obtain ⟨t, ht⟩ : ∃ t : Fin cfg4.N, t.val = (i 0).val / 5000 := ⟨⟨(i 0).val / 5000, by rw [hN]; omega⟩, rfl⟩
  obtain ⟨-, -, -, -, -, -, e30, e31⟩ := region4_index t
  refine ⟨t, flush4_3 t, ?_⟩
  rw [region4_mem]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 256 ≤ (i 1).val ∧ (i 1).val < win4_3.index t (1 : Fin 2) * 256 + 256
    omega

/-- The array after the region is region4_fn of the three input arrays as the region finds them. -/
theorem region4_out (c : Dev nD) :
    (dat4 (F := Ideal) V c).arrAt 3 cfg4.N
      = region4_fn (V c (Pipeline.arrRef spec4 0)) (V c (Pipeline.arrRef spec4 1)) (V c (Pipeline.arrRef spec4 2)) :=
  (dat4 (F := Ideal) V c).arrAt_eq_of_cover 3
    (region4_fn (V c (Pipeline.arrRef spec4 0)) (V c (Pipeline.arrRef spec4 1)) (V c (Pipeline.arrRef spec4 2)))
    (fun t _ => region4_flushed V c t) region4_cover

/-- The array after the region, with the three input arrays named: row r, column q is the sum over k of X r k * W k q,
    plus the bias row's entry of column q, then the maximum with zero. -/
theorem region4_out_of (c : Dev nD) (X : S50000x128.Idx → EReal) (W : S128x256.Idx → EReal) (b : S1x256.Idx → EReal)
    (hX : V c (Pipeline.arrRef spec4 0) = X) (hW : V c (Pipeline.arrRef spec4 1) = W)
    (hb : V c (Pipeline.arrRef spec4 2) = b) :
    (dat4 (F := Ideal) V c).arrAt 3 cfg4.N
      = fun j : S50000x256.Idx => max ((∑ k : Fin 128, X (ix2 (j 0) k) * W (ix2 k (j 1))) + b (ix2 0 (j 1))) 0 := by
  subst hX hW hb
  exact region4_out V c

end Cert.KernelIdeal.Bridge

end
-- ==== Proof.Region5.lean ====
/- The array the linear-layer region leaves, as one function of the arrays it reads, entry by entry: row r, column q of
   the result is the sum over k of X r k * W k q, plus the bias row's entry of column q.
   First one entry of the value the body stores in a block, then each written block as a block of that function, then the
   blocks of the ten grid points cover the array. -/
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)
open scoped BigOperators

/-- The offsets of a rectangle that is a whole block are zero on both axes. -/
theorem region5_offsets : (![0, 0] : Fin 2 → Nat) = fun _ => 0 := funext fun a => by fin_cases a <;> rfl

/-- The linear layer, entry by entry: row r, column q of the result is the sum over k of X r k * W k q, plus b 0 q. -/
def region5_fn (X : S50000x256.Idx → EReal) (W : S256x256.Idx → EReal) (b : S1x256.Idx → EReal) : S50000x256.Idx → EReal :=
  fun j => (∑ k : Fin 256, X (ix2 (j 0) k) * W (ix2 k (j 1))) + b (ix2 (0 : Fin 1) (j 1))

/-! ## The product's operand indices: the left operand is read at (row, k), the right one at (k, column) -/

theorem region5_lhs0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem region5_lhs1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem region5_rhs0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem region5_rhs1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The matrix product into a zero accumulator, read at row p, column q: the sum over k of x p k * w k q. -/
theorem region5_matmul (x : FVec Ideal S5000x256 .f32) (w : FVec Ideal S256x256 .f32) (p : Fin 5000) (q : Fin 256) :
    matmul dot_S5000x256_S256x256_S5000x256_1_0_0_1_n_n none x w (constant S5000x256 .f32 0x00000000#32) (ix2 p q)
      = ∑ k : Fin 256, x (ix2 p k) * w (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact region5_lhs0 _ _
    | ⟨1, _⟩ => exact (region5_lhs1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (region5_rhs0 _ _).trans hk
    | ⟨1, _⟩ => exact region5_rhs1 _ _)
  rw [el, er]

/-- One entry of the value the body stores: the product's entry plus the bias row's entry of the same column (the two casts keep the shape, the bias row is repeated down the rows). -/
theorem region5_pay (x0 : Vec Ideal S5000x256 .f32) (x1 : Vec Ideal S256x256 .f32) (x2 : Vec Ideal S1x256 .f32) (p : Fin 5000) (q : Fin 256) :
    k5_pay1 x0 x1 x2 (ix2 p q) = (∑ k : Fin 256, x0 (ix2 p k) * x1 (ix2 k q)) + x2 (ix2 (0 : Fin 1) q) := by
  unfold k5_pay1
  simp only [addf_apply, shapeCast_self]
  rw [region5_matmul, broadcastTo_1b_ab_apply]

/-- The same entry when the entries of the three blocks are known to be entries of three arrays X, W and b at the row and
    the column of an index i: the entry of region5_fn X W b at i. -/
theorem region5_point (X : S50000x256.Idx → EReal) (W : S256x256.Idx → EReal) (b : S1x256.Idx → EReal)
    (x0 : Vec Ideal S5000x256 .f32) (x1 : Vec Ideal S256x256 .f32) (x2 : Vec Ideal S1x256 .f32)
    (p : Fin 5000) (q : Fin 256) (i : S50000x256.Idx)
    (h0 : ∀ k : Fin 256, x0 (ix2 p k) = X (ix2 (i 0) k)) (h1 : ∀ k : Fin 256, x1 (ix2 k q) = W (ix2 k (i 1)))
    (h2 : x2 (ix2 (0 : Fin 1) q) = b (ix2 (0 : Fin 1) (i 1))) :
    k5_pay1 x0 x1 x2 (ix2 p q) = region5_fn X W b i := by
  rw [region5_pay, h2, Finset.sum_congr rfl fun k _ => by rw [h0 k, h1 k]]; rfl

/-- The block indices of the four windows at every grid point: the input's and the output's block is the point's block
    of rows, the weight and bias windows stay at their one block. -/
theorem region5_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- An entry of the input's block at point t, in the row of an entry y of the output's block, is the input array's
    entry in the row where y sits in the output array: a block's entry sits in its array at block index times block size
    plus its coordinate inside the block, on each axis. -/
theorem region5_read0 (c : Dev nD) (t : Fin cfg5.N) (y : ((cfg5.win 3).xblock (grid5.coords t)).Idx)
    (hy0 : (y 0).val < 5000) (k : Fin 256) :
    iblk5 V c 0 t (ix2 ⟨(y 0).val, hy0⟩ k)
      = V c (Pipeline.arrRef spec5 0) (ix2 ((((cfg5.win 3).blk t).view.emb y) 0) k) := by
  obtain ⟨e00, e01, -, -, -, -, e30, -⟩ := region5_index t
  show V c (Pipeline.arrRef spec5 0) (((cfg5.win 0).blk t).view.emb (ix2 ⟨(y 0).val, hy0⟩ k)) = _
  refine congrArg _ (funext fun a => Fin.ext ?_)
  match a with
  | ⟨0, _⟩ => show win5_0.index t (0 : Fin 2) * 5000 + 1 * (y 0).val = win5_3.index t (0 : Fin 2) * 5000 + 1 * (y 0).val; omega
  | ⟨1, _⟩ => show win5_0.index t (1 : Fin 2) * 256 + 1 * k.val = k.val; omega

/-- An entry of the weight's block at point t, in the column of y, is the weight array's entry in the column where y
    sits in the output array. -/
theorem region5_read1 (c : Dev nD) (t : Fin cfg5.N) (y : ((cfg5.win 3).xblock (grid5.coords t)).Idx)
    (hy1 : (y 1).val < 256) (k : Fin 256) :
    iblk5 V c 1 t (ix2 k ⟨(y 1).val, hy1⟩)
      = V c (Pipeline.arrRef spec5 1) (ix2 k ((((cfg5.win 3).blk t).view.emb y) 1)) := by
  obtain ⟨-, -, e10, e11, -, -, -, e31⟩ := region5_index t
  show V c (Pipeline.arrRef spec5 1) (((cfg5.win 1).blk t).view.emb (ix2 k ⟨(y 1).val, hy1⟩)) = _
  refine congrArg _ (funext fun a => Fin.ext ?_)
  match a with
  | ⟨0, _⟩ => show win5_1.index t (0 : Fin 2) * 256 + 1 * k.val = k.val; omega
  | ⟨1, _⟩ => show win5_1.index t (1 : Fin 2) * 256 + 1 * (y 1).val = win5_3.index t (1 : Fin 2) * 256 + 1 * (y 1).val; omega

/-- The entry of the bias row's block at point t in the column of y is the bias array's entry in the column where y sits
    in the output array. -/
theorem region5_read2 (c : Dev nD) (t : Fin cfg5.N) (y : ((cfg5.win 3).xblock (grid5.coords t)).Idx)
    (hy1 : (y 1).val < 256) :
    iblk5 V c 2 t (ix2 (0 : Fin 1) ⟨(y 1).val, hy1⟩)
      = V c (Pipeline.arrRef spec5 2) (ix2 (0 : Fin 1) ((((cfg5.win 3).blk t).view.emb y) 1)) := by
  obtain ⟨-, -, -, -, e20, e21, -, e31⟩ := region5_index t
  show V c (Pipeline.arrRef spec5 2) (((cfg5.win 2).blk t).view.emb (ix2 (0 : Fin 1) ⟨(y 1).val, hy1⟩)) = _
  refine congrArg _ (funext fun a => Fin.ext ?_)
  match a with
  | ⟨0, _⟩ => show win5_2.index t (0 : Fin 2) * 1 + 1 * 0 = 0; omega
  | ⟨1, _⟩ => show win5_2.index t (1 : Fin 2) * 256 + 1 * (y 1).val = win5_3.index t (1 : Fin 2) * 256 + 1 * (y 1).val; omega

/-- What grid point t writes back is block t of region5_fn of the three input arrays. -/
theorem region5_flushed (c : Dev nD) (t : Fin cfg5.N) :
    (dat5 (F := Ideal) V c).flushed 3 t
      = ((cfg5.win 3).blk t).view.read (Elt Ideal)
          (region5_fn (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero region5_offsets]
  simp only [View.ld_unit_zero (S := S5000x256) region5_offsets, View.ld_unit_zero (S := S256x256) region5_offsets,
    View.ld_unit_zero (S := S1x256) region5_offsets]
  funext y
  have hy0 : (y 0).val < 5000 := (y 0).isLt
  have hy1 : (y 1).val < 256 := (y 1).isLt
  have hy : (cfg5.win 3).xinj (grid5.coords t) y = ix2 ⟨(y 0).val, hy0⟩ ⟨(y 1).val, hy1⟩ :=
    funext fun a => by match a with | ⟨0, _⟩ => rfl | ⟨1, _⟩ => rfl
  refine (congrArg (k5_pay1 (iblk5 V c 0 t) (iblk5 V c 1 t) (iblk5 V c 2 t)) hy).trans ?_
  show k5_pay1 (iblk5 V c 0 t) (iblk5 V c 1 t) (iblk5 V c 2 t) (ix2 ⟨(y 0).val, hy0⟩ ⟨(y 1).val, hy1⟩)
    = region5_fn (V c (Pipeline.arrRef spec5 0)) (V c (Pipeline.arrRef spec5 1)) (V c (Pipeline.arrRef spec5 2))
        (((cfg5.win 3).blk t).view.emb y)
  exact region5_point (V c (Pipeline.arrRef spec5 0)) (V c (Pipeline.arrRef spec5 1)) (V c (Pipeline.arrRef spec5 2))
    (iblk5 V c 0 t) (iblk5 V c 1 t) (iblk5 V c 2 t)
    ⟨(y 0).val, hy0⟩ ⟨(y 1).val, hy1⟩ (((cfg5.win 3).blk t).view.emb y)
    (fun k => region5_read0 V c t y hy0 k) (fun k => region5_read1 V c t y hy1 k) (region5_read2 V c t y hy1)

/-- An index of the array is in point t's block iff each coordinate is in the block's range on its axis. -/
theorem region5_mem (t : Fin cfg5.N) (i : S50000x256.Idx) :
    i ∈ ((cfg5.win 3).blk t).view.set ↔ ∀ a : Fin 2, win5_3.index t a * S5000x256.size a ≤ (i a).val
      ∧ (i a).val < win5_3.index t a * S5000x256.size a + S5000x256.size a := by
  show i ∈ ((View.whole main_v142).slice (win5_3.rect t)).set ↔ _
  rw [View.set_slice_whole, Rect.mem_set_unit]
  exact Iff.rfl

/-- Every index of the array is in the block of the grid point numbered by its row divided by 5000. -/
theorem region5_cover (i : S50000x256.Idx) :
    ∃ t : Fin cfg5.N, (cfg5.win 3).flush t = true ∧ i ∈ ((cfg5.win 3).blk t).view.set := by
  have hN : cfg5.N = 10 := N_5
  have h0 : (i 0).val < 50000 := (i 0).isLt
  have h1 : (i 1).val < 256 := (i 1).isLt
  obtain ⟨t, ht⟩ : ∃ t : Fin cfg5.N, t.val = (i 0).val / 5000 := ⟨⟨(i 0).val / 5000, by rw [hN]; omega⟩, rfl⟩
  obtain ⟨-, -, -, -, -, -, e30, e31⟩ := region5_index t
  refine ⟨t, flush5_3 t, ?_⟩
  rw [region5_mem]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 256 ≤ (i 1).val ∧ (i 1).val < win5_3.index t (1 : Fin 2) * 256 + 256
    omega

/-- The array after the region is region5_fn of the three input arrays as the region finds them. -/
theorem region5_out (c : Dev nD) :
    (dat5 (F := Ideal) V c).arrAt 3 cfg5.N
      = region5_fn (V c (Pipeline.arrRef spec5 0)) (V c (Pipeline.arrRef spec5 1)) (V c (Pipeline.arrRef spec5 2)) :=
  (dat5 (F := Ideal) V c).arrAt_eq_of_cover 3
    (region5_fn (V c (Pipeline.arrRef spec5 0)) (V c (Pipeline.arrRef spec5 1)) (V c (Pipeline.arrRef spec5 2)))
    (fun t _ => region5_flushed V c t) region5_cover

/-- The array after the region, with the three input arrays named: row r, column q is the sum over k of X r k * W k q,
    plus the bias row's entry of column q. -/
theorem region5_out_of (c : Dev nD) (X : S50000x256.Idx → EReal) (W : S256x256.Idx → EReal) (b : S1x256.Idx → EReal)
    (hX : V c (Pipeline.arrRef spec5 0) = X) (hW : V c (Pipeline.arrRef spec5 1) = W)
    (hb : V c (Pipeline.arrRef spec5 2) = b) :
    (dat5 (F := Ideal) V c).arrAt 3 cfg5.N
      = fun j : S50000x256.Idx => (∑ k : Fin 256, X (ix2 (j 0) k) * W (ix2 k (j 1))) + b (ix2 0 (j 1)) := by
  subst hX hW hb
  exact region5_out V c

end Cert.KernelIdeal.Bridge

end
-- ==== Proof.Region6.lean ====
/- The array the bias-and-rectifier region leaves, as one function of the arrays it reads, entry by entry:
   every entry is the input's entry plus the bias row's entry of the same column, and then the maximum with zero.
   First one entry of the value the body stores in a block, then each written block as a block of that function, then the
   blocks of the ten grid points cover the array. -/
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)

/-- The offsets of a rectangle that is a whole block are zero on both axes. -/
theorem region6_offsets : (![0, 0] : Fin 2 → Nat) = fun _ => 0 := funext fun a => by fin_cases a <;> rfl

/-- Bias, then the rectifier, entry by entry: row r, column q of the result is max (X r q + b 0 q) 0. -/
def region6_fn (X : S50000x256.Idx → EReal) (b : S1x256.Idx → EReal) : S50000x256.Idx → EReal :=
  fun j => max (X j + b (ix2 (0 : Fin 1) (j 1))) 0

/-- One entry of the value the body stores: the block's entry plus the bias row's entry of the same column, then the
    maximum with zero (the two casts keep the shape, the bias row is repeated down the rows, the constant is zero). -/
theorem region6_pay (x0 : Vec Ideal S5000x256 .f32) (x1 : Vec Ideal S1x256 .f32) (p : Fin 5000) (q : Fin 256) :
    k6_pay1 x0 x1 (ix2 p q) = max (x0 (ix2 p q) + x1 (ix2 (0 : Fin 1) q)) 0 := by
  unfold k6_pay1
  simp only [maximumf_apply, addf_apply, broadcast_apply, shapeCast_self]
  rw [broadcastTo_1b_ab_apply]
  show max _ (Ideal.ofBits .f32 0x00000000#32) = _
  rw [Ideal.ofBits_zero_f32]

/-- The same entry when the block's entry and the bias row's entry are known to be entries of two arrays X and b at an
    index i with the same column: the entry of region6_fn X b at i. -/
theorem region6_point (X : S50000x256.Idx → EReal) (b : S1x256.Idx → EReal)
    (x0 : Vec Ideal S5000x256 .f32) (x1 : Vec Ideal S1x256 .f32) (p : Fin 5000) (q : Fin 256) (i : S50000x256.Idx)
    (h0 : x0 (ix2 p q) = X i) (h1 : x1 (ix2 (0 : Fin 1) q) = b (ix2 (0 : Fin 1) (i 1))) :
    k6_pay1 x0 x1 (ix2 p q) = region6_fn X b i := by
  rw [region6_pay, h0, h1]; rfl

/-- The block indices of the three windows at every grid point: the input's and the output's block is the point's block
    of rows, the bias window stays at its one block. -/
theorem region6_index : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- An entry of the input's block at point t, at the place of an entry y of the output's block, is the input array's
    entry where y sits in the output array: a block's entry sits in its array at block index times block size plus its
    coordinate inside the block, on each axis. -/
theorem region6_read0 (c : Dev nD) (t : Fin cfg6.N) (y : ((cfg6.win 2).xblock (grid6.coords t)).Idx)
    (hy0 : (y 0).val < 5000) (hy1 : (y 1).val < 256) :
    iblk6 V c 0 t (ix2 ⟨(y 0).val, hy0⟩ ⟨(y 1).val, hy1⟩)
      = V c (Pipeline.arrRef spec6 0) (((cfg6.win 2).blk t).view.emb y) := by
  obtain ⟨e00, e01, -, -, e20, e21⟩ := region6_index t
  show V c (Pipeline.arrRef spec6 0) (((cfg6.win 0).blk t).view.emb (ix2 ⟨(y 0).val, hy0⟩ ⟨(y 1).val, hy1⟩)) = _
  refine congrArg _ (funext fun a => Fin.ext ?_)
  match a with
  | ⟨0, _⟩ => show win6_0.index t (0 : Fin 2) * 5000 + 1 * (y 0).val = win6_2.index t (0 : Fin 2) * 5000 + 1 * (y 0).val; omega
  | ⟨1, _⟩ => show win6_0.index t (1 : Fin 2) * 256 + 1 * (y 1).val = win6_2.index t (1 : Fin 2) * 256 + 1 * (y 1).val; omega

/-- The entry of the bias row's block at point t in the column of y is the bias array's entry in the column where y sits
    in the output array. -/
theorem region6_read1 (c : Dev nD) (t : Fin cfg6.N) (y : ((cfg6.win 2).xblock (grid6.coords t)).Idx)
    (hy1 : (y 1).val < 256) :
    iblk6 V c 1 t (ix2 (0 : Fin 1) ⟨(y 1).val, hy1⟩)
      = V c (Pipeline.arrRef spec6 1) (ix2 (0 : Fin 1) ((((cfg6.win 2).blk t).view.emb y) 1)) := by
  obtain ⟨-, -, e10, e11, -, e21⟩ := region6_index t
  show V c (Pipeline.arrRef spec6 1) (((cfg6.win 1).blk t).view.emb (ix2 (0 : Fin 1) ⟨(y 1).val, hy1⟩)) = _
  refine congrArg _ (funext fun a => Fin.ext ?_)
  match a with
  | ⟨0, _⟩ => show win6_1.index t (0 : Fin 2) * 1 + 1 * 0 = 0; omega
  | ⟨1, _⟩ => show win6_1.index t (1 : Fin 2) * 256 + 1 * (y 1).val = win6_2.index t (1 : Fin 2) * 256 + 1 * (y 1).val; omega

/-- What grid point t writes back is block t of region6_fn of the two input arrays. -/
theorem region6_flushed (c : Dev nD) (t : Fin cfg6.N) :
    (dat6 (F := Ideal) V c).flushed 2 t
      = ((cfg6.win 2).blk t).view.read (Elt Ideal)
          (region6_fn (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero region6_offsets]
  simp only [View.ld_unit_zero (S := S5000x256) region6_offsets, View.ld_unit_zero (S := S1x256) region6_offsets]
  funext y
  have hy0 : (y 0).val < 5000 := (y 0).isLt
  have hy1 : (y 1).val < 256 := (y 1).isLt
  have hy : (cfg6.win 2).xinj (grid6.coords t) y = ix2 ⟨(y 0).val, hy0⟩ ⟨(y 1).val, hy1⟩ :=
    funext fun a => by match a with | ⟨0, _⟩ => rfl | ⟨1, _⟩ => rfl
  refine (congrArg (k6_pay1 (iblk6 V c 0 t) (iblk6 V c 1 t)) hy).trans ?_
  show k6_pay1 (iblk6 V c 0 t) (iblk6 V c 1 t) (ix2 ⟨(y 0).val, hy0⟩ ⟨(y 1).val, hy1⟩)
    = region6_fn (V c (Pipeline.arrRef spec6 0)) (V c (Pipeline.arrRef spec6 1)) (((cfg6.win 2).blk t).view.emb y)
  exact region6_point (V c (Pipeline.arrRef spec6 0)) (V c (Pipeline.arrRef spec6 1)) (iblk6 V c 0 t) (iblk6 V c 1 t)
    ⟨(y 0).val, hy0⟩ ⟨(y 1).val, hy1⟩ (((cfg6.win 2).blk t).view.emb y)
    (region6_read0 V c t y hy0 hy1) (region6_read1 V c t y hy1)

/-- An index of the array is in point t's block iff each coordinate is in the block's range on its axis. -/
theorem region6_mem (t : Fin cfg6.N) (i : S50000x256.Idx) :
    i ∈ ((cfg6.win 2).blk t).view.set ↔ ∀ a : Fin 2, win6_2.index t a * S5000x256.size a ≤ (i a).val
      ∧ (i a).val < win6_2.index t a * S5000x256.size a + S5000x256.size a := by
  show i ∈ ((View.whole main_v157).slice (win6_2.rect t)).set ↔ _
  rw [View.set_slice_whole, Rect.mem_set_unit]
  exact Iff.rfl

/-- Every index of the array is in the block of the grid point numbered by its row divided by 5000. -/
theorem region6_cover (i : S50000x256.Idx) :
    ∃ t : Fin cfg6.N, (cfg6.win 2).flush t = true ∧ i ∈ ((cfg6.win 2).blk t).view.set := by
  have hN : cfg6.N = 10 := N_6
  have h0 : (i 0).val < 50000 := (i 0).isLt
  have h1 : (i 1).val < 256 := (i 1).isLt
  obtain ⟨t, ht⟩ : ∃ t : Fin cfg6.N, t.val = (i 0).val / 5000 := ⟨⟨(i 0).val / 5000, by rw [hN]; omega⟩, rfl⟩
  obtain ⟨-, -, -, -, e20, e21⟩ := region6_index t
  refine ⟨t, flush6_2 t, ?_⟩
  rw [region6_mem]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 256 ≤ (i 1).val ∧ (i 1).val < win6_2.index t (1 : Fin 2) * 256 + 256
    omega

/-- The array after the region is region6_fn of the two input arrays as the region finds them. -/
theorem region6_out (c : Dev nD) :
    (dat6 (F := Ideal) V c).arrAt 2 cfg6.N
      = region6_fn (V c (Pipeline.arrRef spec6 0)) (V c (Pipeline.arrRef spec6 1)) :=
  (dat6 (F := Ideal) V c).arrAt_eq_of_cover 2
    (region6_fn (V c (Pipeline.arrRef spec6 0)) (V c (Pipeline.arrRef spec6 1)))
    (fun t _ => region6_flushed V c t) region6_cover

/-- The array after the region, with the two input arrays named: every entry is the maximum with zero of the input's
    entry plus the bias row's entry of the same column. -/
theorem region6_out_of (c : Dev nD) (X : S50000x256.Idx → EReal) (b : S1x256.Idx → EReal)
    (hX : V c (Pipeline.arrRef spec6 0) = X) (hb : V c (Pipeline.arrRef spec6 1) = b) :
    (dat6 (F := Ideal) V c).arrAt 2 cfg6.N = fun j : S50000x256.Idx => max (X j + b (ix2 0 (j 1))) 0 := by
  subst hX hb
  exact region6_out V c

end Cert.KernelIdeal.Bridge

end
-- ==== Proof.Region7.lean ====
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)

/-- On its row axis the left operand's index is the output's row, whatever the contraction position. -/
theorem mm7_apply_lhs0 (i : S1024x256.Idx) (u : dot_S1024x256_S256x256_S1024x256_1_0_0_1_n_n.contr.Idx) :
    (dot_S1024x256_S256x256_S1024x256_1_0_0_1_n_n.lhsIdx i u 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- On its column axis the right operand's index is the output's column, whatever the contraction position. -/
theorem mm7_apply_rhs1 (i : S1024x256.Idx) (u : dot_S1024x256_S256x256_S1024x256_1_0_0_1_n_n.contr.Idx) :
    (dot_S1024x256_S256x256_S1024x256_1_0_0_1_n_n.rhsIdx i u 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- A 1024×256 by 256×256 product into a zero accumulator, read at `(p, q)`: the plain sum over the shared axis. -/
theorem mm7_apply (a : FVec Ideal S1024x256 .f32) (b : FVec Ideal S256x256 .f32) (p : Fin 1024) (q : Fin 256) :
    matmul dot_S1024x256_S256x256_S1024x256_1_0_0_1_n_n none a b (constant S1024x256 .f32 0x00000000#32) (ix2 p q)
      = ∑ k : Fin 256, a (ix2 p k) * b (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun ax => Fin.ext (by
    match ax with
    | ⟨0, _⟩ => exact mm7_apply_lhs0 _ _
    | ⟨1, _⟩ => exact (dot_S1024x256_S256x256_S1024x256_1_0_0_1_n_n.lhsIdx_val_of_single rfl (ix2 p q) _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun ax => Fin.ext (by
    match ax with
    | ⟨0, _⟩ => exact (dot_S1024x256_S256x256_S1024x256_1_0_0_1_n_n.rhsIdx_val_of_single rfl (ix2 p q) _).trans hk
    | ⟨1, _⟩ => exact mm7_apply_rhs1 _ _)
  rw [el, er]

/-- The body's one stored value at `(p, q)`: row `p` of the first operand against column `q` of the second, plus the bias row at `q`. -/
theorem pay7_apply (x0 : Vec Ideal S1024x256 .f32) (x1 : Vec Ideal S256x256 .f32) (x2 : Vec Ideal S1x256 .f32) (p : Fin 1024) (q : Fin 256) :
    k7_pay1 x0 x1 x2 (ix2 p q) = (∑ k : Fin 256, x0 (ix2 p k) * x1 (ix2 k q)) + x2 (ix2 (0 : Fin 1) q) := by
  unfold Gen.k7_pay1
  rw [addf_apply, shapeCast_self, shapeCast_self, mm7_apply, broadcastTo_1b_ab_apply]

theorem hz7 : (![0, 0] : Fin 2 → Nat) = fun _ => 0 := funext fun a => by fin_cases a <;> rfl

/-- The affine map of the region: each output entry is a row of `X` against a column of `W`, plus the bias. -/
def lin7 (X : S1024x256.Idx → EReal) (W : S256x256.Idx → EReal) (b : S1x256.Idx → EReal) : S1024x256.Idx → EReal :=
  fun j => (∑ k : Fin 256, X (ix2 (j 0) k) * W (ix2 k (j 1))) + b (ix2 (0 : Fin 1) (j 1))

theorem lin7_apply (X : S1024x256.Idx → EReal) (W : S256x256.Idx → EReal) (b : S1x256.Idx → EReal) (j : S1024x256.Idx) :
    lin7 X W b j = (∑ k : Fin 256, X (ix2 (j 0) k) * W (ix2 k (j 1))) + b (ix2 (0 : Fin 1) (j 1)) := rfl

/-- Window 0's printed index map sends the grid's one point to block (0, 0) (decided over the grid). -/
theorem idx7_0 : ∀ t : Fin cfg7.N, win7_0.index t (0 : Fin 2) = 0 ∧ win7_0.index t (1 : Fin 2) = 0 :=
  (by decide +kernel : ∀ t : Fin grid7.N, _)

/-- Window 1's printed index map sends the grid's one point to block (0, 0) (decided over the grid). -/
theorem idx7_1 : ∀ t : Fin cfg7.N, win7_1.index t (0 : Fin 2) = 0 ∧ win7_1.index t (1 : Fin 2) = 0 :=
  (by decide +kernel : ∀ t : Fin grid7.N, _)

/-- Window 2's printed index map sends the grid's one point to block (0, 0) (decided over the grid). -/
theorem idx7_2 : ∀ t : Fin cfg7.N, win7_2.index t (0 : Fin 2) = 0 ∧ win7_2.index t (1 : Fin 2) = 0 :=
  (by decide +kernel : ∀ t : Fin grid7.N, _)

/-- Window 3's printed index map sends the grid's one point to block (0, 0) (decided over the grid). -/
theorem idx7_3 : ∀ t : Fin cfg7.N, win7_3.index t (0 : Fin 2) = 0 ∧ win7_3.index t (1 : Fin 2) = 0 :=
  (by decide +kernel : ∀ t : Fin grid7.N, _)

/-- Input window 0's block at the grid's one point is its whole array. -/
theorem iblk7_0_apply (V : (c : Dev nD) → (b : Ref sig .tc) → Buf (Elt Ideal) ((c : Thread nD τ).loc b)) (c : Dev nD) (t : Fin cfg7.N) (r : Fin 1024) (s : Fin 256) :
    (iblk7 V c 0 t : S1024x256.Idx → EReal) (ix2 r s) = (V c (Pipeline.arrRef spec7 0) : S1024x256.Idx → EReal) (ix2 r s) := by
  obtain ⟨e0, e1⟩ := idx7_0 t
  show (V c (Pipeline.arrRef spec7 0) : S1024x256.Idx → EReal) (((cfg7.win 0).blk t).view.emb (ix2 r s)) = _
  refine congrArg _ (funext fun a => Fin.ext ?_)
  match a with
  | ⟨0, _⟩ => show win7_0.index t (0 : Fin 2) * 1024 + 1 * r.val = r.val; omega
  | ⟨1, _⟩ => show win7_0.index t (1 : Fin 2) * 256 + 1 * s.val = s.val; omega

/-- Input window 1's block at the grid's one point is its whole array. -/
theorem iblk7_1_apply (V : (c : Dev nD) → (b : Ref sig .tc) → Buf (Elt Ideal) ((c : Thread nD τ).loc b)) (c : Dev nD) (t : Fin cfg7.N) (r : Fin 256) (s : Fin 256) :
    (iblk7 V c 1 t : S256x256.Idx → EReal) (ix2 r s) = (V c (Pipeline.arrRef spec7 1) : S256x256.Idx → EReal) (ix2 r s) := by
  obtain ⟨e0, e1⟩ := idx7_1 t
  show (V c (Pipeline.arrRef spec7 1) : S256x256.Idx → EReal) (((cfg7.win 1).blk t).view.emb (ix2 r s)) = _
  refine congrArg _ (funext fun a => Fin.ext ?_)
  match a with
  | ⟨0, _⟩ => show win7_1.index t (0 : Fin 2) * 256 + 1 * r.val = r.val; omega
  | ⟨1, _⟩ => show win7_1.index t (1 : Fin 2) * 256 + 1 * s.val = s.val; omega

/-- Input window 2's block at the grid's one point is its whole array. -/
theorem iblk7_2_apply (V : (c : Dev nD) → (b : Ref sig .tc) → Buf (Elt Ideal) ((c : Thread nD τ).loc b)) (c : Dev nD) (t : Fin cfg7.N) (r : Fin 1) (s : Fin 256) :
    (iblk7 V c 2 t : S1x256.Idx → EReal) (ix2 r s) = (V c (Pipeline.arrRef spec7 2) : S1x256.Idx → EReal) (ix2 r s) := by
  obtain ⟨e0, e1⟩ := idx7_2 t
  show (V c (Pipeline.arrRef spec7 2) : S1x256.Idx → EReal) (((cfg7.win 2).blk t).view.emb (ix2 r s)) = _
  refine congrArg _ (funext fun a => Fin.ext ?_)
  match a with
  | ⟨0, _⟩ => show win7_2.index t (0 : Fin 2) * 1 + 1 * r.val = r.val; omega
  | ⟨1, _⟩ => show win7_2.index t (1 : Fin 2) * 256 + 1 * s.val = s.val; omega

/-- What the grid's one point writes back is the block of the affine map of the three arrays as the region finds them. -/
theorem flushed7_eq (V : (c : Dev nD) → (b : Ref sig .tc) → Buf (Elt Ideal) ((c : Thread nD τ).loc b)) (c : Dev nD) (t : Fin cfg7.N) :
    (dat7 (F := Ideal) V c).flushed 3 t = ((cfg7.win 3).blk t).view.read (Elt Ideal)
      (lin7 (V c (Pipeline.arrRef spec7 0)) (V c (Pipeline.arrRef spec7 1)) (V c (Pipeline.arrRef spec7 2))) := by
  show (cfg7.win 3).cut (grid7.coords t) ((dat7 V c).after 3 t) = _
  rw [after7_3]
  unfold Gen.out7_3
  rw [View.canon_unit_zero hz7]
  simp only [View.ld_unit_zero (S := S1024x256) hz7, View.ld_unit_zero (S := S256x256) hz7, View.ld_unit_zero (S := S1x256) hz7]
  obtain ⟨e0, e1⟩ := idx7_3 t
  funext j
  obtain ⟨p, q, rfl⟩ : ∃ (p : Fin 1024) (q : Fin 256), j = ix2 p q := ⟨j 0, j 1, eq_ix2 j⟩
  refine (pay7_apply (iblk7 V c 0 t) (iblk7 V c 1 t) (iblk7 V c 2 t) p q).trans ?_
  have he : ((cfg7.win 3).blk t).view.emb (ix2 p q) = (ix2 p q : S1024x256.Idx) := by
    funext a; apply Fin.ext
    match a with
    | ⟨0, _⟩ => show win7_3.index t (0 : Fin 2) * 1024 + 1 * p.val = p.val; omega
    | ⟨1, _⟩ => show win7_3.index t (1 : Fin 2) * 256 + 1 * q.val = q.val; omega
  show _ = lin7 _ _ _ (((cfg7.win 3).blk t).view.emb (ix2 p q))
  rw [he]
  exact congrArg₂ (· + ·)
    (Finset.sum_congr rfl fun k _ => congrArg₂ (· * ·) (iblk7_0_apply V c t p k) (iblk7_1_apply V c t k q))
    (iblk7_2_apply V c t 0 q)

/-- An index of the output array is in point `t`'s block iff each coordinate is in the block's range on its axis. -/
theorem mem_blk7 (t : Fin cfg7.N) (i : S1024x256.Idx) :
    i ∈ ((cfg7.win 3).blk t).view.set ↔ ∀ a : Fin 2, win7_3.index t a * S1024x256.size a ≤ (i a).val ∧ (i a).val < win7_3.index t a * S1024x256.size a + S1024x256.size a := by
  show i ∈ ((View.whole main_v171).slice (win7_3.rect t)).set ↔ _
  rw [View.set_slice_whole, Rect.mem_set_unit]
  exact Iff.rfl

/-- The grid's one point covers the whole output array. -/
theorem cover7 (i : S1024x256.Idx) : ∃ t : Fin cfg7.N, (cfg7.win 3).flush t = true ∧ i ∈ ((cfg7.win 3).blk t).view.set := by
  refine ⟨t7_0, flush7_3 t7_0, ?_⟩
  rw [mem_blk7]
  obtain ⟨e0, e1⟩ := idx7_3 t7_0
  have h0 : (i 0).val < 1024 := (i 0).isLt
  have h1 : (i 1).val < 256 := (i 1).isLt
  intro a
  match a with
  | ⟨0, _⟩ => show win7_3.index t7_0 (0 : Fin 2) * 1024 ≤ (i 0).val ∧ (i 0).val < win7_3.index t7_0 (0 : Fin 2) * 1024 + 1024; omega
  | ⟨1, _⟩ => show win7_3.index t7_0 (1 : Fin 2) * 256 ≤ (i 1).val ∧ (i 1).val < win7_3.index t7_0 (1 : Fin 2) * 256 + 256; omega

/-- The region's output array after the region is the affine map of its three input arrays as the region finds them
    (`lin7_apply` reads it at an index). -/
theorem region7_out (V : (c : Dev nD) → (b : Ref sig .tc) → Buf (Elt Ideal) ((c : Thread nD τ).loc b)) (c : Dev nD) :
    (dat7 (F := Ideal) V c).arrAt 3 cfg7.N
      = lin7 (V c (Pipeline.arrRef spec7 0)) (V c (Pipeline.arrRef spec7 1)) (V c (Pipeline.arrRef spec7 2)) :=
  (dat7 (F := Ideal) V c).arrAt_eq_of_cover 3
    (lin7 (V c (Pipeline.arrRef spec7 0)) (V c (Pipeline.arrRef spec7 1)) (V c (Pipeline.arrRef spec7 2)))
    (fun t _ => flushed7_eq V c t) cover7

end Cert.KernelIdeal.Bridge

end
-- ==== Proof.KBranch.lean ====
/-
  The two graph branches of the kernel program, region by region, against the reference's graph branch.
-/
import proofs.«135828_j71159018160437_2_alg».proof.Proof.KStage
import proofs.«135828_j71159018160437_2_alg».proof.Proof.RefCore
import proofs.«135828_j71159018160437_2_alg».proof.Proof.Region0
import proofs.«135828_j71159018160437_2_alg».proof.Proof.Region1
import proofs.«135828_j71159018160437_2_alg».proof.Proof.Region2
import proofs.«135828_j71159018160437_2_alg».proof.Proof.Region3
import proofs.«135828_j71159018160437_2_alg».proof.Proof.Region4
import proofs.«135828_j71159018160437_2_alg».proof.Proof.Region5
import proofs.«135828_j71159018160437_2_alg».proof.Proof.Region6
import proofs.«135828_j71159018160437_2_alg».proof.Proof.Region7

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Branch 1 of the kernel program ends at the reference's graph-branch value of the branch's arguments: the four
    regions and the host stretches between them, one after the other. -/
theorem branch1_value (c : Dev nD)
    (h8 : ∀ i, ∃ r : ℝ, (m ((c : Thread nD τ).loc main_arg8)) i = (r : EReal)) (h9 : ∀ i, ∃ r : ℝ, (m ((c : Thread nD τ).loc main_arg9)) i = (r : EReal))
    (hn : ∀ e, ∃ r : ℝ, Cert.ReferenceIdeal.Read.val_main_v39 (F := Ideal) (m ((c : Thread nD τ).loc main_arg1)) e = (r : EReal)) :
    W10 m ρ c (Proc.devRef .tc main_v85) = Cert.ReferenceIdeal.Read.val_main_v118 (F := Ideal) (m ((c : Thread nD τ).loc main_arg0)) (m ((c : Thread nD τ).loc main_arg1)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h54 : W4 m ρ c (Proc.devRef .tc main_v54) = Cert.ReferenceIdeal.Read.val_main_v56 (F := Ideal) (m ((c : Thread nD τ).loc main_arg0)) (m ((c : Thread nD τ).loc main_arg1)) (m ((c : Thread nD τ).loc main_arg8)) (m ((c : Thread nD τ).loc main_arg9)) (m ((c : Thread nD τ).loc main_arg10)) :=
    (W4_arr m ρ c 3).trans ((region0_out_of (V3 m ρ) c _ _ _ (k_agg m ρ c) (keep_arg9_3_0 m ρ c) (k_b1 m ρ c)).trans
      (Cert.Bridge.layer1 _ _ _ _ _ h8 h9 hn))
  have h56 : W6 m ρ c (Proc.devRef .tc main_v56) = Cert.ReferenceIdeal.Read.val_main_v57 (F := Ideal) (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) :=
    (W6_arr m ρ c 3).trans ((region1_out_of (V5 m ρ) c _ _ _ ((keep_v54_5_4 m ρ c).trans h54) (keep_arg11_5_0 m ρ c) (k_b0 m ρ c)).trans
      (Cert.Bridge.layer2_lin _ _ _ _ _ _))
  have h69 : W7 m ρ c (Proc.devRef .tc main_v69) = Cert.ReferenceIdeal.Read.val_main_v98 (F := Ideal) (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) := by
    rw [k_agg2, h56]; rfl
  have h71 : W8 m ρ c (Proc.devRef .tc main_v71) = Cert.ReferenceIdeal.Read.val_main_v102 (F := Ideal) (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) :=
    (W8_arr m ρ c 2).trans ((region2_out_of (V7 m ρ) c _ _ h69 (k_b2 m ρ c)).trans
      (Cert.Bridge.layer2_act _ _ _ _ _ _ _))
  have h83 : W9 m ρ c (Proc.devRef .tc main_v83) = Cert.ReferenceIdeal.Read.val_main_v114 (F := Ideal) (m ((c : Thread nD τ).loc main_arg0)) (m ((c : Thread nD τ).loc main_arg1)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) := by
    rw [k_pool, h71]; rfl
  refine (W10_arr m ρ c 3).trans ((region3_out (V9 m ρ) c).trans ?_)
  show lin3 (W9 m ρ c (Proc.devRef .tc main_v83)) (W9 m ρ c (Proc.devRef .tc main_arg13)) (W9 m ρ c (Proc.devRef .tc main_v84)) = _
  exact (congr (congr (congrArg lin3 h83) (keep_arg13_9_0 m ρ c)) (k_b3 m ρ c)).trans (Cert.Bridge.branch_out _ _ _ _ _ _ _ _ _ _)

/-- Branch 2 of the kernel program ends at the reference's graph-branch value of the branch's arguments: the four
    regions and the host stretches between them, one after the other. -/
theorem branch2_value (c : Dev nD)
    (h8 : ∀ i, ∃ r : ℝ, (m ((c : Thread nD τ).loc main_arg8)) i = (r : EReal)) (h9 : ∀ i, ∃ r : ℝ, (m ((c : Thread nD τ).loc main_arg9)) i = (r : EReal))
    (hn : ∀ e, ∃ r : ℝ, Cert.ReferenceIdeal.Read.val_main_v39 (F := Ideal) (m ((c : Thread nD τ).loc main_arg5)) e = (r : EReal)) :
    W20 m ρ c (Proc.devRef .tc main_v171) = Cert.ReferenceIdeal.Read.val_main_v118 (F := Ideal) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h54 : W14 m ρ c (Proc.devRef .tc main_v140) = Cert.ReferenceIdeal.Read.val_main_v56 (F := Ideal) (m ((c : Thread nD τ).loc main_arg4)) (m ((c : Thread nD τ).loc main_arg5)) (m ((c : Thread nD τ).loc main_arg8)) (m ((c : Thread nD τ).loc main_arg9)) (m ((c : Thread nD τ).loc main_arg10)) :=
    (W14_arr m ρ c 3).trans ((region4_out_of (V13 m ρ) c _ _ _ (k_agg' m ρ c) (keep_arg9_13_0 m ρ c) (k_b1' m ρ c)).trans
      (Cert.Bridge.layer1 _ _ _ _ _ h8 h9 hn))
  have h56 : W16 m ρ c (Proc.devRef .tc main_v142) = Cert.ReferenceIdeal.Read.val_main_v57 (F := Ideal) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) :=
    (W16_arr m ρ c 3).trans ((region5_out_of (V15 m ρ) c _ _ _ ((keep_v140_15_14 m ρ c).trans h54) (keep_arg11_15_0 m ρ c) (k_b0' m ρ c)).trans
      (Cert.Bridge.layer2_lin _ _ _ _ _ _))
  have h69 : W17 m ρ c (Proc.devRef .tc main_v155) = Cert.ReferenceIdeal.Read.val_main_v98 (F := Ideal) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
    rw [k_agg2', h56]; rfl
  have h71 : W18 m ρ c (Proc.devRef .tc main_v157) = Cert.ReferenceIdeal.Read.val_main_v102 (F := Ideal) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) :=
    (W18_arr m ρ c 2).trans ((region6_out_of (V17 m ρ) c _ _ h69 (k_b2' m ρ c)).trans
      (Cert.Bridge.layer2_act _ _ _ _ _ _ _))
  have h83 : W19 m ρ c (Proc.devRef .tc main_v169) = Cert.ReferenceIdeal.Read.val_main_v114 (F := Ideal) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
    rw [k_pool', h71]; rfl
  refine (W20_arr m ρ c 3).trans ((region7_out (V19 m ρ) c).trans ?_)
  show lin7 (W19 m ρ c (Proc.devRef .tc main_v169)) (W19 m ρ c (Proc.devRef .tc main_arg13)) (W19 m ρ c (Proc.devRef .tc main_v170)) = _
  exact (congr (congr (congrArg lin7 h83) (keep_arg13_19_0 m ρ c)) (k_b3' m ρ c)).trans (Cert.Bridge.branch_out _ _ _ _ _ _ _ _ _ _)

end Cert.KernelIdeal.Bridge

end
-- ==== Proof.Region8.lean ====
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)

/-- On its row axis the left operand's index is the output's row, whatever the contraction position. -/
theorem mm8a_apply_lhs0 (i : S1024x256.Idx) (u : dot_S1024x128_S128x256_S1024x256_1_0_0_1_n_n.contr.Idx) :
    (dot_S1024x128_S128x256_S1024x256_1_0_0_1_n_n.lhsIdx i u 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
/-- On its column axis the right operand's index is the output's column, whatever the contraction position. -/
theorem mm8a_apply_rhs1 (i : S1024x256.Idx) (u : dot_S1024x128_S128x256_S1024x256_1_0_0_1_n_n.contr.Idx) :
    (dot_S1024x128_S128x256_S1024x256_1_0_0_1_n_n.rhsIdx i u 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl
/-- A 1024×128 by 128×256 product into a zero accumulator, read at `(p, q)`: the plain sum over the shared axis. -/
theorem mm8a_apply (a : FVec Ideal S1024x128 .f32) (b : FVec Ideal S128x256 .f32) (p : Fin 1024) (q : Fin 256) :
    matmul dot_S1024x128_S128x256_S1024x256_1_0_0_1_n_n none a b (constant S1024x256 .f32 0x00000000#32) (ix2 p q)
      = ∑ k : Fin 128, a (ix2 p k) * b (ix2 k q) := by
  simp only [matmul]
  rw [Ideal.matmul_constant_zero_apply, ← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 p q) ((contrEquiv1 dot_S1024x128_S128x256_S1024x256_1_0_0_1_n_n 128 rfl rfl).symm k) = ix2 p k := funext fun ax => Fin.ext (by
    match ax with
    | ⟨0, _⟩ => exact mm8a_apply_lhs0 _ _
    | ⟨1, _⟩ => exact (dot_S1024x128_S128x256_S1024x256_1_0_0_1_n_n.lhsIdx_val_of_single rfl (ix2 p q) _).trans hk)
  have er : dot_S1024x128_S128x256_S1024x256_1_0_0_1_n_n.rhsIdx (ix2 p q) ((contrEquiv1 dot_S1024x128_S128x256_S1024x256_1_0_0_1_n_n 128 rfl rfl).symm k) = ix2 k q := funext fun ax => Fin.ext (by
    match ax with
    | ⟨0, _⟩ => exact (dot_S1024x128_S128x256_S1024x256_1_0_0_1_n_n.rhsIdx_val_of_single rfl (ix2 p q) _).trans hk
    | ⟨1, _⟩ => exact mm8a_apply_rhs1 _ _)
  rw [el, er]

/-- On its row axis the left operand's index is the output's row, whatever the contraction position. -/
theorem mm8b_apply_lhs0 (i : S1024x256.Idx) (u : dot_S1024x256_S256x256_S1024x256_1_0_0_1_n_n.contr.Idx) :
    (dot_S1024x256_S256x256_S1024x256_1_0_0_1_n_n.lhsIdx i u 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- On its column axis the right operand's index is the output's column, whatever the contraction position. -/
theorem mm8b_apply_rhs1 (i : S1024x256.Idx) (u : dot_S1024x256_S256x256_S1024x256_1_0_0_1_n_n.contr.Idx) :
    (dot_S1024x256_S256x256_S1024x256_1_0_0_1_n_n.rhsIdx i u 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- A 1024×256 by 256×256 product into a zero accumulator, read at `(p, q)`: the plain sum over the shared axis. -/
theorem mm8b_apply (a : FVec Ideal S1024x256 .f32) (b : FVec Ideal S256x256 .f32) (p : Fin 1024) (q : Fin 256) :
    matmul dot_S1024x256_S256x256_S1024x256_1_0_0_1_n_n none a b (constant S1024x256 .f32 0x00000000#32) (ix2 p q)
      = ∑ k : Fin 256, a (ix2 p k) * b (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun ax => Fin.ext (by
    match ax with
    | ⟨0, _⟩ => exact mm8b_apply_lhs0 _ _
    | ⟨1, _⟩ => exact (dot_S1024x256_S256x256_S1024x256_1_0_0_1_n_n.lhsIdx_val_of_single rfl (ix2 p q) _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun ax => Fin.ext (by
    match ax with
    | ⟨0, _⟩ => exact (dot_S1024x256_S256x256_S1024x256_1_0_0_1_n_n.rhsIdx_val_of_single rfl (ix2 p q) _).trans hk
    | ⟨1, _⟩ => exact mm8b_apply_rhs1 _ _)
  rw [el, er]

/-- A maximum against the broadcast float zero, read at an index, is the maximum with `0`. -/
theorem relu8_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- The body's one stored value at `(p, q)`: two affine layers, each followed by a maximum with zero, applied to the
    rectified input row `p`. -/
theorem pay8_apply (x0 : Vec Ideal S1024x128 .f32) (x4 : Vec Ideal S128x256 .f32) (x6 : Vec Ideal S1x256 .f32)
    (x12 : Vec Ideal S256x256 .f32) (x14 : Vec Ideal S1x256 .f32) (p : Fin 1024) (q : Fin 256) :
    k8_pay1 x0 x4 x6 x12 x14 (ix2 p q)
      = max ((∑ k2 : Fin 256, max ((∑ k1 : Fin 128, max (x0 (ix2 p k1)) 0 * x4 (ix2 k1 k2)) + x6 (ix2 (0 : Fin 1) k2)) 0 * x12 (ix2 k2 q))
          + x14 (ix2 (0 : Fin 1) q)) 0 := by
  unfold Gen.k8_pay1
  simp only [relu8_apply, addf_apply, mm8a_apply, mm8b_apply, broadcastTo_1b_ab_apply, shapeCast_self]

theorem hz8 : (![0, 0] : Fin 2 → Nat) = fun _ => 0 := funext fun a => by fin_cases a <;> rfl

/-- The region's map: the rectified input through two affine layers, each followed by a maximum with zero. -/
def enc8 (E : S1024x128.Idx → EReal) (W1 : S128x256.Idx → EReal) (b1 : S1x256.Idx → EReal) (W2 : S256x256.Idx → EReal)
    (b2 : S1x256.Idx → EReal) : S1024x256.Idx → EReal :=
  fun j => max ((∑ k2 : Fin 256, max ((∑ k1 : Fin 128, max (E (ix2 (j 0) k1)) 0 * W1 (ix2 k1 k2)) + b1 (ix2 (0 : Fin 1) k2)) 0 * W2 (ix2 k2 (j 1)))
    + b2 (ix2 (0 : Fin 1) (j 1))) 0

theorem enc8_apply (E : S1024x128.Idx → EReal) (W1 : S128x256.Idx → EReal) (b1 : S1x256.Idx → EReal) (W2 : S256x256.Idx → EReal)
    (b2 : S1x256.Idx → EReal) (j : S1024x256.Idx) :
    enc8 E W1 b1 W2 b2 j
      = max ((∑ k2 : Fin 256, max ((∑ k1 : Fin 128, max (E (ix2 (j 0) k1)) 0 * W1 (ix2 k1 k2)) + b1 (ix2 (0 : Fin 1) k2)) 0 * W2 (ix2 k2 (j 1)))
          + b2 (ix2 (0 : Fin 1) (j 1))) 0 := rfl

/-- Window 0's printed index map sends the grid's one point to block (0, 0) (decided over the grid). -/
theorem idx8_0 : ∀ t : Fin cfg8.N, win8_0.index t (0 : Fin 2) = 0 ∧ win8_0.index t (1 : Fin 2) = 0 :=
  (by decide +kernel : ∀ t : Fin grid8.N, _)

/-- Window 1's printed index map sends the grid's one point to block (0, 0) (decided over the grid). -/
theorem idx8_1 : ∀ t : Fin cfg8.N, win8_1.index t (0 : Fin 2) = 0 ∧ win8_1.index t (1 : Fin 2) = 0 :=
  (by decide +kernel : ∀ t : Fin grid8.N, _)

/-- Window 2's printed index map sends the grid's one point to block (0, 0) (decided over the grid). -/
theorem idx8_2 : ∀ t : Fin cfg8.N, win8_2.index t (0 : Fin 2) = 0 ∧ win8_2.index t (1 : Fin 2) = 0 :=
  (by decide +kernel : ∀ t : Fin grid8.N, _)

/-- Window 3's printed index map sends the grid's one point to block (0, 0) (decided over the grid). -/
theorem idx8_3 : ∀ t : Fin cfg8.N, win8_3.index t (0 : Fin 2) = 0 ∧ win8_3.index t (1 : Fin 2) = 0 :=
  (by decide +kernel : ∀ t : Fin grid8.N, _)

/-- Window 4's printed index map sends the grid's one point to block (0, 0) (decided over the grid). -/
theorem idx8_4 : ∀ t : Fin cfg8.N, win8_4.index t (0 : Fin 2) = 0 ∧ win8_4.index t (1 : Fin 2) = 0 :=
  (by decide +kernel : ∀ t : Fin grid8.N, _)

/-- Window 5's printed index map sends the grid's one point to block (0, 0) (decided over the grid). -/
theorem idx8_5 : ∀ t : Fin cfg8.N, win8_5.index t (0 : Fin 2) = 0 ∧ win8_5.index t (1 : Fin 2) = 0 :=
  (by decide +kernel : ∀ t : Fin grid8.N, _)

/-- Input window 0's block at the grid's one point is its whole array. -/
theorem iblk8_0_apply (V : (c : Dev nD) → (b : Ref sig .tc) → Buf (Elt Ideal) ((c : Thread nD τ).loc b)) (c : Dev nD) (t : Fin cfg8.N) (r : Fin 1024) (s : Fin 128) :
    (iblk8 V c 0 t : S1024x128.Idx → EReal) (ix2 r s) = (V c (Pipeline.arrRef spec8 0) : S1024x128.Idx → EReal) (ix2 r s) := by
  obtain ⟨e0, e1⟩ := idx8_0 t
  show (V c (Pipeline.arrRef spec8 0) : S1024x128.Idx → EReal) (((cfg8.win 0).blk t).view.emb (ix2 r s)) = _
  refine congrArg _ (funext fun a => Fin.ext ?_)
  match a with
  | ⟨0, _⟩ => show win8_0.index t (0 : Fin 2) * 1024 + 1 * r.val = r.val; omega
  | ⟨1, _⟩ => show win8_0.index t (1 : Fin 2) * 128 + 1 * s.val = s.val; omega

/-- Input window 1's block at the grid's one point is its whole array. -/
theorem iblk8_1_apply (V : (c : Dev nD) → (b : Ref sig .tc) → Buf (Elt Ideal) ((c : Thread nD τ).loc b)) (c : Dev nD) (t : Fin cfg8.N) (r : Fin 128) (s : Fin 256) :
    (iblk8 V c 1 t : S128x256.Idx → EReal) (ix2 r s) = (V c (Pipeline.arrRef spec8 1) : S128x256.Idx → EReal) (ix2 r s) := by
  obtain ⟨e0, e1⟩ := idx8_1 t
  show (V c (Pipeline.arrRef spec8 1) : S128x256.Idx → EReal) (((cfg8.win 1).blk t).view.emb (ix2 r s)) = _
  refine congrArg _ (funext fun a => Fin.ext ?_)
  match a with
  | ⟨0, _⟩ => show win8_1.index t (0 : Fin 2) * 128 + 1 * r.val = r.val; omega
  | ⟨1, _⟩ => show win8_1.index t (1 : Fin 2) * 256 + 1 * s.val = s.val; omega

/-- Input window 2's block at the grid's one point is its whole array. -/
theorem iblk8_2_apply (V : (c : Dev nD) → (b : Ref sig .tc) → Buf (Elt Ideal) ((c : Thread nD τ).loc b)) (c : Dev nD) (t : Fin cfg8.N) (r : Fin 1) (s : Fin 256) :
    (iblk8 V c 2 t : S1x256.Idx → EReal) (ix2 r s) = (V c (Pipeline.arrRef spec8 2) : S1x256.Idx → EReal) (ix2 r s) := by
  obtain ⟨e0, e1⟩ := idx8_2 t
  show (V c (Pipeline.arrRef spec8 2) : S1x256.Idx → EReal) (((cfg8.win 2).blk t).view.emb (ix2 r s)) = _
  refine congrArg _ (funext fun a => Fin.ext ?_)
  match a with
  | ⟨0, _⟩ => show win8_2.index t (0 : Fin 2) * 1 + 1 * r.val = r.val; omega
  | ⟨1, _⟩ => show win8_2.index t (1 : Fin 2) * 256 + 1 * s.val = s.val; omega

/-- Input window 3's block at the grid's one point is its whole array. -/
theorem iblk8_3_apply (V : (c : Dev nD) → (b : Ref sig .tc) → Buf (Elt Ideal) ((c : Thread nD τ).loc b)) (c : Dev nD) (t : Fin cfg8.N) (r : Fin 256) (s : Fin 256) :
    (iblk8 V c 3 t : S256x256.Idx → EReal) (ix2 r s) = (V c (Pipeline.arrRef spec8 3) : S256x256.Idx → EReal) (ix2 r s) := by
  obtain ⟨e0, e1⟩ := idx8_3 t
  show (V c (Pipeline.arrRef spec8 3) : S256x256.Idx → EReal) (((cfg8.win 3).blk t).view.emb (ix2 r s)) = _
  refine congrArg _ (funext fun a => Fin.ext ?_)
  match a with
  | ⟨0, _⟩ => show win8_3.index t (0 : Fin 2) * 256 + 1 * r.val = r.val; omega
  | ⟨1, _⟩ => show win8_3.index t (1 : Fin 2) * 256 + 1 * s.val = s.val; omega

/-- Input window 4's block at the grid's one point is its whole array. -/
theorem iblk8_4_apply (V : (c : Dev nD) → (b : Ref sig .tc) → Buf (Elt Ideal) ((c : Thread nD τ).loc b)) (c : Dev nD) (t : Fin cfg8.N) (r : Fin 1) (s : Fin 256) :
    (iblk8 V c 4 t : S1x256.Idx → EReal) (ix2 r s) = (V c (Pipeline.arrRef spec8 4) : S1x256.Idx → EReal) (ix2 r s) := by
  obtain ⟨e0, e1⟩ := idx8_4 t
  show (V c (Pipeline.arrRef spec8 4) : S1x256.Idx → EReal) (((cfg8.win 4).blk t).view.emb (ix2 r s)) = _
  refine congrArg _ (funext fun a => Fin.ext ?_)
  match a with
  | ⟨0, _⟩ => show win8_4.index t (0 : Fin 2) * 1 + 1 * r.val = r.val; omega
  | ⟨1, _⟩ => show win8_4.index t (1 : Fin 2) * 256 + 1 * s.val = s.val; omega

/-- What the grid's one point writes back is the block of the region's map of the five arrays as the region finds them. -/
theorem flushed8_eq (V : (c : Dev nD) → (b : Ref sig .tc) → Buf (Elt Ideal) ((c : Thread nD τ).loc b)) (c : Dev nD) (t : Fin cfg8.N) :
    (dat8 (F := Ideal) V c).flushed 5 t = ((cfg8.win 5).blk t).view.read (Elt Ideal)
      (enc8 (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold Gen.out8_5
  rw [View.canon_unit_zero hz8]
  simp only [View.ld_unit_zero (S := S1024x128) hz8, View.ld_unit_zero (S := S128x256) hz8, View.ld_unit_zero (S := S1x256) hz8, View.ld_unit_zero (S := S256x256) hz8]
  obtain ⟨e0, e1⟩ := idx8_5 t
  funext j
  obtain ⟨p, q, rfl⟩ : ∃ (p : Fin 1024) (q : Fin 256), j = ix2 p q := ⟨j 0, j 1, eq_ix2 j⟩
  refine (pay8_apply (iblk8 V c 0 t) (iblk8 V c 1 t) (iblk8 V c 2 t) (iblk8 V c 3 t) (iblk8 V c 4 t) p q).trans ?_
  have he : ((cfg8.win 5).blk t).view.emb (ix2 p q) = (ix2 p q : S1024x256.Idx) := by
    funext a; apply Fin.ext
    match a with
    | ⟨0, _⟩ => show win8_5.index t (0 : Fin 2) * 1024 + 1 * p.val = p.val; omega
    | ⟨1, _⟩ => show win8_5.index t (1 : Fin 2) * 256 + 1 * q.val = q.val; omega
  show _ = enc8 _ _ _ _ _ (((cfg8.win 5).blk t).view.emb (ix2 p q))
  rw [he]
  simp only [iblk8_0_apply V c t, iblk8_1_apply V c t, iblk8_2_apply V c t, iblk8_3_apply V c t, iblk8_4_apply V c t]
  rfl

/-- An index of the output array is in point `t`'s block iff each coordinate is in the block's range on its axis. -/
theorem mem_blk8 (t : Fin cfg8.N) (i : S1024x256.Idx) :
    i ∈ ((cfg8.win 5).blk t).view.set ↔ ∀ a : Fin 2, win8_5.index t a * S1024x256.size a ≤ (i a).val ∧ (i a).val < win8_5.index t a * S1024x256.size a + S1024x256.size a := by
  show i ∈ ((View.whole main_v181).slice (win8_5.rect t)).set ↔ _
  rw [View.set_slice_whole, Rect.mem_set_unit]
  exact Iff.rfl

/-- The grid's one point covers the whole output array. -/
theorem cover8 (i : S1024x256.Idx) : ∃ t : Fin cfg8.N, (cfg8.win 5).flush t = true ∧ i ∈ ((cfg8.win 5).blk t).view.set := by
  refine ⟨t8_0, flush8_5 t8_0, ?_⟩
  rw [mem_blk8]
  obtain ⟨e0, e1⟩ := idx8_5 t8_0
  have h0 : (i 0).val < 1024 := (i 0).isLt
  have h1 : (i 1).val < 256 := (i 1).isLt
  intro a
  match a with
  | ⟨0, _⟩ => show win8_5.index t8_0 (0 : Fin 2) * 1024 ≤ (i 0).val ∧ (i 0).val < win8_5.index t8_0 (0 : Fin 2) * 1024 + 1024; omega
  | ⟨1, _⟩ => show win8_5.index t8_0 (1 : Fin 2) * 256 ≤ (i 1).val ∧ (i 1).val < win8_5.index t8_0 (1 : Fin 2) * 256 + 256; omega

/-- The region's output array after the region is the region's map of its five input arrays as the region finds them
    (`enc8_apply` reads it at an index). -/
theorem region8_out (V : (c : Dev nD) → (b : Ref sig .tc) → Buf (Elt Ideal) ((c : Thread nD τ).loc b)) (c : Dev nD) :
    (dat8 (F := Ideal) V c).arrAt 5 cfg8.N
      = enc8 (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5
    (enc8 (V c (Pipeline.arrRef spec8 0)) (V c (Pipeline.arrRef spec8 1)) (V c (Pipeline.arrRef spec8 2))
      (V c (Pipeline.arrRef spec8 3)) (V c (Pipeline.arrRef spec8 4)))
    (fun t _ => flushed8_eq V c t) cover8

end Cert.KernelIdeal.Bridge

end
-- ==== Proof.Region9.lean ====
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)

/-- On its row axis the left operand's index is the output's row, whatever the contraction position. -/
theorem mm9a_apply_lhs0 (i : S1024x256.Idx) (u : dot_S1024x128_S128x256_S1024x256_1_0_0_1_n_n.contr.Idx) :
    (dot_S1024x128_S128x256_S1024x256_1_0_0_1_n_n.lhsIdx i u 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
/-- On its column axis the right operand's index is the output's column, whatever the contraction position. -/
theorem mm9a_apply_rhs1 (i : S1024x256.Idx) (u : dot_S1024x128_S128x256_S1024x256_1_0_0_1_n_n.contr.Idx) :
    (dot_S1024x128_S128x256_S1024x256_1_0_0_1_n_n.rhsIdx i u 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl
/-- A 1024×128 by 128×256 product into a zero accumulator, read at `(p, q)`: the plain sum over the shared axis. -/
theorem mm9a_apply (a : FVec Ideal S1024x128 .f32) (b : FVec Ideal S128x256 .f32) (p : Fin 1024) (q : Fin 256) :
    matmul dot_S1024x128_S128x256_S1024x256_1_0_0_1_n_n none a b (constant S1024x256 .f32 0x00000000#32) (ix2 p q)
      = ∑ k : Fin 128, a (ix2 p k) * b (ix2 k q) := by
  simp only [matmul]
  rw [Ideal.matmul_constant_zero_apply, ← Equiv.sum_comp (contrEquiv1 dot_S1024x128_S128x256_S1024x256_1_0_0_1_n_n 128 rfl rfl).symm]
  refine Finset.sum_congr rfl fun k _ => ?_
  have hk := contrEquiv1_symm_val dot_S1024x128_S128x256_S1024x256_1_0_0_1_n_n 128 rfl rfl k
  have el : dot_S1024x128_S128x256_S1024x256_1_0_0_1_n_n.lhsIdx (ix2 p q) ((contrEquiv1 dot_S1024x128_S128x256_S1024x256_1_0_0_1_n_n 128 rfl rfl).symm k) = ix2 p k := funext fun ax => Fin.ext (by
    match ax with
    | ⟨0, _⟩ => exact mm9a_apply_lhs0 _ _
    | ⟨1, _⟩ => exact (dot_S1024x128_S128x256_S1024x256_1_0_0_1_n_n.lhsIdx_val_of_single rfl (ix2 p q) _).trans hk)
  have er : dot_S1024x128_S128x256_S1024x256_1_0_0_1_n_n.rhsIdx (ix2 p q) ((contrEquiv1 dot_S1024x128_S128x256_S1024x256_1_0_0_1_n_n 128 rfl rfl).symm k) = ix2 k q := funext fun ax => Fin.ext (by
    match ax with
    | ⟨0, _⟩ => exact (dot_S1024x128_S128x256_S1024x256_1_0_0_1_n_n.rhsIdx_val_of_single rfl (ix2 p q) _).trans hk
    | ⟨1, _⟩ => exact mm9a_apply_rhs1 _ _)
  rw [el, er]

/-- On its row axis the left operand's index is the output's row, whatever the contraction position. -/
theorem mm9b_apply_lhs0 (i : S1024x256.Idx) (u : dot_S1024x256_S256x256_S1024x256_1_0_0_1_n_n.contr.Idx) :
    (dot_S1024x256_S256x256_S1024x256_1_0_0_1_n_n.lhsIdx i u 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- On its column axis the right operand's index is the output's column, whatever the contraction position. -/
theorem mm9b_apply_rhs1 (i : S1024x256.Idx) (u : dot_S1024x256_S256x256_S1024x256_1_0_0_1_n_n.contr.Idx) :
    (dot_S1024x256_S256x256_S1024x256_1_0_0_1_n_n.rhsIdx i u 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- A 1024×256 by 256×256 product into a zero accumulator, read at `(p, q)`: the plain sum over the shared axis. -/
theorem mm9b_apply (a : FVec Ideal S1024x256 .f32) (b : FVec Ideal S256x256 .f32) (p : Fin 1024) (q : Fin 256) :
    matmul dot_S1024x256_S256x256_S1024x256_1_0_0_1_n_n none a b (constant S1024x256 .f32 0x00000000#32) (ix2 p q)
      = ∑ k : Fin 256, a (ix2 p k) * b (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun ax => Fin.ext (by
    match ax with
    | ⟨0, _⟩ => exact mm9b_apply_lhs0 _ _
    | ⟨1, _⟩ => exact (dot_S1024x256_S256x256_S1024x256_1_0_0_1_n_n.lhsIdx_val_of_single rfl (ix2 p q) _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun ax => Fin.ext (by
    match ax with
    | ⟨0, _⟩ => exact (dot_S1024x256_S256x256_S1024x256_1_0_0_1_n_n.rhsIdx_val_of_single rfl (ix2 p q) _).trans hk
    | ⟨1, _⟩ => exact mm9b_apply_rhs1 _ _)
  rw [el, er]

/-- A maximum against the broadcast float zero, read at an index, is the maximum with `0`. -/
theorem relu9_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- The body's one stored value at `(p, q)`: two affine layers, each followed by a maximum with zero, applied to the
    rectified input row `p`. -/
theorem pay9_apply (x0 : Vec Ideal S1024x128 .f32) (x4 : Vec Ideal S128x256 .f32) (x6 : Vec Ideal S1x256 .f32)
    (x12 : Vec Ideal S256x256 .f32) (x14 : Vec Ideal S1x256 .f32) (p : Fin 1024) (q : Fin 256) :
    k9_pay1 x0 x4 x6 x12 x14 (ix2 p q)
      = max ((∑ k2 : Fin 256, max ((∑ k1 : Fin 128, max (x0 (ix2 p k1)) 0 * x4 (ix2 k1 k2)) + x6 (ix2 (0 : Fin 1) k2)) 0 * x12 (ix2 k2 q))
          + x14 (ix2 (0 : Fin 1) q)) 0 := by
  unfold Gen.k9_pay1
  simp only [relu9_apply, addf_apply, mm9a_apply, mm9b_apply, broadcastTo_1b_ab_apply, shapeCast_self]

theorem hz9 : (![0, 0] : Fin 2 → Nat) = fun _ => 0 := funext fun a => by fin_cases a <;> rfl

/-- The region's map: the rectified input through two affine layers, each followed by a maximum with zero. -/
def enc9 (E : S1024x128.Idx → EReal) (W1 : S128x256.Idx → EReal) (b1 : S1x256.Idx → EReal) (W2 : S256x256.Idx → EReal)
    (b2 : S1x256.Idx → EReal) : S1024x256.Idx → EReal :=
  fun j => max ((∑ k2 : Fin 256, max ((∑ k1 : Fin 128, max (E (ix2 (j 0) k1)) 0 * W1 (ix2 k1 k2)) + b1 (ix2 (0 : Fin 1) k2)) 0 * W2 (ix2 k2 (j 1)))
    + b2 (ix2 (0 : Fin 1) (j 1))) 0

theorem enc9_apply (E : S1024x128.Idx → EReal) (W1 : S128x256.Idx → EReal) (b1 : S1x256.Idx → EReal) (W2 : S256x256.Idx → EReal)
    (b2 : S1x256.Idx → EReal) (j : S1024x256.Idx) :
    enc9 E W1 b1 W2 b2 j
      = max ((∑ k2 : Fin 256, max ((∑ k1 : Fin 128, max (E (ix2 (j 0) k1)) 0 * W1 (ix2 k1 k2)) + b1 (ix2 (0 : Fin 1) k2)) 0 * W2 (ix2 k2 (j 1)))
          + b2 (ix2 (0 : Fin 1) (j 1))) 0 := rfl

/-- Window 0's printed index map sends the grid's one point to block (0, 0) (decided over the grid). -/
theorem idx9_0 : ∀ t : Fin cfg9.N, win9_0.index t (0 : Fin 2) = 0 ∧ win9_0.index t (1 : Fin 2) = 0 :=
  (by decide +kernel : ∀ t : Fin grid9.N, _)

/-- Window 1's printed index map sends the grid's one point to block (0, 0) (decided over the grid). -/
theorem idx9_1 : ∀ t : Fin cfg9.N, win9_1.index t (0 : Fin 2) = 0 ∧ win9_1.index t (1 : Fin 2) = 0 :=
  (by decide +kernel : ∀ t : Fin grid9.N, _)

/-- Window 2's printed index map sends the grid's one point to block (0, 0) (decided over the grid). -/
theorem idx9_2 : ∀ t : Fin cfg9.N, win9_2.index t (0 : Fin 2) = 0 ∧ win9_2.index t (1 : Fin 2) = 0 :=
  (by decide +kernel : ∀ t : Fin grid9.N, _)

/-- Window 3's printed index map sends the grid's one point to block (0, 0) (decided over the grid). -/
theorem idx9_3 : ∀ t : Fin cfg9.N, win9_3.index t (0 : Fin 2) = 0 ∧ win9_3.index t (1 : Fin 2) = 0 :=
  (by decide +kernel : ∀ t : Fin grid9.N, _)

/-- Window 4's printed index map sends the grid's one point to block (0, 0) (decided over the grid). -/
theorem idx9_4 : ∀ t : Fin cfg9.N, win9_4.index t (0 : Fin 2) = 0 ∧ win9_4.index t (1 : Fin 2) = 0 :=
  (by decide +kernel : ∀ t : Fin grid9.N, _)

/-- Window 5's printed index map sends the grid's one point to block (0, 0) (decided over the grid). -/
theorem idx9_5 : ∀ t : Fin cfg9.N, win9_5.index t (0 : Fin 2) = 0 ∧ win9_5.index t (1 : Fin 2) = 0 :=
  (by decide +kernel : ∀ t : Fin grid9.N, _)

/-- Input window 0's block at the grid's one point is its whole array. -/
theorem iblk9_0_apply (V : (c : Dev nD) → (b : Ref sig .tc) → Buf (Elt Ideal) ((c : Thread nD τ).loc b)) (c : Dev nD) (t : Fin cfg9.N) (r : Fin 1024) (s : Fin 128) :
    (iblk9 V c 0 t : S1024x128.Idx → EReal) (ix2 r s) = (V c (Pipeline.arrRef spec9 0) : S1024x128.Idx → EReal) (ix2 r s) := by
  obtain ⟨e0, e1⟩ := idx9_0 t
  show (V c (Pipeline.arrRef spec9 0) : S1024x128.Idx → EReal) (((cfg9.win 0).blk t).view.emb (ix2 r s)) = _
  refine congrArg _ (funext fun a => Fin.ext ?_)
  match a with
  | ⟨0, _⟩ => show win9_0.index t (0 : Fin 2) * 1024 + 1 * r.val = r.val; omega
  | ⟨1, _⟩ => show win9_0.index t (1 : Fin 2) * 128 + 1 * s.val = s.val; omega

/-- Input window 1's block at the grid's one point is its whole array. -/
theorem iblk9_1_apply (V : (c : Dev nD) → (b : Ref sig .tc) → Buf (Elt Ideal) ((c : Thread nD τ).loc b)) (c : Dev nD) (t : Fin cfg9.N) (r : Fin 128) (s : Fin 256) :
    (iblk9 V c 1 t : S128x256.Idx → EReal) (ix2 r s) = (V c (Pipeline.arrRef spec9 1) : S128x256.Idx → EReal) (ix2 r s) := by
  obtain ⟨e0, e1⟩ := idx9_1 t
  show (V c (Pipeline.arrRef spec9 1) : S128x256.Idx → EReal) (((cfg9.win 1).blk t).view.emb (ix2 r s)) = _
  refine congrArg _ (funext fun a => Fin.ext ?_)
  match a with
  | ⟨0, _⟩ => show win9_1.index t (0 : Fin 2) * 128 + 1 * r.val = r.val; omega
  | ⟨1, _⟩ => show win9_1.index t (1 : Fin 2) * 256 + 1 * s.val = s.val; omega

/-- Input window 2's block at the grid's one point is its whole array. -/
theorem iblk9_2_apply (V : (c : Dev nD) → (b : Ref sig .tc) → Buf (Elt Ideal) ((c : Thread nD τ).loc b)) (c : Dev nD) (t : Fin cfg9.N) (r : Fin 1) (s : Fin 256) :
    (iblk9 V c 2 t : S1x256.Idx → EReal) (ix2 r s) = (V c (Pipeline.arrRef spec9 2) : S1x256.Idx → EReal) (ix2 r s) := by
  obtain ⟨e0, e1⟩ := idx9_2 t
  show (V c (Pipeline.arrRef spec9 2) : S1x256.Idx → EReal) (((cfg9.win 2).blk t).view.emb (ix2 r s)) = _
  refine congrArg _ (funext fun a => Fin.ext ?_)
  match a with
  | ⟨0, _⟩ => show win9_2.index t (0 : Fin 2) * 1 + 1 * r.val = r.val; omega
  | ⟨1, _⟩ => show win9_2.index t (1 : Fin 2) * 256 + 1 * s.val = s.val; omega

/-- Input window 3's block at the grid's one point is its whole array. -/
theorem iblk9_3_apply (V : (c : Dev nD) → (b : Ref sig .tc) → Buf (Elt Ideal) ((c : Thread nD τ).loc b)) (c : Dev nD) (t : Fin cfg9.N) (r : Fin 256) (s : Fin 256) :
    (iblk9 V c 3 t : S256x256.Idx → EReal) (ix2 r s) = (V c (Pipeline.arrRef spec9 3) : S256x256.Idx → EReal) (ix2 r s) := by
  obtain ⟨e0, e1⟩ := idx9_3 t
  show (V c (Pipeline.arrRef spec9 3) : S256x256.Idx → EReal) (((cfg9.win 3).blk t).view.emb (ix2 r s)) = _
  refine congrArg _ (funext fun a => Fin.ext ?_)
  match a with
  | ⟨0, _⟩ => show win9_3.index t (0 : Fin 2) * 256 + 1 * r.val = r.val; omega
  | ⟨1, _⟩ => show win9_3.index t (1 : Fin 2) * 256 + 1 * s.val = s.val; omega

/-- Input window 4's block at the grid's one point is its whole array. -/
theorem iblk9_4_apply (V : (c : Dev nD) → (b : Ref sig .tc) → Buf (Elt Ideal) ((c : Thread nD τ).loc b)) (c : Dev nD) (t : Fin cfg9.N) (r : Fin 1) (s : Fin 256) :
    (iblk9 V c 4 t : S1x256.Idx → EReal) (ix2 r s) = (V c (Pipeline.arrRef spec9 4) : S1x256.Idx → EReal) (ix2 r s) := by
  obtain ⟨e0, e1⟩ := idx9_4 t
  show (V c (Pipeline.arrRef spec9 4) : S1x256.Idx → EReal) (((cfg9.win 4).blk t).view.emb (ix2 r s)) = _
  refine congrArg _ (funext fun a => Fin.ext ?_)
  match a with
  | ⟨0, _⟩ => show win9_4.index t (0 : Fin 2) * 1 + 1 * r.val = r.val; omega
  | ⟨1, _⟩ => show win9_4.index t (1 : Fin 2) * 256 + 1 * s.val = s.val; omega

/-- What the grid's one point writes back is the block of the region's map of the five arrays as the region finds them. -/
theorem flushed9_eq (V : (c : Dev nD) → (b : Ref sig .tc) → Buf (Elt Ideal) ((c : Thread nD τ).loc b)) (c : Dev nD) (t : Fin cfg9.N) :
    (dat9 (F := Ideal) V c).flushed 5 t = ((cfg9.win 5).blk t).view.read (Elt Ideal)
      (enc9 (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  unfold Gen.out9_5
  rw [View.canon_unit_zero hz9]
  simp only [View.ld_unit_zero (S := S1024x128) hz9, View.ld_unit_zero (S := S128x256) hz9, View.ld_unit_zero (S := S1x256) hz9, View.ld_unit_zero (S := S256x256) hz9]
  obtain ⟨e0, e1⟩ := idx9_5 t
  funext j
  obtain ⟨p, q, rfl⟩ : ∃ (p : Fin 1024) (q : Fin 256), j = ix2 p q := ⟨j 0, j 1, eq_ix2 j⟩
  refine (pay9_apply (iblk9 V c 0 t) (iblk9 V c 1 t) (iblk9 V c 2 t) (iblk9 V c 3 t) (iblk9 V c 4 t) p q).trans ?_
  have he : ((cfg9.win 5).blk t).view.emb (ix2 p q) = (ix2 p q : S1024x256.Idx) := by
    funext a; apply Fin.ext
    match a with
    | ⟨0, _⟩ => show win9_5.index t (0 : Fin 2) * 1024 + 1 * p.val = p.val; omega
    | ⟨1, _⟩ => show win9_5.index t (1 : Fin 2) * 256 + 1 * q.val = q.val; omega
  show _ = enc9 _ _ _ _ _ (((cfg9.win 5).blk t).view.emb (ix2 p q))
  rw [he]
  simp only [iblk9_0_apply V c t, iblk9_1_apply V c t, iblk9_2_apply V c t, iblk9_3_apply V c t, iblk9_4_apply V c t]
  rfl

/-- An index of the output array is in point `t`'s block iff each coordinate is in the block's range on its axis. -/
theorem mem_blk9 (t : Fin cfg9.N) (i : S1024x256.Idx) :
    i ∈ ((cfg9.win 5).blk t).view.set ↔ ∀ a : Fin 2, win9_5.index t a * S1024x256.size a ≤ (i a).val ∧ (i a).val < win9_5.index t a * S1024x256.size a + S1024x256.size a := by
  show i ∈ ((View.whole main_v191).slice (win9_5.rect t)).set ↔ _
  rw [View.set_slice_whole, Rect.mem_set_unit]
  exact Iff.rfl

/-- The grid's one point covers the whole output array. -/
theorem cover9 (i : S1024x256.Idx) : ∃ t : Fin cfg9.N, (cfg9.win 5).flush t = true ∧ i ∈ ((cfg9.win 5).blk t).view.set := by
  refine ⟨t9_0, flush9_5 t9_0, ?_⟩
  rw [mem_blk9]
  obtain ⟨e0, e1⟩ := idx9_5 t9_0
  have h0 : (i 0).val < 1024 := (i 0).isLt
  have h1 : (i 1).val < 256 := (i 1).isLt
  intro a
  match a with
  | ⟨0, _⟩ => show win9_5.index t9_0 (0 : Fin 2) * 1024 ≤ (i 0).val ∧ (i 0).val < win9_5.index t9_0 (0 : Fin 2) * 1024 + 1024; omega
  | ⟨1, _⟩ => show win9_5.index t9_0 (1 : Fin 2) * 256 ≤ (i 1).val ∧ (i 1).val < win9_5.index t9_0 (1 : Fin 2) * 256 + 256; omega

/-- The region's output array after the region is the region's map of its five input arrays as the region finds them
    (`enc9_apply` reads it at an index). -/
theorem region9_out (V : (c : Dev nD) → (b : Ref sig .tc) → Buf (Elt Ideal) ((c : Thread nD τ).loc b)) (c : Dev nD) :
    (dat9 (F := Ideal) V c).arrAt 5 cfg9.N
      = enc9 (V c (Pipeline.arrRef spec9 0)) (V c (Pipeline.arrRef spec9 1)) (V c (Pipeline.arrRef spec9 2))
          (V c (Pipeline.arrRef spec9 3)) (V c (Pipeline.arrRef spec9 4)) :=
  (dat9 (F := Ideal) V c).arrAt_eq_of_cover 5
    (enc9 (V c (Pipeline.arrRef spec9 0)) (V c (Pipeline.arrRef spec9 1)) (V c (Pipeline.arrRef spec9 2))
      (V c (Pipeline.arrRef spec9 3)) (V c (Pipeline.arrRef spec9 4)))
    (fun t _ => flushed9_eq V c t) cover9

end Cert.KernelIdeal.Bridge

end
-- ==== Proof.Region10.lean ====
import proofs.«135828_j71159018160437_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx
open Idealize.ShloMosaic.TcCoe
open Idealize.ShloMosaic.Pipeline (Dat)

/-- On its row axis the left operand's index is the output's row, whatever the contraction position. -/
theorem mm10a_apply_lhs0 (i : S1024x512.Idx) (u : dot_S1024x256_S256x512_S1024x512_1_0_0_1_n_n.contr.Idx) :
    (dot_S1024x256_S256x512_S1024x512_1_0_0_1_n_n.lhsIdx i u 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- On its column axis the right operand's index is the output's column, whatever the contraction position. -/
theorem mm10a_apply_rhs1 (i : S1024x512.Idx) (u : dot_S1024x256_S256x512_S1024x512_1_0_0_1_n_n.contr.Idx) :
    (dot_S1024x256_S256x512_S1024x512_1_0_0_1_n_n.rhsIdx i u 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl
/-- A 1024×256 by 256×512 product into a zero accumulator, read at `(p, q)`: the plain sum over the shared axis. -/
theorem mm10a_apply (a : FVec Ideal S1024x256 .f32) (b : FVec Ideal S256x512 .f32) (p : Fin 1024) (q : Fin 512) :
    matmul dot_S1024x256_S256x512_S1024x512_1_0_0_1_n_n none a b (constant S1024x512 .f32 0x00000000#32) (ix2 p q)
      = ∑ k : Fin 256, a (ix2 p k) * b (ix2 k q) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k := funext fun ax => Fin.ext (by
    match ax with
    | ⟨0, _⟩ => exact mm10a_apply_lhs0 _ _
    | ⟨1, _⟩ => exact (dot_S1024x256_S256x512_S1024x512_1_0_0_1_n_n.lhsIdx_val_of_single rfl (ix2 p q) _).trans hk)
  have er : dot_S1024x256_S256x512_S1024x512_1_0_0_1_n_n.rhsIdx (ix2 p q) ((contrEquiv1 dot_S1024x256_S256x512_S1024x512_1_0_0_1_n_n 256 rfl rfl).symm k) = ix2 k q := funext fun ax => Fin.ext (by
    match ax with
    | ⟨0, _⟩ => exact (dot_S1024x256_S256x512_S1024x512_1_0_0_1_n_n.rhsIdx_val_of_single rfl (ix2 p q) _).trans hk
    | ⟨1, _⟩ => exact mm10a_apply_rhs1 _ _)
  rw [el, er]

/-- On its row axis the left operand's index is the output's row, whatever the contraction position. -/
theorem mm10b_apply_lhs0 (i : S1024x512.Idx) (u : dot_S1024x512_S512x512_S1024x512_1_0_0_1_n_n.contr.Idx) :
    (dot_S1024x512_S512x512_S1024x512_1_0_0_1_n_n.lhsIdx i u 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- On its column axis the right operand's index is the output's column, whatever the contraction position. -/
theorem mm10b_apply_rhs1 (i : S1024x512.Idx) (u : dot_S1024x512_S512x512_S1024x512_1_0_0_1_n_n.contr.Idx) :
    (dot_S1024x512_S512x512_S1024x512_1_0_0_1_n_n.rhsIdx i u 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- A 1024×512 by 512×512 product into a zero accumulator, read at `(p, q)`: the plain sum over the shared axis. -/
theorem mm10b_apply (a : FVec Ideal S1024x512 .f32) (b : FVec Ideal S512x512 .f32) (p : Fin 1024) (q : Fin 512) :
    matmul dot_S1024x512_S512x512_S1024x512_1_0_0_1_n_n none a b (constant S1024x512 .f32 0x00000000#32) (ix2 p q)
      = ∑ k : Fin 512, a (ix2 p k) * b (ix2 k q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun ax => Fin.ext (by
    match ax with
    | ⟨0, _⟩ => exact mm10b_apply_lhs0 _ _
    | ⟨1, _⟩ => exact (dot_S1024x512_S512x512_S1024x512_1_0_0_1_n_n.lhsIdx_val_of_single rfl (ix2 p q) _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun ax => Fin.ext (by
    match ax with
    | ⟨0, _⟩ => exact (dot_S1024x512_S512x512_S1024x512_1_0_0_1_n_n.rhsIdx_val_of_single rfl (ix2 p q) _).trans hk
    | ⟨1, _⟩ => exact mm10b_apply_rhs1 _ _)
  rw [el, er]

/-- On its row axis the left operand's index is the output's row, whatever the contraction position. -/
theorem mm10c_apply_lhs0 (i : S1024x128.Idx) (u : dot_S1024x512_S512x128_S1024x128_1_0_0_1_n_n.contr.Idx) :
    (dot_S1024x512_S512x128_S1024x128_1_0_0_1_n_n.lhsIdx i u 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
/-- On its column axis the right operand's index is the output's column, whatever the contraction position. -/
theorem mm10c_apply_rhs1 (i : S1024x128.Idx) (u : dot_S1024x512_S512x128_S1024x128_1_0_0_1_n_n.contr.Idx) :
    (dot_S1024x512_S512x128_S1024x128_1_0_0_1_n_n.rhsIdx i u 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl
/-- A 1024×512 by 512×128 product into a zero accumulator, read at `(p, q)`: the plain sum over the shared axis. -/
theorem mm10c_apply (a : FVec Ideal S1024x512 .f32) (b : FVec Ideal S512x128 .f32) (p : Fin 1024) (q : Fin 128) :
    matmul dot_S1024x512_S512x128_S1024x128_1_0_0_1_n_n none a b (constant S1024x128 .f32 0x00000000#32) (ix2 p q)
      = ∑ k : Fin 512, a (ix2 p k) * b (ix2 k q) := by
  simp only [matmul]
  rw [Ideal.matmul_constant_zero_apply, ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p q) ((contrEquiv1 dot_S1024x512_S512x128_S1024x128_1_0_0_1_n_n 512 rfl rfl).symm k) = ix2 p k := funext fun ax => Fin.ext (by
    match ax with
    | ⟨0, _⟩ => exact mm10c_apply_lhs0 _ _
    | ⟨1, _⟩ => exact (dot_S1024x512_S512x128_S1024x128_1_0_0_1_n_n.lhsIdx_val_of_single rfl (ix2 p q) _).trans hk)
  have er : dot_S1024x512_S512x128_S1024x128_1_0_0_1_n_n.rhsIdx (ix2 p q) ((contrEquiv1 dot_S1024x512_S512x128_S1024x128_1_0_0_1_n_n 512 rfl rfl).symm k) = ix2 k q := funext fun ax => Fin.ext (by
    match ax with
    | ⟨0, _⟩ => exact (dot_S1024x512_S512x128_S1024x128_1_0_0_1_n_n.rhsIdx_val_of_single rfl (ix2 p q) _).trans hk
    | ⟨1, _⟩ => exact mm10c_apply_rhs1 _ _)
  rw [el, er]

/-- A maximum against the broadcast float zero, read at an index, is the maximum with `0`. -/
theorem relu10_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- The first rectified sum of two input arrays, at row `r`, column `k`. -/
def a10 (g1 g2 : S1024x256.Idx → EReal) (r : Fin 1024) (k : Fin 256) : EReal :=
  max (g1 (ix2 r k) + g2 (ix2 r k)) 0
/-- The second rectified sum of two input arrays, at row `r`, column `k`. -/
def bb10 (e1 e2 : S1024x256.Idx → EReal) (r : Fin 1024) (k : Fin 256) : EReal :=
  max (e1 (ix2 r k) + e2 (ix2 r k)) 0
/-- The first hidden layer: the two rectified sums against the two halves of the first weight, added, plus the bias, rectified. -/
def h1_10 (g1 g2 e1 e2 : S1024x256.Idx → EReal) (Wt Wb : S256x512.Idx → EReal) (d1 : S1x512.Idx → EReal)
    (r : Fin 1024) (q : Fin 512) : EReal :=
  max (((∑ k : Fin 256, a10 g1 g2 r k * Wt (ix2 k q)) + (∑ k : Fin 256, bb10 e1 e2 r k * Wb (ix2 k q))) + d1 (ix2 (0 : Fin 1) q)) 0
/-- The second hidden layer: the first against the second weight, plus the bias, rectified. -/
def h2_10 (g1 g2 e1 e2 : S1024x256.Idx → EReal) (Wt Wb : S256x512.Idx → EReal) (d1 : S1x512.Idx → EReal)
    (W2 : S512x512.Idx → EReal) (d2 : S1x512.Idx → EReal) (r : Fin 1024) (q : Fin 512) : EReal :=
  max ((∑ m : Fin 512, h1_10 g1 g2 e1 e2 Wt Wb d1 r m * W2 (ix2 m q)) + d2 (ix2 (0 : Fin 1) q)) 0

/-- The intermediate value the body stores and reads back, at `(p, q)`: the second layer before its rectifier. -/
theorem pay10_2_apply (x0 x1 x2 x3 : Vec Ideal S1024x256 .f32) (x4 x5 : Vec Ideal S256x512 .f32) (x6 : Vec Ideal S1x512 .f32)
    (x7 : Vec Ideal S512x512 .f32) (x8 : Vec Ideal S1x512 .f32) (p : Fin 1024) (q : Fin 512) :
    k10_pay2 x0 x1 x2 x3 x4 x5 x6 x7 x8 (ix2 p q)
      = (∑ m : Fin 512, h1_10 x0 x1 x2 x3 x4 x5 x6 p m * x7 (ix2 m q)) + x8 (ix2 (0 : Fin 1) q) := by
  unfold Gen.k10_pay2
  simp only [relu10_apply, addf_apply, mm10a_apply, mm10b_apply, broadcastTo_1b_ab_apply, shapeCast_self, h1_10, a10, bb10]

/-- The body's stored output at `(p, q)`, from the intermediate value `u`: its rectifier, the last weight, the last bias. -/
theorem pay10_1_apply (u : FVec Ideal S1024x512 .f32) (x9 : Vec Ideal S512x128 .f32) (x10 : Vec Ideal S1x128 .f32) (p : Fin 1024) (q : Fin 128) :
    k10_pay1 u (k10_pay3 (F := Ideal)) x9 x10 (ix2 p q)
      = (∑ m : Fin 512, max (u (ix2 p m)) 0 * x9 (ix2 m q)) + x10 (ix2 (0 : Fin 1) q) := by
  unfold Gen.k10_pay1 Gen.k10_pay3
  simp only [relu10_apply, addf_apply, mm10c_apply, broadcastTo_1b_ab_apply, shapeCast_self]

/-- The body's stored output at `(p, q)` from the eleven loaded blocks. -/
theorem pay10_apply (x0 x1 x2 x3 : Vec Ideal S1024x256 .f32) (x4 x5 : Vec Ideal S256x512 .f32) (x6 : Vec Ideal S1x512 .f32)
    (x7 : Vec Ideal S512x512 .f32) (x8 : Vec Ideal S1x512 .f32) (x9 : Vec Ideal S512x128 .f32) (x10 : Vec Ideal S1x128 .f32)
    (p : Fin 1024) (q : Fin 128) :
    k10_pay1 (k10_pay2 x0 x1 x2 x3 x4 x5 x6 x7 x8) (k10_pay3 (F := Ideal)) x9 x10 (ix2 p q)
      = (∑ m : Fin 512, h2_10 x0 x1 x2 x3 x4 x5 x6 x7 x8 p m * x9 (ix2 m q)) + x10 (ix2 (0 : Fin 1) q) := by
  rw [pay10_1_apply]
  simp only [pay10_2_apply, h2_10]

theorem hz10 : (![0, 0] : Fin 2 → Nat) = fun _ => 0 := funext fun a => by fin_cases a <;> rfl

/-- The region's map: the second hidden layer against the last weight, plus the last bias. -/
def dec10 (g1 g2 e1 e2 : S1024x256.Idx → EReal) (Wt Wb : S256x512.Idx → EReal) (d1 : S1x512.Idx → EReal)
    (W2 : S512x512.Idx → EReal) (d2 : S1x512.Idx → EReal) (W3 : S512x128.Idx → EReal) (d3 : S1x128.Idx → EReal) : S1024x128.Idx → EReal :=
  fun j => (∑ m : Fin 512, h2_10 g1 g2 e1 e2 Wt Wb d1 W2 d2 (j 0) m * W3 (ix2 m (j 1))) + d3 (ix2 (0 : Fin 1) (j 1))

theorem dec10_apply (g1 g2 e1 e2 : S1024x256.Idx → EReal) (Wt Wb : S256x512.Idx → EReal) (d1 : S1x512.Idx → EReal)
    (W2 : S512x512.Idx → EReal) (d2 : S1x512.Idx → EReal) (W3 : S512x128.Idx → EReal) (d3 : S1x128.Idx → EReal) (j : S1024x128.Idx) :
    dec10 g1 g2 e1 e2 Wt Wb d1 W2 d2 W3 d3 j
      = (∑ m : Fin 512, h2_10 g1 g2 e1 e2 Wt Wb d1 W2 d2 (j 0) m * W3 (ix2 m (j 1))) + d3 (ix2 (0 : Fin 1) (j 1)) := rfl

/-- Window 0's printed index map sends the grid's one point to block (0, 0) (decided over the grid). -/
theorem idx10_0 : ∀ t : Fin cfg10.N, win10_0.index t (0 : Fin 2) = 0 ∧ win10_0.index t (1 : Fin 2) = 0 :=
  (by decide +kernel : ∀ t : Fin grid10.N, _)

/-- Window 1's printed index map sends the grid's one point to block (0, 0) (decided over the grid). -/
theorem idx10_1 : ∀ t : Fin cfg10.N, win10_1.index t (0 : Fin 2) = 0 ∧ win10_1.index t (1 : Fin 2) = 0 :=
  (by decide +kernel : ∀ t : Fin grid10.N, _)

/-- Window 2's printed index map sends the grid's one point to block (0, 0) (decided over the grid). -/
theorem idx10_2 : ∀ t : Fin cfg10.N, win10_2.index t (0 : Fin 2) = 0 ∧ win10_2.index t (1 : Fin 2) = 0 :=
  (by decide +kernel : ∀ t : Fin grid10.N, _)

/-- Window 3's printed index map sends the grid's one point to block (0, 0) (decided over the grid). -/
theorem idx10_3 : ∀ t : Fin cfg10.N, win10_3.index t (0 : Fin 2) = 0 ∧ win10_3.index t (1 : Fin 2) = 0 :=
  (by decide +kernel : ∀ t : Fin grid10.N, _)

/-- Window 4's printed index map sends the grid's one point to block (0, 0) (decided over the grid). -/
theorem idx10_4 : ∀ t : Fin cfg10.N, win10_4.index t (0 : Fin 2) = 0 ∧ win10_4.index t (1 : Fin 2) = 0 :=
  (by decide +kernel : ∀ t : Fin grid10.N, _)

/-- Window 5's printed index map sends the grid's one point to block (0, 0) (decided over the grid). -/
theorem idx10_5 : ∀ t : Fin cfg10.N, win10_5.index t (0 : Fin 2) = 0 ∧ win10_5.index t (1 : Fin 2) = 0 :=
  (by decide +kernel : ∀ t : Fin grid10.N, _)

/-- Window 6's printed index map sends the grid's one point to block (0, 0) (decided over the grid). -/
theorem idx10_6 : ∀ t : Fin cfg10.N, win10_6.index t (0 : Fin 2) = 0 ∧ win10_6.index t (1 : Fin 2) = 0 :=
  (by decide +kernel : ∀ t : Fin grid10.N, _)

/-- Window 7's printed index map sends the grid's one point to block (0, 0) (decided over the grid). -/
theorem idx10_7 : ∀ t : Fin cfg10.N, win10_7.index t (0 : Fin 2) = 0 ∧ win10_7.index t (1 : Fin 2) = 0 :=
  (by decide +kernel : ∀ t : Fin grid10.N, _)

/-- Window 8's printed index map sends the grid's one point to block (0, 0) (decided over the grid). -/
theorem idx10_8 : ∀ t : Fin cfg10.N, win10_8.index t (0 : Fin 2) = 0 ∧ win10_8.index t (1 : Fin 2) = 0 :=
  (by decide +kernel : ∀ t : Fin grid10.N, _)

/-- Window 9's printed index map sends the grid's one point to block (0, 0) (decided over the grid). -/
theorem idx10_9 : ∀ t : Fin cfg10.N, win10_9.index t (0 : Fin 2) = 0 ∧ win10_9.index t (1 : Fin 2) = 0 :=
  (by decide +kernel : ∀ t : Fin grid10.N, _)

/-- Window 10's printed index map sends the grid's one point to block (0, 0) (decided over the grid). -/
theorem idx10_10 : ∀ t : Fin cfg10.N, win10_10.index t (0 : Fin 2) = 0 ∧ win10_10.index t (1 : Fin 2) = 0 :=
  (by decide +kernel : ∀ t : Fin grid10.N, _)

/-- Window 11's printed index map sends the grid's one point to block (0, 0) (decided over the grid). -/
theorem idx10_11 : ∀ t : Fin cfg10.N, win10_11.index t (0 : Fin 2) = 0 ∧ win10_11.index t (1 : Fin 2) = 0 :=
  (by decide +kernel : ∀ t : Fin grid10.N, _)

/-- Input window 0's block at the grid's one point is its whole array. -/
theorem iblk10_0_apply (V : (c : Dev nD) → (b : Ref sig .tc) → Buf (Elt Ideal) ((c : Thread nD τ).loc b)) (c : Dev nD) (t : Fin cfg10.N) (r : Fin 1024) (s : Fin 256) :
    (iblk10 V c 0 t : S1024x256.Idx → EReal) (ix2 r s) = (V c (Pipeline.arrRef spec10 0) : S1024x256.Idx → EReal) (ix2 r s) := by
  obtain ⟨e0, e1⟩ := idx10_0 t
  show (V c (Pipeline.arrRef spec10 0) : S1024x256.Idx → EReal) (((cfg10.win 0).blk t).view.emb (ix2 r s)) = _
  refine congrArg _ (funext fun a => Fin.ext ?_)
  match a with
  | ⟨0, _⟩ => show win10_0.index t (0 : Fin 2) * 1024 + 1 * r.val = r.val; omega
  | ⟨1, _⟩ => show win10_0.index t (1 : Fin 2) * 256 + 1 * s.val = s.val; omega

theorem iblk10_0_eq (V : (c : Dev nD) → (b : Ref sig .tc) → Buf (Elt Ideal) ((c : Thread nD τ).loc b)) (c : Dev nD) (t : Fin cfg10.N) :
    (iblk10 V c 0 t : S1024x256.Idx → EReal) = (V c (Pipeline.arrRef spec10 0) : S1024x256.Idx → EReal) := by
  funext j
  obtain ⟨r, s, rfl⟩ : ∃ (r : Fin 1024) (s : Fin 256), j = ix2 r s := ⟨j 0, j 1, eq_ix2 j⟩
  exact iblk10_0_apply V c t r s

/-- Input window 1's block at the grid's one point is its whole array. -/
theorem iblk10_1_apply (V : (c : Dev nD) → (b : Ref sig .tc) → Buf (Elt Ideal) ((c : Thread nD τ).loc b)) (c : Dev nD) (t : Fin cfg10.N) (r : Fin 1024) (s : Fin 256) :
    (iblk10 V c 1 t : S1024x256.Idx → EReal) (ix2 r s) = (V c (Pipeline.arrRef spec10 1) : S1024x256.Idx → EReal) (ix2 r s) := by
  obtain ⟨e0, e1⟩ := idx10_1 t
  show (V c (Pipeline.arrRef spec10 1) : S1024x256.Idx → EReal) (((cfg10.win 1).blk t).view.emb (ix2 r s)) = _
  refine congrArg _ (funext fun a => Fin.ext ?_)
  match a with
  | ⟨0, _⟩ => show win10_1.index t (0 : Fin 2) * 1024 + 1 * r.val = r.val; omega
  | ⟨1, _⟩ => show win10_1.index t (1 : Fin 2) * 256 + 1 * s.val = s.val; omega

theorem iblk10_1_eq (V : (c : Dev nD) → (b : Ref sig .tc) → Buf (Elt Ideal) ((c : Thread nD τ).loc b)) (c : Dev nD) (t : Fin cfg10.N) :
    (iblk10 V c 1 t : S1024x256.Idx → EReal) = (V c (Pipeline.arrRef spec10 1) : S1024x256.Idx → EReal) := by
  funext j
  obtain ⟨r, s, rfl⟩ : ∃ (r : Fin 1024) (s : Fin 256), j = ix2 r s := ⟨j 0, j 1, eq_ix2 j⟩
  exact iblk10_1_apply V c t r s

/-- Input window 2's block at the grid's one point is its whole array. -/
theorem iblk10_2_apply (V : (c : Dev nD) → (b : Ref sig .tc) → Buf (Elt Ideal) ((c : Thread nD τ).loc b)) (c : Dev nD) (t : Fin cfg10.N) (r : Fin 1024) (s : Fin 256) :
    (iblk10 V c 2 t : S1024x256.Idx → EReal) (ix2 r s) = (V c (Pipeline.arrRef spec10 2) : S1024x256.Idx → EReal) (ix2 r s) := by
  obtain ⟨e0, e1⟩ := idx10_2 t
  show (V c (Pipeline.arrRef spec10 2) : S1024x256.Idx → EReal) (((cfg10.win 2).blk t).view.emb (ix2 r s)) = _
  refine congrArg _ (funext fun a => Fin.ext ?_)
  match a with
  | ⟨0, _⟩ => show win10_2.index t (0 : Fin 2) * 1024 + 1 * r.val = r.val; omega
  | ⟨1, _⟩ => show win10_2.index t (1 : Fin 2) * 256 + 1 * s.val = s.val; omega

theorem iblk10_2_eq (V : (c : Dev nD) → (b : Ref sig .tc) → Buf (Elt Ideal) ((c : Thread nD τ).loc b)) (c : Dev nD) (t : Fin cfg10.N) :
    (iblk10 V c 2 t : S1024x256.Idx → EReal) = (V c (Pipeline.arrRef spec10 2) : S1024x256.Idx → EReal) := by
  funext j
  obtain ⟨r, s, rfl⟩ : ∃ (r : Fin 1024) (s : Fin 256), j = ix2 r s := ⟨j 0, j 1, eq_ix2 j⟩
  exact iblk10_2_apply V c t r s

/-- Input window 3's block at the grid's one point is its whole array. -/
theorem iblk10_3_apply (V : (c : Dev nD) → (b : Ref sig .tc) → Buf (Elt Ideal) ((c : Thread nD τ).loc b)) (c : Dev nD) (t : Fin cfg10.N) (r : Fin 1024) (s : Fin 256) :
    (iblk10 V c 3 t : S1024x256.Idx → EReal) (ix2 r s) = (V c (Pipeline.arrRef spec10 3) : S1024x256.Idx → EReal) (ix2 r s) := by
  obtain ⟨e0, e1⟩ := idx10_3 t
  show (V c (Pipeline.arrRef spec10 3) : S1024x256.Idx → EReal) (((cfg10.win 3).blk t).view.emb (ix2 r s)) = _
  refine congrArg _ (funext fun a => Fin.ext ?_)
  match a with
  | ⟨0, _⟩ => show win10_3.index t (0 : Fin 2) * 1024 + 1 * r.val = r.val; omega
  | ⟨1, _⟩ => show win10_3.index t (1 : Fin 2) * 256 + 1 * s.val = s.val; omega

theorem iblk10_3_eq (V : (c : Dev nD) → (b : Ref sig .tc) → Buf (Elt Ideal) ((c : Thread nD τ).loc b)) (c : Dev nD) (t : Fin cfg10.N) :
    (iblk10 V c 3 t : S1024x256.Idx → EReal) = (V c (Pipeline.arrRef spec10 3) : S1024x256.Idx → EReal) := by
  funext j
  obtain ⟨r, s, rfl⟩ : ∃ (r : Fin 1024) (s : Fin 256), j = ix2 r s := ⟨j 0, j 1, eq_ix2 j⟩
  exact iblk10_3_apply V c t r s

/-- Input window 4's block at the grid's one point is its whole array. -/
theorem iblk10_4_apply (V : (c : Dev nD) → (b : Ref sig .tc) → Buf (Elt Ideal) ((c : Thread nD τ).loc b)) (c : Dev nD) (t : Fin cfg10.N) (r : Fin 256) (s : Fin 512) :
    (iblk10 V c 4 t : S256x512.Idx → EReal) (ix2 r s) = (V c (Pipeline.arrRef spec10 4) : S256x512.Idx → EReal) (ix2 r s) := by
  obtain ⟨e0, e1⟩ := idx10_4 t
  show (V c (Pipeline.arrRef spec10 4) : S256x512.Idx → EReal) (((cfg10.win 4).blk t).view.emb (ix2 r s)) = _
  refine congrArg _ (funext fun a => Fin.ext ?_)
  match a with
  | ⟨0, _⟩ => show win10_4.index t (0 : Fin 2) * 256 + 1 * r.val = r.val; omega
  | ⟨1, _⟩ => show win10_4.index t (1 : Fin 2) * 512 + 1 * s.val = s.val; omega

theorem iblk10_4_eq (V : (c : Dev nD) → (b : Ref sig .tc) → Buf (Elt Ideal) ((c : Thread nD τ).loc b)) (c : Dev nD) (t : Fin cfg10.N) :
    (iblk10 V c 4 t : S256x512.Idx → EReal) = (V c (Pipeline.arrRef spec10 4) : S256x512.Idx → EReal) := by
  funext j
  obtain ⟨r, s, rfl⟩ : ∃ (r : Fin 256) (s : Fin 512), j = ix2 r s := ⟨j 0, j 1, eq_ix2 j⟩
  exact iblk10_4_apply V c t r s

/-- Input window 5's block at the grid's one point is its whole array. -/
theorem iblk10_5_apply (V : (c : Dev nD) → (b : Ref sig .tc) → Buf (Elt Ideal) ((c : Thread nD τ).loc b)) (c : Dev nD) (t : Fin cfg10.N) (r : Fin 256) (s : Fin 512) :
    (iblk10 V c 5 t : S256x512.Idx → EReal) (ix2 r s) = (V c (Pipeline.arrRef spec10 5) : S256x512.Idx → EReal) (ix2 r s) := by
  obtain ⟨e0, e1⟩ := idx10_5 t
  show (V c (Pipeline.arrRef spec10 5) : S256x512.Idx → EReal) (((cfg10.win 5).blk t).view.emb (ix2 r s)) = _
  refine congrArg _ (funext fun a => Fin.ext ?_)
  match a with
  | ⟨0, _⟩ => show win10_5.index t (0 : Fin 2) * 256 + 1 * r.val = r.val; omega
  | ⟨1, _⟩ => show win10_5.index t (1 : Fin 2) * 512 + 1 * s.val = s.val; omega

theorem iblk10_5_eq (V : (c : Dev nD) → (b : Ref sig .tc) → Buf (Elt Ideal) ((c : Thread nD τ).loc b)) (c : Dev nD) (t : Fin cfg10.N) :
    (iblk10 V c 5 t : S256x512.Idx → EReal) = (V c (Pipeline.arrRef spec10 5) : S256x512.Idx → EReal) := by
  funext j
  obtain ⟨r, s, rfl⟩ : ∃ (r : Fin 256) (s : Fin 512), j = ix2 r s := ⟨j 0, j 1, eq_ix2 j⟩
  exact iblk10_5_apply V c t r s

/-- Input window 6's block at the grid's one point is its whole array. -/
theorem iblk10_6_apply (V : (c : Dev nD) → (b : Ref sig .tc) → Buf (Elt Ideal) ((c : Thread nD τ).loc b)) (c : Dev nD) (t : Fin cfg10.N) (r : Fin 1) (s : Fin 512) :
    (iblk10 V c 6 t : S1x512.Idx → EReal) (ix2 r s) = (V c (Pipeline.arrRef spec10 6) : S1x512.Idx → EReal) (ix2 r s) := by
  obtain ⟨e0, e1⟩ := idx10_6 t
  show (V c (Pipeline.arrRef spec10 6) : S1x512.Idx → EReal) (((cfg10.win 6).blk t).view.emb (ix2 r s)) = _
  refine congrArg _ (funext fun a => Fin.ext ?_)
  match a with
  | ⟨0, _⟩ => show win10_6.index t (0 : Fin 2) * 1 + 1 * r.val = r.val; omega
  | ⟨1, _⟩ => show win10_6.index t (1 : Fin 2) * 512 + 1 * s.val = s.val; omega

theorem iblk10_6_eq (V : (c : Dev nD) → (b : Ref sig .tc) → Buf (Elt Ideal) ((c : Thread nD τ).loc b)) (c : Dev nD) (t : Fin cfg10.N) :
    (iblk10 V c 6 t : S1x512.Idx → EReal) = (V c (Pipeline.arrRef spec10 6) : S1x512.Idx → EReal) := by
  funext j
  obtain ⟨r, s, rfl⟩ : ∃ (r : Fin 1) (s : Fin 512), j = ix2 r s := ⟨j 0, j 1, eq_ix2 j⟩
  exact iblk10_6_apply V c t r s

/-- Input window 7's block at the grid's one point is its whole array. -/
theorem iblk10_7_apply (V : (c : Dev nD) → (b : Ref sig .tc) → Buf (Elt Ideal) ((c : Thread nD τ).loc b)) (c : Dev nD) (t : Fin cfg10.N) (r : Fin 512) (s : Fin 512) :
    (iblk10 V c 7 t : S512x512.Idx → EReal) (ix2 r s) = (V c (Pipeline.arrRef spec10 7) : S512x512.Idx → EReal) (ix2 r s) := by
  obtain ⟨e0, e1⟩ := idx10_7 t
  show (V c (Pipeline.arrRef spec10 7) : S512x512.Idx → EReal) (((cfg10.win 7).blk t).view.emb (ix2 r s)) = _
  refine congrArg _ (funext fun a => Fin.ext ?_)
  match a with
  | ⟨0, _⟩ => show win10_7.index t (0 : Fin 2) * 512 + 1 * r.val = r.val; omega
  | ⟨1, _⟩ => show win10_7.index t (1 : Fin 2) * 512 + 1 * s.val = s.val; omega

theorem iblk10_7_eq (V : (c : Dev nD) → (b : Ref sig .tc) → Buf (Elt Ideal) ((c : Thread nD τ).loc b)) (c : Dev nD) (t : Fin cfg10.N) :
    (iblk10 V c 7 t : S512x512.Idx → EReal) = (V c (Pipeline.arrRef spec10 7) : S512x512.Idx → EReal) := by
  funext j
  obtain ⟨r, s, rfl⟩ : ∃ (r : Fin 512) (s : Fin 512), j = ix2 r s := ⟨j 0, j 1, eq_ix2 j⟩
  exact iblk10_7_apply V c t r s

/-- Input window 8's block at the grid's one point is its whole array. -/
theorem iblk10_8_apply (V : (c : Dev nD) → (b : Ref sig .tc) → Buf (Elt Ideal) ((c : Thread nD τ).loc b)) (c : Dev nD) (t : Fin cfg10.N) (r : Fin 1) (s : Fin 512) :
    (iblk10 V c 8 t : S1x512.Idx → EReal) (ix2 r s) = (V c (Pipeline.arrRef spec10 8) : S1x512.Idx → EReal) (ix2 r s) := by
  obtain ⟨e0, e1⟩ := idx10_8 t
  show (V c (Pipeline.arrRef spec10 8) : S1x512.Idx → EReal) (((cfg10.win 8).blk t).view.emb (ix2 r s)) = _
  refine congrArg _ (funext fun a => Fin.ext ?_)
  match a with
  | ⟨0, _⟩ => show win10_8.index t (0 : Fin 2) * 1 + 1 * r.val = r.val; omega
  | ⟨1, _⟩ => show win10_8.index t (1 : Fin 2) * 512 + 1 * s.val = s.val; omega

theorem iblk10_8_eq (V : (c : Dev nD) → (b : Ref sig .tc) → Buf (Elt Ideal) ((c : Thread nD τ).loc b)) (c : Dev nD) (t : Fin cfg10.N) :
    (iblk10 V c 8 t : S1x512.Idx → EReal) = (V c (Pipeline.arrRef spec10 8) : S1x512.Idx → EReal) := by
  funext j
  obtain ⟨r, s, rfl⟩ : ∃ (r : Fin 1) (s : Fin 512), j = ix2 r s := ⟨j 0, j 1, eq_ix2 j⟩
  exact iblk10_8_apply V c t r s

/-- Input window 9's block at the grid's one point is its whole array. -/
theorem iblk10_9_apply (V : (c : Dev nD) → (b : Ref sig .tc) → Buf (Elt Ideal) ((c : Thread nD τ).loc b)) (c : Dev nD) (t : Fin cfg10.N) (r : Fin 512) (s : Fin 128) :
    (iblk10 V c 9 t : S512x128.Idx → EReal) (ix2 r s) = (V c (Pipeline.arrRef spec10 9) : S512x128.Idx → EReal) (ix2 r s) := by
  obtain ⟨e0, e1⟩ := idx10_9 t
  show (V c (Pipeline.arrRef spec10 9) : S512x128.Idx → EReal) (((cfg10.win 9).blk t).view.emb (ix2 r s)) = _
  refine congrArg _ (funext fun a => Fin.ext ?_)
  match a with
  | ⟨0, _⟩ => show win10_9.index t (0 : Fin 2) * 512 + 1 * r.val = r.val; omega
  | ⟨1, _⟩ => show win10_9.index t (1 : Fin 2) * 128 + 1 * s.val = s.val; omega

theorem iblk10_9_eq (V : (c : Dev nD) → (b : Ref sig .tc) → Buf (Elt Ideal) ((c : Thread nD τ).loc b)) (c : Dev nD) (t : Fin cfg10.N) :
    (iblk10 V c 9 t : S512x128.Idx → EReal) = (V c (Pipeline.arrRef spec10 9) : S512x128.Idx → EReal) := by
  funext j
  obtain ⟨r, s, rfl⟩ : ∃ (r : Fin 512) (s : Fin 128), j = ix2 r s := ⟨j 0, j 1, eq_ix2 j⟩
  exact iblk10_9_apply V c t r s

/-- Input window 10's block at the grid's one point is its whole array. -/
theorem iblk10_10_apply (V : (c : Dev nD) → (b : Ref sig .tc) → Buf (Elt Ideal) ((c : Thread nD τ).loc b)) (c : Dev nD) (t : Fin cfg10.N) (r : Fin 1) (s : Fin 128) :
    (iblk10 V c 10 t : S1x128.Idx → EReal) (ix2 r s) = (V c (Pipeline.arrRef spec10 10) : S1x128.Idx → EReal) (ix2 r s) := by
  obtain ⟨e0, e1⟩ := idx10_10 t
  show (V c (Pipeline.arrRef spec10 10) : S1x128.Idx → EReal) (((cfg10.win 10).blk t).view.emb (ix2 r s)) = _
  refine congrArg _ (funext fun a => Fin.ext ?_)
  match a with
  | ⟨0, _⟩ => show win10_10.index t (0 : Fin 2) * 1 + 1 * r.val = r.val; omega
  | ⟨1, _⟩ => show win10_10.index t (1 : Fin 2) * 128 + 1 * s.val = s.val; omega

theorem iblk10_10_eq (V : (c : Dev nD) → (b : Ref sig .tc) → Buf (Elt Ideal) ((c : Thread nD τ).loc b)) (c : Dev nD) (t : Fin cfg10.N) :
    (iblk10 V c 10 t : S1x128.Idx → EReal) = (V c (Pipeline.arrRef spec10 10) : S1x128.Idx → EReal) := by
  funext j
  obtain ⟨r, s, rfl⟩ : ∃ (r : Fin 1) (s : Fin 128), j = ix2 r s := ⟨j 0, j 1, eq_ix2 j⟩
  exact iblk10_10_apply V c t r s

/-- What the grid's one point writes back is the block of the region's map of the eleven arrays as the region finds them. -/
theorem flushed10_eq (V : (c : Dev nD) → (b : Ref sig .tc) → Buf (Elt Ideal) ((c : Thread nD τ).loc b)) (c : Dev nD) (t : Fin cfg10.N) :
    (dat10 (F := Ideal) V c).flushed 11 t = ((cfg10.win 11).blk t).view.read (Elt Ideal)
      (dec10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) (V c (Pipeline.arrRef spec10 7)) (V c (Pipeline.arrRef spec10 8)) (V c (Pipeline.arrRef spec10 9)) (V c (Pipeline.arrRef spec10 10))) := by
  show (cfg10.win 11).cut (grid10.coords t) ((dat10 V c).after 11 t) = _
  rw [after10_11]
  unfold Gen.out10_11
  rw [View.canon_unit_zero hz10]
  simp only [View.ld_unit_zero (S := S1024x256) hz10, View.ld_unit_zero (S := S256x512) hz10, View.ld_unit_zero (S := S1x512) hz10, View.ld_unit_zero (S := S512x512) hz10, View.ld_unit_zero (S := S512x128) hz10, View.ld_unit_zero (S := S1x128) hz10]
  obtain ⟨e0, e1⟩ := idx10_11 t
  funext j
  obtain ⟨p, q, rfl⟩ : ∃ (p : Fin 1024) (q : Fin 128), j = ix2 p q := ⟨j 0, j 1, eq_ix2 j⟩
  refine (pay10_apply (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t) (iblk10 V c 10 t) p q).trans ?_
  have he : ((cfg10.win 11).blk t).view.emb (ix2 p q) = (ix2 p q : S1024x128.Idx) := by
    funext a; apply Fin.ext
    match a with
    | ⟨0, _⟩ => show win10_11.index t (0 : Fin 2) * 1024 + 1 * p.val = p.val; omega
    | ⟨1, _⟩ => show win10_11.index t (1 : Fin 2) * 128 + 1 * q.val = q.val; omega
  show _ = dec10 _ _ _ _ _ _ _ _ _ _ _ (((cfg10.win 11).blk t).view.emb (ix2 p q))
  rw [he]
  simp only [iblk10_0_eq V c t, iblk10_1_eq V c t, iblk10_2_eq V c t, iblk10_3_eq V c t, iblk10_4_eq V c t, iblk10_5_eq V c t, iblk10_6_eq V c t, iblk10_7_eq V c t, iblk10_8_eq V c t, iblk10_9_eq V c t, iblk10_10_eq V c t]
  rfl

/-- An index of the output array is in point `t`'s block iff each coordinate is in the block's range on its axis. -/
theorem mem_blk10 (t : Fin cfg10.N) (i : S1024x128.Idx) :
    i ∈ ((cfg10.win 11).blk t).view.set ↔ ∀ a : Fin 2, win10_11.index t a * S1024x128.size a ≤ (i a).val ∧ (i a).val < win10_11.index t a * S1024x128.size a + S1024x128.size a := by
  show i ∈ ((View.whole main_v197).slice (win10_11.rect t)).set ↔ _
  rw [View.set_slice_whole, Rect.mem_set_unit]
  exact Iff.rfl

/-- The grid's one point covers the whole output array. -/
theorem cover10 (i : S1024x128.Idx) : ∃ t : Fin cfg10.N, (cfg10.win 11).flush t = true ∧ i ∈ ((cfg10.win 11).blk t).view.set := by
  refine ⟨t10_0, flush10_11 t10_0, ?_⟩
  rw [mem_blk10]
  obtain ⟨e0, e1⟩ := idx10_11 t10_0
  have h0 : (i 0).val < 1024 := (i 0).isLt
  have h1 : (i 1).val < 128 := (i 1).isLt
  intro a
  match a with
  | ⟨0, _⟩ => show win10_11.index t10_0 (0 : Fin 2) * 1024 ≤ (i 0).val ∧ (i 0).val < win10_11.index t10_0 (0 : Fin 2) * 1024 + 1024; omega
  | ⟨1, _⟩ => show win10_11.index t10_0 (1 : Fin 2) * 128 ≤ (i 1).val ∧ (i 1).val < win10_11.index t10_0 (1 : Fin 2) * 128 + 128; omega

/-- The region's output array after the region is the region's map of its eleven input arrays as the region finds them
    (`dec10_apply` reads it at an index). -/
theorem region10_out (V : (c : Dev nD) → (b : Ref sig .tc) → Buf (Elt Ideal) ((c : Thread nD τ).loc b)) (c : Dev nD) :
    (dat10 (F := Ideal) V c).arrAt 11 cfg10.N
      = dec10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) (V c (Pipeline.arrRef spec10 7)) (V c (Pipeline.arrRef spec10 8)) (V c (Pipeline.arrRef spec10 9)) (V c (Pipeline.arrRef spec10 10)) :=
  (dat10 (F := Ideal) V c).arrAt_eq_of_cover 11
    (dec10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) (V c (Pipeline.arrRef spec10 7)) (V c (Pipeline.arrRef spec10 8)) (V c (Pipeline.arrRef spec10 9)) (V c (Pipeline.arrRef spec10 10)))
    (fun t _ => flushed10_eq V c t) cover10

end Cert.KernelIdeal.Bridge

end
-- ==== Proof.RefTail.lean ====
/-
  The two dense tails of the reference against the maps the kernel's last regions compute.
  The encoder: a gathered table, rectified, through two affine layers each followed by a rectifier. The decoder: two
  pairs of arrays, concatenated along the columns and added, rectified, through three affine layers. The reference
  spells each with whole-array host operations; the regions' maps are index-by-index formulas. Each lemma here says
  the two are one array. The only step that is more than re-indexing is the decoder's first layer: a sum over the
  512 concatenated columns is the sum over the first 256 plus the sum over the last 256.
-/
import proofs.«135828_j71159018160437_2_alg».proof.Proof.RefBasics
import proofs.«135828_j71159018160437_2_alg».proof.Proof.Region8
import proofs.«135828_j71159018160437_2_alg».proof.Proof.Region10
import Idealize.ShloMosaic.Lib.ValueIdx
import Idealize.ShloMosaic.Lib.Pipeline.Value
import Idealize.ShloMosaic.PureOps.Ideal.Laws

set_option maxRecDepth 16384

noncomputable section

namespace Cert.Bridge

open Cert.ReferenceIdeal Cert.ReferenceIdeal.Gen Cert.ReferenceIdeal.Read Idealize.ShloMosaic Idealize.ShloMosaic.ValueIdx
open Cert.KernelIdeal.Bridge (enc8 enc8_apply dec10 dec10_apply a10 bb10 h1_10 h2_10)

/-! ## The encoder -/

/-- The reference's first encoder layer after its rectifier, at `(p, q)`. -/
theorem enc_hidden (x2 : (⟨S1024, .i32⟩ : BufTy).Contents (Elt Ideal)) (x15 : (⟨S100000x128, .f32⟩ : BufTy).Contents (Elt Ideal)) (x16 : (⟨S128x256, .f32⟩ : BufTy).Contents (Elt Ideal)) (x17 : (⟨S256, .f32⟩ : BufTy).Contents (Elt Ideal))
    (p : Fin 1024) (q : Fin 256) :
    val_main_v250 (F := Ideal) x2 x15 x16 x17 (ix2 p q)
      = max ((∑ k1 : Fin 128, max (val_main_v244 (F := Ideal) x2 x15 (ix2 p k1)) 0 * x16 (ix2 k1 q)) + x17 (ix1 q)) 0 := by
  rw [val_main_v250_apply, val_main_v249_apply, val_main_v248_apply, val_main_v247_apply, val_main_call9_v0_apply, val_main_call9_cst_apply,
    val_main_v246_apply]
  rw [show idx_main_v247 (idx_main_v248 (ix2 p q)) = ix1 q from by idx1_ext]
  show max (_ + _) (FloatOps.ofBits (F := Ideal) .f32 0x00000000#32) = _
  rw [zero_f32]
  refine congrArg₂ max (congrArg₂ (· + ·) (Finset.sum_congr rfl fun k1 _ => ?_) rfl) rfl
  rw [show lidx_main_v246 (ix2 p q) k1 = ix2 p k1 from by idx2_ext, show ridx_main_v246 (ix2 p q) k1 = ix2 k1 q from by idx2_ext]
  rw [val_main_v245_apply, val_main_call8_v0_apply, val_main_call8_cst_apply]
  show max _ (FloatOps.ofBits (F := Ideal) .f32 0x00000000#32) * _ = _
  rw [zero_f32]

/-- The encoder region's map of the gathered table, the two weights and the two bias rows is the reference's encoder output. -/
theorem enc_core (x2 : (⟨S1024, .i32⟩ : BufTy).Contents (Elt Ideal)) (x15 : (⟨S100000x128, .f32⟩ : BufTy).Contents (Elt Ideal)) (x16 : (⟨S128x256, .f32⟩ : BufTy).Contents (Elt Ideal)) (x17 : (⟨S256, .f32⟩ : BufTy).Contents (Elt Ideal))
    (x18 : (⟨S256x256, .f32⟩ : BufTy).Contents (Elt Ideal)) (x19 : (⟨S256, .f32⟩ : BufTy).Contents (Elt Ideal)) :
    enc8 (val_main_v244 (F := Ideal) x2 x15) x16 (shapeCast Cert.KernelIdeal.S1x256 x17 Cert.KernelIdeal.Facts₀.shapeCasts_S256_S1x256) x18
        (shapeCast Cert.KernelIdeal.S1x256 x19 Cert.KernelIdeal.Facts₀.shapeCasts_S256_S1x256)
      = val_main_v255 (F := Ideal) x2 x15 x16 x17 x18 x19 := by
  funext j
  obtain ⟨p, q, rfl⟩ : ∃ (p : Fin 1024) (q : Fin 256), j = ix2 p q := ⟨j 0, j 1, eq_ix2 j⟩
  rw [enc8_apply, val_main_v255_apply, val_main_v254_apply, val_main_v253_apply, val_main_v252_apply, val_main_call10_v0_apply,
    val_main_call10_cst_apply, val_main_v251_apply, row256_apply]
  rw [show idx_main_v252 (idx_main_v253 (ix2 p q)) = ix1 q from by idx1_ext]
  show _ = max (_ + _) (FloatOps.ofBits (F := Ideal) .f32 0x00000000#32)
  rw [zero_f32]
  refine congrArg₂ max (congrArg₂ (· + ·) (Finset.sum_congr rfl fun k2 _ => ?_) rfl) rfl
  rw [show lidx_main_v251 (ix2 p q) k2 = ix2 p k2 from by idx2_ext, show ridx_main_v251 (ix2 p q) k2 = ix2 k2 q from by idx2_ext,
    enc_hidden, row256_apply]

/-! ## The decoder -/

/-- A length-512 vector recast as a [1,512] row, read at column `q`. -/
theorem row512_apply (b : (⟨S512, .f32⟩ : BufTy).Contents (Elt Ideal)) (q : Fin 512) :
    shapeCast Cert.KernelIdeal.S1x512 b Cert.KernelIdeal.Facts₀.shapeCasts_S512_S1x512 (ix2 (0 : Fin 1) q) = b (ix1 q) :=
  shapeCast_apply b _ (ix2 (0 : Fin 1) q) (ix1 q) (by
    rewrite [Shape.rowMajor_val_one, Shape.rowMajor_val_two]; show q.val = 0 * 512 + q.val; omega)

/-- A length-128 vector recast as a [1,128] row, read at column `q`. -/
theorem row128_apply (b : (⟨S128, .f32⟩ : BufTy).Contents (Elt Ideal)) (q : Fin 128) :
    shapeCast Cert.KernelIdeal.S1x128 b Cert.KernelIdeal.Facts₀.shapeCasts_S128_S1x128 (ix2 (0 : Fin 1) q) = b (ix1 q) :=
  shapeCast_apply b _ (ix2 (0 : Fin 1) q) (ix1 q) (by
    rewrite [Shape.rowMajor_val_one, Shape.rowMajor_val_two]; show q.val = 0 * 128 + q.val; omega)

/-- The top half of the first weight: its rows 0 to 255. -/
theorem top_apply (x20 : (⟨S512x512, .f32⟩ : BufTy).Contents (Elt Ideal)) (k : Fin 256) (q : Fin 512) :
    (extractStridedSlice Cert.KernelIdeal.S256x512 ![0, 0] x20 Cert.KernelIdeal.Facts₀.slices_S512x512_S256x512_0_0) (ix2 k q) = x20 (ix2 (⟨k.val, by have := k.isLt; omega⟩ : Fin 512) q) :=
  extractStridedSlice_apply ![0, 0] x20 _ (ix2 k q) (ix2 (⟨k.val, by have := k.isLt; omega⟩ : Fin 512) q) (fun a => match a with
    | ⟨0, _⟩ => by show k.val = 0 + k.val; omega
    | ⟨1, _⟩ => by show q.val = 0 + q.val; omega)

/-- The bottom half of the first weight: its rows 256 to 511. -/
theorem bot_apply (x20 : (⟨S512x512, .f32⟩ : BufTy).Contents (Elt Ideal)) (k : Fin 256) (q : Fin 512) :
    (extractStridedSlice Cert.KernelIdeal.S256x512 ![256, 0] x20 Cert.KernelIdeal.Facts₀.slices_S512x512_S256x512_256_0) (ix2 k q) = x20 (ix2 (⟨256 + k.val, by have := k.isLt; omega⟩ : Fin 512) q) :=
  extractStridedSlice_apply ![256, 0] x20 _ (ix2 k q) (ix2 (⟨256 + k.val, by have := k.isLt; omega⟩ : Fin 512) q) (fun a => match a with
    | ⟨0, _⟩ => by show 256 + k.val = 256 + k.val; rfl
    | ⟨1, _⟩ => by show q.val = 0 + q.val; omega)

/-- A sum over 512 columns is the sum over the first 256 plus the sum over the last 256. -/
theorem sum512_split (f : Fin 512 → EReal) :
    ∑ m : Fin 512, f m = (∑ k : Fin 256, f (⟨k.val, by have := k.isLt; omega⟩ : Fin 512)) + (∑ k : Fin 256, f (⟨256 + k.val, by have := k.isLt; omega⟩ : Fin 512)) :=
  Fin.sum_univ_add (a := 256) (b := 256) f

theorem dg512_apply_lhs0 (i : S1024x512.Idx) (u : dot_S1024x512_S512x512_S1024x512_1_0_0_1_n_n.contr.Idx) : (dot_S1024x512_S512x512_S1024x512_1_0_0_1_n_n.lhsIdx i u 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem dg512_apply_rhs1 (i : S1024x512.Idx) (u : dot_S1024x512_S512x512_S1024x512_1_0_0_1_n_n.contr.Idx) : (dot_S1024x512_S512x512_S1024x512_1_0_0_1_n_n.rhsIdx i u 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- The host's 1024×512 by 512×512 product read at `(p, q)`: the plain sum over the shared axis. -/
theorem dg512_apply (a : FVec Ideal S1024x512 .f32) (b : FVec Ideal S512x512 .f32) (p : Fin 1024) (q : Fin 512) :
    Host.dotGeneral (F := Ideal) (φ₁ := .f32) (φ₂ := .f32) dot_S1024x512_S512x512_S1024x512_1_0_0_1_n_n none a b (ix2 p q) = ∑ k : Fin 512, a (ix2 p k) * b (ix2 k q) := by
  simp only [Host.dotGeneral]
  rw [Ideal.dotGeneral_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun ax => Fin.ext (by
    match ax with
    | ⟨0, _⟩ => exact dg512_apply_lhs0 _ _
    | ⟨1, _⟩ => exact (dot_S1024x512_S512x512_S1024x512_1_0_0_1_n_n.lhsIdx_val_of_single rfl (ix2 p q) _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun ax => Fin.ext (by
    match ax with
    | ⟨0, _⟩ => exact (dot_S1024x512_S512x512_S1024x512_1_0_0_1_n_n.rhsIdx_val_of_single rfl (ix2 p q) _).trans hk
    | ⟨1, _⟩ => exact dg512_apply_rhs1 _ _)
  rw [el, er]

theorem dg128_apply_lhs0 (i : S1024x128.Idx) (u : dot_S1024x512_S512x128_S1024x128_1_0_0_1_n_n.contr.Idx) : (dot_S1024x512_S512x128_S1024x128_1_0_0_1_n_n.lhsIdx i u 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem dg128_apply_rhs1 (i : S1024x128.Idx) (u : dot_S1024x512_S512x128_S1024x128_1_0_0_1_n_n.contr.Idx) : (dot_S1024x512_S512x128_S1024x128_1_0_0_1_n_n.rhsIdx i u 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl
/-- The host's 1024×512 by 512×128 product read at `(p, q)`: the plain sum over the shared axis. -/
theorem dg128_apply (a : FVec Ideal S1024x512 .f32) (b : FVec Ideal S512x128 .f32) (p : Fin 1024) (q : Fin 128) :
    Host.dotGeneral (F := Ideal) (φ₁ := .f32) (φ₂ := .f32) dot_S1024x512_S512x128_S1024x128_1_0_0_1_n_n none a b (ix2 p q) = ∑ k : Fin 512, a (ix2 p k) * b (ix2 k q) := by
  simp only [Host.dotGeneral]
  rw [Ideal.dotGeneral_apply, ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p q) ((contrEquiv1 dot_S1024x512_S512x128_S1024x128_1_0_0_1_n_n 512 rfl rfl).symm k) = ix2 p k := funext fun ax => Fin.ext (by
    match ax with
    | ⟨0, _⟩ => exact dg128_apply_lhs0 _ _
    | ⟨1, _⟩ => exact (dot_S1024x512_S512x128_S1024x128_1_0_0_1_n_n.lhsIdx_val_of_single rfl (ix2 p q) _).trans hk)
  have er : dot_S1024x512_S512x128_S1024x128_1_0_0_1_n_n.rhsIdx (ix2 p q) ((contrEquiv1 dot_S1024x512_S512x128_S1024x128_1_0_0_1_n_n 512 rfl rfl).symm k) = ix2 k q := funext fun ax => Fin.ext (by
    match ax with
    | ⟨0, _⟩ => exact (dot_S1024x512_S512x128_S1024x128_1_0_0_1_n_n.rhsIdx_val_of_single rfl (ix2 p q) _).trans hk
    | ⟨1, _⟩ => exact dg128_apply_rhs1 _ _)
  rw [el, er]

/-- Two arrays joined along the columns, as the reference spells it. -/
def refCat (G E : FVec Ideal S1024x256 .f32) : (⟨S1024x512, .f32⟩ : BufTy).Contents (Elt Ideal) :=
  concatenate S1024x512 1 [⟨S1024x256, G⟩, ⟨S1024x256, E⟩] concatenates_S1024x256_S1024x256_S1024x512_d1

/-- A column of the left half reads the first array. -/
theorem cat_left (G E : FVec Ideal S1024x256 .f32) (r : Fin 1024) (k : Fin 256) : refCat G E (ix2 r (⟨k.val, by have := k.isLt; omega⟩ : Fin 512)) = G (ix2 r k) :=
  concatenate_pair_apply_left (1 : Fin S1024x512.rank) G E concatenates_S1024x256_S1024x256_S1024x512_d1 (ix2 r (⟨k.val, by have := k.isLt; omega⟩ : Fin 512)) rfl (ix2 r k)
    (fun b => match b with
      | ⟨0, _⟩ => rfl
      | ⟨1, _⟩ => rfl)

/-- A column of the right half reads the second array. -/
theorem cat_right (G E : FVec Ideal S1024x256 .f32) (r : Fin 1024) (k : Fin 256) : refCat G E (ix2 r (⟨256 + k.val, by have := k.isLt; omega⟩ : Fin 512)) = E (ix2 r k) :=
  concatenate_pair_apply_right (1 : Fin S1024x512.rank) G E concatenates_S1024x256_S1024x256_S1024x512_d1 (ix2 r (⟨256 + k.val, by have := k.isLt; omega⟩ : Fin 512)) rfl rfl (ix2 r k)
    (fun b hb => match b, hb with
      | ⟨0, _⟩, _ => rfl
      | ⟨1, _⟩, hb => (hb (Fin.ext rfl)).elim)
    (by show k.val + 256 = 256 + k.val; omega)

/-- The reference's decoder input: the two joined arrays added and rectified. -/
def refH0 (G1 E1 G2 E2 : FVec Ideal S1024x256 .f32) : (⟨S1024x512, .f32⟩ : BufTy).Contents (Elt Ideal) :=
  maximumf (F := Ideal) (φ := .f32) (addf (F := Ideal) (φ := .f32) (refCat G1 E1) (refCat G2 E2)) (val_main_call14_v0 (F := Ideal))

theorem refH0_left (G1 E1 G2 E2 : FVec Ideal S1024x256 .f32) (r : Fin 1024) (k : Fin 256) : refH0 G1 E1 G2 E2 (ix2 r (⟨k.val, by have := k.isLt; omega⟩ : Fin 512)) = a10 G1 G2 r k := by
  unfold refH0 a10
  rw [maximumf_apply, addf_apply, cat_left, cat_left, val_main_call14_v0_apply, val_main_call14_cst_apply]
  show max _ (FloatOps.ofBits (F := Ideal) .f32 0x00000000#32) = _
  rw [zero_f32]

theorem refH0_right (G1 E1 G2 E2 : FVec Ideal S1024x256 .f32) (r : Fin 1024) (k : Fin 256) : refH0 G1 E1 G2 E2 (ix2 r (⟨256 + k.val, by have := k.isLt; omega⟩ : Fin 512)) = bb10 E1 E2 r k := by
  unfold refH0 bb10
  rw [maximumf_apply, addf_apply, cat_right, cat_right, val_main_call14_v0_apply, val_main_call14_cst_apply]
  show max _ (FloatOps.ofBits (F := Ideal) .f32 0x00000000#32) = _
  rw [zero_f32]

/-- The reference's first decoder layer after its rectifier. -/
def refH1 (G1 E1 G2 E2 : FVec Ideal S1024x256 .f32) (x20 : (⟨S512x512, .f32⟩ : BufTy).Contents (Elt Ideal)) (x21 : (⟨S512, .f32⟩ : BufTy).Contents (Elt Ideal)) : (⟨S1024x512, .f32⟩ : BufTy).Contents (Elt Ideal) :=
  maximumf (F := Ideal) (φ := .f32) (addf (F := Ideal) (φ := .f32) (Host.dotGeneral (F := Ideal) (φ₁ := .f32) (φ₂ := .f32) dot_S1024x512_S512x512_S1024x512_1_0_0_1_n_n none (refH0 G1 E1 G2 E2) x20) (val_main_v280 (F := Ideal) x21))
    (val_main_call15_v0 (F := Ideal))

/-- It is the region's first hidden layer: the sum over the 512 joined columns splits into the two halves. -/
theorem refH1_apply (G1 E1 G2 E2 : FVec Ideal S1024x256 .f32) (x20 : (⟨S512x512, .f32⟩ : BufTy).Contents (Elt Ideal)) (x21 : (⟨S512, .f32⟩ : BufTy).Contents (Elt Ideal)) (r : Fin 1024) (q : Fin 512) :
    refH1 G1 E1 G2 E2 x20 x21 (ix2 r q)
      = h1_10 G1 G2 E1 E2 (extractStridedSlice Cert.KernelIdeal.S256x512 ![0, 0] x20 Cert.KernelIdeal.Facts₀.slices_S512x512_S256x512_0_0) (extractStridedSlice Cert.KernelIdeal.S256x512 ![256, 0] x20 Cert.KernelIdeal.Facts₀.slices_S512x512_S256x512_256_0) (shapeCast Cert.KernelIdeal.S1x512 x21 Cert.KernelIdeal.Facts₀.shapeCasts_S512_S1x512) r q := by
  unfold refH1 h1_10
  rw [maximumf_apply, addf_apply, dg512_apply, val_main_v280_apply, val_main_v279_apply, val_main_call15_v0_apply, val_main_call15_cst_apply,
    row512_apply]
  rw [show idx_main_v279 (idx_main_v280 (ix2 r q)) = ix1 q from by idx1_ext]
  show max _ (FloatOps.ofBits (F := Ideal) .f32 0x00000000#32) = _
  rw [zero_f32]
  refine congrArg₂ max (congrArg₂ (· + ·) ((sum512_split _).trans
    (congrArg₂ (· + ·) (Finset.sum_congr rfl fun k _ => ?_) (Finset.sum_congr rfl fun k _ => ?_))) rfl) rfl
  · beta_reduce
    rw [refH0_left, top_apply]
  · beta_reduce
    rw [refH0_right, bot_apply]

/-- The reference's second decoder layer after its rectifier. -/
def refH2 (G1 E1 G2 E2 : FVec Ideal S1024x256 .f32) (x20 : (⟨S512x512, .f32⟩ : BufTy).Contents (Elt Ideal)) (x21 : (⟨S512, .f32⟩ : BufTy).Contents (Elt Ideal)) (x22 : (⟨S512x512, .f32⟩ : BufTy).Contents (Elt Ideal)) (x23 : (⟨S512, .f32⟩ : BufTy).Contents (Elt Ideal)) : (⟨S1024x512, .f32⟩ : BufTy).Contents (Elt Ideal) :=
  maximumf (F := Ideal) (φ := .f32) (addf (F := Ideal) (φ := .f32) (Host.dotGeneral (F := Ideal) (φ₁ := .f32) (φ₂ := .f32) dot_S1024x512_S512x512_S1024x512_1_0_0_1_n_n none (refH1 G1 E1 G2 E2 x20 x21) x22) (val_main_v285 (F := Ideal) x23))
    (val_main_call16_v0 (F := Ideal))

theorem refH2_apply (G1 E1 G2 E2 : FVec Ideal S1024x256 .f32) (x20 : (⟨S512x512, .f32⟩ : BufTy).Contents (Elt Ideal)) (x21 : (⟨S512, .f32⟩ : BufTy).Contents (Elt Ideal)) (x22 : (⟨S512x512, .f32⟩ : BufTy).Contents (Elt Ideal)) (x23 : (⟨S512, .f32⟩ : BufTy).Contents (Elt Ideal)) (r : Fin 1024) (q : Fin 512) :
    refH2 G1 E1 G2 E2 x20 x21 x22 x23 (ix2 r q)
      = h2_10 G1 G2 E1 E2 (extractStridedSlice Cert.KernelIdeal.S256x512 ![0, 0] x20 Cert.KernelIdeal.Facts₀.slices_S512x512_S256x512_0_0) (extractStridedSlice Cert.KernelIdeal.S256x512 ![256, 0] x20 Cert.KernelIdeal.Facts₀.slices_S512x512_S256x512_256_0) (shapeCast Cert.KernelIdeal.S1x512 x21 Cert.KernelIdeal.Facts₀.shapeCasts_S512_S1x512) x22 (shapeCast Cert.KernelIdeal.S1x512 x23 Cert.KernelIdeal.Facts₀.shapeCasts_S512_S1x512) r q := by
  unfold refH2 h2_10
  rw [maximumf_apply, addf_apply, dg512_apply, val_main_v285_apply, val_main_v284_apply, val_main_call16_v0_apply, val_main_call16_cst_apply,
    row512_apply]
  rw [show idx_main_v284 (idx_main_v285 (ix2 r q)) = ix1 q from by idx1_ext]
  show max _ (FloatOps.ofBits (F := Ideal) .f32 0x00000000#32) = _
  rw [zero_f32]
  refine congrArg₂ max (congrArg₂ (· + ·) (Finset.sum_congr rfl fun m _ => ?_) rfl) rfl
  rw [refH1_apply]

/-- The reference's decoder from the four arrays it joins: the tail of its program, the four arrays as variables. -/
def refDec (G1 E1 G2 E2 : FVec Ideal S1024x256 .f32) (x20 : (⟨S512x512, .f32⟩ : BufTy).Contents (Elt Ideal)) (x21 : (⟨S512, .f32⟩ : BufTy).Contents (Elt Ideal)) (x22 : (⟨S512x512, .f32⟩ : BufTy).Contents (Elt Ideal)) (x23 : (⟨S512, .f32⟩ : BufTy).Contents (Elt Ideal)) (x24 : (⟨S512x128, .f32⟩ : BufTy).Contents (Elt Ideal))
    (x25 : (⟨S128, .f32⟩ : BufTy).Contents (Elt Ideal)) : (⟨S1024x128, .f32⟩ : BufTy).Contents (Elt Ideal) :=
  addf (F := Ideal) (φ := .f32) (Host.dotGeneral (F := Ideal) (φ₁ := .f32) (φ₂ := .f32) dot_S1024x512_S512x128_S1024x128_1_0_0_1_n_n none (refH2 G1 E1 G2 E2 x20 x21 x22 x23) x24) (val_main_v290 (F := Ideal) x25)

/-- The decoder region's map of the four arrays, the halves of the first weight, the other weights and the bias rows is
    the reference's decoder of them. -/
theorem dec_core (G1 E1 G2 E2 : FVec Ideal S1024x256 .f32) (x20 : (⟨S512x512, .f32⟩ : BufTy).Contents (Elt Ideal)) (x21 : (⟨S512, .f32⟩ : BufTy).Contents (Elt Ideal)) (x22 : (⟨S512x512, .f32⟩ : BufTy).Contents (Elt Ideal)) (x23 : (⟨S512, .f32⟩ : BufTy).Contents (Elt Ideal)) (x24 : (⟨S512x128, .f32⟩ : BufTy).Contents (Elt Ideal))
    (x25 : (⟨S128, .f32⟩ : BufTy).Contents (Elt Ideal)) :
    dec10 G1 G2 E1 E2 (extractStridedSlice Cert.KernelIdeal.S256x512 ![0, 0] x20 Cert.KernelIdeal.Facts₀.slices_S512x512_S256x512_0_0) (extractStridedSlice Cert.KernelIdeal.S256x512 ![256, 0] x20 Cert.KernelIdeal.Facts₀.slices_S512x512_S256x512_256_0)
        (shapeCast Cert.KernelIdeal.S1x512 x21 Cert.KernelIdeal.Facts₀.shapeCasts_S512_S1x512) x22 (shapeCast Cert.KernelIdeal.S1x512 x23 Cert.KernelIdeal.Facts₀.shapeCasts_S512_S1x512) x24 (shapeCast Cert.KernelIdeal.S1x128 x25 Cert.KernelIdeal.Facts₀.shapeCasts_S128_S1x128)
      = refDec G1 E1 G2 E2 x20 x21 x22 x23 x24 x25 := by
  funext j
  obtain ⟨p, q, rfl⟩ : ∃ (p : Fin 1024) (q : Fin 128), j = ix2 p q := ⟨j 0, j 1, eq_ix2 j⟩
  rw [dec10_apply]
  unfold refDec
  rw [addf_apply, dg128_apply, val_main_v290_apply, val_main_v289_apply, row128_apply]
  rw [show idx_main_v289 (idx_main_v290 (ix2 p q)) = ix1 q from by idx1_ext]
  refine congrArg₂ (· + ·) (Finset.sum_congr rfl fun m _ => ?_) rfl
  rw [refH2_apply]

/-- The reference's output is its decoder of the two graph-branch outputs and the two encoder outputs: its program's
    tail with those four arrays named. -/
theorem v291_eq (x0 : (⟨S50000, .i32⟩ : BufTy).Contents (Elt Ideal)) (x1 : (⟨S2x800000, .i32⟩ : BufTy).Contents (Elt Ideal)) (x2 : (⟨S1024, .i32⟩ : BufTy).Contents (Elt Ideal)) (x3 x4 : (⟨S50000, .i32⟩ : BufTy).Contents (Elt Ideal)) (x5 : (⟨S2x800000, .i32⟩ : BufTy).Contents (Elt Ideal)) (x6 : (⟨S1024, .i32⟩ : BufTy).Contents (Elt Ideal)) (x7 : (⟨S50000, .i32⟩ : BufTy).Contents (Elt Ideal)) (x8 : (⟨S11x128, .f32⟩ : BufTy).Contents (Elt Ideal)) (x9 : (⟨S128x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S100000x128, .f32⟩ : BufTy).Contents (Elt Ideal)) (x16 : (⟨S128x256, .f32⟩ : BufTy).Contents (Elt Ideal)) (x17 : (⟨S256, .f32⟩ : BufTy).Contents (Elt Ideal)) (x18 : (⟨S256x256, .f32⟩ : BufTy).Contents (Elt Ideal)) (x19 : (⟨S256, .f32⟩ : BufTy).Contents (Elt Ideal)) (x20 : (⟨S512x512, .f32⟩ : BufTy).Contents (Elt Ideal)) (x21 : (⟨S512, .f32⟩ : BufTy).Contents (Elt Ideal)) (x22 : (⟨S512x512, .f32⟩ : BufTy).Contents (Elt Ideal)) (x23 : (⟨S512, .f32⟩ : BufTy).Contents (Elt Ideal)) (x24 : (⟨S512x128, .f32⟩ : BufTy).Contents (Elt Ideal)) (x25 : (⟨S128, .f32⟩ : BufTy).Contents (Elt Ideal)) :
    val_main_v291 (F := Ideal) x0 x1 x2 x3 x4 x5 x6 x7 x8 x9 x10 x11 x12 x13 x14 x15 x16 x17 x18 x19 x20 x21 x22 x23 x24 x25
      = refDec (val_main_v118 (F := Ideal) x0 x1 x3 x8 x9 x10 x11 x12 x13 x14) (val_main_v255 (F := Ideal) x2 x15 x16 x17 x18 x19)
          (val_main_v237 (F := Ideal) x4 x5 x7 x8 x9 x10 x11 x12 x13 x14) (val_main_v273 (F := Ideal) x6 x15 x16 x17 x18 x19) x20 x21 x22 x23 x24 x25 := rfl

end Cert.Bridge

end
-- ==== Proof.RefTwin.lean ====
/-
  The reference computes its second graph branch and its second entity encoder with the same operations as the
  first, under other buffer names. As a function of its arguments, the result of the second copy is therefore the
  same function as the result of the first: the two unfold, operation by operation, to the same term.
-/
import proofs.«135828_j71159018160437_2_alg».proof.Proof.RefRead

noncomputable section

namespace Cert.Bridge

open Cert.ReferenceIdeal Cert.ReferenceIdeal.Gen Cert.ReferenceIdeal.Read Idealize.ShloMosaic

variable {F : FTy → Type} [FloatOps F]

/-- The second graph branch's result is the first branch's function of its own arguments. -/
theorem v237_eq (x4 : (⟨S50000, .i32⟩ : BufTy).Contents (Elt F)) (x5 : (⟨S2x800000, .i32⟩ : BufTy).Contents (Elt F)) (x7 : (⟨S50000, .i32⟩ : BufTy).Contents (Elt F)) (x8 : (⟨S11x128, .f32⟩ : BufTy).Contents (Elt F)) (x9 : (⟨S128x256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F)) (x13 : (⟨S256x256, .f32⟩ : BufTy).Contents (Elt F)) (x14 : (⟨S256, .f32⟩ : BufTy).Contents (Elt F)) :
    val_main_v237 (F := F) x4 x5 x7 x8 x9 x10 x11 x12 x13 x14 = val_main_v118 (F := F) x4 x5 x7 x8 x9 x10 x11 x12 x13 x14 := rfl

/-- The second entity encoder's result is the first encoder's function of its own arguments. -/
theorem v273_eq (x6 : (⟨S1024, .i32⟩ : BufTy).Contents (Elt F)) (x15 : (⟨S100000x128, .f32⟩ : BufTy).Contents (Elt F)) (x16 : (⟨S128x256, .f32⟩ : BufTy).Contents (Elt F)) (x17 : (⟨S256, .f32⟩ : BufTy).Contents (Elt F)) (x18 : (⟨S256x256, .f32⟩ : BufTy).Contents (Elt F)) (x19 : (⟨S256, .f32⟩ : BufTy).Contents (Elt F)) :
    val_main_v273 (F := F) x6 x15 x16 x17 x18 x19 = val_main_v255 (F := F) x6 x15 x16 x17 x18 x19 := rfl

end Cert.Bridge

end
-- ==== Proof.Finite.lean ====
/-
  From the precondition to real entries.

  The precondition says, for each float argument, that every entry's absolute value is below plus infinity, all of
  these conjoined into one bit that is one. An extended real whose absolute value is below plus infinity is a real
  number. Here the conjunction is taken apart down to its first two conjuncts, the embedding table and the first
  weight matrix, and each is read entry by entry.
-/
import proofs.«135828_j71159018160437_2_alg».proof.Defs
import proofs.«135828_j71159018160437_2_alg».proof.Proof.Gen.Pre_finite_inputs
import proofs.«135828_j71159018160437_2_alg».proof.Proof.Gen.KernelIdeal
import Idealize.ShloMosaic.Lib.ReduceAll
import Idealize.ShloMosaic.Lib.ValueIdx

noncomputable section

namespace Cert.Bridge

open Idealize.ShloMosaic Idealize.SL.Sem Idealize.ShloMosaic.ValueIdx

/-- The scalar shape has one index. -/
instance subsingletonScalarIdx : Subsingleton (⟨0, ![]⟩ : Shape).Idx := ⟨fun _ _ => funext fun d => d.elim0⟩

/-- An extended real whose absolute value compares below the f32 pattern of plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- If "every absolute value is below plus infinity", reduced by `and` over all axes from one, is one, then every
    entry is a real number. -/
theorem finite_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  exact real_of_abs_lt_top (x i) hi

/-- A conjunction of two bit arrays that is one at an index has its left conjunct one there … -/
theorem andi_left {s : Shape} {a b : IVec s 1} {i : s.Idx} (h : andi a b i = 1#1) : a i = 1#1 :=
  (IntOp.andi_eq_one.1 h).1
/-- … and its right conjunct. -/
theorem andi_right {s : Shape} {a b : IVec s 1} {i : s.Idx} (h : andi a b i = 1#1) : b i = 1#1 :=
  (IntOp.andi_eq_one.1 h).2

/-- The precondition's first two conjuncts: the "all entries finite" bits of the embedding table and of the first
    weight matrix are one. -/
theorem pre_first_two (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg8) i = (r : EReal)) ∧ (∀ i, ∃ r : ℝ, m ((c.tc : Thread Cert.KernelIdeal.nD Cert.KernelIdeal.τ).loc Cert.KernelIdeal.main_arg9) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  iterate 16 (replace h0 := andi_left h0)
  exact ⟨finite_of_all _ _ _ _ (andi_left h0), finite_of_all _ _ _ _ (andi_right h0)⟩

/-- Every entry of the embedding table is a real number. -/
theorem pre_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (pre_first_two m h c).1

/-- Every entry of the first weight matrix is a real number. -/
theorem pre_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (pre_first_two m h c).2

end Cert.Bridge

end
-- ==== Proof.Final.lean ====
/-
  The kernel program's result array is the reference's result function of the argument arrays: the two graph
  branches and the two entity encoders feed the decoder region, whose value is the reference's tail.
-/
import proofs.«135828_j71159018160437_2_alg».proof.Proof.KBranch
import proofs.«135828_j71159018160437_2_alg».proof.Proof.Region8
import proofs.«135828_j71159018160437_2_alg».proof.Proof.Region9
import proofs.«135828_j71159018160437_2_alg».proof.Proof.Region10
import proofs.«135828_j71159018160437_2_alg».proof.Proof.RefTail
import proofs.«135828_j71159018160437_2_alg».proof.Proof.RefTwin
import proofs.«135828_j71159018160437_2_alg».proof.Proof.Finite

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The first entity encoder's region leaves the reference's encoder value of the first entity list. -/
theorem enc1_value (c : Dev nD) : W22 m ρ c (Proc.devRef .tc main_v181) = Cert.ReferenceIdeal.Read.val_main_v255 (F := Ideal) (m ((c : Thread nD τ).loc main_arg2)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W22_arr m ρ c 5).trans ((region8_out (V21 m ρ) c).trans ?_)
  show enc8 (W21 m ρ c (Proc.devRef .tc main_v178)) (W21 m ρ c (Proc.devRef .tc main_arg16)) (W21 m ρ c (Proc.devRef .tc main_v179))
    (W21 m ρ c (Proc.devRef .tc main_arg18)) (W21 m ρ c (Proc.devRef .tc main_v180)) = _
  rw [k_e0, keep_arg16_21_0, k_eb1, keep_arg18_21_0, k_eb2]
  exact Cert.Bridge.enc_core _ _ _ _ _ _

/-- The second entity encoder's region: the same function of the second entity list. -/
theorem enc2_value (c : Dev nD) : W24 m ρ c (Proc.devRef .tc main_v191) = Cert.ReferenceIdeal.Read.val_main_v255 (F := Ideal) (m ((c : Thread nD τ).loc main_arg6)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W24_arr m ρ c 5).trans ((region9_out (V23 m ρ) c).trans ?_)
  show enc8 (W23 m ρ c (Proc.devRef .tc main_v188)) (W23 m ρ c (Proc.devRef .tc main_arg16)) (W23 m ρ c (Proc.devRef .tc main_v189))
    (W23 m ρ c (Proc.devRef .tc main_arg18)) (W23 m ρ c (Proc.devRef .tc main_v190)) = _
  rw [k_e0', keep_arg16_23_0, k_eb1', keep_arg18_23_0, k_eb2']
  exact Cert.Bridge.enc_core _ _ _ _ _ _

/-- The kernel program's result, under the precondition: the reference's result function of the arguments. -/
theorem kernel_value (hpre : Cert.Pre_KernelIdeal m) (c : Dev nD) :
    W26 m ρ c (Proc.devRef .tc main_v197) = Cert.ReferenceIdeal.Read.val_main_v291 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  have h8 := Cert.Bridge.pre_arg8 m hpre c
  have h9 := Cert.Bridge.pre_arg9 m hpre c
  have g1 := branch1_value m ρ c h8 h9 (Cert.Bridge.nrm_real_ref _)
  have g2 := branch2_value m ρ c h8 h9 (Cert.Bridge.nrm_real_ref _)
  have e1 := enc1_value m ρ c
  have e2 := enc2_value m ρ c
  refine (W26_arr m ρ c 11).trans ((region10_out (V25 m ρ) c).trans ?_)
  show dec10 (W25 m ρ c (Proc.devRef .tc main_v85)) (W25 m ρ c (Proc.devRef .tc main_v171)) (W25 m ρ c (Proc.devRef .tc main_v181)) (W25 m ρ c (Proc.devRef .tc main_v191))
    (W25 m ρ c (Proc.devRef .tc main_v192)) (W25 m ρ c (Proc.devRef .tc main_v193)) (W25 m ρ c (Proc.devRef .tc main_v194)) (W25 m ρ c (Proc.devRef .tc main_arg22))
    (W25 m ρ c (Proc.devRef .tc main_v195)) (W25 m ρ c (Proc.devRef .tc main_arg24)) (W25 m ρ c (Proc.devRef .tc main_v196)) = _
  rw [keep_v85_25_10, g1, keep_v171_25_20, g2, keep_v181_25_22, e1, keep_v191_25_24, e2, k_wt, k_wb, k_d1, keep_arg22_25_0, k_d2, keep_arg24_25_0, k_d3]
  rw [Cert.Bridge.dec_core, Cert.Bridge.v291_eq, Cert.Bridge.v237_eq, Cert.Bridge.v273_eq]

end Cert.KernelIdeal.Bridge

end
-- ==== Proof.lean ====
/-
  The certificate of the graph-and-entity network: a kernel program of eleven launched regions (dense projections,
  bias-and-rectifier passes, two entity encoders and a fused decoder) among host stretches that gather, weight and
  scatter-add along the graph's edges, against a reference that spells the whole network with host operations.
  The three frames are the generated runs. The idealization rewrote nothing. At the ideal instance both programs end
  at one array: every region is read as an index-by-index function of its input arrays, every host stretch as its
  operations' function, and the pieces are matched with the reference's stages. The one algebraic step is the first
  graph layer, where the kernel aggregates the 128-wide embedding over the edges before the 128 × 256 projection and
  the reference after it: the aggregation is linear, and the precondition makes every entry a real number.
-/
import proofs.«135828_j71159018160437_2_alg».proof.Defs
import proofs.«135828_j71159018160437_2_alg».proof.Proof.Gen.Kernel
import proofs.«135828_j71159018160437_2_alg».proof.Proof.Gen.Kernel.Skeleton
import proofs.«135828_j71159018160437_2_alg».proof.Proof.Gen.Kernel.Launch
import proofs.«135828_j71159018160437_2_alg».proof.Proof.Gen.Kernel.Points
import proofs.«135828_j71159018160437_2_alg».proof.Proof.Gen.Kernel.Frame
import proofs.«135828_j71159018160437_2_alg».proof.Proof.Gen.KernelIdeal
import proofs.«135828_j71159018160437_2_alg».proof.Proof.Gen.KernelIdeal.Skeleton
import proofs.«135828_j71159018160437_2_alg».proof.Proof.Gen.KernelIdeal.Launch
import proofs.«135828_j71159018160437_2_alg».proof.Proof.Gen.KernelIdeal.Points
import proofs.«135828_j71159018160437_2_alg».proof.Proof.Gen.KernelIdeal.Frame
import proofs.«135828_j71159018160437_2_alg».proof.Proof.Gen.ReferenceIdeal
import proofs.«135828_j71159018160437_2_alg».proof.Proof.RefRun
import proofs.«135828_j71159018160437_2_alg».proof.Proof.RefRead
import proofs.«135828_j71159018160437_2_alg».proof.Proof.Gen.Pre_finite_inputs
import proofs.«135828_j71159018160437_2_alg».proof.Proof.KRun
import proofs.«135828_j71159018160437_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no launched region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end, with equal result arrays. -/
theorem algebraic : Cert.algebraic_KernelIdeal_ReferenceIdeal := by
  intro m ρ m' ρ' hpre hagree
  refine ⟨fun c => Cert.KernelIdeal.Gen.W26 m ρ c (Proc.devRef .tc Cert.KernelIdeal.main_v197), Cert.KernelIdeal.Bridge.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25⟩ := hagree c
  rw [Cert.ReferenceIdeal.Read.val_main_v291_eq, h0, h1, h2, h3, h4, h5, h6, h7, h8, h9, h10, h11, h12, h13, h14, h15, h16, h17, h18, h19, h20, h21, h22, h23, h24, h25]
  exact (Cert.KernelIdeal.Bridge.kernel_value m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
